-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v22) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_v54) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x64x64 : Shape := ⟨3, ![1, 64, 64]⟩
abbrev S1x64x256 : Shape := ⟨3, ![1, 64, 256]⟩
abbrev S4096x4096 : Shape := ⟨2, ![4096, 4096]⟩
abbrev S_ : Shape := ⟨0, ![]⟩

class Facts : Prop where
  bcast_S_S1x64x64 : S_.BroadcastsInDim S1x64x64 (![] : Fin 0 → Fin S1x64x64.rank)
  reducesTo_S1x64x64_S_d0_1_2 : S1x64x64.ReducesTo [0, 1, 2] S_
  h_S_ : 0 < S_.numel
  bcast_S_S1x64x256 : S_.BroadcastsInDim S1x64x256 (![] : Fin 0 → Fin S1x64x256.rank)
  reducesTo_S1x64x256_S_d0_1_2 : S1x64x256.ReducesTo [0, 1, 2] S_
  bcast_S_S4096x4096 : S_.BroadcastsInDim S4096x4096 (![] : Fin 0 → Fin S4096x4096.rank)
  reducesTo_S4096x4096_S_d0_1 : S4096x4096.ReducesTo [0, 1] S_

variable [Facts]

def fn_part2 {F : FTy → Type} [FloatOps F] (main_arg7 : FVec F S4096x4096 .f32) (main_arg8 : FVec F S4096x4096 .f32) (main_arg9 : FVec F S4096x4096 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096x4096 .f32 := Host.absf main_arg8
  let main_cst_14 : FVec F S_ .f32 := constant S_ .f32 0x7F800000#32
  let main_v40 : FVec F S4096x4096 .f32 := broadcastInDim S4096x4096 ![] bcast_S_S4096x4096 main_cst_14
  let main_v41 : IVec S4096x4096 1 := cmpf .olt main_v39 main_v40
  let main_c_15 : IVec S_ 1 := constantI S_ 1 1#1
  let main_v42 : IVec S_ 1 := (fun x v => Host.reduce IntOp.andi x v reducesTo_S4096x4096_S_d0_1 h_S_) main_v41 main_c_15
  let main_v43 : IVec S_ 1 := andi main_v38 main_v42
  let main_v44 : FVec F S4096x4096 .f32 := Host.absf main_arg9
  let main_cst_16 : FVec F S_ .f32 := constant S_ .f32 0x7F800000#32
  let main_v45 : FVec F S4096x4096 .f32 := broadcastInDim S4096x4096 ![] bcast_S_S4096x4096 main_cst_16
  let main_v46 : IVec S4096x4096 1 := cmpf .olt main_v44 main_v45
  let main_c_17 : IVec S_ 1 := constantI S_ 1 1#1
  let main_v47 : IVec S_ 1 := (fun x v => Host.reduce IntOp.andi x v reducesTo_S4096x4096_S_d0_1 h_S_) main_v46 main_c_17
  let main_v48 : IVec S_ 1 := andi main_v43 main_v47
  main_v48

def fn_part1 {F : FTy → Type} [FloatOps F] (main_arg4 : FVec F S4096x4096 .f32) (main_arg5 : FVec F S4096x4096 .f32) (main_arg6 : FVec F S4096x4096 .f32) (main_arg7 : FVec F S4096x4096 .f32) (main_arg8 : FVec F S4096x4096 .f32) (main_arg9 : FVec F S4096x4096 .f32) (main_v13 : IVec S_ 1) (main_v16 : IVec S1x64x256 1) : IVec S_ 1 :=
  let main_c_5 : IVec S_ 1 := constantI S_ 1 1#1
  let main_v17 : IVec S_ 1 := (fun x v => Host.reduce IntOp.andi x v reducesTo_S1x64x256_S_d0_1_2 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096x4096 .f32 := Host.absf main_arg6
  let main_cst_10 : FVec F S_ .f32 := constant S_ .f32 0x7F800000#32
  let main_v30 : FVec F S4096x4096 .f32 := broadcastInDim S4096x4096 ![] bcast_S_S4096x4096 main_cst_10
  let main_v31 : IVec S4096x4096 1 := cmpf .olt main_v29 main_v30
  let main_c_11 : IVec S_ 1 := constantI S_ 1 1#1
  let main_v32 : IVec S_ 1 := (fun x v => Host.reduce IntOp.andi x v reducesTo_S4096x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S1x64x64 .f32) (main_arg1 : FVec F S1x64x64 .f32) (main_arg2 : FVec F S1x64x64 .f32) (main_arg3 : FVec F S1x64x256 .f32) (main_arg4 : FVec F S4096x4096 .f32) (main_arg5 : FVec F S4096x4096 .f32) (main_arg6 : FVec F S4096x4096 .f32) (main_arg7 : FVec F S4096x4096 .f32) (main_arg8 : FVec F S4096x4096 .f32) (main_arg9 : FVec F S4096x4096 .f32) : IVec S_ 1 :=
  let main_v0 : FVec F S1x64x64 .f32 := Host.absf main_arg0
  let main_cst : FVec F S_ .f32 := constant S_ .f32 0x7F800000#32
  let main_v1 : FVec F S1x64x64 .f32 := broadcastInDim S1x64x64 ![] bcast_S_S1x64x64 main_cst
  let main_v2 : IVec S1x64x64 1 := cmpf .olt main_v0 main_v1
  let main_c : IVec S_ 1 := constantI S_ 1 1#1
  let main_v3 : IVec S_ 1 := (fun x v => Host.reduce IntOp.andi x v reducesTo_S1x64x64_S_d0_1_2 h_S_) main_v2 main_c
  let main_v4 : FVec F S1x64x64 .f32 := Host.absf main_arg1
  let main_cst_0 : FVec F S_ .f32 := constant S_ .f32 0x7F800000#32
  let main_v5 : FVec F S1x64x64 .f32 := broadcastInDim S1x64x64 ![] bcast_S_S1x64x64 main_cst_0
  let main_v6 : IVec S1x64x64 1 := cmpf .olt main_v4 main_v5
  let main_c_1 : IVec S_ 1 := constantI S_ 1 1#1
  let main_v7 : IVec S_ 1 := (fun x v => Host.reduce IntOp.andi x v reducesTo_S1x64x64_S_d0_1_2 h_S_) main_v6 main_c_1
  let main_v8 : IVec S_ 1 := andi main_v3 main_v7
  let main_v9 : FVec F S1x64x64 .f32 := Host.absf main_arg2
  let main_cst_2 : FVec F S_ .f32 := constant S_ .f32 0x7F800000#32
  let main_v10 : FVec F S1x64x64 .f32 := broadcastInDim S1x64x64 ![] bcast_S_S1x64x64 main_cst_2
  let main_v11 : IVec S1x64x64 1 := cmpf .olt main_v9 main_v10
  let main_c_3 : IVec S_ 1 := constantI S_ 1 1#1
  let main_v12 : IVec S_ 1 := (fun x v => Host.reduce IntOp.andi x v reducesTo_S1x64x64_S_d0_1_2 h_S_) main_v11 main_c_3
  let main_v13 : IVec S_ 1 := andi main_v8 main_v12
  let main_v14 : FVec F S1x64x256 .f32 := Host.absf main_arg3
  let main_cst_4 : FVec F S_ .f32 := constant S_ .f32 0x7F800000#32
  let main_v15 : FVec F S1x64x256 .f32 := broadcastInDim S1x64x256 ![] bcast_S_S1x64x256 main_cst_4
  let main_v16 : IVec S1x64x256 1 := cmpf .olt main_v14 main_v15
  fn_part1 (F := F) main_arg4 main_arg5 main_arg6 main_arg7 main_arg8 main_arg9 main_v13 main_v16
-- ==== Kernel.lean ====
abbrev S1x64x64 : Shape := ⟨3, ![1, 64, 64]⟩
abbrev S1x64x256 : Shape := ⟨3, ![1, 64, 256]⟩
abbrev S4096x4096 : Shape := ⟨2, ![4096, 4096]⟩
abbrev S64x64 : Shape := ⟨2, ![64, 64]⟩
abbrev S64x256 : Shape := ⟨2, ![64, 256]⟩
abbrev S256x64 : Shape := ⟨2, ![256, 64]⟩
abbrev S64 : Shape := ⟨1, ![64]⟩
abbrev S64x1 : Shape := ⟨2, ![64, 1]⟩
abbrev S1x64 : Shape := ⟨2, ![1, 64]⟩
abbrev S4096 : Shape := ⟨1, ![4096]⟩
abbrev S1x4096 : Shape := ⟨2, ![1, 4096]⟩
abbrev S3x4096 : Shape := ⟨2, ![3, 4096]⟩
abbrev S3x512 : Shape := ⟨2, ![3, 512]⟩
abbrev S512x2048 : Shape := ⟨2, ![512, 2048]⟩
abbrev S3x2048 : Shape := ⟨2, ![3, 2048]⟩
abbrev S1x2048 : Shape := ⟨2, ![1, 2048]⟩
abbrev S1x512 : Shape := ⟨2, ![1, 512]⟩

abbrev nBuf : Space → Nat
  | .hbm => 35
  | .vmem => 31
  | .smem => 0
  | _ => 0

abbrev bufTy : (tb : Table) → Fin (tcTables nBuf tb) → BufTy
  | .hbm, ⟨0, _⟩ => ⟨S1x64x64, .f32⟩
  | .hbm, ⟨1, _⟩ => ⟨S1x64x64, .f32⟩
  | .hbm, ⟨2, _⟩ => ⟨S1x64x64, .f32⟩
  | .hbm, ⟨3, _⟩ => ⟨S1x64x256, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x256, .f32⟩
  | .hbm, ⟨14, _⟩ => ⟨S64x64, .f32⟩
  | .hbm, ⟨15, _⟩ => ⟨S64x64, .f32⟩
  | .hbm, ⟨16, _⟩ => ⟨S64x64, .f32⟩
  | .hbm, ⟨17, _⟩ => ⟨S4096, .f32⟩
  | .hbm, ⟨18, _⟩ => ⟨S4096, .f32⟩
  | .hbm, ⟨19, _⟩ => ⟨S4096, .f32⟩
  | .hbm, ⟨20, _⟩ => ⟨S1x4096, .f32⟩
  | .hbm, ⟨21, _⟩ => ⟨S1x4096, .f32⟩
  | .hbm, ⟨22, _⟩ => ⟨S1x4096, .f32⟩
  | .hbm, ⟨23, _⟩ => ⟨S3x4096, .f32⟩
  | .hbm, ⟨24, _⟩ => ⟨S3x4096, .f32⟩
  | .hbm, ⟨25, _⟩ => ⟨S3x4096, .f32⟩
  | .hbm, ⟨26, _⟩ => ⟨S1x4096, .f32⟩
  | .hbm, ⟨27, _⟩ => ⟨S4096, .f32⟩
  | .hbm, ⟨28, _⟩ => ⟨S64x64, .f32⟩
  | .hbm, ⟨29, _⟩ => ⟨S1x4096, .f32⟩
  | .hbm, ⟨30, _⟩ => ⟨S4096, .f32⟩
  | .hbm, ⟨31, _⟩ => ⟨S64x64, .f32⟩
  | .hbm, ⟨32, _⟩ => ⟨S1x4096, .f32⟩
  | .hbm, ⟨33, _⟩ => ⟨S4096, .f32⟩
  | .hbm, ⟨34, _⟩ => ⟨S64x64, .f32⟩
  | .local _ .vmem, ⟨0, _⟩ => ⟨S64x256, .f32⟩
  | .local _ .vmem, ⟨1, _⟩ => ⟨S64x64, .f32⟩
  | .local _ .vmem, ⟨2, _⟩ => ⟨S64x64, .f32⟩
  | .local _ .vmem, ⟨3, _⟩ => ⟨S64x64, .f32⟩
  | .local _ .vmem, ⟨4, _⟩ => ⟨S64x64, .f32⟩
  | .local _ .vmem, ⟨5, _⟩ => ⟨S64x64, .f32⟩
  | .local _ .vmem, ⟨6, _⟩ => ⟨S64x64, .f32⟩
  | .local _ .vmem, ⟨7, _⟩ => ⟨S3x512, .f32⟩
  | .local _ .vmem, ⟨8, _⟩ => ⟨S3x512, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .vmem, ⟨15, _⟩ => ⟨S3x2048, .f32⟩
  | .local _ .vmem, ⟨16, _⟩ => ⟨S3x2048, .f32⟩
  | .local _ .vmem, ⟨17, _⟩ => ⟨S1x2048, .f32⟩
  | .local _ .vmem, ⟨18, _⟩ => ⟨S3x2048, .f32⟩
  | .local _ .vmem, ⟨19, _⟩ => ⟨S3x512, .f32⟩
  | .local _ .vmem, ⟨20, _⟩ => ⟨S3x512, .f32⟩
  | .local _ .vmem, ⟨21, _⟩ => ⟨S512x2048, .f32⟩
  | .local _ .vmem, ⟨22, _⟩ => ⟨S512x2048, .f32⟩
  | .local _ .vmem, ⟨23, _⟩ => ⟨S512x2048, .f32⟩
  | .local _ .vmem, ⟨24, _⟩ => ⟨S512x2048, .f32⟩
  | .local _ .vmem, ⟨25, _⟩ => ⟨S512x2048, .f32⟩
  | .local _ .vmem, ⟨26, _⟩ => ⟨S512x2048, .f32⟩
  | .local _ .vmem, ⟨27, _⟩ => ⟨S3x2048, .f32⟩
  | .local _ .vmem, ⟨28, _⟩ => ⟨S3x2048, .f32⟩
  | .local _ .vmem, ⟨29, _⟩ => ⟨S1x2048, .f32⟩
  | .local _ .vmem, ⟨30, _⟩ => ⟨S3x2048, .f32⟩
  | _, _ => ⟨S1x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc1_scratch1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc2_scratch0 : Ref sig .tc := ⟨.vmem, 29, rfl⟩
abbrev cc2_scratch1 : Ref sig .tc := ⟨.vmem, 30, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨3, ![2, 3, 8], ![false, false, false]⟩

def k1_cond4 (i : grid1.Coords) : BitVec 1 :=
  let arg1 : BitVec 32 := BitVec.ofNat 32 (i 1).val
  let c2_i32 : BitVec 32 := 2#32
  let v38 : BitVec 1 := Scalar.cmpi .eq arg1 c2_i32
  let arg2 : BitVec 32 := BitVec.ofNat 32 (i 2).val
  let c7_i32_21 : BitVec 32 := 7#32
  let v39 : BitVec 1 := Scalar.cmpi .eq arg2 c7_i32_21
  let v40 : BitVec 1 := Scalar.andi v38 v39
  let v41 : BitVec 32 := Scalar.extui v40
  let c0_i32_22 : BitVec 32 := 0#32
  let v42 : BitVec 1 := Scalar.cmpi .ne v41 c0_i32_22
  v42

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 32 := Scalar.select v0 arg2 c0_i32_0
  let c0_i32_1 : BitVec 32 := 0#32
  let v2 : BitVec 32 := Scalar.select v0 arg0 c0_i32_1
  let c0_i32_2 : BitVec 32 := 0#32
  ![v1.toNat, v2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg1 c1_i32
  let c0_i32 : BitVec 32 := 0#32
  let v1 : BitVec 32 := Scalar.select v0 arg2 c0_i32
  let c0_i32_0 : BitVec 32 := 0#32
  let v2 : BitVec 32 := Scalar.select v0 arg0 c0_i32_0
  let c0_i32_1 : BitVec 32 := 0#32
  ![v1.toNat, v2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .eq arg1 c2_i32
  let c0_i32 : BitVec 32 := 0#32
  let v1 : BitVec 32 := Scalar.select v0 arg2 c0_i32
  let c0_i32_0 : BitVec 32 := 0#32
  let v2 : BitVec 32 := Scalar.select v0 arg0 c0_i32_0
  let c0_i32_1 : BitVec 32 := 0#32
  ![v1.toNat, v2.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage1_0 : Fin 2 → Memref sig .tc .vmem S3x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, false, true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S512x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S512x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S3x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

abbrev grid2 : Pipeline.Grid := ⟨3, ![2, 3, 8], ![false, false, false]⟩

def k2_cond4 (i : grid2.Coords) : BitVec 1 :=
  let arg1 : BitVec 32 := BitVec.ofNat 32 (i 1).val
  let c2_i32 : BitVec 32 := 2#32
  let v38 : BitVec 1 := Scalar.cmpi .eq arg1 c2_i32
  let arg2 : BitVec 32 := BitVec.ofNat 32 (i 2).val
  let c7_i32_21 : BitVec 32 := 7#32
  let v39 : BitVec 1 := Scalar.cmpi .eq arg2 c7_i32_21
  let v40 : BitVec 1 := Scalar.andi v38 v39
  let v41 : BitVec 32 := Scalar.extui v40
  let c0_i32_22 : BitVec 32 := 0#32
  let v42 : BitVec 1 := Scalar.cmpi .ne v41 c0_i32_22
  v42

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 32 := Scalar.select v0 arg2 c0_i32_0
  let c0_i32_1 : BitVec 32 := 0#32
  let v2 : BitVec 32 := Scalar.select v0 arg0 c0_i32_1
  let c0_i32_2 : BitVec 32 := 0#32
  ![v1.toNat, v2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg1 c1_i32
  let c0_i32 : BitVec 32 := 0#32
  let v1 : BitVec 32 := Scalar.select v0 arg2 c0_i32
  let c0_i32_0 : BitVec 32 := 0#32
  let v2 : BitVec 32 := Scalar.select v0 arg0 c0_i32_0
  let c0_i32_1 : BitVec 32 := 0#32
  ![v1.toNat, v2.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 1 := Scalar.cmpi .eq arg1 c2_i32
  let c0_i32 : BitVec 32 := 0#32
  let v1 : BitVec 32 := Scalar.select v0 arg2 c0_i32
  let c0_i32_0 : BitVec 32 := 0#32
  let v2 : BitVec 32 := Scalar.select v0 arg0 c0_i32_0
  let c0_i32_1 : BitVec 32 := 0#32
  ![v1.toNat, v2.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage2_0 : Fin 2 → Memref sig .tc .vmem S3x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, false, true]

abbrev stage2_1 : Fin 2 → Memref sig .tc .vmem S512x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, true]

abbrev stage2_2 : Fin 2 → Memref sig .tc .vmem S512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, true]

abbrev stage2_3 : Fin 2 → Memref sig .tc .vmem S512x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

abbrev stage2_4 : Fin 2 → Memref sig .tc .vmem S3x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false, false]

class Facts₀ : Prop where
  shapeCasts_S1x64x64_S64x64 : S1x64x64.ShapeCasts S64x64
  shapeCasts_S1x64x256_S64x256 : S1x64x256.ShapeCasts S64x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  transposes_S64x256_p1_0_S256x64 : S64x256.Transposes [1, 0] S256x64
  reduces_S64x256_S64 : S64x256.Reduces [1] S64
  shapeCasts_S64_S64x1 : S64.ShapeCasts S64x1
  transposes_S64x1_p1_0_S1x64 : S64x1.Transposes [1, 0] S1x64
  broadcasts_S64x1_S64x64 : S64x1.Broadcasts S64x64
  broadcasts_S1x64_S64x64 : S1x64.Broadcasts S64x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  shapeCasts_S64x64_S4096 : S64x64.ShapeCasts S4096
  bcast_S4096_S1x4096_1 : S4096.BroadcastsInDim S1x4096 (![1] : Fin 1 → Fin S1x4096.rank)
  concatenates_S1x4096_S1x4096_S1x4096_S3x4096_d0 : Shape.Concatenates [S1x4096, S1x4096, S1x4096] S3x4096 0
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S3x2048_S3x2048_0_0 : ∀ a, (![0, 0] : Fin 2 → Nat) a + S3x2048.size a ≤ S3x2048.size a
  h_S3x2048 : 0 < S3x2048.numel
  shapeCasts_S3x2048_S3x2048 : S3x2048.ShapeCasts S3x2048
  inb_S3x512_S1x512_0_0 : ∀ a, (![0, 0] : Fin 2 → Nat) a + S1x512.size a ≤ S3x512.size a
  h_S1x512 : 0 < S1x512.numel
  shapeCasts_S1x512_S1x512 : S1x512.ShapeCasts S1x512
  bitsLt_bf16_f32 : FTy.bits .bf16 < FTy.bits .f32
  inb_S3x512_S1x512_1_0 : ∀ a, (![1, 0] : Fin 2 → Nat) a + S1x512.size a ≤ S3x512.size a
  inb_S3x512_S1x512_2_0 : ∀ a, (![2, 0] : Fin 2 → Nat) a + S1x512.size a ≤ S3x512.size a
  inb_S512x2048_S512x2048_0_0 : ∀ a, (![0, 0] : Fin 2 → Nat) a + S512x2048.size a ≤ S512x2048.size a
  h_S512x2048 : 0 < S512x2048.numel
  broadcasts_S1x2048_S3x2048 : S1x2048.Broadcasts S3x2048
  iota_S3x2048_d0_w32 : S3x2048.Iotas .tc 32 [0]
  slices_S3x4096_S1x4096_0_0 : S3x4096.Slices ![0, 0] S1x4096
  shapeCasts_S1x4096_S4096 : S1x4096.ShapeCasts S4096
  shapeCasts_S4096_S64x64 : S4096.ShapeCasts S64x64
  slices_S3x4096_S1x4096_1_0 : S3x4096.Slices ![1, 0] S1x4096
  slices_S3x4096_S1x4096_2_0 : S3x4096.Slices ![2, 0] S1x4096
  dot_S64x256_S256x64_S64x64_1_0_0_1_n_n_wf : DotDims.WF S64x256 S256x64 S64x64 [1] [0] [0] [1] [] []
  dot_S1x512_S512x2048_S1x2048_1_0_0_1_n_n_wf : DotDims.WF S1x512 S512x2048 S1x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x256.size a ≤ S64x256.size a
  hwx0_0 : ∀ i : grid0.Coords, EltTy.bits .f32 = 32 ∨ (Rect.block (s := S64x256) S64x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3x512.size a ≤ S3x4096.size a
  hwx1_0 : ∀ i : grid1.Coords, EltTy.bits .f32 = 32 ∨ (Rect.block (s := S3x4096) S3x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S4096x4096.size a
  hwx1_1 : ∀ i : grid1.Coords, EltTy.bits .f32 = 32 ∨ (Rect.block (s := S4096x4096) S512x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x2048.size a ≤ S4096x4096.size a
  hwx1_2 : ∀ i : grid1.Coords, EltTy.bits .f32 = 32 ∨ (Rect.block (s := S4096x4096) S512x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S4096x4096.size a
  hwx1_3 : ∀ i : grid1.Coords, EltTy.bits .f32 = 32 ∨ (Rect.block (s := S4096x4096) S512x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S3x2048.size a ≤ S3x4096.size a
  hwx1_4 : ∀ i : grid1.Coords, EltTy.bits .f32 = 32 ∨ (Rect.block (s := S3x4096) S3x2048.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3x512.size a ≤ S3x4096.size a
  hwx2_0 : ∀ i : grid2.Coords, EltTy.bits .f32 = 32 ∨ (Rect.block (s := S3x4096) S3x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x2048.size a ≤ S4096x4096.size a
  hwx2_1 : ∀ i : grid2.Coords, EltTy.bits .f32 = 32 ∨ (Rect.block (s := S4096x4096) S512x2048.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x2048.size a ≤ S4096x4096.size a
  hwx2_2 : ∀ i : grid2.Coords, EltTy.bits .f32 = 32 ∨ (Rect.block (s := S4096x4096) S512x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x2048.size a ≤ S4096x4096.size a
  hwx2_3 : ∀ i : grid2.Coords, EltTy.bits .f32 = 32 ∨ (Rect.block (s := S4096x4096) S512x2048.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S3x2048.size a ≤ S3x4096.size a
  hwx2_4 : ∀ i : grid2.Coords, EltTy.bits .f32 = 32 ∨ (Rect.block (s := S3x4096) S3x2048.size (cc2_transform_4 i) (hinb2_4 i)).WholeWords (EltTy.packing .f32)

variable [Facts₀]

def dot_S64x256_S256x64_S64x64_1_0_0_1_n_n : DotDims S64x256 S256x64 S64x64 where
  lhsContracting := [1]
  rhsContracting := [0]
  lhsNonContracting := [0]
  rhsNonContracting := [1]
  lhsBatch := []
  rhsBatch := []
  wf := dot_S64x256_S256x64_S64x64_1_0_0_1_n_n_wf
def dot_S1x512_S512x2048_S1x2048_1_0_0_1_n_n : DotDims S1x512 S512x2048 S1x2048 where
  lhsContracting := [1]
  rhsContracting := [0]
  lhsNonContracting := [0]
  rhsNonContracting := [1]
  lhsBatch := []
  rhsBatch := []
  wf := dot_S1x512_S512x2048_S1x2048_1_0_0_1_n_n_wf

abbrev win0_0 : Pipeline.Window sig grid0 :=
  Pipeline.Window.ofSpec (Memref.whole main_v3) S64x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S64x64.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S64x64.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S64x64.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v11) S3x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S512x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S512x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v12) S3x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond4 i == 1#1) | ⟨_ + 5, h⟩ => absurd h (Nat.not_lt.2 (Nat.le_add_left _ _))

abbrev win2_0 : Pipeline.Window sig grid2 :=
  Pipeline.Window.ofSpec (Memref.whole main_v12) S3x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S512x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S512x2048.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S512x2048.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v13) S3x2048.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond4 i == 1#1) | ⟨_ + 5, h⟩ => absurd h (Nat.not_lt.2 (Nat.le_add_left _ _))

class Facts : Prop extends Facts₀ where

variable [Facts]
-- ==== ReferenceIdeal.lean ====
abbrev S1x64x64 : Shape := ⟨3, ![1, 64, 64]⟩
abbrev S1x64x256 : Shape := ⟨3, ![1, 64, 256]⟩
abbrev S4096x4096 : Shape := ⟨2, ![4096, 4096]⟩
abbrev S64x64 : Shape := ⟨2, ![64, 64]⟩
abbrev S64x256 : Shape := ⟨2, ![64, 256]⟩
abbrev S64x1x256 : Shape := ⟨3, ![64, 1, 256]⟩
abbrev S64x64x256 : Shape := ⟨3, ![64, 64, 256]⟩
abbrev S_ : Shape := ⟨0, ![]⟩
abbrev S1x4096 : Shape := ⟨2, ![1, 4096]⟩

abbrev nBuf : Space → Nat
  | .hbm => 92
  | .vmem => 0
  | .smem => 0
  | _ => 0

abbrev bufTy : (tb : Table) → Fin (tcTables nBuf tb) → BufTy
  | .hbm, ⟨0, _⟩ => ⟨S1x64x64, .f32⟩
  | .hbm, ⟨1, _⟩ => ⟨S1x64x64, .f32⟩
  | .hbm, ⟨2, _⟩ => ⟨S1x64x64, .f32⟩
  | .hbm, ⟨3, _⟩ => ⟨S1x64x256, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x256, .f32⟩
  | .hbm, ⟨14, _⟩ => ⟨S64x1x256, .f32⟩
  | .hbm, ⟨15, _⟩ => ⟨S1x64x256, .f32⟩
  | .hbm, ⟨16, _⟩ => ⟨S64x64x256, .f32⟩
  | .hbm, ⟨17, _⟩ => ⟨S64x64x256, .f32⟩
  | .hbm, ⟨18, _⟩ => ⟨S64x64x256, .f32⟩
  | .hbm, ⟨19, _⟩ => ⟨S64x64x256, .f32⟩
  | .hbm, ⟨20, _⟩ => ⟨S_, .f32⟩
  | .hbm, ⟨21, _⟩ => ⟨S64x64, .f32⟩
  | .hbm, ⟨22, _⟩ => ⟨S64x64, .f32⟩
  | .hbm, ⟨23, _⟩ => ⟨S_, .f32⟩
  | .hbm, ⟨24, _⟩ => ⟨S64x64, .f32⟩
  | .hbm, ⟨25, _⟩ => ⟨S64x64, .i1⟩
  | .hbm, ⟨26, _⟩ => ⟨S_, .f32⟩
  | .hbm, ⟨27, _⟩ => ⟨S_, .f32⟩
  | .hbm, ⟨28, _⟩ => ⟨S64x64, .f32⟩
  | .hbm, ⟨29, _⟩ => ⟨S64x64, .f32⟩
  | .hbm, ⟨30, _⟩ => ⟨S1x4096, .f32⟩
  | .hbm, ⟨31, _⟩ => ⟨S1x4096, .f32⟩
  | .hbm, ⟨32, _⟩ => ⟨S_, .f32⟩
  | .hbm, ⟨33, _⟩ => ⟨S1x4096, .f32⟩
  | .hbm, ⟨34, _⟩ => ⟨S1x4096, .f32⟩
  | .hbm, ⟨35, _⟩ => ⟨S1x4096, .f32⟩
  | .hbm, ⟨36, _⟩ => ⟨S_, .f32⟩
  | .hbm, ⟨37, _⟩ => ⟨S1x4096, .f32⟩
  | .hbm, ⟨38, _⟩ => ⟨S1x4096, .f32⟩
  | .hbm, ⟨39, _⟩ => ⟨S64x64, .f32⟩
  | .hbm, ⟨40, _⟩ => ⟨S64x1x256, .f32⟩
  | .hbm, ⟨41, _⟩ => ⟨S1x64x256, .f32⟩
  | .hbm, ⟨42, _⟩ => ⟨S64x64x256, .f32⟩
  | .hbm, ⟨43, _⟩ => ⟨S64x64x256, .f32⟩
  | .hbm, ⟨44, _⟩ => ⟨S64x64x256, .f32⟩
  | .hbm, ⟨45, _⟩ => ⟨S64x64x256, .f32⟩
  | .hbm, ⟨46, _⟩ => ⟨S_, .f32⟩
  | .hbm, ⟨47, _⟩ => ⟨S64x64, .f32⟩
  | .hbm, ⟨48, _⟩ => ⟨S64x64, .f32⟩
  | .hbm, ⟨49, _⟩ => ⟨S_, .f32⟩
  | .hbm, ⟨50, _⟩ => ⟨S64x64, .f32⟩
  | .hbm, ⟨51, _⟩ => ⟨S64x64, .i1⟩
  | .hbm, ⟨52, _⟩ => ⟨S_, .f32⟩
  | .hbm, ⟨53, _⟩ => ⟨S_, .f32⟩
  | .hbm, ⟨54, _⟩ => ⟨S64x64, .f32⟩
  | .hbm, ⟨55, _⟩ => ⟨S64x64, .f32⟩
  | .hbm, ⟨56, _⟩ => ⟨S1x4096, .f32⟩
  | .hbm, ⟨57, _⟩ => ⟨S1x4096, .f32⟩
  | .hbm, ⟨58, _⟩ => ⟨S_, .f32⟩
  | .hbm, ⟨59, _⟩ => ⟨S1x4096, .f32⟩
  | .hbm, ⟨60, _⟩ => ⟨S1x4096, .f32⟩
  | .hbm, ⟨61, _⟩ => ⟨S1x4096, .f32⟩
  | .hbm, ⟨62, _⟩ => ⟨S_, .f32⟩
  | .hbm, ⟨63, _⟩ => ⟨S1x4096, .f32⟩
  | .hbm, ⟨64, _⟩ => ⟨S1x4096, .f32⟩
  | .hbm, ⟨65, _⟩ => ⟨S64x64, .f32⟩
  | .hbm, ⟨66, _⟩ => ⟨S64x1x256, .f32⟩
  | .hbm, ⟨67, _⟩ => ⟨S1x64x256, .f32⟩
  | .hbm, ⟨68, _⟩ => ⟨S64x64x256, .f32⟩
  | .hbm, ⟨69, _⟩ => ⟨S64x64x256, .f32⟩
  | .hbm, ⟨70, _⟩ => ⟨S64x64x256, .f32⟩
  | .hbm, ⟨71, _⟩ => ⟨S64x64x256, .f32⟩
  | .hbm, ⟨72, _⟩ => ⟨S_, .f32⟩
  | .hbm, ⟨73, _⟩ => ⟨S64x64, .f32⟩
  | .hbm, ⟨74, _⟩ => ⟨S64x64, .f32⟩
  | .hbm, ⟨75, _⟩ => ⟨S_, .f32⟩
  | .hbm, ⟨76, _⟩ => ⟨S64x64, .f32⟩
  | .hbm, ⟨77, _⟩ => ⟨S64x64, .i1⟩
  | .hbm, ⟨78, _⟩ => ⟨S_, .f32⟩
  | .hbm, ⟨79, _⟩ => ⟨S_, .f32⟩
  | .hbm, ⟨80, _⟩ => ⟨S64x64, .f32⟩
  | .hbm, ⟨81, _⟩ => ⟨S64x64, .f32⟩
  | .hbm, ⟨82, _⟩ => ⟨S1x4096, .f32⟩
  | .hbm, ⟨83, _⟩ => ⟨S1x4096, .f32⟩
  | .hbm, ⟨84, _⟩ => ⟨S_, .f32⟩
  | .hbm, ⟨85, _⟩ => ⟨S1x4096, .f32⟩
  | .hbm, ⟨86, _⟩ => ⟨S1x4096, .f32⟩
  | .hbm, ⟨87, _⟩ => ⟨S1x4096, .f32⟩
  | .hbm, ⟨88, _⟩ => ⟨S_, .f32⟩
  | .hbm, ⟨89, _⟩ => ⟨S1x4096, .f32⟩
  | .hbm, ⟨90, _⟩ => ⟨S1x4096, .f32⟩
  | .hbm, ⟨91, _⟩ => ⟨S64x64, .f32⟩
  | _, _ => ⟨S1x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call1_cst : Ref sig .tc := ⟨.hbm, 32, rfl⟩
abbrev main_call1_v0 : Ref sig .tc := ⟨.hbm, 33, rfl⟩
abbrev main_v17 : Ref sig .tc := ⟨.hbm, 34, rfl⟩
abbrev main_v18 : Ref sig .tc := ⟨.hbm, 35, rfl⟩
abbrev main_call2_cst : Ref sig .tc := ⟨.hbm, 36, rfl⟩
abbrev main_call2_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_2 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_call3_v0 : Ref sig .tc := ⟨.hbm, 53, rfl⟩
abbrev main_call3_v1 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_call4_cst : Ref sig .tc := ⟨.hbm, 58, rfl⟩
abbrev main_call4_v0 : Ref sig .tc := ⟨.hbm, 59, rfl⟩
abbrev main_v34 : Ref sig .tc := ⟨.hbm, 60, rfl⟩
abbrev main_v35 : Ref sig .tc := ⟨.hbm, 61, rfl⟩
abbrev main_call5_cst : Ref sig .tc := ⟨.hbm, 62, rfl⟩
abbrev main_call5_v0 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_5 : Ref sig .tc := ⟨.hbm, 72, rfl⟩
abbrev main_v44 : Ref sig .tc := ⟨.hbm, 73, rfl⟩
abbrev main_v45 : Ref sig .tc := ⟨.hbm, 74, rfl⟩
abbrev main_cst_6 : Ref sig .tc := ⟨.hbm, 75, rfl⟩
abbrev main_v46 : Ref sig .tc := ⟨.hbm, 76, rfl⟩
abbrev main_v47 : Ref sig .tc := ⟨.hbm, 77, rfl⟩
abbrev main_cst_7 : Ref sig .tc := ⟨.hbm, 78, rfl⟩
abbrev main_call6_v0 : Ref sig .tc := ⟨.hbm, 79, rfl⟩
abbrev main_call6_v1 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_call7_cst : Ref sig .tc := ⟨.hbm, 84, rfl⟩
abbrev main_call7_v0 : Ref sig .tc := ⟨.hbm, 85, rfl⟩
abbrev main_v51 : Ref sig .tc := ⟨.hbm, 86, rfl⟩
abbrev main_v52 : Ref sig .tc := ⟨.hbm, 87, rfl⟩
abbrev main_call8_cst : Ref sig .tc := ⟨.hbm, 88, rfl⟩
abbrev main_call8_v0 : Ref sig .tc := ⟨.hbm, 89, rfl⟩
abbrev main_v53 : Ref sig .tc := ⟨.hbm, 90, rfl⟩
abbrev main_v54 : Ref sig .tc := ⟨.hbm, 91, rfl⟩

abbrev nD : Nat := 1
abbrev τ : Topo := Topo.v7x

variable {F : FTy → Type} [FloatOps F]

class Facts₀ : Prop where
  shapeCasts_S1x64x64_S64x64 : S1x64x64.ShapeCasts S64x64
  shapeCasts_S1x64x256_S64x256 : S1x64x256.ShapeCasts S64x256
  bcast_S64x256_S64x1x256_0_2 : S64x256.BroadcastsInDim S64x1x256 (![0, 2] : Fin 2 → Fin S64x1x256.rank)
  bcast_S64x256_S1x64x256_1_2 : S64x256.BroadcastsInDim S1x64x256 (![1, 2] : Fin 2 → Fin S1x64x256.rank)
  bcast_S64x1x256_S64x64x256_0_1_2 : S64x1x256.BroadcastsInDim S64x64x256 (![0, 1, 2] : Fin 3 → Fin S64x64x256.rank)
  bcast_S1x64x256_S64x64x256_0_1_2 : S1x64x256.BroadcastsInDim S64x64x256 (![0, 1, 2] : Fin 3 → Fin S64x64x256.rank)
  reducesTo_S64x64x256_S64x64_d2 : S64x64x256.ReducesTo [2] S64x64
  h_S_ : 0 < S_.numel
  bcast_S_S64x64 : S_.BroadcastsInDim S64x64 (![] : Fin 0 → Fin S64x64.rank)
  shapeCasts_S64x64_S1x4096 : S64x64.ShapeCasts S1x4096
  bcast_S_S1x4096 : S_.BroadcastsInDim S1x4096 (![] : Fin 0 → Fin S1x4096.rank)
  shapeCasts_S1x4096_S64x64 : S1x4096.ShapeCasts S64x64
  dot_S1x4096_S4096x4096_S1x4096_1_0_0_1_n_n_wf : DotDims.WF S1x4096 S4096x4096 S1x4096 [1] [0] [0] [1] [] []

variable [Facts₀]

def dot_S1x4096_S4096x4096_S1x4096_1_0_0_1_n_n : DotDims S1x4096 S4096x4096 S1x4096 where
  lhsContracting := [1]
  rhsContracting := [0]
  lhsNonContracting := [0]
  rhsNonContracting := [1]
  lhsBatch := []
  rhsBatch := []
  wf := dot_S1x4096_S4096x4096_S1x4096_1_0_0_1_n_n_wf

class Facts : Prop extends Facts₀ where

variable [Facts]
-- ==== Proof.KRegion0.lean ====
import proofs.«110218_j20177756357157_2_alg».proof.Proof.Gen.Kernel.Launch
import proofs.«110218_j20177756357157_2_alg».proof.Proof.Gen.Kernel.Skeleton
import proofs.«110218_j20177756357157_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# The distance kernel's region: one grid point over seven whole-array windows

The first call of the program has a grid of one point. Its four input windows (the node vectors
and the three adjacency matrices) and its three output windows each cover their whole array, so the
single fetch stages every input whole and the single write-back overwrites every output whole.
This file states what the body leaves in each output's staging buffer as a function of the input
blocks, proves the body's triple, packages the pipeline's proof data, and reads the three output
arrays after the run as closed terms over the input arrays.
-/

set_option maxRecDepth 16384

noncomputable section

namespace Cert.Kernel.R0

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-array rectangles the body loads and stores through. -/
abbrev rA : Rect S64x256 := Rect.unit (s := S64x256) ![0, 0] S64x256.size inb_S64x256_S64x256_0_0
abbrev rB : Rect S64x64 := Rect.unit (s := S64x64) ![0, 0] S64x64.size inb_S64x64_S64x64_0_0

/-- What the body leaves in the first output's buffer: its one whole store. -/
def out0_4 (x0 : Vec F S64x256 .f32) (x1 : Vec F S64x64 .f32) : Vec F S64x64 .f32 :=
  View.canon [⟨rB, k0_pay3 (View.ld x0 rA) (View.ld x1 rB)⟩]
/-- What the body leaves in the second output's buffer. -/
def out0_5 (x0 : Vec F S64x256 .f32) (x2 : Vec F S64x64 .f32) : Vec F S64x64 .f32 :=
  View.canon [⟨rB, k0_pay4 (View.ld x0 rA) (View.ld x2 rB)⟩]
/-- What the body leaves in the third output's buffer. -/
def out0_6 (x0 : Vec F S64x256 .f32) (x3 : Vec F S64x64 .f32) : Vec F S64x64 .f32 :=
  View.canon [⟨rB, k0_pay1 (k0_pay2 (View.ld x0 rA)) (k0_pay5 (View.ld x3 rB)) (Scalar.ofBits .f32 0x00000000#32)⟩]

/-- One whole store covers the buffer. -/
theorem coverB (p0 : Vec F S64x64 .f32) (y : S64x64.Idx) :
    ∃ pc ∈ ([⟨rB, p0⟩] : List (View.Piece (Elt F) S64x64 .f32)), y ∈ pc.1.set :=
  View.cover_of_tiled [⟨rB, p0⟩] S64x64.size (by rfl) y

set_option maxHeartbeats 4000000 in
theorem sound_kernel0 (c : Dev nD) (E : Set ℕ) (i : grid0.Coords)
    (arg1 : Memref sig .tc .vmem S64x256 .f32) (harg1 : arg1.IsWhole)
    (arg2 : Memref sig .tc .vmem S64x64 .f32) (harg2 : arg2.IsWhole)
    (arg3 : Memref sig .tc .vmem S64x64 .f32) (harg3 : arg3.IsWhole)
    (arg4 : Memref sig .tc .vmem S64x64 .f32) (harg4 : arg4.IsWhole)
    (arg5 : Memref sig .tc .vmem S64x64 .f32) (harg5 : arg5.IsWhole)
    (arg6 : Memref sig .tc .vmem S64x64 .f32) (harg6 : arg6.IsWhole)
    (arg7 : Memref sig .tc .vmem S64x64 .f32) (harg7 : arg7.IsWhole)
    (x0 : Vec F S64x256 .f32) (x1 x2 x3 : Vec F S64x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1)
            ∗ owns (c : Thread nD τ) arg6 fullShare (out0_5 x0 x2)
            ∗ owns (c : Thread nD τ) arg7 fullShare (out0_6 x0 x3)) -∗ K ⟨⟩))
      ⊢ wp frame (wpE (defs₀ (F := F)) Variants.none c none) E
          (cc0__dist_kernel i arg1 harg1 arg2 harg2 arg3 harg3 arg4 harg4 arg5 harg5 arg6 harg6 arg7 harg7) K := by
  simp only [cc0__dist_kernel_eq_skeleton]; unfold cc0__dist_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverB _)
  isplitl [H5]
  · iexists _; isplitr
    swap; · iexact H5
    ipureintro
    exact View.read_writes_eq_canon _ _ _ (coverB _)
  iexists _; isplitr
  swap; · iexact H6
  ipureintro
  exact View.read_writes_eq_canon _ _ _ (coverB _)

/-! ## Each input's staging buffer holds its block -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of the region on core c: the arrays as the region finds them; after the body
    each input's buffer at its block and each output's at its one whole store over the input blocks;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

/-! ## The arrays after the run

The grid has one point and every window's block is its whole array: the block index is zero on
both axes, so reading an array through its block gives the array back, and the one write-back
overwrites every index. -/

/-- Every window's block index is zero on both axes at every point. -/
theorem idx0 : ∀ t : Fin cfg0.N, (∀ a, win0_0.index t a = 0) ∧ (∀ a, win0_1.index t a = 0) ∧ (∀ a, win0_2.index t a = 0)
    ∧ (∀ a, win0_3.index t a = 0) ∧ (∀ a, win0_4.index t a = 0) ∧ (∀ a, win0_5.index t a = 0) ∧ (∀ a, win0_6.index t a = 0) :=
  (by decide +kernel : ∀ t : Fin grid0.N, _)

theorem hz : (![0, 0] : Fin 2 → Nat) = fun _ => 0 := funext fun a => by fin_cases a <;> rfl

/-- An array read through a window's block is the array. -/
theorem read_blk0_0 (t : Fin cfg0.N) (X : S64x256.Idx → Elt F .f32) : ((cfg0.win 0).blk t).view.read (Elt F) X = X := by
  funext j
  show X (((cfg0.win 0).blk t).view.emb j) = X j
  congr 1
  funext a; apply Fin.ext
  obtain ⟨h, -⟩ := idx0 t
  match a with
  | ⟨0, _⟩ => show win0_0.index t (0 : Fin 2) * 64 + 1 * (j 0).val = (j 0).val; rw [h 0]; omega
  | ⟨1, _⟩ => show win0_0.index t (1 : Fin 2) * 256 + 1 * (j 1).val = (j 1).val; rw [h 1]; omega
theorem read_blk0_1 (t : Fin cfg0.N) (X : S64x64.Idx → Elt F .f32) : ((cfg0.win 1).blk t).view.read (Elt F) X = X := by
  funext j
  show X (((cfg0.win 1).blk t).view.emb j) = X j
  congr 1
  funext a; apply Fin.ext
  obtain ⟨-, h, -⟩ := idx0 t
  match a with
  | ⟨0, _⟩ => show win0_1.index t (0 : Fin 2) * 64 + 1 * (j 0).val = (j 0).val; rw [h 0]; omega
  | ⟨1, _⟩ => show win0_1.index t (1 : Fin 2) * 64 + 1 * (j 1).val = (j 1).val; rw [h 1]; omega
theorem read_blk0_2 (t : Fin cfg0.N) (X : S64x64.Idx → Elt F .f32) : ((cfg0.win 2).blk t).view.read (Elt F) X = X := by
  funext j
  show X (((cfg0.win 2).blk t).view.emb j) = X j
  congr 1
  funext a; apply Fin.ext
  obtain ⟨-, -, h, -⟩ := idx0 t
  match a with
  | ⟨0, _⟩ => show win0_2.index t (0 : Fin 2) * 64 + 1 * (j 0).val = (j 0).val; rw [h 0]; omega
  | ⟨1, _⟩ => show win0_2.index t (1 : Fin 2) * 64 + 1 * (j 1).val = (j 1).val; rw [h 1]; omega
theorem read_blk0_3 (t : Fin cfg0.N) (X : S64x64.Idx → Elt F .f32) : ((cfg0.win 3).blk t).view.read (Elt F) X = X := by
  funext j
  show X (((cfg0.win 3).blk t).view.emb j) = X j
  congr 1
  funext a; apply Fin.ext
  obtain ⟨-, -, -, h, -⟩ := idx0 t
  match a with
  | ⟨0, _⟩ => show win0_3.index t (0 : Fin 2) * 64 + 1 * (j 0).val = (j 0).val; rw [h 0]; omega
  | ⟨1, _⟩ => show win0_3.index t (1 : Fin 2) * 64 + 1 * (j 1).val = (j 1).val; rw [h 1]; omega
theorem read_blk0_4 (t : Fin cfg0.N) (X : S64x64.Idx → Elt F .f32) : ((cfg0.win 4).blk t).view.read (Elt F) X = X := by
  funext j
  show X (((cfg0.win 4).blk t).view.emb j) = X j
  congr 1
  funext a; apply Fin.ext
  obtain ⟨-, -, -, -, h, -⟩ := idx0 t
  match a with
  | ⟨0, _⟩ => show win0_4.index t (0 : Fin 2) * 64 + 1 * (j 0).val = (j 0).val; rw [h 0]; omega
  | ⟨1, _⟩ => show win0_4.index t (1 : Fin 2) * 64 + 1 * (j 1).val = (j 1).val; rw [h 1]; omega
theorem read_blk0_5 (t : Fin cfg0.N) (X : S64x64.Idx → Elt F .f32) : ((cfg0.win 5).blk t).view.read (Elt F) X = X := by
  funext j
  show X (((cfg0.win 5).blk t).view.emb j) = X j
  congr 1
  funext a; apply Fin.ext
  obtain ⟨-, -, -, -, -, h, -⟩ := idx0 t
  match a with
  | ⟨0, _⟩ => show win0_5.index t (0 : Fin 2) * 64 + 1 * (j 0).val = (j 0).val; rw [h 0]; omega
  | ⟨1, _⟩ => show win0_5.index t (1 : Fin 2) * 64 + 1 * (j 1).val = (j 1).val; rw [h 1]; omega
theorem read_blk0_6 (t : Fin cfg0.N) (X : S64x64.Idx → Elt F .f32) : ((cfg0.win 6).blk t).view.read (Elt F) X = X := by
  funext j
  show X (((cfg0.win 6).blk t).view.emb j) = X j
  congr 1
  funext a; apply Fin.ext
  obtain ⟨-, -, -, -, -, -, h⟩ := idx0 t
  match a with
  | ⟨0, _⟩ => show win0_6.index t (0 : Fin 2) * 64 + 1 * (j 0).val = (j 0).val; rw [h 0]; omega
  | ⟨1, _⟩ => show win0_6.index t (1 : Fin 2) * 64 + 1 * (j 1).val = (j 1).val; rw [h 1]; omega

/-- Each input's block is its whole array. -/
theorem iblk0_0 (c : Dev nD) (t : Fin cfg0.N) : iblk0 V c 0 t = V c main_v3 := read_blk0_0 t _
theorem iblk0_1 (c : Dev nD) (t : Fin cfg0.N) : iblk0 V c 1 t = V c main_v0 := read_blk0_1 t _
theorem iblk0_2 (c : Dev nD) (t : Fin cfg0.N) : iblk0 V c 2 t = V c main_v1 := read_blk0_2 t _
theorem iblk0_3 (c : Dev nD) (t : Fin cfg0.N) : iblk0 V c 3 t = V c main_v2 := read_blk0_3 t _

/-- Every index of an output array is in the one point's block. -/
theorem mem_blk0_4 (t : Fin cfg0.N) (i : S64x64.Idx) : i ∈ ((cfg0.win 4).blk t).view.set := by
  show i ∈ ((View.whole main_v4_0).slice (win0_4.rect t)).set
  rw [View.set_slice_whole, Rect.mem_set_unit]
  obtain ⟨-, -, -, -, h, -⟩ := idx0 t
  intro a
  match a with
  | ⟨0, _⟩ => show win0_4.index t (0 : Fin 2) * 64 ≤ (i 0).val ∧ (i 0).val < win0_4.index t (0 : Fin 2) * 64 + 64; rw [h 0]; have hi : (i 0).val < 64 := (i 0).isLt; omega
  | ⟨1, _⟩ => show win0_4.index t (1 : Fin 2) * 64 ≤ (i 1).val ∧ (i 1).val < win0_4.index t (1 : Fin 2) * 64 + 64; rw [h 1]; have hi : (i 1).val < 64 := (i 1).isLt; omega
theorem mem_blk0_5 (t : Fin cfg0.N) (i : S64x64.Idx) : i ∈ ((cfg0.win 5).blk t).view.set := by
  show i ∈ ((View.whole main_v4_1).slice (win0_5.rect t)).set
  rw [View.set_slice_whole, Rect.mem_set_unit]
  obtain ⟨-, -, -, -, -, h, -⟩ := idx0 t
  intro a
  match a with
  | ⟨0, _⟩ => show win0_5.index t (0 : Fin 2) * 64 ≤ (i 0).val ∧ (i 0).val < win0_5.index t (0 : Fin 2) * 64 + 64; rw [h 0]; have hi : (i 0).val < 64 := (i 0).isLt; omega
  | ⟨1, _⟩ => show win0_5.index t (1 : Fin 2) * 64 ≤ (i 1).val ∧ (i 1).val < win0_5.index t (1 : Fin 2) * 64 + 64; rw [h 1]; have hi : (i 1).val < 64 := (i 1).isLt; omega
theorem mem_blk0_6 (t : Fin cfg0.N) (i : S64x64.Idx) : i ∈ ((cfg0.win 6).blk t).view.set := by
  show i ∈ ((View.whole main_v4_2).slice (win0_6.rect t)).set
  rw [View.set_slice_whole, Rect.mem_set_unit]
  obtain ⟨-, -, -, -, -, -, h⟩ := idx0 t
  intro a
  match a with
  | ⟨0, _⟩ => show win0_6.index t (0 : Fin 2) * 64 ≤ (i 0).val ∧ (i 0).val < win0_6.index t (0 : Fin 2) * 64 + 64; rw [h 0]; have hi : (i 0).val < 64 := (i 0).isLt; omega
  | ⟨1, _⟩ => show win0_6.index t (1 : Fin 2) * 64 ≤ (i 1).val ∧ (i 1).val < win0_6.index t (1 : Fin 2) * 64 + 64; rw [h 1]; have hi : (i 1).val < 64 := (i 1).isLt; omega

/-- What the one point writes back to each output is the block of one closed term over the input arrays. -/
theorem flushed0_4_eq (c : Dev nD) (t : Fin cfg0.N) :
    (dat0 V c).flushed 4 t = ((cfg0.win 4).blk t).view.read (Elt F) (k0_pay3 (V c main_v3) (V c main_v0)) := by
  show (cfg0.win 4).cut (grid0.coords t) ((dat0 V c).after 4 t) = _
  rw [after0_4, read_blk0_4, iblk0_0, iblk0_1]
  unfold out0_4
  rw [View.canon_unit_zero hz]
  simp only [View.ld_unit_zero (S := S64x256) hz, View.ld_unit_zero (S := S64x64) hz]
  rfl
theorem flushed0_5_eq (c : Dev nD) (t : Fin cfg0.N) :
    (dat0 V c).flushed 5 t = ((cfg0.win 5).blk t).view.read (Elt F) (k0_pay4 (V c main_v3) (V c main_v1)) := by
  show (cfg0.win 5).cut (grid0.coords t) ((dat0 V c).after 5 t) = _
  rw [after0_5, read_blk0_5, iblk0_0, iblk0_2]
  unfold out0_5
  rw [View.canon_unit_zero hz]
  simp only [View.ld_unit_zero (S := S64x256) hz, View.ld_unit_zero (S := S64x64) hz]
  rfl
theorem flushed0_6_eq (c : Dev nD) (t : Fin cfg0.N) :
    (dat0 V c).flushed 6 t = ((cfg0.win 6).blk t).view.read (Elt F)
      (k0_pay1 (k0_pay2 (V c main_v3)) (k0_pay5 (V c main_v2)) (Scalar.ofBits .f32 0x00000000#32)) := by
  show (cfg0.win 6).cut (grid0.coords t) ((dat0 V c).after 6 t) = _
  rw [after0_6, read_blk0_6, iblk0_0, iblk0_3]
  unfold out0_6
  rw [View.canon_unit_zero hz]
  simp only [View.ld_unit_zero (S := S64x256) hz, View.ld_unit_zero (S := S64x64) hz]
  rfl

/-- The inputs are never written. -/
theorem arr_in0 (c : Dev nD) (w : Fin cfg0.W) (hw : w.val < 4) : (dat0 V c).arrAt w cfg0.N = V c (Pipeline.arrRef spec0 w) := by
  have hin : (cfg0.win w).isOut = false := by
    match w, hw with
    | ⟨0, _⟩, _ => rfl
    | ⟨1, _⟩, _ => rfl
    | ⟨2, _⟩, _ => rfl
    | ⟨3, _⟩, _ => rfl
    | ⟨k + 4, _⟩, h => exact absurd h (Nat.not_lt.2 (Nat.le_add_left _ _))
  exact ((dat0 V c).arrAt_in w hin _).trans (A_eq0 V c w)

/-- Each output array after the run: the body's whole store, over the input arrays. -/
theorem arr_out0_4 (c : Dev nD) : (dat0 V c).arrAt 4 cfg0.N = k0_pay3 (V c main_v3) (V c main_v0) :=
  (dat0 V c).arrAt_eq_of_cover 4 _ (fun t _ => flushed0_4_eq V c t) (fun i => ⟨t0_0, flush0_4 t0_0, mem_blk0_4 t0_0 i⟩)
theorem arr_out0_5 (c : Dev nD) : (dat0 V c).arrAt 5 cfg0.N = k0_pay4 (V c main_v3) (V c main_v1) :=
  (dat0 V c).arrAt_eq_of_cover 5 _ (fun t _ => flushed0_5_eq V c t) (fun i => ⟨t0_0, flush0_5 t0_0, mem_blk0_5 t0_0 i⟩)
theorem arr_out0_6 (c : Dev nD) : (dat0 V c).arrAt 6 cfg0.N
    = k0_pay1 (k0_pay2 (V c main_v3)) (k0_pay5 (V c main_v2)) (Scalar.ofBits .f32 0x00000000#32) :=
  (dat0 V c).arrAt_eq_of_cover 6 _ (fun t _ => flushed0_6_eq V c t) (fun i => ⟨t0_0, flush0_6 t0_0, mem_blk0_6 t0_0 i⟩)

end Region
end Cert.Kernel.R0
end
-- ==== Proof.KR1Base.lean ====
/-
  The second Pallas call (the first matvec layer of the three branches), as the pipeline runs it: what is shared by the
  runs of its body in the five cases of its conditionals. A grid point is (n, b, k) with n < 2 the column tile, b < 3 the
  branch and k < 8 the row tile; in the linear order t = 24 n + 8 b + k. The body zeroes the row accumulator when k = 0,
  zeroes the three-row result buffer when b = k = 0, adds the selected branch's 512-row partial product into the
  accumulator, at k = 7 writes max(acc, 0) into row b of the result buffer, and at b = 2, k = 7 copies the result buffer
  into the output block.
-/
import proofs.«110218_j20177756357157_2_alg».proof.Proof.Gen.Kernel.Launch
import proofs.«110218_j20177756357157_2_alg».proof.Proof.Gen.Kernel.Skeleton
import proofs.«110218_j20177756357157_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, in closed form over the linear order of the grid -/

/-- k = 0: the accumulator is reset. -/
abbrev cA (i : grid1.Coords) : Prop := (Scalar.cmpi .ne (Scalar.extui (Scalar.cmpi .eq (BitVec.ofNat 32 (i 2).val) 0#32)) 0#32) = 1#1
/-- b = 0 and k = 0: the result buffer is reset. -/
abbrev cB (i : grid1.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- k = 7: the accumulator is finished and clamped into row b. -/
abbrev cC (i : grid1.Coords) : Prop := (Scalar.cmpi .ne (Scalar.extui (Scalar.cmpi .eq (BitVec.ofNat 32 (i 2).val) 7#32)) 0#32) = 1#1
/-- b = 2 and k = 7: the result buffer is copied out. -/
abbrev cD (i : grid1.Coords) : Prop := k1_cond4 i = 1#1

theorem hcA : ∀ t : Fin cfg1.N, cA (grid1.coords t) ↔ t.val % 8 = 0 :=
  (by decide +kernel : ∀ t : Fin grid1.N, cA (grid1.coords t) ↔ t.val % 8 = 0)
theorem hcB : ∀ t : Fin cfg1.N, cB (grid1.coords t) ↔ t.val % 24 = 0 :=
  (by decide +kernel : ∀ t : Fin grid1.N, cB (grid1.coords t) ↔ t.val % 24 = 0)
theorem hcC : ∀ t : Fin cfg1.N, cC (grid1.coords t) ↔ t.val % 8 = 7 :=
  (by decide +kernel : ∀ t : Fin grid1.N, cC (grid1.coords t) ↔ t.val % 8 = 7)
theorem hcD : ∀ t : Fin cfg1.N, cD (grid1.coords t) ↔ t.val % 24 = 23 :=
  (by decide +kernel : ∀ t : Fin grid1.N, cD (grid1.coords t) ↔ t.val % 24 = 23)

/-! ## Where the output window is idle -/

theorem live_in (w : Fin cfg1.W) (hw : w.val < 4) : ∀ i, cfg1.idle w i = false := by
  intro i; match w, hw with
  | ⟨0, _⟩, _ => rfl | ⟨1, _⟩, _ => rfl | ⟨2, _⟩, _ => rfl | ⟨3, _⟩, _ => rfl
theorem idle_out : ∀ t : Fin cfg1.N, ¬cD (grid1.coords t) → cfg1.idle 4 (grid1.coords t) = true := by decide +kernel
theorem noflush_out : ∀ t : Fin cfg1.N, ¬cD (grid1.coords t) → (cfg1.win 4).flush t = false := by decide +kernel
theorem live_out : ∀ t : Fin cfg1.N, cD (grid1.coords t) → cfg1.idle 4 (grid1.coords t) = false := by decide +kernel

/-! ## The memrefs the body is called with -/

abbrev ms0 (t : Fin cfg1.N) : Memref sig .tc .vmem S3x512 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S512x2048 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x2048 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S512x2048 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S3x2048 .f32 := win1_4.stage (cfg1.slots t 4)
abbrev hs4 (t : Fin cfg1.N) : (ms4 t).IsWhole := hstage1_4 ((cfg1.slots t 4).cast nbuf1_4)
/-- The row accumulator and the three-row result buffer: scratch the kernel carries from point to point. -/
abbrev scA : Memref sig .tc .vmem S1x2048 .f32 := Memref.whole cc1_scratch0
abbrev scR : Memref sig .tc .vmem S3x2048 .f32 := Memref.whole cc1_scratch1
abbrev VA : View sig .tc .vmem S1x2048 .f32 := (scA).view
abbrev VR : View sig .tc .vmem S3x2048 .f32 := (scR).view
abbrev VO : View sig .tc .vmem S3x2048 .f32 := (Memref.whole cc1_stg4_0 : Memref sig .tc .vmem S3x2048 .f32).view

end Cert.Kernel.R1

end
-- ==== Proof.KR1RunA.lean ====
/-
  The body at a point with b = 0 and k = 0: both resets are taken. The accumulator and the result buffer, found at any
  contents, are zeroed; the selected branch's partial product is added into the accumulator; the output block is not touched.
-/
import proofs.«110218_j20177756357157_2_alg».proof.Proof.KR1Base

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each buffer the body stores into ends with (last store first), with the body's run to its return from the
    four input blocks at their contents, a buffer the case does not store into handed back as found. -/
noncomputable def runA (c : Dev nD) (i : grid1.Coords) (arg3 : Memref sig .tc .vmem S3x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (arg7 : Memref sig .tc .vmem S3x2048 .f32) (harg7 : arg7.IsWhole) (arg8 : Memref sig .tc .vmem S1x2048 .f32) (harg8 : arg8.IsWhole) (arg9 : Memref sig .tc .vmem S3x2048 .f32) (harg9 : arg9.IsWhole) (hA : cA i) (hB : cB i) (hC : ¬cC i) (hD : ¬cD i)
    (x0 : Vec F S3x512 .f32) (x1 : Vec F S512x2048 .f32) (x2 : Vec F S512x2048 .f32) (x3 : Vec F S512x2048 .f32) :
    Σ' (LR : List (View.Piece (Elt F) S3x2048 .f32)), { LA : List (View.Piece (Elt F) S1x2048 .f32) //
      ∀ (xo : Vec F S3x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LR)) -∗ K ⟨⟩))
          ⊢ wp frame (wpE (defs₀ (F := F)) Variants.none c none) E (cc1__fused_mlp_kernel i arg3 harg3 arg4 harg4 arg5 harg5 arg6 harg6 arg7 harg7 arg8 harg8 arg9 harg9) K } := by
  refine ⟨?_, ?_, fun xo E K => ?run⟩
  case run =>
    simp only [cc1__fused_mlp_kernel_eq_skeleton]; unfold cc1__fused_mlp_kernel_skel
    unfold owns
    iintro ⟨⟨%f0, %hf0, H0⟩, ⟨%f1, %hf1, H1⟩, ⟨%f2, %hf2, H2⟩, ⟨%f3, %hf3, H3⟩, ⟨%fo, %hfo, HO⟩, ⟨%dA, %fa, -, HA⟩, ⟨%dR, %fr, -, HR⟩, Hk⟩
    obtain rfl := harg3.eq_unread hf0; obtain rfl := harg4.eq_unread hf1; obtain rfl := harg5.eq_unread hf2; obtain rfl := harg6.eq_unread hf3
    obtain rfl := harg7.eq_unread hfo
    sl_exec (disch := first | exact hA | exact hB | exact hC | exact hD)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    isplitl [HA]
    · iexists _; iexact HA
    iexists _; iexact HR

end Cert.Kernel.R1

end
-- ==== Proof.KR1RunB.lean ====
/-
  The body at a point with k = 0 and b ≠ 0: the accumulator, found at any contents, is zeroed and added the selected branch's
  partial product; the result buffer, found at what the point before left, and the output block are not touched.
-/
import proofs.«110218_j20177756357157_2_alg».proof.Proof.KR1Base

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each buffer the body stores into ends with (last store first), with the body's run to its return from the
    four input blocks at their contents, a buffer the case does not store into handed back as found. -/
noncomputable def runB (c : Dev nD) (i : grid1.Coords) (arg3 : Memref sig .tc .vmem S3x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (arg7 : Memref sig .tc .vmem S3x2048 .f32) (harg7 : arg7.IsWhole) (arg8 : Memref sig .tc .vmem S1x2048 .f32) (harg8 : arg8.IsWhole) (arg9 : Memref sig .tc .vmem S3x2048 .f32) (harg9 : arg9.IsWhole) (hA : cA i) (hB : ¬cB i) (hC : ¬cC i) (hD : ¬cD i)
    (x0 : Vec F S3x512 .f32) (x1 : Vec F S512x2048 .f32) (x2 : Vec F S512x2048 .f32) (x3 : Vec F S512x2048 .f32) :
    { LA : List (View.Piece (Elt F) S1x2048 .f32) //
      ∀ (xo : Vec F S3x2048 .f32) (xs1 : Vec F S3x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ (∃ d, owns (c : Thread nD τ) arg8 fullShare d) ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ (∃ f, arg8.view.loc (c : Thread nD τ) ↦[arg8.view.set]{fullShare} arg8.view.writes (Elt F) f LA) ∗ owns (c : Thread nD τ) arg9 fullShare xs1) -∗ K ⟨⟩))
          ⊢ wp frame (wpE (defs₀ (F := F)) Variants.none c none) E (cc1__fused_mlp_kernel i arg3 harg3 arg4 harg4 arg5 harg5 arg6 harg6 arg7 harg7 arg8 harg8 arg9 harg9) K } := by
  refine ⟨?_, fun xo xs1 E K => ?run⟩
  case run =>
    simp only [cc1__fused_mlp_kernel_eq_skeleton]; unfold cc1__fused_mlp_kernel_skel
    unfold owns
    iintro ⟨⟨%f0, %hf0, H0⟩, ⟨%f1, %hf1, H1⟩, ⟨%f2, %hf2, H2⟩, ⟨%f3, %hf3, H3⟩, ⟨%fo, %hfo, HO⟩, ⟨%dA, %fa, -, HA⟩, ⟨%fr, %hfr, HR⟩, Hk⟩
    obtain rfl := harg3.eq_unread hf0; obtain rfl := harg4.eq_unread hf1; obtain rfl := harg5.eq_unread hf2; obtain rfl := harg6.eq_unread hf3
    obtain rfl := harg7.eq_unread hfo; obtain rfl := harg9.eq_unread hfr
    sl_exec (disch := first | exact hA | exact hB | exact hC | exact hD)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    isplitl [HA]
    · iexists _; iexact HA
    iexists _; isplitr; · ipureintro; exact harg9.read_unread _
    iexact HR

end Cert.Kernel.R1

end
-- ==== Proof.KR1RunC.lean ====
/-
  The body at a point with 0 < k < 7: no branch is taken. The accumulator, found at what the point before left, is added
  the selected branch's partial product and stored back; the result buffer and the output block are not touched.
-/
import proofs.«110218_j20177756357157_2_alg».proof.Proof.KR1Base

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the accumulator ends with (its one whole store), with the body's run: from the four input blocks at their
    contents, the output block and the result buffer at any contents (handed back as found) and the accumulator at
    `xs0`, the body runs to its return. -/
noncomputable def runC (c : Dev nD) (i : grid1.Coords) (arg3 : Memref sig .tc .vmem S3x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (arg7 : Memref sig .tc .vmem S3x2048 .f32) (harg7 : arg7.IsWhole) (arg8 : Memref sig .tc .vmem S1x2048 .f32) (harg8 : arg8.IsWhole) (arg9 : Memref sig .tc .vmem S3x2048 .f32) (harg9 : arg9.IsWhole) (hA : ¬cA i) (hB : ¬cB i) (hC : ¬cC i) (hD : ¬cD i)
    (x0 : Vec F S3x512 .f32) (x1 : Vec F S512x2048 .f32) (x2 : Vec F S512x2048 .f32) (x3 : Vec F S512x2048 .f32) (xs0 : Vec F S1x2048 .f32) :
    { LA : List (View.Piece (Elt F) S1x2048 .f32) //
      ∀ (xo : Vec F S3x2048 .f32) (xs1 : Vec F S3x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ (∃ f, arg8.view.loc (c : Thread nD τ) ↦[arg8.view.set]{fullShare} arg8.view.writes (Elt F) f LA) ∗ owns (c : Thread nD τ) arg9 fullShare xs1) -∗ K ⟨⟩))
          ⊢ wp frame (wpE (defs₀ (F := F)) Variants.none c none) E (cc1__fused_mlp_kernel i arg3 harg3 arg4 harg4 arg5 harg5 arg6 harg6 arg7 harg7 arg8 harg8 arg9 harg9) K } := by
  refine ⟨?_, fun xo xs1 E K => ?run⟩
  case run =>
    simp only [cc1__fused_mlp_kernel_eq_skeleton]; unfold cc1__fused_mlp_kernel_skel
    unfold owns
    iintro ⟨⟨%f0, %hf0, H0⟩, ⟨%f1, %hf1, H1⟩, ⟨%f2, %hf2, H2⟩, ⟨%f3, %hf3, H3⟩, ⟨%fo, %hfo, HO⟩, ⟨%fa, %hfa, HA⟩, ⟨%fr, %hfr, HR⟩, Hk⟩
    obtain rfl := harg3.eq_unread hf0; obtain rfl := harg4.eq_unread hf1; obtain rfl := harg5.eq_unread hf2; obtain rfl := harg6.eq_unread hf3
    obtain rfl := harg7.eq_unread hfo; obtain rfl := harg8.eq_unread hfa; obtain rfl := harg9.eq_unread hfr
    sl_exec (disch := first | exact hA | exact hB | exact hC | exact hD)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    isplitl [HA]
    · iexists _; iexact HA
    iexists _; isplitr; · ipureintro; exact harg9.read_unread _
    iexact HR

end Cert.Kernel.R1

end
-- ==== Proof.KR1RunD.lean ====
/-
  The body at a point with k = 7 and b ≠ 2: the accumulator, found at what the point before left, is added the last partial
  product, and its clamp at zero is written into row b of the result buffer; the output block is not touched.
-/
import proofs.«110218_j20177756357157_2_alg».proof.Proof.KR1Base

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each buffer the body stores into ends with (last store first), with the body's run to its return from the
    four input blocks at their contents, a buffer the case does not store into handed back as found. -/
noncomputable def runD (c : Dev nD) (i : grid1.Coords) (arg3 : Memref sig .tc .vmem S3x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (arg7 : Memref sig .tc .vmem S3x2048 .f32) (harg7 : arg7.IsWhole) (arg8 : Memref sig .tc .vmem S1x2048 .f32) (harg8 : arg8.IsWhole) (arg9 : Memref sig .tc .vmem S3x2048 .f32) (harg9 : arg9.IsWhole) (hA : ¬cA i) (hB : ¬cB i) (hC : cC i) (hD : ¬cD i)
    (x0 : Vec F S3x512 .f32) (x1 : Vec F S512x2048 .f32) (x2 : Vec F S512x2048 .f32) (x3 : Vec F S512x2048 .f32) (xs0 : Vec F S1x2048 .f32) (xs1 : Vec F S3x2048 .f32) :
    Σ' (LR : List (View.Piece (Elt F) S3x2048 .f32)), { LA : List (View.Piece (Elt F) S1x2048 .f32) //
      ∀ (xo : Vec F S3x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LR)) -∗ K ⟨⟩))
          ⊢ wp frame (wpE (defs₀ (F := F)) Variants.none c none) E (cc1__fused_mlp_kernel i arg3 harg3 arg4 harg4 arg5 harg5 arg6 harg6 arg7 harg7 arg8 harg8 arg9 harg9) K } := by
  refine ⟨?_, ?_, fun xo E K => ?run⟩
  case run =>
    simp only [cc1__fused_mlp_kernel_eq_skeleton]; unfold cc1__fused_mlp_kernel_skel
    unfold owns
    iintro ⟨⟨%f0, %hf0, H0⟩, ⟨%f1, %hf1, H1⟩, ⟨%f2, %hf2, H2⟩, ⟨%f3, %hf3, H3⟩, ⟨%fo, %hfo, HO⟩, ⟨%fa, %hfa, HA⟩, ⟨%fr, %hfr, HR⟩, Hk⟩
    obtain rfl := harg3.eq_unread hf0; obtain rfl := harg4.eq_unread hf1; obtain rfl := harg5.eq_unread hf2; obtain rfl := harg6.eq_unread hf3
    obtain rfl := harg7.eq_unread hfo; obtain rfl := harg8.eq_unread hfa; obtain rfl := harg9.eq_unread hfr
    sl_exec (disch := first | exact hA | exact hB | exact hC | exact hD)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    isplitl [HA]
    · iexists _; iexact HA
    iexists _; iexact HR

end Cert.Kernel.R1

end
-- ==== Proof.KR1RunE.lean ====
/-
  The body at a point with k = 7 and b = 2: as at the other points with k = 7, and then the result buffer is copied whole into
  the output block.
-/
import proofs.«110218_j20177756357157_2_alg».proof.Proof.KR1Base

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each buffer the body stores into ends with (last store first), with the body's run to its return from the
    four input blocks at their contents, a buffer the case does not store into handed back as found. -/
noncomputable def runE (c : Dev nD) (i : grid1.Coords) (arg3 : Memref sig .tc .vmem S3x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (arg7 : Memref sig .tc .vmem S3x2048 .f32) (harg7 : arg7.IsWhole) (arg8 : Memref sig .tc .vmem S1x2048 .f32) (harg8 : arg8.IsWhole) (arg9 : Memref sig .tc .vmem S3x2048 .f32) (harg9 : arg9.IsWhole) (hA : ¬cA i) (hB : ¬cB i) (hC : cC i) (hD : cD i)
    (x0 : Vec F S3x512 .f32) (x1 : Vec F S512x2048 .f32) (x2 : Vec F S512x2048 .f32) (x3 : Vec F S512x2048 .f32) (xs0 : Vec F S1x2048 .f32) (xs1 : Vec F S3x2048 .f32) :
    Σ' (LO : List (View.Piece (Elt F) S3x2048 .f32)), Σ' (LR : List (View.Piece (Elt F) S3x2048 .f32)), { LA : List (View.Piece (Elt F) S1x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LR)) -∗ K ⟨⟩))
          ⊢ wp frame (wpE (defs₀ (F := F)) Variants.none c none) E (cc1__fused_mlp_kernel i arg3 harg3 arg4 harg4 arg5 harg5 arg6 harg6 arg7 harg7 arg8 harg8 arg9 harg9) K } := by
  refine ⟨?_, ?_, ?_, fun E K => ?run⟩
  case run =>
    simp only [cc1__fused_mlp_kernel_eq_skeleton]; unfold cc1__fused_mlp_kernel_skel
    unfold owns
    iintro ⟨⟨%f0, %hf0, H0⟩, ⟨%f1, %hf1, H1⟩, ⟨%f2, %hf2, H2⟩, ⟨%f3, %hf3, H3⟩, ⟨%dO, %fo, -, HO⟩, ⟨%fa, %hfa, HA⟩, ⟨%fr, %hfr, HR⟩, Hk⟩
    obtain rfl := harg3.eq_unread hf0; obtain rfl := harg4.eq_unread hf1; obtain rfl := harg5.eq_unread hf2; obtain rfl := harg6.eq_unread hf3
    obtain rfl := harg8.eq_unread hfa; obtain rfl := harg9.eq_unread hfr
    sl_exec (disch := first | exact hA | exact hB | exact hC | exact hD)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; iexact HO
    isplitl [HA]
    · iexists _; iexact HA
    iexists _; iexact HR

end Cert.Kernel.R1

end
-- ==== Proof.KR1Cases.lean ====
/-
  The second Pallas call as a region of the program: what its buffers hold after each grid point, by recursion on the
  point; the invariant carrying the two scratch buffers from point to point; the proof data; and the body obligation,
  by cases on the point's position in its (b, k) sweep.
-/
import proofs.«110218_j20177756357157_2_alg».proof.Proof.KR1RunA
import proofs.«110218_j20177756357157_2_alg».proof.Proof.KR1RunB
import proofs.«110218_j20177756357157_2_alg».proof.Proof.KR1RunC
import proofs.«110218_j20177756357157_2_alg».proof.Proof.KR1RunD
import proofs.«110218_j20177756357157_2_alg».proof.Proof.KR1RunE

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's unscoped buffers when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (when it is not fetched its
    block index has not moved), for any proof data over these arrays whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The position of a point in its sweep decides the conditions -/

theorem condsA (t : Fin cfg1.N) (h : t.val % 24 = 0) : cA (grid1.coords t) ∧ cB (grid1.coords t) ∧ ¬cC (grid1.coords t) ∧ ¬cD (grid1.coords t) :=
  ⟨(hcA t).mpr (by omega), (hcB t).mpr h, fun h' => by have := (hcC t).mp h'; omega, fun h' => by have := (hcD t).mp h'; omega⟩
theorem condsB (t : Fin cfg1.N) (h8 : t.val % 8 = 0) (h24 : ¬t.val % 24 = 0) : cA (grid1.coords t) ∧ ¬cB (grid1.coords t) ∧ ¬cC (grid1.coords t) ∧ ¬cD (grid1.coords t) :=
  ⟨(hcA t).mpr h8, fun h' => h24 ((hcB t).mp h'), fun h' => by have := (hcC t).mp h'; omega, fun h' => by have := (hcD t).mp h'; omega⟩
theorem condsC (t : Fin cfg1.N) (h8 : ¬t.val % 8 = 0) (h7 : ¬t.val % 8 = 7) : ¬cA (grid1.coords t) ∧ ¬cB (grid1.coords t) ∧ ¬cC (grid1.coords t) ∧ ¬cD (grid1.coords t) :=
  ⟨fun h' => h8 ((hcA t).mp h'), fun h' => by have := (hcB t).mp h'; omega, fun h' => h7 ((hcC t).mp h'), fun h' => by have := (hcD t).mp h'; omega⟩
theorem condsD (t : Fin cfg1.N) (h7 : t.val % 8 = 7) (h23 : ¬t.val % 24 = 23) : ¬cA (grid1.coords t) ∧ ¬cB (grid1.coords t) ∧ cC (grid1.coords t) ∧ ¬cD (grid1.coords t) :=
  ⟨fun h' => by have := (hcA t).mp h'; omega, fun h' => by have := (hcB t).mp h'; omega, (hcC t).mpr h7, fun h' => h23 ((hcD t).mp h')⟩
theorem condsE (t : Fin cfg1.N) (h23 : t.val % 24 = 23) : ¬cA (grid1.coords t) ∧ ¬cB (grid1.coords t) ∧ cC (grid1.coords t) ∧ cD (grid1.coords t) :=
  ⟨fun h' => by have := (hcA t).mp h'; omega, fun h' => by have := (hcB t).mp h'; omega, (hcC t).mpr (by omega), (hcD t).mpr h23⟩

/-! ## The body's run at a point, case by case, on the point's memrefs and blocks -/

abbrev rA (c : Dev nD) (t : Fin cfg1.N) (h : t.val % 24 = 0) :=
  runA (F := F) c (grid1.coords t) (ms0 t) (hs0 t) (ms1 t) (hs1 t) (ms2 t) (hs2 t) (ms3 t) (hs3 t) (ms4 t) (hs4 t) scA (Memref.isWhole_whole _) scR (Memref.isWhole_whole _) (condsA t h).1 (condsA t h).2.1 (condsA t h).2.2.1 (condsA t h).2.2.2 (iblk V c 0 t) (iblk V c 1 t) (iblk V c 2 t) (iblk V c 3 t)
abbrev rB (c : Dev nD) (t : Fin cfg1.N) (h8 : t.val % 8 = 0) (h24 : ¬t.val % 24 = 0) :=
  runB (F := F) c (grid1.coords t) (ms0 t) (hs0 t) (ms1 t) (hs1 t) (ms2 t) (hs2 t) (ms3 t) (hs3 t) (ms4 t) (hs4 t) scA (Memref.isWhole_whole _) scR (Memref.isWhole_whole _) (condsB t h8 h24).1 (condsB t h8 h24).2.1 (condsB t h8 h24).2.2.1 (condsB t h8 h24).2.2.2 (iblk V c 0 t) (iblk V c 1 t) (iblk V c 2 t) (iblk V c 3 t)
abbrev rC (c : Dev nD) (t : Fin cfg1.N) (h8 : ¬t.val % 8 = 0) (h7 : ¬t.val % 8 = 7) (pa : Vec F S1x2048 .f32) :=
  runC (F := F) c (grid1.coords t) (ms0 t) (hs0 t) (ms1 t) (hs1 t) (ms2 t) (hs2 t) (ms3 t) (hs3 t) (ms4 t) (hs4 t) scA (Memref.isWhole_whole _) scR (Memref.isWhole_whole _) (condsC t h8 h7).1 (condsC t h8 h7).2.1 (condsC t h8 h7).2.2.1 (condsC t h8 h7).2.2.2 (iblk V c 0 t) (iblk V c 1 t) (iblk V c 2 t) (iblk V c 3 t) pa
abbrev rD (c : Dev nD) (t : Fin cfg1.N) (h7 : t.val % 8 = 7) (h23 : ¬t.val % 24 = 23) (pa : Vec F S1x2048 .f32) (pr : Vec F S3x2048 .f32) :=
  runD (F := F) c (grid1.coords t) (ms0 t) (hs0 t) (ms1 t) (hs1 t) (ms2 t) (hs2 t) (ms3 t) (hs3 t) (ms4 t) (hs4 t) scA (Memref.isWhole_whole _) scR (Memref.isWhole_whole _) (condsD t h7 h23).1 (condsD t h7 h23).2.1 (condsD t h7 h23).2.2.1 (condsD t h7 h23).2.2.2 (iblk V c 0 t) (iblk V c 1 t) (iblk V c 2 t) (iblk V c 3 t) pa pr
abbrev rE (c : Dev nD) (t : Fin cfg1.N) (h23 : t.val % 24 = 23) (pa : Vec F S1x2048 .f32) (pr : Vec F S3x2048 .f32) :=
  runE (F := F) c (grid1.coords t) (ms0 t) (hs0 t) (ms1 t) (hs1 t) (ms2 t) (hs2 t) (ms3 t) (hs3 t) (ms4 t) (hs4 t) scA (Memref.isWhole_whole _) scR (Memref.isWhole_whole _) (condsE t h23).1 (condsE t h23).2.1 (condsE t h23).2.2.1 (condsE t h23).2.2.2 (iblk V c 0 t) (iblk V c 1 t) (iblk V c 2 t) (iblk V c 3 t) pa pr

/-! ## What each case leaves: its stored pieces read back (they cover the buffer, so the read does not depend on what was there) -/

def accA (c : Dev nD) (t : Fin cfg1.N) (h : t.val % 24 = 0) : Vec F S1x2048 .f32 := VA.read (Elt F) (VA.writes (Elt F) VA.junk (rA V c t h).2.1)
def resA (c : Dev nD) (t : Fin cfg1.N) (h : t.val % 24 = 0) : Vec F S3x2048 .f32 := VR.read (Elt F) (VR.writes (Elt F) VR.junk (rA V c t h).1)
theorem cov_accA (c : Dev nD) (t : Fin cfg1.N) (h : t.val % 24 = 0) (y : S1x2048.Idx) : ∃ pc ∈ (rA V c t h).2.1, y ∈ pc.1.set :=
  View.cover_of_tiledL (rA V c t h).2.1 S1x2048.size (by sl_kernel_rfl) y
theorem cov_resA (c : Dev nD) (t : Fin cfg1.N) (h : t.val % 24 = 0) (y : S3x2048.Idx) : ∃ pc ∈ (rA V c t h).1, y ∈ pc.1.set :=
  View.cover_of_tiledL (rA V c t h).1 S3x2048.size (by sl_kernel_rfl) y

def accB (c : Dev nD) (t : Fin cfg1.N) (h8 : t.val % 8 = 0) (h24 : ¬t.val % 24 = 0) : Vec F S1x2048 .f32 := VA.read (Elt F) (VA.writes (Elt F) VA.junk (rB V c t h8 h24).1)
theorem cov_accB (c : Dev nD) (t : Fin cfg1.N) (h8 : t.val % 8 = 0) (h24 : ¬t.val % 24 = 0) (y : S1x2048.Idx) : ∃ pc ∈ (rB V c t h8 h24).1, y ∈ pc.1.set :=
  View.cover_of_tiledL (rB V c t h8 h24).1 S1x2048.size (by sl_kernel_rfl) y

def accC (c : Dev nD) (t : Fin cfg1.N) (h8 : ¬t.val % 8 = 0) (h7 : ¬t.val % 8 = 7) (pa : Vec F S1x2048 .f32) : Vec F S1x2048 .f32 := VA.read (Elt F) (VA.writes (Elt F) VA.junk (rC V c t h8 h7 pa).1)
theorem cov_accC (c : Dev nD) (t : Fin cfg1.N) (h8 : ¬t.val % 8 = 0) (h7 : ¬t.val % 8 = 7) (pa : Vec F S1x2048 .f32) (y : S1x2048.Idx) : ∃ pc ∈ (rC V c t h8 h7 pa).1, y ∈ pc.1.set :=
  View.cover_of_tiledL (rC V c t h8 h7 pa).1 S1x2048.size (by sl_kernel_rfl) y

def accD (c : Dev nD) (t : Fin cfg1.N) (h7 : t.val % 8 = 7) (h23 : ¬t.val % 24 = 23) (pa : Vec F S1x2048 .f32) (pr : Vec F S3x2048 .f32) : Vec F S1x2048 .f32 := VA.read (Elt F) (VA.writes (Elt F) VA.junk (rD V c t h7 h23 pa pr).2.1)
def resD (c : Dev nD) (t : Fin cfg1.N) (h7 : t.val % 8 = 7) (h23 : ¬t.val % 24 = 23) (pa : Vec F S1x2048 .f32) (pr : Vec F S3x2048 .f32) : Vec F S3x2048 .f32 := VR.read (Elt F) (VR.writes (Elt F) VR.junk (rD V c t h7 h23 pa pr).1)
theorem cov_accD (c : Dev nD) (t : Fin cfg1.N) (h7 : t.val % 8 = 7) (h23 : ¬t.val % 24 = 23) (pa : Vec F S1x2048 .f32) (pr : Vec F S3x2048 .f32) (y : S1x2048.Idx) : ∃ pc ∈ (rD V c t h7 h23 pa pr).2.1, y ∈ pc.1.set :=
  View.cover_of_tiledL (rD V c t h7 h23 pa pr).2.1 S1x2048.size (by sl_kernel_rfl) y
theorem cov_resD (c : Dev nD) (t : Fin cfg1.N) (h7 : t.val % 8 = 7) (h23 : ¬t.val % 24 = 23) (pa : Vec F S1x2048 .f32) (pr : Vec F S3x2048 .f32) (y : S3x2048.Idx) : ∃ pc ∈ (rD V c t h7 h23 pa pr).1, y ∈ pc.1.set :=
  View.cover_of_tiledL (rD V c t h7 h23 pa pr).1 S3x2048.size (by sl_kernel_rfl) y

def outE (c : Dev nD) (t : Fin cfg1.N) (h23 : t.val % 24 = 23) (pa : Vec F S1x2048 .f32) (pr : Vec F S3x2048 .f32) : Vec F S3x2048 .f32 := VO.read (Elt F) (VO.writes (Elt F) VO.junk (rE V c t h23 pa pr).1)
def resE (c : Dev nD) (t : Fin cfg1.N) (h23 : t.val % 24 = 23) (pa : Vec F S1x2048 .f32) (pr : Vec F S3x2048 .f32) : Vec F S3x2048 .f32 := VR.read (Elt F) (VR.writes (Elt F) VR.junk (rE V c t h23 pa pr).2.1)
def accE (c : Dev nD) (t : Fin cfg1.N) (h23 : t.val % 24 = 23) (pa : Vec F S1x2048 .f32) (pr : Vec F S3x2048 .f32) : Vec F S1x2048 .f32 := VA.read (Elt F) (VA.writes (Elt F) VA.junk (rE V c t h23 pa pr).2.2.1)
theorem cov_outE (c : Dev nD) (t : Fin cfg1.N) (h23 : t.val % 24 = 23) (pa : Vec F S1x2048 .f32) (pr : Vec F S3x2048 .f32) (y : S3x2048.Idx) : ∃ pc ∈ (rE V c t h23 pa pr).1, y ∈ pc.1.set :=
  View.cover_of_tiledL (rE V c t h23 pa pr).1 S3x2048.size (by sl_kernel_rfl) y
theorem cov_resE (c : Dev nD) (t : Fin cfg1.N) (h23 : t.val % 24 = 23) (pa : Vec F S1x2048 .f32) (pr : Vec F S3x2048 .f32) (y : S3x2048.Idx) : ∃ pc ∈ (rE V c t h23 pa pr).2.1, y ∈ pc.1.set :=
  View.cover_of_tiledL (rE V c t h23 pa pr).2.1 S3x2048.size (by sl_kernel_rfl) y
theorem cov_accE (c : Dev nD) (t : Fin cfg1.N) (h23 : t.val % 24 = 23) (pa : Vec F S1x2048 .f32) (pr : Vec F S3x2048 .f32) (y : S1x2048.Idx) : ∃ pc ∈ (rE V c t h23 pa pr).2.2.1, y ∈ pc.1.set :=
  View.cover_of_tiledL (rE V c t h23 pa pr).2.2.1 S1x2048.size (by sl_kernel_rfl) y

end Cert.Kernel.R1

end
-- ==== Proof.KR1Data.lean ====
/-
  The second Pallas call as a region: what the output block, the row accumulator and the result buffer hold after each
  grid point (by recursion on the point, each case's stored pieces read back), the invariant that carries the two
  scratch buffers between points, the proof data, and the body obligation by cases on the point's place in its sweep.
-/
import proofs.«110218_j20177756357157_2_alg».proof.Proof.KR1Cases

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulation -/

/-- One point: from what the accumulator and the result buffer held before it (ignored where the point resets them) to
    what the output block (a placeholder where the point does not store into it), the accumulator and the result buffer
    hold after it. -/
def stepAt (c : Dev nD) (t : Fin cfg1.N) (pa : Vec F S1x2048 .f32) (pr : Vec F S3x2048 .f32) :
    Vec F S3x2048 .f32 × Vec F S1x2048 .f32 × Vec F S3x2048 .f32 :=
  if h24 : t.val % 24 = 0 then ((VO.read (Elt F) VO.junk), accA V c t h24, resA V c t h24)
  else if h8 : t.val % 8 = 0 then ((VO.read (Elt F) VO.junk), accB V c t h8 h24, pr)
  else if h23 : t.val % 24 = 23 then (outE V c t h23 pa pr, accE V c t h23 pa pr, resE V c t h23 pa pr)
  else if h7 : t.val % 8 = 7 then ((VO.read (Elt F) VO.junk), accD V c t h7 h23 pa pr, resD V c t h7 h23 pa pr)
  else ((VO.read (Elt F) VO.junk), accC V c t h8 h7 pa, pr)

theorem stepAt_A (c : Dev nD) (t : Fin cfg1.N) (pa pr) (h24 : t.val % 24 = 0) :
    stepAt V c t pa pr = ((VO.read (Elt F) VO.junk), accA V c t h24, resA V c t h24) := dif_pos h24
theorem stepAt_B (c : Dev nD) (t : Fin cfg1.N) (pa pr) (h8 : t.val % 8 = 0) (h24 : ¬t.val % 24 = 0) :
    stepAt V c t pa pr = ((VO.read (Elt F) VO.junk), accB V c t h8 h24, pr) := (dif_neg h24).trans (dif_pos h8)
theorem stepAt_E (c : Dev nD) (t : Fin cfg1.N) (pa pr) (h23 : t.val % 24 = 23) :
    stepAt V c t pa pr = (outE V c t h23 pa pr, accE V c t h23 pa pr, resE V c t h23 pa pr) :=
  (dif_neg (by omega)).trans ((dif_neg (by omega)).trans (dif_pos h23))
theorem stepAt_D (c : Dev nD) (t : Fin cfg1.N) (pa pr) (h7 : t.val % 8 = 7) (h23 : ¬t.val % 24 = 23) :
    stepAt V c t pa pr = ((VO.read (Elt F) VO.junk), accD V c t h7 h23 pa pr, resD V c t h7 h23 pa pr) :=
  (dif_neg (by omega)).trans ((dif_neg (by omega)).trans ((dif_neg h23).trans (dif_pos h7)))
theorem stepAt_C (c : Dev nD) (t : Fin cfg1.N) (pa pr) (h8 : ¬t.val % 8 = 0) (h7 : ¬t.val % 8 = 7) :
    stepAt V c t pa pr = ((VO.read (Elt F) VO.junk), accC V c t h8 h7 pa, pr) :=
  (dif_neg (by omega)).trans ((dif_neg h8).trans ((dif_neg (by omega)).trans (dif_neg h7)))

/-- What the three buffers hold after the point at position `n`. -/
def outsAt (c : Dev nD) : (n : ℕ) → n < cfg1.N → Vec F S3x2048 .f32 × Vec F S1x2048 .f32 × Vec F S3x2048 .f32
  | 0, hn => stepAt V c ⟨0, hn⟩ (VA.read (Elt F) VA.junk) (VR.read (Elt F) VR.junk)
  | n + 1, hn => stepAt V c ⟨n + 1, hn⟩ (outsAt c n (Nat.lt_of_succ_lt hn)).2.1 (outsAt c n (Nat.lt_of_succ_lt hn)).2.2

theorem outsAt_zero (c : Dev nD) (t : Fin cfg1.N) (h : t.val = 0) :
    outsAt V c t.val t.isLt = stepAt V c t (VA.read (Elt F) VA.junk) (VR.read (Elt F) VR.junk) := by
  obtain ⟨n, hn⟩ := t; cases n with
  | zero => rfl
  | succ n => exact absurd h (Nat.succ_ne_zero n)
theorem outsAt_pos (c : Dev nD) (t : Fin cfg1.N) (h : t.val ≠ 0) :
    outsAt V c t.val t.isLt = stepAt V c t (outsAt V c (t.val - 1) (Nat.lt_of_le_of_lt (Nat.sub_le _ _) t.isLt)).2.1 (outsAt V c (t.val - 1) (Nat.lt_of_le_of_lt (Nat.sub_le _ _) t.isLt)).2.2 := by
  obtain ⟨n, hn⟩ := t; cases n with
  | zero => exact absurd rfl h
  | succ n => rfl

/-! ## The invariant -/

/-- Every scoped buffer that is neither a staging buffer of this call nor one of its two scratch buffers, unopened. -/
abbrev RB (c : Dev nD) : sProp 𝕄 :=
  Pipeline.scopedRestBut (Ix := Unit) (Name := ℕ) (U := UR sig nD τ) (Lvl := ℕ) (Val := Elt F) spec1 c [cc1_scratch0, cc1_scratch1]

theorem scopedRest_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))
          ∗ RB (F := F) c) :=
  Pipeline.scopedRest_split_of_list spec1 c [cc1_scratch0, cc1_scratch1] (by decide) (by decide)

/-- The class invariant with the two scratch buffers as memrefs owned at some contents. -/
theorem PhiA_eq (c : Dev nD) :
    (Pipeline.ΦA spec1 c : sProp 𝕄)
      = iprop(iprop(iprop((∃ d, owns (c : Thread nD τ) scA fullShare d) ∗ (∃ d, owns (c : Thread nD τ) scR fullShare d)) ∗ RB (F := F) c) ∗ (∃ r, prngReg c r)) := by
  unfold Pipeline.ΦA; rw [scopedRest_split]; simp only [scA, scR, owns_whole]; rfl

/-- Before the first point the class invariant (the scratch buffers at anything); before a later point the scratch
    buffers at what the point before left in them, the other scoped buffers unopened, the generator register at some state. -/
def PhiS (c : Dev nD) : (n : ℕ) → n ≤ cfg1.N → sProp 𝕄
  | 0, _ => Pipeline.ΦA spec1 c
  | n + 1, hn => iprop(iprop(iprop(owns (c : Thread nD τ) scA fullShare (outsAt V c n hn).2.1 ∗ owns (c : Thread nD τ) scR fullShare (outsAt V c n hn).2.2) ∗ RB (F := F) c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(iprop(owns (c : Thread nD τ) scA fullShare (outsAt V c n hn).2.1 ∗ owns (c : Thread nD τ) scR fullShare (outsAt V c n hn).2.2) ∗ RB (F := F) c) ∗ (∃ r, prngReg c r)) := rfl
theorem PhiS_pos (c : Dev nD) (n : ℕ) (h : n ≤ cfg1.N) (hz : n ≠ 0) :
    PhiS V c n h = iprop(iprop(iprop(owns (c : Thread nD τ) scA fullShare (outsAt V c (n - 1) (by omega)).2.1 ∗ owns (c : Thread nD τ) scR fullShare (outsAt V c (n - 1) (by omega)).2.2) ∗ RB (F := F) c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after_0 (c : Dev nD) (t : Fin cfg1.N) : (dat1 V c).after 0 t = iblk V c 0 t := by dsimp only [dat1]
theorem after_1 (c : Dev nD) (t : Fin cfg1.N) : (dat1 V c).after 1 t = iblk V c 1 t := by dsimp only [dat1]
theorem after_2 (c : Dev nD) (t : Fin cfg1.N) : (dat1 V c).after 2 t = iblk V c 2 t := by dsimp only [dat1]
theorem after_3 (c : Dev nD) (t : Fin cfg1.N) : (dat1 V c).after 3 t = iblk V c 3 t := by dsimp only [dat1]
theorem after_4 (c : Dev nD) (t : Fin cfg1.N) : (dat1 V c).after 4 t = (outsAt V c t.val t.isLt).1 := by dsimp only [dat1]
theorem before_0 (c : Dev nD) (t : Fin cfg1.N) (d) : (dat1 V c).before 0 t d = iblk V c 0 t := before_0_of V (dat1 V c) (A_eq1 V c 0) (after_0 V c) t d
theorem before_1 (c : Dev nD) (t : Fin cfg1.N) (d) : (dat1 V c).before 1 t d = iblk V c 1 t := before_1_of V (dat1 V c) (A_eq1 V c 1) (after_1 V c) t d
theorem before_2 (c : Dev nD) (t : Fin cfg1.N) (d) : (dat1 V c).before 2 t d = iblk V c 2 t := before_2_of V (dat1 V c) (A_eq1 V c 2) (after_2 V c) t d
theorem before_3 (c : Dev nD) (t : Fin cfg1.N) (d) : (dat1 V c).before 3 t d = iblk V c 3 t := before_3_of V (dat1 V c) (A_eq1 V c 3) (after_3 V c) t d

end Cert.Kernel.R1

end
-- ==== Proof.KR1Body.lean ====
/-
  The second Pallas call: the body obligation. At each point the input windows hold their blocks; the point's place in
  its sweep selects the case; the invariant hands the body the two scratch buffers at what the point before left (at
  anything where the point resets them) and takes them back at this point's contents.
-/
import proofs.«110218_j20177756357157_2_alg».proof.Proof.KR1Data

set_option maxRecDepth 16384

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem live0 : ∀ t : Fin cfg1.N, cfg1.idle 0 (grid1.coords t) = false := fun _ => rfl
theorem live1 : ∀ t : Fin cfg1.N, cfg1.idle 1 (grid1.coords t) = false := fun _ => rfl
theorem live2 : ∀ t : Fin cfg1.N, cfg1.idle 2 (grid1.coords t) = false := fun _ => rfl
theorem live3 : ∀ t : Fin cfg1.N, cfg1.idle 3 (grid1.coords t) = false := fun _ => rfl

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (ms0 t) fullShare ((dat1 V c).before 0 t d))
    ∗ (∃ d, owns (c : Thread nD τ) (ms1 t) fullShare ((dat1 V c).before 1 t d))
    ∗ (∃ d, owns (c : Thread nD τ) (ms2 t) fullShare ((dat1 V c).before 2 t d))
    ∗ (∃ d, owns (c : Thread nD τ) (ms3 t) fullShare ((dat1 V c).before 3 t d))
    ∗ (∃ d, owns (c : Thread nD τ) (ms4 t) fullShare ((dat1 V c).before 4 t d)))

/-- and what it returns. -/
def bodyPost (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t)

set_option maxHeartbeats 8000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms0 t) fullShare ((dat1 V c).after 0 t) from by
        unfold Dat.leavesExact; rw [live0 t], after_0,
      show (dat1 V c).leavesExact 1 t = owns (c : Thread nD τ) (ms1 t) fullShare ((dat1 V c).after 1 t) from by
        unfold Dat.leavesExact; rw [live1 t], after_1,
      show (dat1 V c).leavesExact 2 t = owns (c : Thread nD τ) (ms2 t) fullShare ((dat1 V c).after 2 t) from by
        unfold Dat.leavesExact; rw [live2 t], after_2,
      show (dat1 V c).leavesExact 3 t = owns (c : Thread nD τ) (ms3 t) fullShare ((dat1 V c).after 3 t) from by
        unfold Dat.leavesExact; rw [live3 t], after_3]
  have hN : t.val < 48 := lt_of_lt_of_eq t.isLt (show cfg1.N = 48 from N_1)
  by_cases h24 : t.val % 24 = 0
  · -- b = 0, k = 0: both scratch buffers are reset
    rw [Dat.leavesExact_idle (dat1 V c) 4 t (idle_out t (condsA t h24).2.2.2) (noflush_out t (condsA t h24).2.2.2)]
    by_cases hz : t.val = 0
    · rw [outsAt_zero V c t hz, stepAt_A V c t _ _ h24]
      unfold accA resA; dsimp only
      rw [PhiS_castSucc V c t, PhiS_zero V c _ _ hz, PhiA_eq]
      iintro ⟨⟨⟨⟨HSA, HSR⟩, HRB⟩, Hg⟩, Ho, ⟨%d0, H0⟩, ⟨%d1, H1⟩, ⟨%d2, H2⟩, ⟨%d3, H3⟩, ⟨%d4, H4⟩⟩
      iapply ((rA V c t h24).2.2 _ Set.univ _)
      isplitl [H0]; · iexact H0
      isplitl [H1]; · iexact H1
      isplitl [H2]; · iexact H2
      isplitl [H3]; · iexact H3
      isplitl [H4]; · iexact H4
      isplitl [HSA]; · iexact HSA
      isplitl [HSR]; · iexact HSR
      iintro ⟨H0, H1, H2, H3, H4, ⟨%ea, HSA⟩, ⟨%er, HSR⟩⟩
      isplitl [HSA HSR HRB Hg]
      · isplitl [HSA HSR HRB]
        · isplitl [HSA HSR]
          · isplitl [HSA]
            · unfold owns; iexists _; isplitr
              swap; · iexact HSA
              ipureintro; exact View.read_writes_of_cover _ _ _ _ _ (cov_accA V c t h24)
            unfold owns; iexists _; isplitr
            swap; · iexact HSR
            ipureintro; exact View.read_writes_of_cover _ _ _ _ _ (cov_resA V c t h24)
          iexact HRB
        iexact Hg
      isplitl [Ho]; · iexact Ho
      isplitl [H0]; · iexact H0
      isplitl [H1]; · iexact H1
      isplitl [H2]; · iexact H2
      isplitl [H3]; · iexact H3
      iexists _; iexact H4
    · rw [outsAt_pos V c t hz, stepAt_A V c t _ _ h24]
      unfold accA resA; dsimp only
      rw [PhiS_castSucc V c t, PhiS_pos V c _ _ hz]
      iintro ⟨⟨⟨⟨HSA, HSR⟩, HRB⟩, Hg⟩, Ho, ⟨%d0, H0⟩, ⟨%d1, H1⟩, ⟨%d2, H2⟩, ⟨%d3, H3⟩, ⟨%d4, H4⟩⟩
      iapply ((rA V c t h24).2.2 _ Set.univ _)
      isplitl [H0]; · iexact H0
      isplitl [H1]; · iexact H1
      isplitl [H2]; · iexact H2
      isplitl [H3]; · iexact H3
      isplitl [H4]; · iexact H4
      isplitl [HSA]; · iexists _; iexact HSA
      isplitl [HSR]; · iexists _; iexact HSR
      iintro ⟨H0, H1, H2, H3, H4, ⟨%ea, HSA⟩, ⟨%er, HSR⟩⟩
      isplitl [HSA HSR HRB Hg]
      · isplitl [HSA HSR HRB]
        · isplitl [HSA HSR]
          · isplitl [HSA]
            · unfold owns; iexists _; isplitr
              swap; · iexact HSA
              ipureintro; exact View.read_writes_of_cover _ _ _ _ _ (cov_accA V c t h24)
            unfold owns; iexists _; isplitr
            swap; · iexact HSR
            ipureintro; exact View.read_writes_of_cover _ _ _ _ _ (cov_resA V c t h24)
          iexact HRB
        iexact Hg
      isplitl [Ho]; · iexact Ho
      isplitl [H0]; · iexact H0
      isplitl [H1]; · iexact H1
      isplitl [H2]; · iexact H2
      isplitl [H3]; · iexact H3
      iexists _; iexact H4
  · by_cases h8 : t.val % 8 = 0
    · -- k = 0, b ≠ 0: the accumulator is reset, the result buffer carried
      have hz : t.val ≠ 0 := by omega
      rw [Dat.leavesExact_idle (dat1 V c) 4 t (idle_out t (condsB t h8 h24).2.2.2) (noflush_out t (condsB t h8 h24).2.2.2)]
      rw [outsAt_pos V c t hz, stepAt_B V c t _ _ h8 h24]
      unfold accB; dsimp only
      rw [PhiS_castSucc V c t, PhiS_pos V c _ _ hz]
      iintro ⟨⟨⟨⟨HSA, HSR⟩, HRB⟩, Hg⟩, Ho, ⟨%d0, H0⟩, ⟨%d1, H1⟩, ⟨%d2, H2⟩, ⟨%d3, H3⟩, ⟨%d4, H4⟩⟩
      iapply ((rB V c t h8 h24).2 _ _ Set.univ _)
      isplitl [H0]; · iexact H0
      isplitl [H1]; · iexact H1
      isplitl [H2]; · iexact H2
      isplitl [H3]; · iexact H3
      isplitl [H4]; · iexact H4
      isplitl [HSA]; · iexists _; iexact HSA
      isplitl [HSR]; · iexact HSR
      iintro ⟨H0, H1, H2, H3, H4, ⟨%ea, HSA⟩, HSR⟩
      isplitl [HSA HSR HRB Hg]
      · isplitl [HSA HSR HRB]
        · isplitl [HSA HSR]
          · isplitl [HSA]
            · unfold owns; iexists _; isplitr
              swap; · iexact HSA
              ipureintro; exact View.read_writes_of_cover _ _ _ _ _ (cov_accB V c t h8 h24)
            iexact HSR
          iexact HRB
        iexact Hg
      isplitl [Ho]; · iexact Ho
      isplitl [H0]; · iexact H0
      isplitl [H1]; · iexact H1
      isplitl [H2]; · iexact H2
      isplitl [H3]; · iexact H3
      iexists _; iexact H4
    · by_cases h23 : t.val % 24 = 23
      · -- b = 2, k = 7: the last partial product, the clamp into row 2, the copy out
        have hz : t.val ≠ 0 := by omega
        rw [show (dat1 V c).leavesExact 4 t = owns (c : Thread nD τ) (ms4 t) fullShare ((dat1 V c).after 4 t) from by
              unfold Dat.leavesExact; rw [live_out t (condsE t h23).2.2.2], after_4]
        rw [outsAt_pos V c t hz, stepAt_E V c t _ _ h23]
        unfold outE accE resE; dsimp only
        rw [PhiS_castSucc V c t, PhiS_pos V c _ _ hz]
        iintro ⟨⟨⟨⟨HSA, HSR⟩, HRB⟩, Hg⟩, Ho, ⟨%d0, H0⟩, ⟨%d1, H1⟩, ⟨%d2, H2⟩, ⟨%d3, H3⟩, ⟨%d4, H4⟩⟩
        iapply ((rE V c t h23 (outsAt V c (t.val - 1) (Nat.lt_of_le_of_lt (Nat.sub_le _ _) t.isLt)).2.1 (outsAt V c (t.val - 1) (Nat.lt_of_le_of_lt (Nat.sub_le _ _) t.isLt)).2.2).2.2.2 Set.univ _)
        isplitl [H0]; · iexact H0
        isplitl [H1]; · iexact H1
        isplitl [H2]; · iexact H2
        isplitl [H3]; · iexact H3
        isplitl [H4]; · iexists _; iexact H4
        isplitl [HSA]; · iexact HSA
        isplitl [HSR]; · iexact HSR
        iintro ⟨H0, H1, H2, H3, ⟨%eo, H4⟩, ⟨%ea, HSA⟩, ⟨%er, HSR⟩⟩
        isplitl [HSA HSR HRB Hg]
        · isplitl [HSA HSR HRB]
          · isplitl [HSA HSR]
            · isplitl [HSA]
              · unfold owns; iexists _; isplitr
                swap; · iexact HSA
                ipureintro; exact View.read_writes_of_cover _ _ _ _ _ (cov_accE V c t h23 _ _)
              unfold owns; iexists _; isplitr
              swap; · iexact HSR
              ipureintro; exact View.read_writes_of_cover _ _ _ _ _ (cov_resE V c t h23 _ _)
            iexact HRB
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cov_outE V c t h23 _ _)
      · by_cases h7 : t.val % 8 = 7
        · -- k = 7, b ≠ 2: the last partial product and the clamp into row b
          have hz : t.val ≠ 0 := by omega
          rw [Dat.leavesExact_idle (dat1 V c) 4 t (idle_out t (condsD t h7 h23).2.2.2) (noflush_out t (condsD t h7 h23).2.2.2)]
          rw [outsAt_pos V c t hz, stepAt_D V c t _ _ h7 h23]
          unfold accD resD; dsimp only
          rw [PhiS_castSucc V c t, PhiS_pos V c _ _ hz]
          iintro ⟨⟨⟨⟨HSA, HSR⟩, HRB⟩, Hg⟩, Ho, ⟨%d0, H0⟩, ⟨%d1, H1⟩, ⟨%d2, H2⟩, ⟨%d3, H3⟩, ⟨%d4, H4⟩⟩
          iapply ((rD V c t h7 h23 (outsAt V c (t.val - 1) (Nat.lt_of_le_of_lt (Nat.sub_le _ _) t.isLt)).2.1 (outsAt V c (t.val - 1) (Nat.lt_of_le_of_lt (Nat.sub_le _ _) t.isLt)).2.2).2.2 _ Set.univ _)
          isplitl [H0]; · iexact H0
          isplitl [H1]; · iexact H1
          isplitl [H2]; · iexact H2
          isplitl [H3]; · iexact H3
          isplitl [H4]; · iexact H4
          isplitl [HSA]; · iexact HSA
          isplitl [HSR]; · iexact HSR
          iintro ⟨H0, H1, H2, H3, H4, ⟨%ea, HSA⟩, ⟨%er, HSR⟩⟩
          isplitl [HSA HSR HRB Hg]
          · isplitl [HSA HSR HRB]
            · isplitl [HSA HSR]
              · isplitl [HSA]
                · unfold owns; iexists _; isplitr
                  swap; · iexact HSA
                  ipureintro; exact View.read_writes_of_cover _ _ _ _ _ (cov_accD V c t h7 h23 _ _)
                unfold owns; iexists _; isplitr
                swap; · iexact HSR
                ipureintro; exact View.read_writes_of_cover _ _ _ _ _ (cov_resD V c t h7 h23 _ _)
              iexact HRB
            iexact Hg
          isplitl [Ho]; · iexact Ho
          isplitl [H0]; · iexact H0
          isplitl [H1]; · iexact H1
          isplitl [H2]; · iexact H2
          isplitl [H3]; · iexact H3
          iexists _; iexact H4
        · -- 0 < k < 7: one more partial product into the accumulator
          have hz : t.val ≠ 0 := by omega
          rw [Dat.leavesExact_idle (dat1 V c) 4 t (idle_out t (condsC t h8 h7).2.2.2) (noflush_out t (condsC t h8 h7).2.2.2)]
          rw [outsAt_pos V c t hz, stepAt_C V c t _ _ h8 h7]
          unfold accC; dsimp only
          rw [PhiS_castSucc V c t, PhiS_pos V c _ _ hz]
          iintro ⟨⟨⟨⟨HSA, HSR⟩, HRB⟩, Hg⟩, Ho, ⟨%d0, H0⟩, ⟨%d1, H1⟩, ⟨%d2, H2⟩, ⟨%d3, H3⟩, ⟨%d4, H4⟩⟩
          iapply ((rC V c t h8 h7 (outsAt V c (t.val - 1) (Nat.lt_of_le_of_lt (Nat.sub_le _ _) t.isLt)).2.1).2 _ _ Set.univ _)
          isplitl [H0]; · iexact H0
          isplitl [H1]; · iexact H1
          isplitl [H2]; · iexact H2
          isplitl [H3]; · iexact H3
          isplitl [H4]; · iexact H4
          isplitl [HSA]; · iexact HSA
          isplitl [HSR]; · iexact HSR
          iintro ⟨H0, H1, H2, H3, H4, ⟨%ea, HSA⟩, HSR⟩
          isplitl [HSA HSR HRB Hg]
          · isplitl [HSA HSR HRB]
            · isplitl [HSA HSR]
              · isplitl [HSA]
                · unfold owns; iexists _; isplitr
                  swap; · iexact HSA
                  ipureintro; exact View.read_writes_of_cover _ _ _ _ _ (cov_accC V c t h8 h7 _)
                iexact HSR
              iexact HRB
            iexact Hg
          isplitl [Ho]; · iexact Ho
          isplitl [H0]; · iexact H0
          isplitl [H1]; · iexact H1
          isplitl [H2]; · iexact H2
          isplitl [H3]; · iexact H3
          iexists _; iexact H4

/-- The body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point, -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- and after the last point the invariant gives it back, the scratch buffers' contents forgotten. -/
theorem hout1 (c : Dev nD) : (dat1 V c).Φ (Fin.last cfg1.N) ⊢ Pipeline.ΦA spec1 c := by
  have hne : (Fin.last cfg1.N).val ≠ 0 := by rw [Fin.val_last]; have : cfg1.N = 48 := N_1; omega
  rw [show (dat1 V c).Φ (Fin.last cfg1.N) = PhiS V c (Fin.last cfg1.N).val (Nat.le_of_lt_succ (Fin.last cfg1.N).isLt) from rfl,
    PhiS_pos V c _ _ hne, PhiA_eq]
  iintro ⟨⟨⟨HSA, HSR⟩, HRB⟩, Hg⟩
  isplitl [HSA HSR HRB]
  · isplitl [HSA HSR]
    · isplitl [HSA]
      · iexists _; iexact HSA
      iexists _; iexact HSR
    iexact HRB
  iexact Hg

end Cert.Kernel.R1

end
-- ==== Proof.KR2Base.lean ====
/-
  The third Pallas call (the second matvec layer of the three branches), as the pipeline runs it: what is shared by the
  runs of its body in the five cases of its conditionals. A grid point is (n, b, k) with n < 2 the column tile, b < 3 the
  branch and k < 8 the row tile; in the linear order t = 24 n + 8 b + k. The body zeroes the row accumulator when k = 0,
  zeroes the three-row result buffer when b = k = 0, adds the selected branch's 512-row partial product into the
  accumulator, at k = 7 writes max(acc, 0) into row b of the result buffer, and at b = 2, k = 7 copies the result buffer
  into the output block.
-/
import proofs.«110218_j20177756357157_2_alg».proof.Proof.Gen.Kernel.Launch
import proofs.«110218_j20177756357157_2_alg».proof.Proof.Gen.Kernel.Skeleton
import proofs.«110218_j20177756357157_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, in closed form over the linear order of the grid -/

/-- k = 0: the accumulator is reset. -/
abbrev cA (i : grid2.Coords) : Prop := (Scalar.cmpi .ne (Scalar.extui (Scalar.cmpi .eq (BitVec.ofNat 32 (i 2).val) 0#32)) 0#32) = 1#1
/-- b = 0 and k = 0: the result buffer is reset. -/
abbrev cB (i : grid2.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- k = 7: the accumulator is finished and clamped into row b. -/
abbrev cC (i : grid2.Coords) : Prop := (Scalar.cmpi .ne (Scalar.extui (Scalar.cmpi .eq (BitVec.ofNat 32 (i 2).val) 7#32)) 0#32) = 1#1
/-- b = 2 and k = 7: the result buffer is copied out. -/
abbrev cD (i : grid2.Coords) : Prop := k2_cond4 i = 1#1

theorem hcA : ∀ t : Fin cfg2.N, cA (grid2.coords t) ↔ t.val % 8 = 0 :=
  (by decide +kernel : ∀ t : Fin grid2.N, cA (grid2.coords t) ↔ t.val % 8 = 0)
theorem hcB : ∀ t : Fin cfg2.N, cB (grid2.coords t) ↔ t.val % 24 = 0 :=
  (by decide +kernel : ∀ t : Fin grid2.N, cB (grid2.coords t) ↔ t.val % 24 = 0)
theorem hcC : ∀ t : Fin cfg2.N, cC (grid2.coords t) ↔ t.val % 8 = 7 :=
  (by decide +kernel : ∀ t : Fin grid2.N, cC (grid2.coords t) ↔ t.val % 8 = 7)
theorem hcD : ∀ t : Fin cfg2.N, cD (grid2.coords t) ↔ t.val % 24 = 23 :=
  (by decide +kernel : ∀ t : Fin grid2.N, cD (grid2.coords t) ↔ t.val % 24 = 23)

/-! ## Where the output window is idle -/

theorem live_in (w : Fin cfg2.W) (hw : w.val < 4) : ∀ i, cfg2.idle w i = false := by
  intro i; match w, hw with
  | ⟨0, _⟩, _ => rfl | ⟨1, _⟩, _ => rfl | ⟨2, _⟩, _ => rfl | ⟨3, _⟩, _ => rfl
theorem idle_out : ∀ t : Fin cfg2.N, ¬cD (grid2.coords t) → cfg2.idle 4 (grid2.coords t) = true := by decide +kernel
theorem noflush_out : ∀ t : Fin cfg2.N, ¬cD (grid2.coords t) → (cfg2.win 4).flush t = false := by decide +kernel
theorem live_out : ∀ t : Fin cfg2.N, cD (grid2.coords t) → cfg2.idle 4 (grid2.coords t) = false := by decide +kernel

/-! ## The memrefs the body is called with -/

abbrev ms0 (t : Fin cfg2.N) : Memref sig .tc .vmem S3x512 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S512x2048 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S512x2048 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S512x2048 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S3x2048 .f32 := win2_4.stage (cfg2.slots t 4)
abbrev hs4 (t : Fin cfg2.N) : (ms4 t).IsWhole := hstage2_4 ((cfg2.slots t 4).cast nbuf2_4)
/-- The row accumulator and the three-row result buffer: scratch the kernel carries from point to point. -/
abbrev scA : Memref sig .tc .vmem S1x2048 .f32 := Memref.whole cc2_scratch0
abbrev scR : Memref sig .tc .vmem S3x2048 .f32 := Memref.whole cc2_scratch1
abbrev VA : View sig .tc .vmem S1x2048 .f32 := (scA).view
abbrev VR : View sig .tc .vmem S3x2048 .f32 := (scR).view
abbrev VO : View sig .tc .vmem S3x2048 .f32 := (Memref.whole cc2_stg4_0 : Memref sig .tc .vmem S3x2048 .f32).view

end Cert.Kernel.R2

end
-- ==== Proof.KR2RunA.lean ====
/-
  The body at a point with b = 0 and k = 0: both resets are taken. The accumulator and the result buffer, found at any
  contents, are zeroed; the selected branch's partial product is added into the accumulator; the output block is not touched.
-/
import proofs.«110218_j20177756357157_2_alg».proof.Proof.KR2Base

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each buffer the body stores into ends with (last store first), with the body's run to its return from the
    four input blocks at their contents, a buffer the case does not store into handed back as found. -/
noncomputable def runA (c : Dev nD) (i : grid2.Coords) (arg3 : Memref sig .tc .vmem S3x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (arg7 : Memref sig .tc .vmem S3x2048 .f32) (harg7 : arg7.IsWhole) (arg8 : Memref sig .tc .vmem S1x2048 .f32) (harg8 : arg8.IsWhole) (arg9 : Memref sig .tc .vmem S3x2048 .f32) (harg9 : arg9.IsWhole) (hA : cA i) (hB : cB i) (hC : ¬cC i) (hD : ¬cD i)
    (x0 : Vec F S3x512 .f32) (x1 : Vec F S512x2048 .f32) (x2 : Vec F S512x2048 .f32) (x3 : Vec F S512x2048 .f32) :
    Σ' (LR : List (View.Piece (Elt F) S3x2048 .f32)), { LA : List (View.Piece (Elt F) S1x2048 .f32) //
      ∀ (xo : Vec F S3x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LR)) -∗ K ⟨⟩))
          ⊢ wp frame (wpE (defs₀ (F := F)) Variants.none c none) E (cc2__fused_mlp_kernel i arg3 harg3 arg4 harg4 arg5 harg5 arg6 harg6 arg7 harg7 arg8 harg8 arg9 harg9) K } := by
  refine ⟨?_, ?_, fun xo E K => ?run⟩
  case run =>
    simp only [cc2__fused_mlp_kernel_eq_skeleton]; unfold cc2__fused_mlp_kernel_skel
    unfold owns
    iintro ⟨⟨%f0, %hf0, H0⟩, ⟨%f1, %hf1, H1⟩, ⟨%f2, %hf2, H2⟩, ⟨%f3, %hf3, H3⟩, ⟨%fo, %hfo, HO⟩, ⟨%dA, %fa, -, HA⟩, ⟨%dR, %fr, -, HR⟩, Hk⟩
    obtain rfl := harg3.eq_unread hf0; obtain rfl := harg4.eq_unread hf1; obtain rfl := harg5.eq_unread hf2; obtain rfl := harg6.eq_unread hf3
    obtain rfl := harg7.eq_unread hfo
    sl_exec (disch := first | exact hA | exact hB | exact hC | exact hD)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    isplitl [HA]
    · iexists _; iexact HA
    iexists _; iexact HR

end Cert.Kernel.R2

end
-- ==== Proof.KR2RunB.lean ====
/-
  The body at a point with k = 0 and b ≠ 0: the accumulator, found at any contents, is zeroed and added the selected branch's
  partial product; the result buffer, found at what the point before left, and the output block are not touched.
-/
import proofs.«110218_j20177756357157_2_alg».proof.Proof.KR2Base

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each buffer the body stores into ends with (last store first), with the body's run to its return from the
    four input blocks at their contents, a buffer the case does not store into handed back as found. -/
noncomputable def runB (c : Dev nD) (i : grid2.Coords) (arg3 : Memref sig .tc .vmem S3x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (arg7 : Memref sig .tc .vmem S3x2048 .f32) (harg7 : arg7.IsWhole) (arg8 : Memref sig .tc .vmem S1x2048 .f32) (harg8 : arg8.IsWhole) (arg9 : Memref sig .tc .vmem S3x2048 .f32) (harg9 : arg9.IsWhole) (hA : cA i) (hB : ¬cB i) (hC : ¬cC i) (hD : ¬cD i)
    (x0 : Vec F S3x512 .f32) (x1 : Vec F S512x2048 .f32) (x2 : Vec F S512x2048 .f32) (x3 : Vec F S512x2048 .f32) :
    { LA : List (View.Piece (Elt F) S1x2048 .f32) //
      ∀ (xo : Vec F S3x2048 .f32) (xs1 : Vec F S3x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ (∃ d, owns (c : Thread nD τ) arg8 fullShare d) ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ (∃ f, arg8.view.loc (c : Thread nD τ) ↦[arg8.view.set]{fullShare} arg8.view.writes (Elt F) f LA) ∗ owns (c : Thread nD τ) arg9 fullShare xs1) -∗ K ⟨⟩))
          ⊢ wp frame (wpE (defs₀ (F := F)) Variants.none c none) E (cc2__fused_mlp_kernel i arg3 harg3 arg4 harg4 arg5 harg5 arg6 harg6 arg7 harg7 arg8 harg8 arg9 harg9) K } := by
  refine ⟨?_, fun xo xs1 E K => ?run⟩
  case run =>
    simp only [cc2__fused_mlp_kernel_eq_skeleton]; unfold cc2__fused_mlp_kernel_skel
    unfold owns
    iintro ⟨⟨%f0, %hf0, H0⟩, ⟨%f1, %hf1, H1⟩, ⟨%f2, %hf2, H2⟩, ⟨%f3, %hf3, H3⟩, ⟨%fo, %hfo, HO⟩, ⟨%dA, %fa, -, HA⟩, ⟨%fr, %hfr, HR⟩, Hk⟩
    obtain rfl := harg3.eq_unread hf0; obtain rfl := harg4.eq_unread hf1; obtain rfl := harg5.eq_unread hf2; obtain rfl := harg6.eq_unread hf3
    obtain rfl := harg7.eq_unread hfo; obtain rfl := harg9.eq_unread hfr
    sl_exec (disch := first | exact hA | exact hB | exact hC | exact hD)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    isplitl [HA]
    · iexists _; iexact HA
    iexists _; isplitr; · ipureintro; exact harg9.read_unread _
    iexact HR

end Cert.Kernel.R2

end
-- ==== Proof.KR2RunC.lean ====
/-
  The body at a point with 0 < k < 7: no branch is taken. The accumulator, found at what the point before left, is added
  the selected branch's partial product and stored back; the result buffer and the output block are not touched.
-/
import proofs.«110218_j20177756357157_2_alg».proof.Proof.KR2Base

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the accumulator ends with (its one whole store), with the body's run: from the four input blocks at their
    contents, the output block and the result buffer at any contents (handed back as found) and the accumulator at
    `xs0`, the body runs to its return. -/
noncomputable def runC (c : Dev nD) (i : grid2.Coords) (arg3 : Memref sig .tc .vmem S3x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (arg7 : Memref sig .tc .vmem S3x2048 .f32) (harg7 : arg7.IsWhole) (arg8 : Memref sig .tc .vmem S1x2048 .f32) (harg8 : arg8.IsWhole) (arg9 : Memref sig .tc .vmem S3x2048 .f32) (harg9 : arg9.IsWhole) (hA : ¬cA i) (hB : ¬cB i) (hC : ¬cC i) (hD : ¬cD i)
    (x0 : Vec F S3x512 .f32) (x1 : Vec F S512x2048 .f32) (x2 : Vec F S512x2048 .f32) (x3 : Vec F S512x2048 .f32) (xs0 : Vec F S1x2048 .f32) :
    { LA : List (View.Piece (Elt F) S1x2048 .f32) //
      ∀ (xo : Vec F S3x2048 .f32) (xs1 : Vec F S3x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ (∃ f, arg8.view.loc (c : Thread nD τ) ↦[arg8.view.set]{fullShare} arg8.view.writes (Elt F) f LA) ∗ owns (c : Thread nD τ) arg9 fullShare xs1) -∗ K ⟨⟩))
          ⊢ wp frame (wpE (defs₀ (F := F)) Variants.none c none) E (cc2__fused_mlp_kernel i arg3 harg3 arg4 harg4 arg5 harg5 arg6 harg6 arg7 harg7 arg8 harg8 arg9 harg9) K } := by
  refine ⟨?_, fun xo xs1 E K => ?run⟩
  case run =>
    simp only [cc2__fused_mlp_kernel_eq_skeleton]; unfold cc2__fused_mlp_kernel_skel
    unfold owns
    iintro ⟨⟨%f0, %hf0, H0⟩, ⟨%f1, %hf1, H1⟩, ⟨%f2, %hf2, H2⟩, ⟨%f3, %hf3, H3⟩, ⟨%fo, %hfo, HO⟩, ⟨%fa, %hfa, HA⟩, ⟨%fr, %hfr, HR⟩, Hk⟩
    obtain rfl := harg3.eq_unread hf0; obtain rfl := harg4.eq_unread hf1; obtain rfl := harg5.eq_unread hf2; obtain rfl := harg6.eq_unread hf3
    obtain rfl := harg7.eq_unread hfo; obtain rfl := harg8.eq_unread hfa; obtain rfl := harg9.eq_unread hfr
    sl_exec (disch := first | exact hA | exact hB | exact hC | exact hD)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    isplitl [HA]
    · iexists _; iexact HA
    iexists _; isplitr; · ipureintro; exact harg9.read_unread _
    iexact HR

end Cert.Kernel.R2

end
-- ==== Proof.KR2RunD.lean ====
/-
  The body at a point with k = 7 and b ≠ 2: the accumulator, found at what the point before left, is added the last partial
  product, and its clamp at zero is written into row b of the result buffer; the output block is not touched.
-/
import proofs.«110218_j20177756357157_2_alg».proof.Proof.KR2Base

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each buffer the body stores into ends with (last store first), with the body's run to its return from the
    four input blocks at their contents, a buffer the case does not store into handed back as found. -/
noncomputable def runD (c : Dev nD) (i : grid2.Coords) (arg3 : Memref sig .tc .vmem S3x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (arg7 : Memref sig .tc .vmem S3x2048 .f32) (harg7 : arg7.IsWhole) (arg8 : Memref sig .tc .vmem S1x2048 .f32) (harg8 : arg8.IsWhole) (arg9 : Memref sig .tc .vmem S3x2048 .f32) (harg9 : arg9.IsWhole) (hA : ¬cA i) (hB : ¬cB i) (hC : cC i) (hD : ¬cD i)
    (x0 : Vec F S3x512 .f32) (x1 : Vec F S512x2048 .f32) (x2 : Vec F S512x2048 .f32) (x3 : Vec F S512x2048 .f32) (xs0 : Vec F S1x2048 .f32) (xs1 : Vec F S3x2048 .f32) :
    Σ' (LR : List (View.Piece (Elt F) S3x2048 .f32)), { LA : List (View.Piece (Elt F) S1x2048 .f32) //
      ∀ (xo : Vec F S3x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LR)) -∗ K ⟨⟩))
          ⊢ wp frame (wpE (defs₀ (F := F)) Variants.none c none) E (cc2__fused_mlp_kernel i arg3 harg3 arg4 harg4 arg5 harg5 arg6 harg6 arg7 harg7 arg8 harg8 arg9 harg9) K } := by
  refine ⟨?_, ?_, fun xo E K => ?run⟩
  case run =>
    simp only [cc2__fused_mlp_kernel_eq_skeleton]; unfold cc2__fused_mlp_kernel_skel
    unfold owns
    iintro ⟨⟨%f0, %hf0, H0⟩, ⟨%f1, %hf1, H1⟩, ⟨%f2, %hf2, H2⟩, ⟨%f3, %hf3, H3⟩, ⟨%fo, %hfo, HO⟩, ⟨%fa, %hfa, HA⟩, ⟨%fr, %hfr, HR⟩, Hk⟩
    obtain rfl := harg3.eq_unread hf0; obtain rfl := harg4.eq_unread hf1; obtain rfl := harg5.eq_unread hf2; obtain rfl := harg6.eq_unread hf3
    obtain rfl := harg7.eq_unread hfo; obtain rfl := harg8.eq_unread hfa; obtain rfl := harg9.eq_unread hfr
    sl_exec (disch := first | exact hA | exact hB | exact hC | exact hD)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    isplitl [HA]
    · iexists _; iexact HA
    iexists _; iexact HR

end Cert.Kernel.R2

end
-- ==== Proof.KR2RunE.lean ====
/-
  The body at a point with k = 7 and b = 2: as at the other points with k = 7, and then the result buffer is copied whole into
  the output block.
-/
import proofs.«110218_j20177756357157_2_alg».proof.Proof.KR2Base

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each buffer the body stores into ends with (last store first), with the body's run to its return from the
    four input blocks at their contents, a buffer the case does not store into handed back as found. -/
noncomputable def runE (c : Dev nD) (i : grid2.Coords) (arg3 : Memref sig .tc .vmem S3x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (arg7 : Memref sig .tc .vmem S3x2048 .f32) (harg7 : arg7.IsWhole) (arg8 : Memref sig .tc .vmem S1x2048 .f32) (harg8 : arg8.IsWhole) (arg9 : Memref sig .tc .vmem S3x2048 .f32) (harg9 : arg9.IsWhole) (hA : ¬cA i) (hB : ¬cB i) (hC : cC i) (hD : cD i)
    (x0 : Vec F S3x512 .f32) (x1 : Vec F S512x2048 .f32) (x2 : Vec F S512x2048 .f32) (x3 : Vec F S512x2048 .f32) (xs0 : Vec F S1x2048 .f32) (xs1 : Vec F S3x2048 .f32) :
    Σ' (LO : List (View.Piece (Elt F) S3x2048 .f32)), Σ' (LR : List (View.Piece (Elt F) S3x2048 .f32)), { LA : List (View.Piece (Elt F) S1x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LR)) -∗ K ⟨⟩))
          ⊢ wp frame (wpE (defs₀ (F := F)) Variants.none c none) E (cc2__fused_mlp_kernel i arg3 harg3 arg4 harg4 arg5 harg5 arg6 harg6 arg7 harg7 arg8 harg8 arg9 harg9) K } := by
  refine ⟨?_, ?_, ?_, fun E K => ?run⟩
  case run =>
    simp only [cc2__fused_mlp_kernel_eq_skeleton]; unfold cc2__fused_mlp_kernel_skel
    unfold owns
    iintro ⟨⟨%f0, %hf0, H0⟩, ⟨%f1, %hf1, H1⟩, ⟨%f2, %hf2, H2⟩, ⟨%f3, %hf3, H3⟩, ⟨%dO, %fo, -, HO⟩, ⟨%fa, %hfa, HA⟩, ⟨%fr, %hfr, HR⟩, Hk⟩
    obtain rfl := harg3.eq_unread hf0; obtain rfl := harg4.eq_unread hf1; obtain rfl := harg5.eq_unread hf2; obtain rfl := harg6.eq_unread hf3
    obtain rfl := harg8.eq_unread hfa; obtain rfl := harg9.eq_unread hfr
    sl_exec (disch := first | exact hA | exact hB | exact hC | exact hD)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; iexact HO
    isplitl [HA]
    · iexists _; iexact HA
    iexists _; iexact HR

end Cert.Kernel.R2

end
-- ==== Proof.KR2Cases.lean ====
/-
  The third Pallas call as a region of the program: what its buffers hold after each grid point, by recursion on the
  point; the invariant carrying the two scratch buffers from point to point; the proof data; and the body obligation,
  by cases on the point's position in its (b, k) sweep.
-/
import proofs.«110218_j20177756357157_2_alg».proof.Proof.KR2RunA
import proofs.«110218_j20177756357157_2_alg».proof.Proof.KR2RunB
import proofs.«110218_j20177756357157_2_alg».proof.Proof.KR2RunC
import proofs.«110218_j20177756357157_2_alg».proof.Proof.KR2RunD
import proofs.«110218_j20177756357157_2_alg».proof.Proof.KR2RunE

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's unscoped buffers when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not (when it is not fetched its
    block index has not moved), for any proof data over these arrays whose body leaves the block in place. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The position of a point in its sweep decides the conditions -/

theorem condsA (t : Fin cfg2.N) (h : t.val % 24 = 0) : cA (grid2.coords t) ∧ cB (grid2.coords t) ∧ ¬cC (grid2.coords t) ∧ ¬cD (grid2.coords t) :=
  ⟨(hcA t).mpr (by omega), (hcB t).mpr h, fun h' => by have := (hcC t).mp h'; omega, fun h' => by have := (hcD t).mp h'; omega⟩
theorem condsB (t : Fin cfg2.N) (h8 : t.val % 8 = 0) (h24 : ¬t.val % 24 = 0) : cA (grid2.coords t) ∧ ¬cB (grid2.coords t) ∧ ¬cC (grid2.coords t) ∧ ¬cD (grid2.coords t) :=
  ⟨(hcA t).mpr h8, fun h' => h24 ((hcB t).mp h'), fun h' => by have := (hcC t).mp h'; omega, fun h' => by have := (hcD t).mp h'; omega⟩
theorem condsC (t : Fin cfg2.N) (h8 : ¬t.val % 8 = 0) (h7 : ¬t.val % 8 = 7) : ¬cA (grid2.coords t) ∧ ¬cB (grid2.coords t) ∧ ¬cC (grid2.coords t) ∧ ¬cD (grid2.coords t) :=
  ⟨fun h' => h8 ((hcA t).mp h'), fun h' => by have := (hcB t).mp h'; omega, fun h' => h7 ((hcC t).mp h'), fun h' => by have := (hcD t).mp h'; omega⟩
theorem condsD (t : Fin cfg2.N) (h7 : t.val % 8 = 7) (h23 : ¬t.val % 24 = 23) : ¬cA (grid2.coords t) ∧ ¬cB (grid2.coords t) ∧ cC (grid2.coords t) ∧ ¬cD (grid2.coords t) :=
  ⟨fun h' => by have := (hcA t).mp h'; omega, fun h' => by have := (hcB t).mp h'; omega, (hcC t).mpr h7, fun h' => h23 ((hcD t).mp h')⟩
theorem condsE (t : Fin cfg2.N) (h23 : t.val % 24 = 23) : ¬cA (grid2.coords t) ∧ ¬cB (grid2.coords t) ∧ cC (grid2.coords t) ∧ cD (grid2.coords t) :=
  ⟨fun h' => by have := (hcA t).mp h'; omega, fun h' => by have := (hcB t).mp h'; omega, (hcC t).mpr (by omega), (hcD t).mpr h23⟩

/-! ## The body's run at a point, case by case, on the point's memrefs and blocks -/

abbrev rA (c : Dev nD) (t : Fin cfg2.N) (h : t.val % 24 = 0) :=
  runA (F := F) c (grid2.coords t) (ms0 t) (hs0 t) (ms1 t) (hs1 t) (ms2 t) (hs2 t) (ms3 t) (hs3 t) (ms4 t) (hs4 t) scA (Memref.isWhole_whole _) scR (Memref.isWhole_whole _) (condsA t h).1 (condsA t h).2.1 (condsA t h).2.2.1 (condsA t h).2.2.2 (iblk V c 0 t) (iblk V c 1 t) (iblk V c 2 t) (iblk V c 3 t)
abbrev rB (c : Dev nD) (t : Fin cfg2.N) (h8 : t.val % 8 = 0) (h24 : ¬t.val % 24 = 0) :=
  runB (F := F) c (grid2.coords t) (ms0 t) (hs0 t) (ms1 t) (hs1 t) (ms2 t) (hs2 t) (ms3 t) (hs3 t) (ms4 t) (hs4 t) scA (Memref.isWhole_whole _) scR (Memref.isWhole_whole _) (condsB t h8 h24).1 (condsB t h8 h24).2.1 (condsB t h8 h24).2.2.1 (condsB t h8 h24).2.2.2 (iblk V c 0 t) (iblk V c 1 t) (iblk V c 2 t) (iblk V c 3 t)
abbrev rC (c : Dev nD) (t : Fin cfg2.N) (h8 : ¬t.val % 8 = 0) (h7 : ¬t.val % 8 = 7) (pa : Vec F S1x2048 .f32) :=
  runC (F := F) c (grid2.coords t) (ms0 t) (hs0 t) (ms1 t) (hs1 t) (ms2 t) (hs2 t) (ms3 t) (hs3 t) (ms4 t) (hs4 t) scA (Memref.isWhole_whole _) scR (Memref.isWhole_whole _) (condsC t h8 h7).1 (condsC t h8 h7).2.1 (condsC t h8 h7).2.2.1 (condsC t h8 h7).2.2.2 (iblk V c 0 t) (iblk V c 1 t) (iblk V c 2 t) (iblk V c 3 t) pa
abbrev rD (c : Dev nD) (t : Fin cfg2.N) (h7 : t.val % 8 = 7) (h23 : ¬t.val % 24 = 23) (pa : Vec F S1x2048 .f32) (pr : Vec F S3x2048 .f32) :=
  runD (F := F) c (grid2.coords t) (ms0 t) (hs0 t) (ms1 t) (hs1 t) (ms2 t) (hs2 t) (ms3 t) (hs3 t) (ms4 t) (hs4 t) scA (Memref.isWhole_whole _) scR (Memref.isWhole_whole _) (condsD t h7 h23).1 (condsD t h7 h23).2.1 (condsD t h7 h23).2.2.1 (condsD t h7 h23).2.2.2 (iblk V c 0 t) (iblk V c 1 t) (iblk V c 2 t) (iblk V c 3 t) pa pr
abbrev rE (c : Dev nD) (t : Fin cfg2.N) (h23 : t.val % 24 = 23) (pa : Vec F S1x2048 .f32) (pr : Vec F S3x2048 .f32) :=
  runE (F := F) c (grid2.coords t) (ms0 t) (hs0 t) (ms1 t) (hs1 t) (ms2 t) (hs2 t) (ms3 t) (hs3 t) (ms4 t) (hs4 t) scA (Memref.isWhole_whole _) scR (Memref.isWhole_whole _) (condsE t h23).1 (condsE t h23).2.1 (condsE t h23).2.2.1 (condsE t h23).2.2.2 (iblk V c 0 t) (iblk V c 1 t) (iblk V c 2 t) (iblk V c 3 t) pa pr

/-! ## What each case leaves: its stored pieces read back (they cover the buffer, so the read does not depend on what was there) -/

def accA (c : Dev nD) (t : Fin cfg2.N) (h : t.val % 24 = 0) : Vec F S1x2048 .f32 := VA.read (Elt F) (VA.writes (Elt F) VA.junk (rA V c t h).2.1)
def resA (c : Dev nD) (t : Fin cfg2.N) (h : t.val % 24 = 0) : Vec F S3x2048 .f32 := VR.read (Elt F) (VR.writes (Elt F) VR.junk (rA V c t h).1)
theorem cov_accA (c : Dev nD) (t : Fin cfg2.N) (h : t.val % 24 = 0) (y : S1x2048.Idx) : ∃ pc ∈ (rA V c t h).2.1, y ∈ pc.1.set :=
  View.cover_of_tiledL (rA V c t h).2.1 S1x2048.size (by sl_kernel_rfl) y
theorem cov_resA (c : Dev nD) (t : Fin cfg2.N) (h : t.val % 24 = 0) (y : S3x2048.Idx) : ∃ pc ∈ (rA V c t h).1, y ∈ pc.1.set :=
  View.cover_of_tiledL (rA V c t h).1 S3x2048.size (by sl_kernel_rfl) y

def accB (c : Dev nD) (t : Fin cfg2.N) (h8 : t.val % 8 = 0) (h24 : ¬t.val % 24 = 0) : Vec F S1x2048 .f32 := VA.read (Elt F) (VA.writes (Elt F) VA.junk (rB V c t h8 h24).1)
theorem cov_accB (c : Dev nD) (t : Fin cfg2.N) (h8 : t.val % 8 = 0) (h24 : ¬t.val % 24 = 0) (y : S1x2048.Idx) : ∃ pc ∈ (rB V c t h8 h24).1, y ∈ pc.1.set :=
  View.cover_of_tiledL (rB V c t h8 h24).1 S1x2048.size (by sl_kernel_rfl) y

def accC (c : Dev nD) (t : Fin cfg2.N) (h8 : ¬t.val % 8 = 0) (h7 : ¬t.val % 8 = 7) (pa : Vec F S1x2048 .f32) : Vec F S1x2048 .f32 := VA.read (Elt F) (VA.writes (Elt F) VA.junk (rC V c t h8 h7 pa).1)
theorem cov_accC (c : Dev nD) (t : Fin cfg2.N) (h8 : ¬t.val % 8 = 0) (h7 : ¬t.val % 8 = 7) (pa : Vec F S1x2048 .f32) (y : S1x2048.Idx) : ∃ pc ∈ (rC V c t h8 h7 pa).1, y ∈ pc.1.set :=
  View.cover_of_tiledL (rC V c t h8 h7 pa).1 S1x2048.size (by sl_kernel_rfl) y

def accD (c : Dev nD) (t : Fin cfg2.N) (h7 : t.val % 8 = 7) (h23 : ¬t.val % 24 = 23) (pa : Vec F S1x2048 .f32) (pr : Vec F S3x2048 .f32) : Vec F S1x2048 .f32 := VA.read (Elt F) (VA.writes (Elt F) VA.junk (rD V c t h7 h23 pa pr).2.1)
def resD (c : Dev nD) (t : Fin cfg2.N) (h7 : t.val % 8 = 7) (h23 : ¬t.val % 24 = 23) (pa : Vec F S1x2048 .f32) (pr : Vec F S3x2048 .f32) : Vec F S3x2048 .f32 := VR.read (Elt F) (VR.writes (Elt F) VR.junk (rD V c t h7 h23 pa pr).1)
theorem cov_accD (c : Dev nD) (t : Fin cfg2.N) (h7 : t.val % 8 = 7) (h23 : ¬t.val % 24 = 23) (pa : Vec F S1x2048 .f32) (pr : Vec F S3x2048 .f32) (y : S1x2048.Idx) : ∃ pc ∈ (rD V c t h7 h23 pa pr).2.1, y ∈ pc.1.set :=
  View.cover_of_tiledL (rD V c t h7 h23 pa pr).2.1 S1x2048.size (by sl_kernel_rfl) y
theorem cov_resD (c : Dev nD) (t : Fin cfg2.N) (h7 : t.val % 8 = 7) (h23 : ¬t.val % 24 = 23) (pa : Vec F S1x2048 .f32) (pr : Vec F S3x2048 .f32) (y : S3x2048.Idx) : ∃ pc ∈ (rD V c t h7 h23 pa pr).1, y ∈ pc.1.set :=
  View.cover_of_tiledL (rD V c t h7 h23 pa pr).1 S3x2048.size (by sl_kernel_rfl) y

def outE (c : Dev nD) (t : Fin cfg2.N) (h23 : t.val % 24 = 23) (pa : Vec F S1x2048 .f32) (pr : Vec F S3x2048 .f32) : Vec F S3x2048 .f32 := VO.read (Elt F) (VO.writes (Elt F) VO.junk (rE V c t h23 pa pr).1)
def resE (c : Dev nD) (t : Fin cfg2.N) (h23 : t.val % 24 = 23) (pa : Vec F S1x2048 .f32) (pr : Vec F S3x2048 .f32) : Vec F S3x2048 .f32 := VR.read (Elt F) (VR.writes (Elt F) VR.junk (rE V c t h23 pa pr).2.1)
def accE (c : Dev nD) (t : Fin cfg2.N) (h23 : t.val % 24 = 23) (pa : Vec F S1x2048 .f32) (pr : Vec F S3x2048 .f32) : Vec F S1x2048 .f32 := VA.read (Elt F) (VA.writes (Elt F) VA.junk (rE V c t h23 pa pr).2.2.1)
theorem cov_outE (c : Dev nD) (t : Fin cfg2.N) (h23 : t.val % 24 = 23) (pa : Vec F S1x2048 .f32) (pr : Vec F S3x2048 .f32) (y : S3x2048.Idx) : ∃ pc ∈ (rE V c t h23 pa pr).1, y ∈ pc.1.set :=
  View.cover_of_tiledL (rE V c t h23 pa pr).1 S3x2048.size (by sl_kernel_rfl) y
theorem cov_resE (c : Dev nD) (t : Fin cfg2.N) (h23 : t.val % 24 = 23) (pa : Vec F S1x2048 .f32) (pr : Vec F S3x2048 .f32) (y : S3x2048.Idx) : ∃ pc ∈ (rE V c t h23 pa pr).2.1, y ∈ pc.1.set :=
  View.cover_of_tiledL (rE V c t h23 pa pr).2.1 S3x2048.size (by sl_kernel_rfl) y
theorem cov_accE (c : Dev nD) (t : Fin cfg2.N) (h23 : t.val % 24 = 23) (pa : Vec F S1x2048 .f32) (pr : Vec F S3x2048 .f32) (y : S1x2048.Idx) : ∃ pc ∈ (rE V c t h23 pa pr).2.2.1, y ∈ pc.1.set :=
  View.cover_of_tiledL (rE V c t h23 pa pr).2.2.1 S1x2048.size (by sl_kernel_rfl) y

end Cert.Kernel.R2

end
-- ==== Proof.KR2Data.lean ====
/-
  The third Pallas call as a region: what the output block, the row accumulator and the result buffer hold after each
  grid point (by recursion on the point, each case's stored pieces read back), the invariant that carries the two
  scratch buffers between points, the proof data, and the body obligation by cases on the point's place in its sweep.
-/
import proofs.«110218_j20177756357157_2_alg».proof.Proof.KR2Cases

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulation -/

/-- One point: from what the accumulator and the result buffer held before it (ignored where the point resets them) to
    what the output block (a placeholder where the point does not store into it), the accumulator and the result buffer
    hold after it. -/
def stepAt (c : Dev nD) (t : Fin cfg2.N) (pa : Vec F S1x2048 .f32) (pr : Vec F S3x2048 .f32) :
    Vec F S3x2048 .f32 × Vec F S1x2048 .f32 × Vec F S3x2048 .f32 :=
  if h24 : t.val % 24 = 0 then ((VO.read (Elt F) VO.junk), accA V c t h24, resA V c t h24)
  else if h8 : t.val % 8 = 0 then ((VO.read (Elt F) VO.junk), accB V c t h8 h24, pr)
  else if h23 : t.val % 24 = 23 then (outE V c t h23 pa pr, accE V c t h23 pa pr, resE V c t h23 pa pr)
  else if h7 : t.val % 8 = 7 then ((VO.read (Elt F) VO.junk), accD V c t h7 h23 pa pr, resD V c t h7 h23 pa pr)
  else ((VO.read (Elt F) VO.junk), accC V c t h8 h7 pa, pr)

theorem stepAt_A (c : Dev nD) (t : Fin cfg2.N) (pa pr) (h24 : t.val % 24 = 0) :
    stepAt V c t pa pr = ((VO.read (Elt F) VO.junk), accA V c t h24, resA V c t h24) := dif_pos h24
theorem stepAt_B (c : Dev nD) (t : Fin cfg2.N) (pa pr) (h8 : t.val % 8 = 0) (h24 : ¬t.val % 24 = 0) :
    stepAt V c t pa pr = ((VO.read (Elt F) VO.junk), accB V c t h8 h24, pr) := (dif_neg h24).trans (dif_pos h8)
theorem stepAt_E (c : Dev nD) (t : Fin cfg2.N) (pa pr) (h23 : t.val % 24 = 23) :
    stepAt V c t pa pr = (outE V c t h23 pa pr, accE V c t h23 pa pr, resE V c t h23 pa pr) :=
  (dif_neg (by omega)).trans ((dif_neg (by omega)).trans (dif_pos h23))
theorem stepAt_D (c : Dev nD) (t : Fin cfg2.N) (pa pr) (h7 : t.val % 8 = 7) (h23 : ¬t.val % 24 = 23) :
    stepAt V c t pa pr = ((VO.read (Elt F) VO.junk), accD V c t h7 h23 pa pr, resD V c t h7 h23 pa pr) :=
  (dif_neg (by omega)).trans ((dif_neg (by omega)).trans ((dif_neg h23).trans (dif_pos h7)))
theorem stepAt_C (c : Dev nD) (t : Fin cfg2.N) (pa pr) (h8 : ¬t.val % 8 = 0) (h7 : ¬t.val % 8 = 7) :
    stepAt V c t pa pr = ((VO.read (Elt F) VO.junk), accC V c t h8 h7 pa, pr) :=
  (dif_neg (by omega)).trans ((dif_neg h8).trans ((dif_neg (by omega)).trans (dif_neg h7)))

/-- What the three buffers hold after the point at position `n`. -/
def outsAt (c : Dev nD) : (n : ℕ) → n < cfg2.N → Vec F S3x2048 .f32 × Vec F S1x2048 .f32 × Vec F S3x2048 .f32
  | 0, hn => stepAt V c ⟨0, hn⟩ (VA.read (Elt F) VA.junk) (VR.read (Elt F) VR.junk)
  | n + 1, hn => stepAt V c ⟨n + 1, hn⟩ (outsAt c n (Nat.lt_of_succ_lt hn)).2.1 (outsAt c n (Nat.lt_of_succ_lt hn)).2.2

theorem outsAt_zero (c : Dev nD) (t : Fin cfg2.N) (h : t.val = 0) :
    outsAt V c t.val t.isLt = stepAt V c t (VA.read (Elt F) VA.junk) (VR.read (Elt F) VR.junk) := by
  obtain ⟨n, hn⟩ := t; cases n with
  | zero => rfl
  | succ n => exact absurd h (Nat.succ_ne_zero n)
theorem outsAt_pos (c : Dev nD) (t : Fin cfg2.N) (h : t.val ≠ 0) :
    outsAt V c t.val t.isLt = stepAt V c t (outsAt V c (t.val - 1) (Nat.lt_of_le_of_lt (Nat.sub_le _ _) t.isLt)).2.1 (outsAt V c (t.val - 1) (Nat.lt_of_le_of_lt (Nat.sub_le _ _) t.isLt)).2.2 := by
  obtain ⟨n, hn⟩ := t; cases n with
  | zero => exact absurd rfl h
  | succ n => rfl

/-! ## The invariant -/

/-- Every scoped buffer that is neither a staging buffer of this call nor one of its two scratch buffers, unopened. -/
abbrev RB (c : Dev nD) : sProp 𝕄 :=
  Pipeline.scopedRestBut (Ix := Unit) (Name := ℕ) (U := UR sig nD τ) (Lvl := ℕ) (Val := Elt F) spec2 c [cc2_scratch0, cc2_scratch1]

theorem scopedRest_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f))
          ∗ RB (F := F) c) :=
  Pipeline.scopedRest_split_of_list spec2 c [cc2_scratch0, cc2_scratch1] (by decide) (by decide)

/-- The class invariant with the two scratch buffers as memrefs owned at some contents. -/
theorem PhiA_eq (c : Dev nD) :
    (Pipeline.ΦA spec2 c : sProp 𝕄)
      = iprop(iprop(iprop((∃ d, owns (c : Thread nD τ) scA fullShare d) ∗ (∃ d, owns (c : Thread nD τ) scR fullShare d)) ∗ RB (F := F) c) ∗ (∃ r, prngReg c r)) := by
  unfold Pipeline.ΦA; rw [scopedRest_split]; simp only [scA, scR, owns_whole]; rfl

/-- Before the first point the class invariant (the scratch buffers at anything); before a later point the scratch
    buffers at what the point before left in them, the other scoped buffers unopened, the generator register at some state. -/
def PhiS (c : Dev nD) : (n : ℕ) → n ≤ cfg2.N → sProp 𝕄
  | 0, _ => Pipeline.ΦA spec2 c
  | n + 1, hn => iprop(iprop(iprop(owns (c : Thread nD τ) scA fullShare (outsAt V c n hn).2.1 ∗ owns (c : Thread nD τ) scR fullShare (outsAt V c n hn).2.2) ∗ RB (F := F) c) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(iprop(owns (c : Thread nD τ) scA fullShare (outsAt V c n hn).2.1 ∗ owns (c : Thread nD τ) scR fullShare (outsAt V c n hn).2.2) ∗ RB (F := F) c) ∗ (∃ r, prngReg c r)) := rfl
theorem PhiS_pos (c : Dev nD) (n : ℕ) (h : n ≤ cfg2.N) (hz : n ≠ 0) :
    PhiS V c n h = iprop(iprop(iprop(owns (c : Thread nD τ) scA fullShare (outsAt V c (n - 1) (by omega)).2.1 ∗ owns (c : Thread nD τ) scR fullShare (outsAt V c (n - 1) (by omega)).2.2) ∗ RB (F := F) c) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq1 (c : Dev nD) (w : Fin cfg2.W) : (dat2 V c).A w = V c (Pipeline.arrRef spec2 w) := by
  dsimp only [dat2]
theorem PhiS_castSucc (c : Dev nD) (t : Fin cfg2.N) :
    (dat2 V c).Φ t.castSucc = PhiS V c t.val (Nat.le_of_lt t.isLt) := by
  dsimp only [dat2]; simp only [Fin.coe_castSucc]
theorem after_0 (c : Dev nD) (t : Fin cfg2.N) : (dat2 V c).after 0 t = iblk V c 0 t := by dsimp only [dat2]
theorem after_1 (c : Dev nD) (t : Fin cfg2.N) : (dat2 V c).after 1 t = iblk V c 1 t := by dsimp only [dat2]
theorem after_2 (c : Dev nD) (t : Fin cfg2.N) : (dat2 V c).after 2 t = iblk V c 2 t := by dsimp only [dat2]
theorem after_3 (c : Dev nD) (t : Fin cfg2.N) : (dat2 V c).after 3 t = iblk V c 3 t := by dsimp only [dat2]
theorem after_4 (c : Dev nD) (t : Fin cfg2.N) : (dat2 V c).after 4 t = (outsAt V c t.val t.isLt).1 := by dsimp only [dat2]
theorem before_0 (c : Dev nD) (t : Fin cfg2.N) (d) : (dat2 V c).before 0 t d = iblk V c 0 t := before_0_of V (dat2 V c) (A_eq1 V c 0) (after_0 V c) t d
theorem before_1 (c : Dev nD) (t : Fin cfg2.N) (d) : (dat2 V c).before 1 t d = iblk V c 1 t := before_1_of V (dat2 V c) (A_eq1 V c 1) (after_1 V c) t d
theorem before_2 (c : Dev nD) (t : Fin cfg2.N) (d) : (dat2 V c).before 2 t d = iblk V c 2 t := before_2_of V (dat2 V c) (A_eq1 V c 2) (after_2 V c) t d
theorem before_3 (c : Dev nD) (t : Fin cfg2.N) (d) : (dat2 V c).before 3 t d = iblk V c 3 t := before_3_of V (dat2 V c) (A_eq1 V c 3) (after_3 V c) t d

end Cert.Kernel.R2

end
-- ==== Proof.KR2Body.lean ====
/-
  The third Pallas call: the body obligation. At each point the input windows hold their blocks; the point's place in
  its sweep selects the case; the invariant hands the body the two scratch buffers at what the point before left (at
  anything where the point resets them) and takes them back at this point's contents.
-/
import proofs.«110218_j20177756357157_2_alg».proof.Proof.KR2Data

set_option maxRecDepth 16384

noncomputable section

namespace Cert.Kernel.R2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem live0 : ∀ t : Fin cfg2.N, cfg2.idle 0 (grid2.coords t) = false := fun _ => rfl
theorem live1 : ∀ t : Fin cfg2.N, cfg2.idle 1 (grid2.coords t) = false := fun _ => rfl
theorem live2 : ∀ t : Fin cfg2.N, cfg2.idle 2 (grid2.coords t) = false := fun _ => rfl
theorem live3 : ∀ t : Fin cfg2.N, cfg2.idle 3 (grid2.coords t) = false := fun _ => rfl

/-- What the body is called with at point `t`, the windows one by one, -/
def bodyPre (c : Dev nD) (t : Fin cfg2.N) : sProp 𝕄 :=
  iprop((dat2 V c).Φ t.castSucc ∗ (dat2 V c).owesAt () t.castSucc
    ∗ (∃ d, owns (c : Thread nD τ) (ms0 t) fullShare ((dat2 V c).before 0 t d))
    ∗ (∃ d, owns (c : Thread nD τ) (ms1 t) fullShare ((dat2 V c).before 1 t d))
    ∗ (∃ d, owns (c : Thread nD τ) (ms2 t) fullShare ((dat2 V c).before 2 t d))
    ∗ (∃ d, owns (c : Thread nD τ) (ms3 t) fullShare ((dat2 V c).before 3 t d))
    ∗ (∃ d, owns (c : Thread nD τ) (ms4 t) fullShare ((dat2 V c).before 4 t d)))

/-- and what it returns. -/
def bodyPost (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t
    ∗ (dat2 V c).leavesExact 4 t)

set_option maxHeartbeats 8000000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3]
  rw [show (dat2 V c).owesAt () t.succ = (dat2 V c).owesAt () t.castSucc from rfl]
  rw [show (dat2 V c).Φ t.succ = PhiS V c (t.val + 1) t.isLt from rfl, PhiS_succ]
  rw [show (dat2 V c).leavesExact 0 t = owns (c : Thread nD τ) (ms0 t) fullShare ((dat2 V c).after 0 t) from by
        unfold Dat.leavesExact; rw [live0 t], after_0,
      show (dat2 V c).leavesExact 1 t = owns (c : Thread nD τ) (ms1 t) fullShare ((dat2 V c).after 1 t) from by
        unfold Dat.leavesExact; rw [live1 t], after_1,
      show (dat2 V c).leavesExact 2 t = owns (c : Thread nD τ) (ms2 t) fullShare ((dat2 V c).after 2 t) from by
        unfold Dat.leavesExact; rw [live2 t], after_2,
      show (dat2 V c).leavesExact 3 t = owns (c : Thread nD τ) (ms3 t) fullShare ((dat2 V c).after 3 t) from by
        unfold Dat.leavesExact; rw [live3 t], after_3]
  have hN : t.val < 48 := lt_of_lt_of_eq t.isLt (show cfg2.N = 48 from N_2)
  by_cases h24 : t.val % 24 = 0
  · -- b = 0, k = 0: both scratch buffers are reset
    rw [Dat.leavesExact_idle (dat2 V c) 4 t (idle_out t (condsA t h24).2.2.2) (noflush_out t (condsA t h24).2.2.2)]
    by_cases hz : t.val = 0
    · rw [outsAt_zero V c t hz, stepAt_A V c t _ _ h24]
      unfold accA resA; dsimp only
      rw [PhiS_castSucc V c t, PhiS_zero V c _ _ hz, PhiA_eq]
      iintro ⟨⟨⟨⟨HSA, HSR⟩, HRB⟩, Hg⟩, Ho, ⟨%d0, H0⟩, ⟨%d1, H1⟩, ⟨%d2, H2⟩, ⟨%d3, H3⟩, ⟨%d4, H4⟩⟩
      iapply ((rA V c t h24).2.2 _ Set.univ _)
      isplitl [H0]; · iexact H0
      isplitl [H1]; · iexact H1
      isplitl [H2]; · iexact H2
      isplitl [H3]; · iexact H3
      isplitl [H4]; · iexact H4
      isplitl [HSA]; · iexact HSA
      isplitl [HSR]; · iexact HSR
      iintro ⟨H0, H1, H2, H3, H4, ⟨%ea, HSA⟩, ⟨%er, HSR⟩⟩
      isplitl [HSA HSR HRB Hg]
      · isplitl [HSA HSR HRB]
        · isplitl [HSA HSR]
          · isplitl [HSA]
            · unfold owns; iexists _; isplitr
              swap; · iexact HSA
              ipureintro; exact View.read_writes_of_cover _ _ _ _ _ (cov_accA V c t h24)
            unfold owns; iexists _; isplitr
            swap; · iexact HSR
            ipureintro; exact View.read_writes_of_cover _ _ _ _ _ (cov_resA V c t h24)
          iexact HRB
        iexact Hg
      isplitl [Ho]; · iexact Ho
      isplitl [H0]; · iexact H0
      isplitl [H1]; · iexact H1
      isplitl [H2]; · iexact H2
      isplitl [H3]; · iexact H3
      iexists _; iexact H4
    · rw [outsAt_pos V c t hz, stepAt_A V c t _ _ h24]
      unfold accA resA; dsimp only
      rw [PhiS_castSucc V c t, PhiS_pos V c _ _ hz]
      iintro ⟨⟨⟨⟨HSA, HSR⟩, HRB⟩, Hg⟩, Ho, ⟨%d0, H0⟩, ⟨%d1, H1⟩, ⟨%d2, H2⟩, ⟨%d3, H3⟩, ⟨%d4, H4⟩⟩
      iapply ((rA V c t h24).2.2 _ Set.univ _)
      isplitl [H0]; · iexact H0
      isplitl [H1]; · iexact H1
      isplitl [H2]; · iexact H2
      isplitl [H3]; · iexact H3
      isplitl [H4]; · iexact H4
      isplitl [HSA]; · iexists _; iexact HSA
      isplitl [HSR]; · iexists _; iexact HSR
      iintro ⟨H0, H1, H2, H3, H4, ⟨%ea, HSA⟩, ⟨%er, HSR⟩⟩
      isplitl [HSA HSR HRB Hg]
      · isplitl [HSA HSR HRB]
        · isplitl [HSA HSR]
          · isplitl [HSA]
            · unfold owns; iexists _; isplitr
              swap; · iexact HSA
              ipureintro; exact View.read_writes_of_cover _ _ _ _ _ (cov_accA V c t h24)
            unfold owns; iexists _; isplitr
            swap; · iexact HSR
            ipureintro; exact View.read_writes_of_cover _ _ _ _ _ (cov_resA V c t h24)
          iexact HRB
        iexact Hg
      isplitl [Ho]; · iexact Ho
      isplitl [H0]; · iexact H0
      isplitl [H1]; · iexact H1
      isplitl [H2]; · iexact H2
      isplitl [H3]; · iexact H3
      iexists _; iexact H4
  · by_cases h8 : t.val % 8 = 0
    · -- k = 0, b ≠ 0: the accumulator is reset, the result buffer carried
      have hz : t.val ≠ 0 := by omega
      rw [Dat.leavesExact_idle (dat2 V c) 4 t (idle_out t (condsB t h8 h24).2.2.2) (noflush_out t (condsB t h8 h24).2.2.2)]
      rw [outsAt_pos V c t hz, stepAt_B V c t _ _ h8 h24]
      unfold accB; dsimp only
      rw [PhiS_castSucc V c t, PhiS_pos V c _ _ hz]
      iintro ⟨⟨⟨⟨HSA, HSR⟩, HRB⟩, Hg⟩, Ho, ⟨%d0, H0⟩, ⟨%d1, H1⟩, ⟨%d2, H2⟩, ⟨%d3, H3⟩, ⟨%d4, H4⟩⟩
      iapply ((rB V c t h8 h24).2 _ _ Set.univ _)
      isplitl [H0]; · iexact H0
      isplitl [H1]; · iexact H1
      isplitl [H2]; · iexact H2
      isplitl [H3]; · iexact H3
      isplitl [H4]; · iexact H4
      isplitl [HSA]; · iexists _; iexact HSA
      isplitl [HSR]; · iexact HSR
      iintro ⟨H0, H1, H2, H3, H4, ⟨%ea, HSA⟩, HSR⟩
      isplitl [HSA HSR HRB Hg]
      · isplitl [HSA HSR HRB]
        · isplitl [HSA HSR]
          · isplitl [HSA]
            · unfold owns; iexists _; isplitr
              swap; · iexact HSA
              ipureintro; exact View.read_writes_of_cover _ _ _ _ _ (cov_accB V c t h8 h24)
            iexact HSR
          iexact HRB
        iexact Hg
      isplitl [Ho]; · iexact Ho
      isplitl [H0]; · iexact H0
      isplitl [H1]; · iexact H1
      isplitl [H2]; · iexact H2
      isplitl [H3]; · iexact H3
      iexists _; iexact H4
    · by_cases h23 : t.val % 24 = 23
      · -- b = 2, k = 7: the last partial product, the clamp into row 2, the copy out
        have hz : t.val ≠ 0 := by omega
        rw [show (dat2 V c).leavesExact 4 t = owns (c : Thread nD τ) (ms4 t) fullShare ((dat2 V c).after 4 t) from by
              unfold Dat.leavesExact; rw [live_out t (condsE t h23).2.2.2], after_4]
        rw [outsAt_pos V c t hz, stepAt_E V c t _ _ h23]
        unfold outE accE resE; dsimp only
        rw [PhiS_castSucc V c t, PhiS_pos V c _ _ hz]
        iintro ⟨⟨⟨⟨HSA, HSR⟩, HRB⟩, Hg⟩, Ho, ⟨%d0, H0⟩, ⟨%d1, H1⟩, ⟨%d2, H2⟩, ⟨%d3, H3⟩, ⟨%d4, H4⟩⟩
        iapply ((rE V c t h23 (outsAt V c (t.val - 1) (Nat.lt_of_le_of_lt (Nat.sub_le _ _) t.isLt)).2.1 (outsAt V c (t.val - 1) (Nat.lt_of_le_of_lt (Nat.sub_le _ _) t.isLt)).2.2).2.2.2 Set.univ _)
        isplitl [H0]; · iexact H0
        isplitl [H1]; · iexact H1
        isplitl [H2]; · iexact H2
        isplitl [H3]; · iexact H3
        isplitl [H4]; · iexists _; iexact H4
        isplitl [HSA]; · iexact HSA
        isplitl [HSR]; · iexact HSR
        iintro ⟨H0, H1, H2, H3, ⟨%eo, H4⟩, ⟨%ea, HSA⟩, ⟨%er, HSR⟩⟩
        isplitl [HSA HSR HRB Hg]
        · isplitl [HSA HSR HRB]
          · isplitl [HSA HSR]
            · isplitl [HSA]
              · unfold owns; iexists _; isplitr
                swap; · iexact HSA
                ipureintro; exact View.read_writes_of_cover _ _ _ _ _ (cov_accE V c t h23 _ _)
              unfold owns; iexists _; isplitr
              swap; · iexact HSR
              ipureintro; exact View.read_writes_of_cover _ _ _ _ _ (cov_resE V c t h23 _ _)
            iexact HRB
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cov_outE V c t h23 _ _)
      · by_cases h7 : t.val % 8 = 7
        · -- k = 7, b ≠ 2: the last partial product and the clamp into row b
          have hz : t.val ≠ 0 := by omega
          rw [Dat.leavesExact_idle (dat2 V c) 4 t (idle_out t (condsD t h7 h23).2.2.2) (noflush_out t (condsD t h7 h23).2.2.2)]
          rw [outsAt_pos V c t hz, stepAt_D V c t _ _ h7 h23]
          unfold accD resD; dsimp only
          rw [PhiS_castSucc V c t, PhiS_pos V c _ _ hz]
          iintro ⟨⟨⟨⟨HSA, HSR⟩, HRB⟩, Hg⟩, Ho, ⟨%d0, H0⟩, ⟨%d1, H1⟩, ⟨%d2, H2⟩, ⟨%d3, H3⟩, ⟨%d4, H4⟩⟩
          iapply ((rD V c t h7 h23 (outsAt V c (t.val - 1) (Nat.lt_of_le_of_lt (Nat.sub_le _ _) t.isLt)).2.1 (outsAt V c (t.val - 1) (Nat.lt_of_le_of_lt (Nat.sub_le _ _) t.isLt)).2.2).2.2 _ Set.univ _)
          isplitl [H0]; · iexact H0
          isplitl [H1]; · iexact H1
          isplitl [H2]; · iexact H2
          isplitl [H3]; · iexact H3
          isplitl [H4]; · iexact H4
          isplitl [HSA]; · iexact HSA
          isplitl [HSR]; · iexact HSR
          iintro ⟨H0, H1, H2, H3, H4, ⟨%ea, HSA⟩, ⟨%er, HSR⟩⟩
          isplitl [HSA HSR HRB Hg]
          · isplitl [HSA HSR HRB]
            · isplitl [HSA HSR]
              · isplitl [HSA]
                · unfold owns; iexists _; isplitr
                  swap; · iexact HSA
                  ipureintro; exact View.read_writes_of_cover _ _ _ _ _ (cov_accD V c t h7 h23 _ _)
                unfold owns; iexists _; isplitr
                swap; · iexact HSR
                ipureintro; exact View.read_writes_of_cover _ _ _ _ _ (cov_resD V c t h7 h23 _ _)
              iexact HRB
            iexact Hg
          isplitl [Ho]; · iexact Ho
          isplitl [H0]; · iexact H0
          isplitl [H1]; · iexact H1
          isplitl [H2]; · iexact H2
          isplitl [H3]; · iexact H3
          iexists _; iexact H4
        · -- 0 < k < 7: one more partial product into the accumulator
          have hz : t.val ≠ 0 := by omega
          rw [Dat.leavesExact_idle (dat2 V c) 4 t (idle_out t (condsC t h8 h7).2.2.2) (noflush_out t (condsC t h8 h7).2.2.2)]
          rw [outsAt_pos V c t hz, stepAt_C V c t _ _ h8 h7]
          unfold accC; dsimp only
          rw [PhiS_castSucc V c t, PhiS_pos V c _ _ hz]
          iintro ⟨⟨⟨⟨HSA, HSR⟩, HRB⟩, Hg⟩, Ho, ⟨%d0, H0⟩, ⟨%d1, H1⟩, ⟨%d2, H2⟩, ⟨%d3, H3⟩, ⟨%d4, H4⟩⟩
          iapply ((rC V c t h8 h7 (outsAt V c (t.val - 1) (Nat.lt_of_le_of_lt (Nat.sub_le _ _) t.isLt)).2.1).2 _ _ Set.univ _)
          isplitl [H0]; · iexact H0
          isplitl [H1]; · iexact H1
          isplitl [H2]; · iexact H2
          isplitl [H3]; · iexact H3
          isplitl [H4]; · iexact H4
          isplitl [HSA]; · iexact HSA
          isplitl [HSR]; · iexact HSR
          iintro ⟨H0, H1, H2, H3, H4, ⟨%ea, HSA⟩, HSR⟩
          isplitl [HSA HSR HRB Hg]
          · isplitl [HSA HSR HRB]
            · isplitl [HSA HSR]
              · isplitl [HSA]
                · unfold owns; iexists _; isplitr
                  swap; · iexact HSA
                  ipureintro; exact View.read_writes_of_cover _ _ _ _ _ (cov_accC V c t h8 h7 _)
                iexact HSR
              iexact HRB
            iexact Hg
          isplitl [Ho]; · iexact Ho
          isplitl [H0]; · iexact H0
          isplitl [H1]; · iexact H1
          isplitl [H2]; · iexact H2
          isplitl [H3]; · iexact H3
          iexists _; iexact H4

/-- The body obligation, at every point. -/
theorem body_obligation2 (c : Dev nD) : BodyObligation (dat2 (F := F) V c) (defs₀ (F := F)) Variants.none () Set.univ := fun t => by
  rw [bigSep_W2, bigSep_W2]
  exact sound_body V c t

/-- What the launch hands the region is the invariant before the first point, -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- and after the last point the invariant gives it back, the scratch buffers' contents forgotten. -/
theorem hout2 (c : Dev nD) : (dat2 V c).Φ (Fin.last cfg2.N) ⊢ Pipeline.ΦA spec2 c := by
  have hne : (Fin.last cfg2.N).val ≠ 0 := by rw [Fin.val_last]; have : cfg2.N = 48 := N_2; omega
  rw [show (dat2 V c).Φ (Fin.last cfg2.N) = PhiS V c (Fin.last cfg2.N).val (Nat.le_of_lt_succ (Fin.last cfg2.N).isLt) from rfl,
    PhiS_pos V c _ _ hne, PhiA_eq]
  iintro ⟨⟨⟨HSA, HSR⟩, HRB⟩, Hg⟩
  isplitl [HSA HSR HRB]
  · isplitl [HSA HSR]
    · isplitl [HSA]
      · iexists _; iexact HSA
      iexists _; iexact HSR
    iexact HRB
  iexact Hg

end Cert.Kernel.R2

end
-- ==== Proof.KRun.lean ====
/-
  The whole program as a run of its segments: the contents of the core's unscoped buffers at every boundary between two
  segments (a fold from the launch memory through the host stretches and the three Pallas calls), the three calls'
  proof data each at its entry contents, each call as a region over the thread state "every unscoped buffer at the
  boundary's contents, the generator register at some state, nothing owed", and the run: every weakly fair execution
  terminates with every unscoped buffer at the last boundary's contents.
-/
import proofs.«110218_j20177756357157_2_alg».proof.Proof.KRegion0
import proofs.«110218_j20177756357157_2_alg».proof.Proof.KR1Body
import proofs.«110218_j20177756357157_2_alg».proof.Proof.KR2Body
import proofs.«110218_j20177756357157_2_alg».proof.Proof.Gen.Kernel.Regions
import Idealize.ShloMosaic.Lib.Pipeline.RegionsLoop
import Idealize.ShloMosaic.Lib.Pipeline.FrameSuffix

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the four squeezes (the first call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- After region 0: its arrays at what the pipeline leaves (the inputs as entered, each output's write-backs folded),
    every other buffer as entered. -/
def W2 (c : Dev nD) : Valuation τ sig (Elt F) :=
  Pipeline.withArrays spec0 c (W1 m c) fun w => (R0.dat0 (V1 m) c).arrAt w cfg0.N
theorem W2_arr (c : Dev nD) (w : Fin cfg0.W) :
    W2 m c (Proc.devRef .tc (Pipeline.arrRef spec0 w)) = (R0.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (R0.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the flattening and stacking of the three distance matrices (the second call's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- After region 1: its arrays at what the pipeline leaves (the inputs as entered, each output's write-backs folded),
    every other buffer as entered. -/
def W4 (c : Dev nD) : Valuation τ sig (Elt F) :=
  Pipeline.withArrays spec1 c (W3 m c) fun w => (R1.dat1 (V3 m) c).arrAt w cfg1.N
theorem W4_arr (c : Dev nD) (w : Fin cfg1.W) :
    W4 m c (Proc.devRef .tc (Pipeline.arrRef spec1 w)) = (R1.dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (R1.dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After region 2: its arrays at what the pipeline leaves (the inputs as entered, each output's write-backs folded),
    every other buffer as entered. -/
def W5 (c : Dev nD) : Valuation τ sig (Elt F) :=
  Pipeline.withArrays spec2 c (W4 m c) fun w => (R2.dat2 (V4 m) c).arrAt w cfg2.N
theorem W5_arr (c : Dev nD) (w : Fin cfg2.W) :
    W5 m c (Proc.devRef .tc (Pipeline.arrRef spec2 w)) = (R2.dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (R2.dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-- After the three rows are sliced out and reshaped (the program's results). -/
abbrev W6 : Dev nD → Valuation τ sig (Elt F) := fun c => StableHlo.after hostOps3 (W5 m c)

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => R0.dat0 (V1 m) c
  | ⟨1, _⟩ => fun c => R1.dat1 (V3 m) c
  | ⟨2, _⟩ => fun c => R2.dat2 (V4 m) c
abbrev 𝒱₀ : Variants := Variants.none
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered from every unscoped buffer at the contents before it, left at the
    contents after it; its arrays split out of the unscoped buffers and put back; the generator register into the
    invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it; its arrays split out of the unscoped buffers and put back; the generator register into the
    invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h := R1.hout1 (V3 m) c
    unfold Pipeline.ΦA at h
    show (R1.dat1 (V3 m) c).Φ (Fin.last cfg1.N) ⊢ iprop((∃ r, prngReg c r) ∗ BI.emp ∗ Pipeline.scopedRest spec1 c)
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the
    contents after it; its arrays split out of the unscoped buffers and put back; the generator register into the
    invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (R2.body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    have h := R2.hout2 (V4 m) c
    unfold Pipeline.ΦA at h
    show (R2.dat2 (V4 m) c).Φ (Fin.last cfg2.N) ⊢ iprop((∃ r, prngReg c r) ∗ BI.emp ∗ Pipeline.scopedRest spec2 c)
    iintro HΦ
    ihave H := h $$ HΦ
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.Kernel.Run

end
-- ==== Proof.KFrame.lean ====
/-
  The frame: every argument array ends holding what it was launched with, read off the last boundary's contents.
-/
import proofs.«110218_j20177756357157_2_alg».proof.Proof.KRun

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- `main_arg0` reaches the end as launched: no host stretch writes it, and each call either reads it through an input window or leaves it alone. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_writes_sub hostOps3 _ hostOps3_writes (by decide)
    _ = W4 m c (Proc.devRef .tc main_arg0) := W5_of_ne m c main_arg0 (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

/-- `main_arg1` reaches the end as launched: no host stretch writes it, and each call either reads it through an input window or leaves it alone. -/
theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_writes_sub hostOps3 _ hostOps3_writes (by decide)
    _ = W4 m c (Proc.devRef .tc main_arg1) := W5_of_ne m c main_arg1 (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-- `main_arg2` reaches the end as launched: no host stretch writes it, and each call either reads it through an input window or leaves it alone. -/
theorem W6_main_arg2 (c : Dev nD) : W6 m c (Proc.devRef .tc main_arg2) = m ((c : Thread nD τ).loc main_arg2) :=
  calc W6 m c (Proc.devRef .tc main_arg2)
    _ = W5 m c (Proc.devRef .tc main_arg2) := StableHlo.after_of_writes_sub hostOps3 _ hostOps3_writes (by decide)
    _ = W4 m c (Proc.devRef .tc main_arg2) := W5_of_ne m c main_arg2 (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-- `main_arg3` reaches the end as launched: no host stretch writes it, and each call either reads it through an input window or leaves it alone. -/
theorem W6_main_arg3 (c : Dev nD) : W6 m c (Proc.devRef .tc main_arg3) = m ((c : Thread nD τ).loc main_arg3) :=
  calc W6 m c (Proc.devRef .tc main_arg3)
    _ = W5 m c (Proc.devRef .tc main_arg3) := StableHlo.after_of_writes_sub hostOps3 _ hostOps3_writes (by decide)
    _ = W4 m c (Proc.devRef .tc main_arg3) := W5_of_ne m c main_arg3 (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-- `main_arg4` reaches the end as launched: no host stretch writes it, and each call either reads it through an input window or leaves it alone. -/
theorem W6_main_arg4 (c : Dev nD) : W6 m c (Proc.devRef .tc main_arg4) = m ((c : Thread nD τ).loc main_arg4) :=
  calc W6 m c (Proc.devRef .tc main_arg4)
    _ = W5 m c (Proc.devRef .tc main_arg4) := StableHlo.after_of_writes_sub hostOps3 _ hostOps3_writes (by decide)
    _ = W4 m c (Proc.devRef .tc main_arg4) := W5_of_ne m c main_arg4 (by decide)
    _ = W3 m c (Proc.devRef .tc main_arg4) := (W4_arr m c 1).trans (((R1.dat1 (V3 m) c).arrAt_in 1 rfl _).trans (R1.A_eq1 (V3 m) c 1))
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-- `main_arg5` reaches the end as launched: no host stretch writes it, and each call either reads it through an input window or leaves it alone. -/
theorem W6_main_arg5 (c : Dev nD) : W6 m c (Proc.devRef .tc main_arg5) = m ((c : Thread nD τ).loc main_arg5) :=
  calc W6 m c (Proc.devRef .tc main_arg5)
    _ = W5 m c (Proc.devRef .tc main_arg5) := StableHlo.after_of_writes_sub hostOps3 _ hostOps3_writes (by decide)
    _ = W4 m c (Proc.devRef .tc main_arg5) := (W5_arr m c 1).trans (((R2.dat2 (V4 m) c).arrAt_in 1 rfl _).trans (R2.A_eq1 (V4 m) c 1))
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

/-- `main_arg6` reaches the end as launched: no host stretch writes it, and each call either reads it through an input window or leaves it alone. -/
theorem W6_main_arg6 (c : Dev nD) : W6 m c (Proc.devRef .tc main_arg6) = m ((c : Thread nD τ).loc main_arg6) :=
  calc W6 m c (Proc.devRef .tc main_arg6)
    _ = W5 m c (Proc.devRef .tc main_arg6) := StableHlo.after_of_writes_sub hostOps3 _ hostOps3_writes (by decide)
    _ = W4 m c (Proc.devRef .tc main_arg6) := W5_of_ne m c main_arg6 (by decide)
    _ = W3 m c (Proc.devRef .tc main_arg6) := (W4_arr m c 2).trans (((R1.dat1 (V3 m) c).arrAt_in 2 rfl _).trans (R1.A_eq1 (V3 m) c 2))
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

/-- `main_arg7` reaches the end as launched: no host stretch writes it, and each call either reads it through an input window or leaves it alone. -/
theorem W6_main_arg7 (c : Dev nD) : W6 m c (Proc.devRef .tc main_arg7) = m ((c : Thread nD τ).loc main_arg7) :=
  calc W6 m c (Proc.devRef .tc main_arg7)
    _ = W5 m c (Proc.devRef .tc main_arg7) := StableHlo.after_of_writes_sub hostOps3 _ hostOps3_writes (by decide)
    _ = W4 m c (Proc.devRef .tc main_arg7) := (W5_arr m c 2).trans (((R2.dat2 (V4 m) c).arrAt_in 2 rfl _).trans (R2.A_eq1 (V4 m) c 2))
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

/-- `main_arg8` reaches the end as launched: no host stretch writes it, and each call either reads it through an input window or leaves it alone. -/
theorem W6_main_arg8 (c : Dev nD) : W6 m c (Proc.devRef .tc main_arg8) = m ((c : Thread nD τ).loc main_arg8) :=
  calc W6 m c (Proc.devRef .tc main_arg8)
    _ = W5 m c (Proc.devRef .tc main_arg8) := StableHlo.after_of_writes_sub hostOps3 _ hostOps3_writes (by decide)
    _ = W4 m c (Proc.devRef .tc main_arg8) := W5_of_ne m c main_arg8 (by decide)
    _ = W3 m c (Proc.devRef .tc main_arg8) := (W4_arr m c 3).trans (((R1.dat1 (V3 m) c).arrAt_in 3 rfl _).trans (R1.A_eq1 (V3 m) c 3))
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl

/-- `main_arg9` reaches the end as launched: no host stretch writes it, and each call either reads it through an input window or leaves it alone. -/
theorem W6_main_arg9 (c : Dev nD) : W6 m c (Proc.devRef .tc main_arg9) = m ((c : Thread nD τ).loc main_arg9) :=
  calc W6 m c (Proc.devRef .tc main_arg9)
    _ = W5 m c (Proc.devRef .tc main_arg9) := StableHlo.after_of_writes_sub hostOps3 _ hostOps3_writes (by decide)
    _ = W4 m c (Proc.devRef .tc main_arg9) := (W5_arr m c 3).trans (((R2.dat2 (V4 m) c).arrAt_in 3 rfl _).trans (R2.A_eq1 (V4 m) c 3))
    _ = W3 m c (Proc.devRef .tc main_arg9) := W4_of_ne m c main_arg9 (by decide)
    _ = W2 m c (Proc.devRef .tc main_arg9) := StableHlo.after_of_writes_sub hostOps1 _ hostOps1_writes (by decide)
    _ = W1 m c (Proc.devRef .tc main_arg9) := W2_of_ne m c main_arg9 (by decide)
    _ = W0 m c (Proc.devRef .tc main_arg9) := StableHlo.after_of_writes_sub hostOps0 _ hostOps0_writes (by decide)
    _ = m ((c : Thread nD τ).loc main_arg9) := rfl

/-- From any memory with zero counters every weakly fair execution terminates, nothing faulting, and every final state
    has the ten argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c),
     (h c _ (mem_uc main_arg7 (by decide))).trans (W6_main_arg7 m c),
     (h c _ (mem_uc main_arg8 (by decide))).trans (W6_main_arg8 m c),
     (h c _ (mem_uc main_arg9 (by decide))).trans (W6_main_arg9 m c)⟩)
    (run_all m ρ)

end Cert.Kernel.Run

end
-- ==== Proof.Region0.lean ====
import proofs.«110218_j20177756357157_2_alg».proof.Proof.Gen.KernelIdeal.Launch
import proofs.«110218_j20177756357157_2_alg».proof.Proof.Gen.KernelIdeal.Skeleton
import proofs.«110218_j20177756357157_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# The distance kernel's region: one grid point over seven whole-array windows

The first call of the program has a grid of one point. Its four input windows (the node vectors
and the three adjacency matrices) and its three output windows each cover their whole array, so the
single fetch stages every input whole and the single write-back overwrites every output whole.
This file states what the body leaves in each output's staging buffer as a function of the input
blocks, proves the body's triple, packages the pipeline's proof data, and reads the three output
arrays after the run as closed terms over the input arrays.
-/

set_option maxRecDepth 16384

noncomputable section

namespace Cert.KernelIdeal.R0

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-array rectangles the body loads and stores through. -/
abbrev rA : Rect S64x256 := Rect.unit (s := S64x256) ![0, 0] S64x256.size inb_S64x256_S64x256_0_0
abbrev rB : Rect S64x64 := Rect.unit (s := S64x64) ![0, 0] S64x64.size inb_S64x64_S64x64_0_0

/-- What the body leaves in the first output's buffer: its one whole store. -/
def out0_4 (x0 : Vec F S64x256 .f32) (x1 : Vec F S64x64 .f32) : Vec F S64x64 .f32 :=
  View.canon [⟨rB, k0_pay3 (View.ld x0 rA) (View.ld x1 rB)⟩]
/-- What the body leaves in the second output's buffer. -/
def out0_5 (x0 : Vec F S64x256 .f32) (x2 : Vec F S64x64 .f32) : Vec F S64x64 .f32 :=
  View.canon [⟨rB, k0_pay4 (View.ld x0 rA) (View.ld x2 rB)⟩]
/-- What the body leaves in the third output's buffer. -/
def out0_6 (x0 : Vec F S64x256 .f32) (x3 : Vec F S64x64 .f32) : Vec F S64x64 .f32 :=
  View.canon [⟨rB, k0_pay1 (k0_pay2 (View.ld x0 rA)) (k0_pay5 (View.ld x3 rB)) (Scalar.ofBits .f32 0x00000000#32)⟩]

/-- One whole store covers the buffer. -/
theorem coverB (p0 : Vec F S64x64 .f32) (y : S64x64.Idx) :
    ∃ pc ∈ ([⟨rB, p0⟩] : List (View.Piece (Elt F) S64x64 .f32)), y ∈ pc.1.set :=
  View.cover_of_tiled [⟨rB, p0⟩] S64x64.size (by rfl) y

set_option maxHeartbeats 4000000 in
theorem sound_kernel0 (c : Dev nD) (E : Set ℕ) (i : grid0.Coords)
    (arg1 : Memref sig .tc .vmem S64x256 .f32) (harg1 : arg1.IsWhole)
    (arg2 : Memref sig .tc .vmem S64x64 .f32) (harg2 : arg2.IsWhole)
    (arg3 : Memref sig .tc .vmem S64x64 .f32) (harg3 : arg3.IsWhole)
    (arg4 : Memref sig .tc .vmem S64x64 .f32) (harg4 : arg4.IsWhole)
    (arg5 : Memref sig .tc .vmem S64x64 .f32) (harg5 : arg5.IsWhole)
    (arg6 : Memref sig .tc .vmem S64x64 .f32) (harg6 : arg6.IsWhole)
    (arg7 : Memref sig .tc .vmem S64x64 .f32) (harg7 : arg7.IsWhole)
    (x0 : Vec F S64x256 .f32) (x1 x2 x3 : Vec F S64x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out0_4 x0 x1)
            ∗ owns (c : Thread nD τ) arg6 fullShare (out0_5 x0 x2)
            ∗ owns (c : Thread nD τ) arg7 fullShare (out0_6 x0 x3)) -∗ K ⟨⟩))
      ⊢ wp frame (wpE (defs₀ (F := F)) Variants.none c none) E
          (cc0__dist_kernel i arg1 harg1 arg2 harg2 arg3 harg3 arg4 harg4 arg5 harg5 arg6 harg6 arg7 harg7) K := by
  simp only [cc0__dist_kernel_eq_skeleton]; unfold cc0__dist_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverB _)
  isplitl [H5]
  · iexists _; isplitr
    swap; · iexact H5
    ipureintro
    exact View.read_writes_eq_canon _ _ _ (coverB _)
  iexists _; isplitr
  swap; · iexact H6
  ipureintro
  exact View.read_writes_eq_canon _ _ _ (coverB _)

/-! ## Each input's staging buffer holds its block -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The pipeline's proof data -/

/-- The proof data of the region on core c: the arrays as the region finds them; after the body
    each input's buffer at its block and each output's at its one whole store over the input blocks;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (c : Dev nD) : BodyObligation (dat0 (F := F) V c) (defs₀ (F := F)) Variants.none () Set.univ := fun t => by
  rw [bigSep_W0, bigSep_W0]
  exact sound_body0 V c t

/-! ## The arrays after the run

The grid has one point and every window's block is its whole array: the block index is zero on
both axes, so reading an array through its block gives the array back, and the one write-back
overwrites every index. -/

/-- Every window's block index is zero on both axes at every point. -/
theorem idx0 : ∀ t : Fin cfg0.N, (∀ a, win0_0.index t a = 0) ∧ (∀ a, win0_1.index t a = 0) ∧ (∀ a, win0_2.index t a = 0)
    ∧ (∀ a, win0_3.index t a = 0) ∧ (∀ a, win0_4.index t a = 0) ∧ (∀ a, win0_5.index t a = 0) ∧ (∀ a, win0_6.index t a = 0) :=
  (by decide +kernel : ∀ t : Fin grid0.N, _)

theorem hz : (![0, 0] : Fin 2 → Nat) = fun _ => 0 := funext fun a => by fin_cases a <;> rfl

/-- An array read through a window's block is the array. -/
theorem read_blk0_0 (t : Fin cfg0.N) (X : S64x256.Idx → Elt F .f32) : ((cfg0.win 0).blk t).view.read (Elt F) X = X := by
  funext j
  show X (((cfg0.win 0).blk t).view.emb j) = X j
  congr 1
  funext a; apply Fin.ext
  obtain ⟨h, -⟩ := idx0 t
  match a with
  | ⟨0, _⟩ => show win0_0.index t (0 : Fin 2) * 64 + 1 * (j 0).val = (j 0).val; rw [h 0]; omega
  | ⟨1, _⟩ => show win0_0.index t (1 : Fin 2) * 256 + 1 * (j 1).val = (j 1).val; rw [h 1]; omega
theorem read_blk0_1 (t : Fin cfg0.N) (X : S64x64.Idx → Elt F .f32) : ((cfg0.win 1).blk t).view.read (Elt F) X = X := by
  funext j
  show X (((cfg0.win 1).blk t).view.emb j) = X j
  congr 1
  funext a; apply Fin.ext
  obtain ⟨-, h, -⟩ := idx0 t
  match a with
  | ⟨0, _⟩ => show win0_1.index t (0 : Fin 2) * 64 + 1 * (j 0).val = (j 0).val; rw [h 0]; omega
  | ⟨1, _⟩ => show win0_1.index t (1 : Fin 2) * 64 + 1 * (j 1).val = (j 1).val; rw [h 1]; omega
theorem read_blk0_2 (t : Fin cfg0.N) (X : S64x64.Idx → Elt F .f32) : ((cfg0.win 2).blk t).view.read (Elt F) X = X := by
  funext j
  show X (((cfg0.win 2).blk t).view.emb j) = X j
  congr 1
  funext a; apply Fin.ext
  obtain ⟨-, -, h, -⟩ := idx0 t
  match a with
  | ⟨0, _⟩ => show win0_2.index t (0 : Fin 2) * 64 + 1 * (j 0).val = (j 0).val; rw [h 0]; omega
  | ⟨1, _⟩ => show win0_2.index t (1 : Fin 2) * 64 + 1 * (j 1).val = (j 1).val; rw [h 1]; omega
theorem read_blk0_3 (t : Fin cfg0.N) (X : S64x64.Idx → Elt F .f32) : ((cfg0.win 3).blk t).view.read (Elt F) X = X := by
  funext j
  show X (((cfg0.win 3).blk t).view.emb j) = X j
  congr 1
  funext a; apply Fin.ext
  obtain ⟨-, -, -, h, -⟩ := idx0 t
  match a with
  | ⟨0, _⟩ => show win0_3.index t (0 : Fin 2) * 64 + 1 * (j 0).val = (j 0).val; rw [h 0]; omega
  | ⟨1, _⟩ => show win0_3.index t (1 : Fin 2) * 64 + 1 * (j 1).val = (j 1).val; rw [h 1]; omega
theorem read_blk0_4 (t : Fin cfg0.N) (X : S64x64.Idx → Elt F .f32) : ((cfg0.win 4).blk t).view.read (Elt F) X = X := by
  funext j
  show X (((cfg0.win 4).blk t).view.emb j) = X j
  congr 1
  funext a; apply Fin.ext
  obtain ⟨-, -, -, -, h, -⟩ := idx0 t
  match a with
  | ⟨0, _⟩ => show win0_4.index t (0 : Fin 2) * 64 + 1 * (j 0).val = (j 0).val; rw [h 0]; omega
  | ⟨1, _⟩ => show win0_4.index t (1 : Fin 2) * 64 + 1 * (j 1).val = (j 1).val; rw [h 1]; omega
theorem read_blk0_5 (t : Fin cfg0.N) (X : S64x64.Idx → Elt F .f32) : ((cfg0.win 5).blk t).view.read (Elt F) X = X := by
  funext j
  show X (((cfg0.win 5).blk t).view.emb j) = X j
  congr 1
  funext a; apply Fin.ext
  obtain ⟨-, -, -, -, -, h, -⟩ := idx0 t
  match a with
  | ⟨0, _⟩ => show win0_5.index t (0 : Fin 2) * 64 + 1 * (j 0).val = (j 0).val; rw [h 0]; omega
  | ⟨1, _⟩ => show win0_5.index t (1 : Fin 2) * 64 + 1 * (j 1).val = (j 1).val; rw [h 1]; omega
theorem read_blk0_6 (t : Fin cfg0.N) (X : S64x64.Idx → Elt F .f32) : ((cfg0.win 6).blk t).view.read (Elt F) X = X := by
  funext j
  show X (((cfg0.win 6).blk t).view.emb j) = X j
  congr 1
  funext a; apply Fin.ext
  obtain ⟨-, -, -, -, -, -, h⟩ := idx0 t
  match a with
  | ⟨0, _⟩ => show win0_6.index t (0 : Fin 2) * 64 + 1 * (j 0).val = (j 0).val; rw [h 0]; omega
  | ⟨1, _⟩ => show win0_6.index t (1 : Fin 2) * 64 + 1 * (j 1).val = (j 1).val; rw [h 1]; omega

/-- Each input's block is its whole array. -/
theorem iblk0_0 (c : Dev nD) (t : Fin cfg0.N) : iblk0 V c 0 t = V c main_v3 := read_blk0_0 t _
theorem iblk0_1 (c : Dev nD) (t : Fin cfg0.N) : iblk0 V c 1 t = V c main_v0 := read_blk0_1 t _
theorem iblk0_2 (c : Dev nD) (t : Fin cfg0.N) : iblk0 V c 2 t = V c main_v1 := read_blk0_2 t _
theorem iblk0_3 (c : Dev nD) (t : Fin cfg0.N) : iblk0 V c 3 t = V c main_v2 := read_blk0_3 t _

/-- Every index of an output array is in the one point's block. -/
theorem mem_blk0_4 (t : Fin cfg0.N) (i : S64x64.Idx) : i ∈ ((cfg0.win 4).blk t).view.set := by
  show i ∈ ((View.whole main_v4_0).slice (win0_4.rect t)).set
  rw [View.set_slice_whole, Rect.mem_set_unit]
  obtain ⟨-, -, -, -, h, -⟩ := idx0 t
  intro a
  match a with
  | ⟨0, _⟩ => show win0_4.index t (0 : Fin 2) * 64 ≤ (i 0).val ∧ (i 0).val < win0_4.index t (0 : Fin 2) * 64 + 64; rw [h 0]; have hi : (i 0).val < 64 := (i 0).isLt; omega
  | ⟨1, _⟩ => show win0_4.index t (1 : Fin 2) * 64 ≤ (i 1).val ∧ (i 1).val < win0_4.index t (1 : Fin 2) * 64 + 64; rw [h 1]; have hi : (i 1).val < 64 := (i 1).isLt; omega
theorem mem_blk0_5 (t : Fin cfg0.N) (i : S64x64.Idx) : i ∈ ((cfg0.win 5).blk t).view.set := by
  show i ∈ ((View.whole main_v4_1).slice (win0_5.rect t)).set
  rw [View.set_slice_whole, Rect.mem_set_unit]
  obtain ⟨-, -, -, -, -, h, -⟩ := idx0 t
  intro a
  match a with
  | ⟨0, _⟩ => show win0_5.index t (0 : Fin 2) * 64 ≤ (i 0).val ∧ (i 0).val < win0_5.index t (0 : Fin 2) * 64 + 64; rw [h 0]; have hi : (i 0).val < 64 := (i 0).isLt; omega
  | ⟨1, _⟩ => show win0_5.index t (1 : Fin 2) * 64 ≤ (i 1).val ∧ (i 1).val < win0_5.index t (1 : Fin 2) * 64 + 64; rw [h 1]; have hi : (i 1).val < 64 := (i 1).isLt; omega
theorem mem_blk0_6 (t : Fin cfg0.N) (i : S64x64.Idx) : i ∈ ((cfg0.win 6).blk t).view.set := by
  show i ∈ ((View.whole main_v4_2).slice (win0_6.rect t)).set
  rw [View.set_slice_whole, Rect.mem_set_unit]
  obtain ⟨-, -, -, -, -, -, h⟩ := idx0 t
  intro a
  match a with
  | ⟨0, _⟩ => show win0_6.index t (0 : Fin 2) * 64 ≤ (i 0).val ∧ (i 0).val < win0_6.index t (0 : Fin 2) * 64 + 64; rw [h 0]; have hi : (i 0).val < 64 := (i 0).isLt; omega
  | ⟨1, _⟩ => show win0_6.index t (1 : Fin 2) * 64 ≤ (i 1).val ∧ (i 1).val < win0_6.index t (1 : Fin 2) * 64 + 64; rw [h 1]; have hi : (i 1).val < 64 := (i 1).isLt; omega

/-- What the one point writes back to each output is the block of one closed term over the input arrays. -/
theorem flushed0_4_eq (c : Dev nD) (t : Fin cfg0.N) :
    (dat0 V c).flushed 4 t = ((cfg0.win 4).blk t).view.read (Elt F) (k0_pay3 (V c main_v3) (V c main_v0)) := by
  show (cfg0.win 4).cut (grid0.coords t) ((dat0 V c).after 4 t) = _
  rw [after0_4, read_blk0_4, iblk0_0, iblk0_1]
  unfold out0_4
  rw [View.canon_unit_zero hz]
  simp only [View.ld_unit_zero (S := S64x256) hz, View.ld_unit_zero (S := S64x64) hz]
  rfl
theorem flushed0_5_eq (c : Dev nD) (t : Fin cfg0.N) :
    (dat0 V c).flushed 5 t = ((cfg0.win 5).blk t).view.read (Elt F) (k0_pay4 (V c main_v3) (V c main_v1)) := by
  show (cfg0.win 5).cut (grid0.coords t) ((dat0 V c).after 5 t) = _
  rw [after0_5, read_blk0_5, iblk0_0, iblk0_2]
  unfold out0_5
  rw [View.canon_unit_zero hz]
  simp only [View.ld_unit_zero (S := S64x256) hz, View.ld_unit_zero (S := S64x64) hz]
  rfl
theorem flushed0_6_eq (c : Dev nD) (t : Fin cfg0.N) :
    (dat0 V c).flushed 6 t = ((cfg0.win 6).blk t).view.read (Elt F)
      (k0_pay1 (k0_pay2 (V c main_v3)) (k0_pay5 (V c main_v2)) (Scalar.ofBits .f32 0x00000000#32)) := by
  show (cfg0.win 6).cut (grid0.coords t) ((dat0 V c).after 6 t) = _
  rw [after0_6, read_blk0_6, iblk0_0, iblk0_3]
  unfold out0_6
  rw [View.canon_unit_zero hz]
  simp only [View.ld_unit_zero (S := S64x256) hz, View.ld_unit_zero (S := S64x64) hz]
  rfl

/-- The inputs are never written. -/
theorem arr_in0 (c : Dev nD) (w : Fin cfg0.W) (hw : w.val < 4) : (dat0 V c).arrAt w cfg0.N = V c (Pipeline.arrRef spec0 w) := by
  have hin : (cfg0.win w).isOut = false := by
    match w, hw with
    | ⟨0, _⟩, _ => rfl
    | ⟨1, _⟩, _ => rfl
    | ⟨2, _⟩, _ => rfl
    | ⟨3, _⟩, _ => rfl
    | ⟨k + 4, _⟩, h => exact absurd h (Nat.not_lt.2 (Nat.le_add_left _ _))
  exact ((dat0 V c).arrAt_in w hin _).trans (A_eq0 V c w)

/-- Each output array after the run: the body's whole store, over the input arrays. -/
theorem arr_out0_4 (c : Dev nD) : (dat0 V c).arrAt 4 cfg0.N = k0_pay3 (V c main_v3) (V c main_v0) :=
  (dat0 V c).arrAt_eq_of_cover 4 _ (fun t _ => flushed0_4_eq V c t) (fun i => ⟨t0_0, flush0_4 t0_0, mem_blk0_4 t0_0 i⟩)
theorem arr_out0_5 (c : Dev nD) : (dat0 V c).arrAt 5 cfg0.N = k0_pay4 (V c main_v3) (V c main_v1) :=
  (dat0 V c).arrAt_eq_of_cover 5 _ (fun t _ => flushed0_5_eq V c t) (fun i => ⟨t0_0, flush0_5 t0_0, mem_blk0_5 t0_0 i⟩)
theorem arr_out0_6 (c : Dev nD) : (dat0 V c).arrAt 6 cfg0.N
    = k0_pay1 (k0_pay2 (V c main_v3)) (k0_pay5 (V c main_v2)) (Scalar.ofBits .f32 0x00000000#32) :=
  (dat0 V c).arrAt_eq_of_cover 6 _ (fun t _ => flushed0_6_eq V c t) (fun i => ⟨t0_0, flush0_6 t0_0, mem_blk0_6 t0_0 i⟩)

end Region
end Cert.KernelIdeal.R0
end
-- ==== Proof.R1Base.lean ====
/-
  The second Pallas call (the first matvec layer of the three branches), as the pipeline runs it: what is shared by the
  runs of its body in the five cases of its conditionals. A grid point is (n, b, k) with n < 2 the column tile, b < 3 the
  branch and k < 8 the row tile; in the linear order t = 24 n + 8 b + k. The body zeroes the row accumulator when k = 0,
  zeroes the three-row result buffer when b = k = 0, adds the selected branch's 512-row partial product into the
  accumulator, at k = 7 writes max(acc, 0) into row b of the result buffer, and at b = 2, k = 7 copies the result buffer
  into the output block.
-/
import proofs.«110218_j20177756357157_2_alg».proof.Proof.Gen.KernelIdeal.Launch
import proofs.«110218_j20177756357157_2_alg».proof.Proof.Gen.KernelIdeal.Skeleton
import proofs.«110218_j20177756357157_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, in closed form over the linear order of the grid -/

/-- k = 0: the accumulator is reset. -/
abbrev cA (i : grid1.Coords) : Prop := (Scalar.cmpi .ne (Scalar.extui (Scalar.cmpi .eq (BitVec.ofNat 32 (i 2).val) 0#32)) 0#32) = 1#1
/-- b = 0 and k = 0: the result buffer is reset. -/
abbrev cB (i : grid1.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- k = 7: the accumulator is finished and clamped into row b. -/
abbrev cC (i : grid1.Coords) : Prop := (Scalar.cmpi .ne (Scalar.extui (Scalar.cmpi .eq (BitVec.ofNat 32 (i 2).val) 7#32)) 0#32) = 1#1
/-- b = 2 and k = 7: the result buffer is copied out. -/
abbrev cD (i : grid1.Coords) : Prop := k1_cond4 i = 1#1

theorem hcA : ∀ t : Fin cfg1.N, cA (grid1.coords t) ↔ t.val % 8 = 0 :=
  (by decide +kernel : ∀ t : Fin grid1.N, cA (grid1.coords t) ↔ t.val % 8 = 0)
theorem hcB : ∀ t : Fin cfg1.N, cB (grid1.coords t) ↔ t.val % 24 = 0 :=
  (by decide +kernel : ∀ t : Fin grid1.N, cB (grid1.coords t) ↔ t.val % 24 = 0)
theorem hcC : ∀ t : Fin cfg1.N, cC (grid1.coords t) ↔ t.val % 8 = 7 :=
  (by decide +kernel : ∀ t : Fin grid1.N, cC (grid1.coords t) ↔ t.val % 8 = 7)
theorem hcD : ∀ t : Fin cfg1.N, cD (grid1.coords t) ↔ t.val % 24 = 23 :=
  (by decide +kernel : ∀ t : Fin grid1.N, cD (grid1.coords t) ↔ t.val % 24 = 23)

/-! ## Where the output window is idle -/

theorem live_in (w : Fin cfg1.W) (hw : w.val < 4) : ∀ i, cfg1.idle w i = false := by
  intro i; match w, hw with
  | ⟨0, _⟩, _ => rfl | ⟨1, _⟩, _ => rfl | ⟨2, _⟩, _ => rfl | ⟨3, _⟩, _ => rfl
theorem idle_out : ∀ t : Fin cfg1.N, ¬cD (grid1.coords t) → cfg1.idle 4 (grid1.coords t) = true := by decide +kernel
theorem noflush_out : ∀ t : Fin cfg1.N, ¬cD (grid1.coords t) → (cfg1.win 4).flush t = false := by decide +kernel
theorem live_out : ∀ t : Fin cfg1.N, cD (grid1.coords t) → cfg1.idle 4 (grid1.coords t) = false := by decide +kernel

/-! ## The memrefs the body is called with -/

abbrev ms0 (t : Fin cfg1.N) : Memref sig .tc .vmem S3x512 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S512x2048 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S512x2048 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S512x2048 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S3x2048 .f32 := win1_4.stage (cfg1.slots t 4)
abbrev hs4 (t : Fin cfg1.N) : (ms4 t).IsWhole := hstage1_4 ((cfg1.slots t 4).cast nbuf1_4)
/-- The row accumulator and the three-row result buffer: scratch the kernel carries from point to point. -/
abbrev scA : Memref sig .tc .vmem S1x2048 .f32 := Memref.whole cc1_scratch0
abbrev scR : Memref sig .tc .vmem S3x2048 .f32 := Memref.whole cc1_scratch1
abbrev VA : View sig .tc .vmem S1x2048 .f32 := (scA).view
abbrev VR : View sig .tc .vmem S3x2048 .f32 := (scR).view
abbrev VO : View sig .tc .vmem S3x2048 .f32 := (Memref.whole cc1_stg4_0 : Memref sig .tc .vmem S3x2048 .f32).view

end Cert.KernelIdeal.R1

end
-- ==== Proof.R1RunA.lean ====
/-
  The body at a point with b = 0 and k = 0: both resets are taken. The accumulator and the result buffer, found at any
  contents, are zeroed; the selected branch's partial product is added into the accumulator; the output block is not touched.
-/
import proofs.«110218_j20177756357157_2_alg».proof.Proof.R1Base

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each buffer the body stores into ends with (last store first), with the body's run to its return from the
    four input blocks at their contents, a buffer the case does not store into handed back as found. -/
noncomputable def runA (c : Dev nD) (i : grid1.Coords) (arg3 : Memref sig .tc .vmem S3x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (arg7 : Memref sig .tc .vmem S3x2048 .f32) (harg7 : arg7.IsWhole) (arg8 : Memref sig .tc .vmem S1x2048 .f32) (harg8 : arg8.IsWhole) (arg9 : Memref sig .tc .vmem S3x2048 .f32) (harg9 : arg9.IsWhole) (hA : cA i) (hB : cB i) (hC : ¬cC i) (hD : ¬cD i)
    (x0 : Vec F S3x512 .f32) (x1 : Vec F S512x2048 .f32) (x2 : Vec F S512x2048 .f32) (x3 : Vec F S512x2048 .f32) :
    Σ' (LR : List (View.Piece (Elt F) S3x2048 .f32)), { LA : List (View.Piece (Elt F) S1x2048 .f32) //
      ∀ (xo : Vec F S3x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LR)) -∗ K ⟨⟩))
          ⊢ wp frame (wpE (defs₀ (F := F)) Variants.none c none) E (cc1__fused_mlp_kernel i arg3 harg3 arg4 harg4 arg5 harg5 arg6 harg6 arg7 harg7 arg8 harg8 arg9 harg9) K } := by
  refine ⟨?_, ?_, fun xo E K => ?run⟩
  case run =>
    simp only [cc1__fused_mlp_kernel_eq_skeleton]; unfold cc1__fused_mlp_kernel_skel
    unfold owns
    iintro ⟨⟨%f0, %hf0, H0⟩, ⟨%f1, %hf1, H1⟩, ⟨%f2, %hf2, H2⟩, ⟨%f3, %hf3, H3⟩, ⟨%fo, %hfo, HO⟩, ⟨%dA, %fa, -, HA⟩, ⟨%dR, %fr, -, HR⟩, Hk⟩
    obtain rfl := harg3.eq_unread hf0; obtain rfl := harg4.eq_unread hf1; obtain rfl := harg5.eq_unread hf2; obtain rfl := harg6.eq_unread hf3
    obtain rfl := harg7.eq_unread hfo
    sl_exec (disch := first | exact hA | exact hB | exact hC | exact hD)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    isplitl [HA]
    · iexists _; iexact HA
    iexists _; iexact HR

end Cert.KernelIdeal.R1

end
-- ==== Proof.R1RunB.lean ====
/-
  The body at a point with k = 0 and b ≠ 0: the accumulator, found at any contents, is zeroed and added the selected branch's
  partial product; the result buffer, found at what the point before left, and the output block are not touched.
-/
import proofs.«110218_j20177756357157_2_alg».proof.Proof.R1Base

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each buffer the body stores into ends with (last store first), with the body's run to its return from the
    four input blocks at their contents, a buffer the case does not store into handed back as found. -/
noncomputable def runB (c : Dev nD) (i : grid1.Coords) (arg3 : Memref sig .tc .vmem S3x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (arg7 : Memref sig .tc .vmem S3x2048 .f32) (harg7 : arg7.IsWhole) (arg8 : Memref sig .tc .vmem S1x2048 .f32) (harg8 : arg8.IsWhole) (arg9 : Memref sig .tc .vmem S3x2048 .f32) (harg9 : arg9.IsWhole) (hA : cA i) (hB : ¬cB i) (hC : ¬cC i) (hD : ¬cD i)
    (x0 : Vec F S3x512 .f32) (x1 : Vec F S512x2048 .f32) (x2 : Vec F S512x2048 .f32) (x3 : Vec F S512x2048 .f32) :
    { LA : List (View.Piece (Elt F) S1x2048 .f32) //
      ∀ (xo : Vec F S3x2048 .f32) (xs1 : Vec F S3x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ (∃ d, owns (c : Thread nD τ) arg8 fullShare d) ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ (∃ f, arg8.view.loc (c : Thread nD τ) ↦[arg8.view.set]{fullShare} arg8.view.writes (Elt F) f LA) ∗ owns (c : Thread nD τ) arg9 fullShare xs1) -∗ K ⟨⟩))
          ⊢ wp frame (wpE (defs₀ (F := F)) Variants.none c none) E (cc1__fused_mlp_kernel i arg3 harg3 arg4 harg4 arg5 harg5 arg6 harg6 arg7 harg7 arg8 harg8 arg9 harg9) K } := by
  refine ⟨?_, fun xo xs1 E K => ?run⟩
  case run =>
    simp only [cc1__fused_mlp_kernel_eq_skeleton]; unfold cc1__fused_mlp_kernel_skel
    unfold owns
    iintro ⟨⟨%f0, %hf0, H0⟩, ⟨%f1, %hf1, H1⟩, ⟨%f2, %hf2, H2⟩, ⟨%f3, %hf3, H3⟩, ⟨%fo, %hfo, HO⟩, ⟨%dA, %fa, -, HA⟩, ⟨%fr, %hfr, HR⟩, Hk⟩
    obtain rfl := harg3.eq_unread hf0; obtain rfl := harg4.eq_unread hf1; obtain rfl := harg5.eq_unread hf2; obtain rfl := harg6.eq_unread hf3
    obtain rfl := harg7.eq_unread hfo; obtain rfl := harg9.eq_unread hfr
    sl_exec (disch := first | exact hA | exact hB | exact hC | exact hD)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    isplitl [HA]
    · iexists _; iexact HA
    iexists _; isplitr; · ipureintro; exact harg9.read_unread _
    iexact HR

end Cert.KernelIdeal.R1

end
-- ==== Proof.R1RunC.lean ====
/-
  The body at a point with 0 < k < 7: no branch is taken. The accumulator, found at what the point before left, is added
  the selected branch's partial product and stored back; the result buffer and the output block are not touched.
-/
import proofs.«110218_j20177756357157_2_alg».proof.Proof.R1Base

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the accumulator ends with (its one whole store), with the body's run: from the four input blocks at their
    contents, the output block and the result buffer at any contents (handed back as found) and the accumulator at
    `xs0`, the body runs to its return. -/
noncomputable def runC (c : Dev nD) (i : grid1.Coords) (arg3 : Memref sig .tc .vmem S3x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (arg7 : Memref sig .tc .vmem S3x2048 .f32) (harg7 : arg7.IsWhole) (arg8 : Memref sig .tc .vmem S1x2048 .f32) (harg8 : arg8.IsWhole) (arg9 : Memref sig .tc .vmem S3x2048 .f32) (harg9 : arg9.IsWhole) (hA : ¬cA i) (hB : ¬cB i) (hC : ¬cC i) (hD : ¬cD i)
    (x0 : Vec F S3x512 .f32) (x1 : Vec F S512x2048 .f32) (x2 : Vec F S512x2048 .f32) (x3 : Vec F S512x2048 .f32) (xs0 : Vec F S1x2048 .f32) :
    { LA : List (View.Piece (Elt F) S1x2048 .f32) //
      ∀ (xo : Vec F S3x2048 .f32) (xs1 : Vec F S3x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ (∃ f, arg8.view.loc (c : Thread nD τ) ↦[arg8.view.set]{fullShare} arg8.view.writes (Elt F) f LA) ∗ owns (c : Thread nD τ) arg9 fullShare xs1) -∗ K ⟨⟩))
          ⊢ wp frame (wpE (defs₀ (F := F)) Variants.none c none) E (cc1__fused_mlp_kernel i arg3 harg3 arg4 harg4 arg5 harg5 arg6 harg6 arg7 harg7 arg8 harg8 arg9 harg9) K } := by
  refine ⟨?_, fun xo xs1 E K => ?run⟩
  case run =>
    simp only [cc1__fused_mlp_kernel_eq_skeleton]; unfold cc1__fused_mlp_kernel_skel
    unfold owns
    iintro ⟨⟨%f0, %hf0, H0⟩, ⟨%f1, %hf1, H1⟩, ⟨%f2, %hf2, H2⟩, ⟨%f3, %hf3, H3⟩, ⟨%fo, %hfo, HO⟩, ⟨%fa, %hfa, HA⟩, ⟨%fr, %hfr, HR⟩, Hk⟩
    obtain rfl := harg3.eq_unread hf0; obtain rfl := harg4.eq_unread hf1; obtain rfl := harg5.eq_unread hf2; obtain rfl := harg6.eq_unread hf3
    obtain rfl := harg7.eq_unread hfo; obtain rfl := harg8.eq_unread hfa; obtain rfl := harg9.eq_unread hfr
    sl_exec (disch := first | exact hA | exact hB | exact hC | exact hD)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    isplitl [HA]
    · iexists _; iexact HA
    iexists _; isplitr; · ipureintro; exact harg9.read_unread _
    iexact HR

end Cert.KernelIdeal.R1

end
-- ==== Proof.R1RunD.lean ====
/-
  The body at a point with k = 7 and b ≠ 2: the accumulator, found at what the point before left, is added the last partial
  product, and its clamp at zero is written into row b of the result buffer; the output block is not touched.
-/
import proofs.«110218_j20177756357157_2_alg».proof.Proof.R1Base

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each buffer the body stores into ends with (last store first), with the body's run to its return from the
    four input blocks at their contents, a buffer the case does not store into handed back as found. -/
noncomputable def runD (c : Dev nD) (i : grid1.Coords) (arg3 : Memref sig .tc .vmem S3x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (arg7 : Memref sig .tc .vmem S3x2048 .f32) (harg7 : arg7.IsWhole) (arg8 : Memref sig .tc .vmem S1x2048 .f32) (harg8 : arg8.IsWhole) (arg9 : Memref sig .tc .vmem S3x2048 .f32) (harg9 : arg9.IsWhole) (hA : ¬cA i) (hB : ¬cB i) (hC : cC i) (hD : ¬cD i)
    (x0 : Vec F S3x512 .f32) (x1 : Vec F S512x2048 .f32) (x2 : Vec F S512x2048 .f32) (x3 : Vec F S512x2048 .f32) (xs0 : Vec F S1x2048 .f32) (xs1 : Vec F S3x2048 .f32) :
    Σ' (LR : List (View.Piece (Elt F) S3x2048 .f32)), { LA : List (View.Piece (Elt F) S1x2048 .f32) //
      ∀ (xo : Vec F S3x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LR)) -∗ K ⟨⟩))
          ⊢ wp frame (wpE (defs₀ (F := F)) Variants.none c none) E (cc1__fused_mlp_kernel i arg3 harg3 arg4 harg4 arg5 harg5 arg6 harg6 arg7 harg7 arg8 harg8 arg9 harg9) K } := by
  refine ⟨?_, ?_, fun xo E K => ?run⟩
  case run =>
    simp only [cc1__fused_mlp_kernel_eq_skeleton]; unfold cc1__fused_mlp_kernel_skel
    unfold owns
    iintro ⟨⟨%f0, %hf0, H0⟩, ⟨%f1, %hf1, H1⟩, ⟨%f2, %hf2, H2⟩, ⟨%f3, %hf3, H3⟩, ⟨%fo, %hfo, HO⟩, ⟨%fa, %hfa, HA⟩, ⟨%fr, %hfr, HR⟩, Hk⟩
    obtain rfl := harg3.eq_unread hf0; obtain rfl := harg4.eq_unread hf1; obtain rfl := harg5.eq_unread hf2; obtain rfl := harg6.eq_unread hf3
    obtain rfl := harg7.eq_unread hfo; obtain rfl := harg8.eq_unread hfa; obtain rfl := harg9.eq_unread hfr
    sl_exec (disch := first | exact hA | exact hB | exact hC | exact hD)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    isplitl [HA]
    · iexists _; iexact HA
    iexists _; iexact HR

end Cert.KernelIdeal.R1

end
-- ==== Proof.R1RunE.lean ====
/-
  The body at a point with k = 7 and b = 2: as at the other points with k = 7, and then the result buffer is copied whole into
  the output block.
-/
import proofs.«110218_j20177756357157_2_alg».proof.Proof.R1Base

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each buffer the body stores into ends with (last store first), with the body's run to its return from the
    four input blocks at their contents, a buffer the case does not store into handed back as found. -/
noncomputable def runE (c : Dev nD) (i : grid1.Coords) (arg3 : Memref sig .tc .vmem S3x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (arg7 : Memref sig .tc .vmem S3x2048 .f32) (harg7 : arg7.IsWhole) (arg8 : Memref sig .tc .vmem S1x2048 .f32) (harg8 : arg8.IsWhole) (arg9 : Memref sig .tc .vmem S3x2048 .f32) (harg9 : arg9.IsWhole) (hA : ¬cA i) (hB : ¬cB i) (hC : cC i) (hD : cD i)
    (x0 : Vec F S3x512 .f32) (x1 : Vec F S512x2048 .f32) (x2 : Vec F S512x2048 .f32) (x3 : Vec F S512x2048 .f32) (xs0 : Vec F S1x2048 .f32) (xs1 : Vec F S3x2048 .f32) :
    Σ' (LO : List (View.Piece (Elt F) S3x2048 .f32)), Σ' (LR : List (View.Piece (Elt F) S3x2048 .f32)), { LA : List (View.Piece (Elt F) S1x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LR)) -∗ K ⟨⟩))
          ⊢ wp frame (wpE (defs₀ (F := F)) Variants.none c none) E (cc1__fused_mlp_kernel i arg3 harg3 arg4 harg4 arg5 harg5 arg6 harg6 arg7 harg7 arg8 harg8 arg9 harg9) K } := by
  refine ⟨?_, ?_, ?_, fun E K => ?run⟩
  case run =>
    simp only [cc1__fused_mlp_kernel_eq_skeleton]; unfold cc1__fused_mlp_kernel_skel
    unfold owns
    iintro ⟨⟨%f0, %hf0, H0⟩, ⟨%f1, %hf1, H1⟩, ⟨%f2, %hf2, H2⟩, ⟨%f3, %hf3, H3⟩, ⟨%dO, %fo, -, HO⟩, ⟨%fa, %hfa, HA⟩, ⟨%fr, %hfr, HR⟩, Hk⟩
    obtain rfl := harg3.eq_unread hf0; obtain rfl := harg4.eq_unread hf1; obtain rfl := harg5.eq_unread hf2; obtain rfl := harg6.eq_unread hf3
    obtain rfl := harg8.eq_unread hfa; obtain rfl := harg9.eq_unread hfr
    sl_exec (disch := first | exact hA | exact hB | exact hC | exact hD)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; iexact HO
    isplitl [HA]
    · iexists _; iexact HA
    iexists _; iexact HR

end Cert.KernelIdeal.R1

end
-- ==== Proof.R1Cases.lean ====
/-
  The second Pallas call as a region of the program: what its buffers hold after each grid point, by recursion on the
  point; the invariant carrying the two scratch buffers from point to point; the proof data; and the body obligation,
  by cases on the point's position in its (b, k) sweep.
-/
import proofs.«110218_j20177756357157_2_alg».proof.Proof.R1RunA
import proofs.«110218_j20177756357157_2_alg».proof.Proof.R1RunB
import proofs.«110218_j20177756357157_2_alg».proof.Proof.R1RunC
import proofs.«110218_j20177756357157_2_alg».proof.Proof.R1RunD
import proofs.«110218_j20177756357157_2_alg».proof.Proof.R1RunE

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's unscoped buffers when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (when it is not fetched its
    block index has not moved), for any proof data over these arrays whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The position of a point in its sweep decides the conditions -/

theorem condsA (t : Fin cfg1.N) (h : t.val % 24 = 0) : cA (grid1.coords t) ∧ cB (grid1.coords t) ∧ ¬cC (grid1.coords t) ∧ ¬cD (grid1.coords t) :=
  ⟨(hcA t).mpr (by omega), (hcB t).mpr h, fun h' => by have := (hcC t).mp h'; omega, fun h' => by have := (hcD t).mp h'; omega⟩
theorem condsB (t : Fin cfg1.N) (h8 : t.val % 8 = 0) (h24 : ¬t.val % 24 = 0) : cA (grid1.coords t) ∧ ¬cB (grid1.coords t) ∧ ¬cC (grid1.coords t) ∧ ¬cD (grid1.coords t) :=
  ⟨(hcA t).mpr h8, fun h' => h24 ((hcB t).mp h'), fun h' => by have := (hcC t).mp h'; omega, fun h' => by have := (hcD t).mp h'; omega⟩
theorem condsC (t : Fin cfg1.N) (h8 : ¬t.val % 8 = 0) (h7 : ¬t.val % 8 = 7) : ¬cA (grid1.coords t) ∧ ¬cB (grid1.coords t) ∧ ¬cC (grid1.coords t) ∧ ¬cD (grid1.coords t) :=
  ⟨fun h' => h8 ((hcA t).mp h'), fun h' => by have := (hcB t).mp h'; omega, fun h' => h7 ((hcC t).mp h'), fun h' => by have := (hcD t).mp h'; omega⟩
theorem condsD (t : Fin cfg1.N) (h7 : t.val % 8 = 7) (h23 : ¬t.val % 24 = 23) : ¬cA (grid1.coords t) ∧ ¬cB (grid1.coords t) ∧ cC (grid1.coords t) ∧ ¬cD (grid1.coords t) :=
  ⟨fun h' => by have := (hcA t).mp h'; omega, fun h' => by have := (hcB t).mp h'; omega, (hcC t).mpr h7, fun h' => h23 ((hcD t).mp h')⟩
theorem condsE (t : Fin cfg1.N) (h23 : t.val % 24 = 23) : ¬cA (grid1.coords t) ∧ ¬cB (grid1.coords t) ∧ cC (grid1.coords t) ∧ cD (grid1.coords t) :=
  ⟨fun h' => by have := (hcA t).mp h'; omega, fun h' => by have := (hcB t).mp h'; omega, (hcC t).mpr (by omega), (hcD t).mpr h23⟩

/-! ## The body's run at a point, case by case, on the point's memrefs and blocks -/

abbrev rA (c : Dev nD) (t : Fin cfg1.N) (h : t.val % 24 = 0) :=
  runA (F := F) c (grid1.coords t) (ms0 t) (hs0 t) (ms1 t) (hs1 t) (ms2 t) (hs2 t) (ms3 t) (hs3 t) (ms4 t) (hs4 t) scA (Memref.isWhole_whole _) scR (Memref.isWhole_whole _) (condsA t h).1 (condsA t h).2.1 (condsA t h).2.2.1 (condsA t h).2.2.2 (iblk V c 0 t) (iblk V c 1 t) (iblk V c 2 t) (iblk V c 3 t)
abbrev rB (c : Dev nD) (t : Fin cfg1.N) (h8 : t.val % 8 = 0) (h24 : ¬t.val % 24 = 0) :=
  runB (F := F) c (grid1.coords t) (ms0 t) (hs0 t) (ms1 t) (hs1 t) (ms2 t) (hs2 t) (ms3 t) (hs3 t) (ms4 t) (hs4 t) scA (Memref.isWhole_whole _) scR (Memref.isWhole_whole _) (condsB t h8 h24).1 (condsB t h8 h24).2.1 (condsB t h8 h24).2.2.1 (condsB t h8 h24).2.2.2 (iblk V c 0 t) (iblk V c 1 t) (iblk V c 2 t) (iblk V c 3 t)
abbrev rC (c : Dev nD) (t : Fin cfg1.N) (h8 : ¬t.val % 8 = 0) (h7 : ¬t.val % 8 = 7) (pa : Vec F S1x2048 .f32) :=
  runC (F := F) c (grid1.coords t) (ms0 t) (hs0 t) (ms1 t) (hs1 t) (ms2 t) (hs2 t) (ms3 t) (hs3 t) (ms4 t) (hs4 t) scA (Memref.isWhole_whole _) scR (Memref.isWhole_whole _) (condsC t h8 h7).1 (condsC t h8 h7).2.1 (condsC t h8 h7).2.2.1 (condsC t h8 h7).2.2.2 (iblk V c 0 t) (iblk V c 1 t) (iblk V c 2 t) (iblk V c 3 t) pa
abbrev rD (c : Dev nD) (t : Fin cfg1.N) (h7 : t.val % 8 = 7) (h23 : ¬t.val % 24 = 23) (pa : Vec F S1x2048 .f32) (pr : Vec F S3x2048 .f32) :=
  runD (F := F) c (grid1.coords t) (ms0 t) (hs0 t) (ms1 t) (hs1 t) (ms2 t) (hs2 t) (ms3 t) (hs3 t) (ms4 t) (hs4 t) scA (Memref.isWhole_whole _) scR (Memref.isWhole_whole _) (condsD t h7 h23).1 (condsD t h7 h23).2.1 (condsD t h7 h23).2.2.1 (condsD t h7 h23).2.2.2 (iblk V c 0 t) (iblk V c 1 t) (iblk V c 2 t) (iblk V c 3 t) pa pr
abbrev rE (c : Dev nD) (t : Fin cfg1.N) (h23 : t.val % 24 = 23) (pa : Vec F S1x2048 .f32) (pr : Vec F S3x2048 .f32) :=
  runE (F := F) c (grid1.coords t) (ms0 t) (hs0 t) (ms1 t) (hs1 t) (ms2 t) (hs2 t) (ms3 t) (hs3 t) (ms4 t) (hs4 t) scA (Memref.isWhole_whole _) scR (Memref.isWhole_whole _) (condsE t h23).1 (condsE t h23).2.1 (condsE t h23).2.2.1 (condsE t h23).2.2.2 (iblk V c 0 t) (iblk V c 1 t) (iblk V c 2 t) (iblk V c 3 t) pa pr

/-! ## What each case leaves: its stored pieces read back (they cover the buffer, so the read does not depend on what was there) -/

def accA (c : Dev nD) (t : Fin cfg1.N) (h : t.val % 24 = 0) : Vec F S1x2048 .f32 := VA.read (Elt F) (VA.writes (Elt F) VA.junk (rA V c t h).2.1)
def resA (c : Dev nD) (t : Fin cfg1.N) (h : t.val % 24 = 0) : Vec F S3x2048 .f32 := VR.read (Elt F) (VR.writes (Elt F) VR.junk (rA V c t h).1)
theorem cov_accA (c : Dev nD) (t : Fin cfg1.N) (h : t.val % 24 = 0) (y : S1x2048.Idx) : ∃ pc ∈ (rA V c t h).2.1, y ∈ pc.1.set :=
  View.cover_of_tiledL (rA V c t h).2.1 S1x2048.size (by sl_kernel_rfl) y
theorem cov_resA (c : Dev nD) (t : Fin cfg1.N) (h : t.val % 24 = 0) (y : S3x2048.Idx) : ∃ pc ∈ (rA V c t h).1, y ∈ pc.1.set :=
  View.cover_of_tiledL (rA V c t h).1 S3x2048.size (by sl_kernel_rfl) y

def accB (c : Dev nD) (t : Fin cfg1.N) (h8 : t.val % 8 = 0) (h24 : ¬t.val % 24 = 0) : Vec F S1x2048 .f32 := VA.read (Elt F) (VA.writes (Elt F) VA.junk (rB V c t h8 h24).1)
theorem cov_accB (c : Dev nD) (t : Fin cfg1.N) (h8 : t.val % 8 = 0) (h24 : ¬t.val % 24 = 0) (y : S1x2048.Idx) : ∃ pc ∈ (rB V c t h8 h24).1, y ∈ pc.1.set :=
  View.cover_of_tiledL (rB V c t h8 h24).1 S1x2048.size (by sl_kernel_rfl) y

def accC (c : Dev nD) (t : Fin cfg1.N) (h8 : ¬t.val % 8 = 0) (h7 : ¬t.val % 8 = 7) (pa : Vec F S1x2048 .f32) : Vec F S1x2048 .f32 := VA.read (Elt F) (VA.writes (Elt F) VA.junk (rC V c t h8 h7 pa).1)
theorem cov_accC (c : Dev nD) (t : Fin cfg1.N) (h8 : ¬t.val % 8 = 0) (h7 : ¬t.val % 8 = 7) (pa : Vec F S1x2048 .f32) (y : S1x2048.Idx) : ∃ pc ∈ (rC V c t h8 h7 pa).1, y ∈ pc.1.set :=
  View.cover_of_tiledL (rC V c t h8 h7 pa).1 S1x2048.size (by sl_kernel_rfl) y

def accD (c : Dev nD) (t : Fin cfg1.N) (h7 : t.val % 8 = 7) (h23 : ¬t.val % 24 = 23) (pa : Vec F S1x2048 .f32) (pr : Vec F S3x2048 .f32) : Vec F S1x2048 .f32 := VA.read (Elt F) (VA.writes (Elt F) VA.junk (rD V c t h7 h23 pa pr).2.1)
def resD (c : Dev nD) (t : Fin cfg1.N) (h7 : t.val % 8 = 7) (h23 : ¬t.val % 24 = 23) (pa : Vec F S1x2048 .f32) (pr : Vec F S3x2048 .f32) : Vec F S3x2048 .f32 := VR.read (Elt F) (VR.writes (Elt F) VR.junk (rD V c t h7 h23 pa pr).1)
theorem cov_accD (c : Dev nD) (t : Fin cfg1.N) (h7 : t.val % 8 = 7) (h23 : ¬t.val % 24 = 23) (pa : Vec F S1x2048 .f32) (pr : Vec F S3x2048 .f32) (y : S1x2048.Idx) : ∃ pc ∈ (rD V c t h7 h23 pa pr).2.1, y ∈ pc.1.set :=
  View.cover_of_tiledL (rD V c t h7 h23 pa pr).2.1 S1x2048.size (by sl_kernel_rfl) y
theorem cov_resD (c : Dev nD) (t : Fin cfg1.N) (h7 : t.val % 8 = 7) (h23 : ¬t.val % 24 = 23) (pa : Vec F S1x2048 .f32) (pr : Vec F S3x2048 .f32) (y : S3x2048.Idx) : ∃ pc ∈ (rD V c t h7 h23 pa pr).1, y ∈ pc.1.set :=
  View.cover_of_tiledL (rD V c t h7 h23 pa pr).1 S3x2048.size (by sl_kernel_rfl) y

def outE (c : Dev nD) (t : Fin cfg1.N) (h23 : t.val % 24 = 23) (pa : Vec F S1x2048 .f32) (pr : Vec F S3x2048 .f32) : Vec F S3x2048 .f32 := VO.read (Elt F) (VO.writes (Elt F) VO.junk (rE V c t h23 pa pr).1)
def resE (c : Dev nD) (t : Fin cfg1.N) (h23 : t.val % 24 = 23) (pa : Vec F S1x2048 .f32) (pr : Vec F S3x2048 .f32) : Vec F S3x2048 .f32 := VR.read (Elt F) (VR.writes (Elt F) VR.junk (rE V c t h23 pa pr).2.1)
def accE (c : Dev nD) (t : Fin cfg1.N) (h23 : t.val % 24 = 23) (pa : Vec F S1x2048 .f32) (pr : Vec F S3x2048 .f32) : Vec F S1x2048 .f32 := VA.read (Elt F) (VA.writes (Elt F) VA.junk (rE V c t h23 pa pr).2.2.1)
theorem cov_outE (c : Dev nD) (t : Fin cfg1.N) (h23 : t.val % 24 = 23) (pa : Vec F S1x2048 .f32) (pr : Vec F S3x2048 .f32) (y : S3x2048.Idx) : ∃ pc ∈ (rE V c t h23 pa pr).1, y ∈ pc.1.set :=
  View.cover_of_tiledL (rE V c t h23 pa pr).1 S3x2048.size (by sl_kernel_rfl) y
theorem cov_resE (c : Dev nD) (t : Fin cfg1.N) (h23 : t.val % 24 = 23) (pa : Vec F S1x2048 .f32) (pr : Vec F S3x2048 .f32) (y : S3x2048.Idx) : ∃ pc ∈ (rE V c t h23 pa pr).2.1, y ∈ pc.1.set :=
  View.cover_of_tiledL (rE V c t h23 pa pr).2.1 S3x2048.size (by sl_kernel_rfl) y
theorem cov_accE (c : Dev nD) (t : Fin cfg1.N) (h23 : t.val % 24 = 23) (pa : Vec F S1x2048 .f32) (pr : Vec F S3x2048 .f32) (y : S1x2048.Idx) : ∃ pc ∈ (rE V c t h23 pa pr).2.2.1, y ∈ pc.1.set :=
  View.cover_of_tiledL (rE V c t h23 pa pr).2.2.1 S1x2048.size (by sl_kernel_rfl) y

end Cert.KernelIdeal.R1

end
-- ==== Proof.R1Data.lean ====
/-
  The second Pallas call as a region: what the output block, the row accumulator and the result buffer hold after each
  grid point (by recursion on the point, each case's stored pieces read back), the invariant that carries the two
  scratch buffers between points, the proof data, and the body obligation by cases on the point's place in its sweep.
-/
import proofs.«110218_j20177756357157_2_alg».proof.Proof.R1Cases

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulation -/

/-- One point: from what the accumulator and the result buffer held before it (ignored where the point resets them) to
    what the output block (a placeholder where the point does not store into it), the accumulator and the result buffer
    hold after it. -/
def stepAt (c : Dev nD) (t : Fin cfg1.N) (pa : Vec F S1x2048 .f32) (pr : Vec F S3x2048 .f32) :
    Vec F S3x2048 .f32 × Vec F S1x2048 .f32 × Vec F S3x2048 .f32 :=
  if h24 : t.val % 24 = 0 then ((VO.read (Elt F) VO.junk), accA V c t h24, resA V c t h24)
  else if h8 : t.val % 8 = 0 then ((VO.read (Elt F) VO.junk), accB V c t h8 h24, pr)
  else if h23 : t.val % 24 = 23 then (outE V c t h23 pa pr, accE V c t h23 pa pr, resE V c t h23 pa pr)
  else if h7 : t.val % 8 = 7 then ((VO.read (Elt F) VO.junk), accD V c t h7 h23 pa pr, resD V c t h7 h23 pa pr)
  else ((VO.read (Elt F) VO.junk), accC V c t h8 h7 pa, pr)

theorem stepAt_A (c : Dev nD) (t : Fin cfg1.N) (pa pr) (h24 : t.val % 24 = 0) :
    stepAt V c t pa pr = ((VO.read (Elt F) VO.junk), accA V c t h24, resA V c t h24) := dif_pos h24
theorem stepAt_B (c : Dev nD) (t : Fin cfg1.N) (pa pr) (h8 : t.val % 8 = 0) (h24 : ¬t.val % 24 = 0) :
    stepAt V c t pa pr = ((VO.read (Elt F) VO.junk), accB V c t h8 h24, pr) := (dif_neg h24).trans (dif_pos h8)
theorem stepAt_E (c : Dev nD) (t : Fin cfg1.N) (pa pr) (h23 : t.val % 24 = 23) :
    stepAt V c t pa pr = (outE V c t h23 pa pr, accE V c t h23 pa pr, resE V c t h23 pa pr) :=
  (dif_neg (by omega)).trans ((dif_neg (by omega)).trans (dif_pos h23))
theorem stepAt_D (c : Dev nD) (t : Fin cfg1.N) (pa pr) (h7 : t.val % 8 = 7) (h23 : ¬t.val % 24 = 23) :
    stepAt V c t pa pr = ((VO.read (Elt F) VO.junk), accD V c t h7 h23 pa pr, resD V c t h7 h23 pa pr) :=
  (dif_neg (by omega)).trans ((dif_neg (by omega)).trans ((dif_neg h23).trans (dif_pos h7)))
theorem stepAt_C (c : Dev nD) (t : Fin cfg1.N) (pa pr) (h8 : ¬t.val % 8 = 0) (h7 : ¬t.val % 8 = 7) :
    stepAt V c t pa pr = ((VO.read (Elt F) VO.junk), accC V c t h8 h7 pa, pr) :=
  (dif_neg (by omega)).trans ((dif_neg h8).trans ((dif_neg (by omega)).trans (dif_neg h7)))

/-- What the three buffers hold after the point at position `n`. -/
def outsAt (c : Dev nD) : (n : ℕ) → n < cfg1.N → Vec F S3x2048 .f32 × Vec F S1x2048 .f32 × Vec F S3x2048 .f32
  | 0, hn => stepAt V c ⟨0, hn⟩ (VA.read (Elt F) VA.junk) (VR.read (Elt F) VR.junk)
  | n + 1, hn => stepAt V c ⟨n + 1, hn⟩ (outsAt c n (Nat.lt_of_succ_lt hn)).2.1 (outsAt c n (Nat.lt_of_succ_lt hn)).2.2

theorem outsAt_zero (c : Dev nD) (t : Fin cfg1.N) (h : t.val = 0) :
    outsAt V c t.val t.isLt = stepAt V c t (VA.read (Elt F) VA.junk) (VR.read (Elt F) VR.junk) := by
  obtain ⟨n, hn⟩ := t; cases n with
  | zero => rfl
  | succ n => exact absurd h (Nat.succ_ne_zero n)
theorem outsAt_pos (c : Dev nD) (t : Fin cfg1.N) (h : t.val ≠ 0) :
    outsAt V c t.val t.isLt = stepAt V c t (outsAt V c (t.val - 1) (Nat.lt_of_le_of_lt (Nat.sub_le _ _) t.isLt)).2.1 (outsAt V c (t.val - 1) (Nat.lt_of_le_of_lt (Nat.sub_le _ _) t.isLt)).2.2 := by
  obtain ⟨n, hn⟩ := t; cases n with
  | zero => exact absurd rfl h
  | succ n => rfl

/-! ## The invariant -/

/-- Every scoped buffer that is neither a staging buffer of this call nor one of its two scratch buffers, unopened. -/
abbrev RB (c : Dev nD) : sProp 𝕄 :=
  Pipeline.scopedRestBut (Ix := Unit) (Name := ℕ) (U := UR sig nD τ) (Lvl := ℕ) (Val := Elt F) spec1 c [cc1_scratch0, cc1_scratch1]

theorem scopedRest_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))
          ∗ RB (F := F) c) :=
  Pipeline.scopedRest_split_of_list spec1 c [cc1_scratch0, cc1_scratch1] (by decide) (by decide)

/-- The class invariant with the two scratch buffers as memrefs owned at some contents. -/
theorem PhiA_eq (c : Dev nD) :
    (Pipeline.ΦA spec1 c : sProp 𝕄)
      = iprop(iprop(iprop((∃ d, owns (c : Thread nD τ) scA fullShare d) ∗ (∃ d, owns (c : Thread nD τ) scR fullShare d)) ∗ RB (F := F) c) ∗ (∃ r, prngReg c r)) := by
  unfold Pipeline.ΦA; rw [scopedRest_split]; simp only [scA, scR, owns_whole]; rfl

/-- Before the first point the class invariant (the scratch buffers at anything); before a later point the scratch
    buffers at what the point before left in them, the other scoped buffers unopened, the generator register at some state. -/
def PhiS (c : Dev nD) : (n : ℕ) → n ≤ cfg1.N → sProp 𝕄
  | 0, _ => Pipeline.ΦA spec1 c
  | n + 1, hn => iprop(iprop(iprop(owns (c : Thread nD τ) scA fullShare (outsAt V c n hn).2.1 ∗ owns (c : Thread nD τ) scR fullShare (outsAt V c n hn).2.2) ∗ RB (F := F) c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(iprop(owns (c : Thread nD τ) scA fullShare (outsAt V c n hn).2.1 ∗ owns (c : Thread nD τ) scR fullShare (outsAt V c n hn).2.2) ∗ RB (F := F) c) ∗ (∃ r, prngReg c r)) := rfl
theorem PhiS_pos (c : Dev nD) (n : ℕ) (h : n ≤ cfg1.N) (hz : n ≠ 0) :
    PhiS V c n h = iprop(iprop(iprop(owns (c : Thread nD τ) scA fullShare (outsAt V c (n - 1) (by omega)).2.1 ∗ owns (c : Thread nD τ) scR fullShare (outsAt V c (n - 1) (by omega)).2.2) ∗ RB (F := F) c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after_0 (c : Dev nD) (t : Fin cfg1.N) : (dat1 V c).after 0 t = iblk V c 0 t := by dsimp only [dat1]
theorem after_1 (c : Dev nD) (t : Fin cfg1.N) : (dat1 V c).after 1 t = iblk V c 1 t := by dsimp only [dat1]
theorem after_2 (c : Dev nD) (t : Fin cfg1.N) : (dat1 V c).after 2 t = iblk V c 2 t := by dsimp only [dat1]
theorem after_3 (c : Dev nD) (t : Fin cfg1.N) : (dat1 V c).after 3 t = iblk V c 3 t := by dsimp only [dat1]
theorem after_4 (c : Dev nD) (t : Fin cfg1.N) : (dat1 V c).after 4 t = (outsAt V c t.val t.isLt).1 := by dsimp only [dat1]
theorem before_0 (c : Dev nD) (t : Fin cfg1.N) (d) : (dat1 V c).before 0 t d = iblk V c 0 t := before_0_of V (dat1 V c) (A_eq1 V c 0) (after_0 V c) t d
theorem before_1 (c : Dev nD) (t : Fin cfg1.N) (d) : (dat1 V c).before 1 t d = iblk V c 1 t := before_1_of V (dat1 V c) (A_eq1 V c 1) (after_1 V c) t d
theorem before_2 (c : Dev nD) (t : Fin cfg1.N) (d) : (dat1 V c).before 2 t d = iblk V c 2 t := before_2_of V (dat1 V c) (A_eq1 V c 2) (after_2 V c) t d
theorem before_3 (c : Dev nD) (t : Fin cfg1.N) (d) : (dat1 V c).before 3 t d = iblk V c 3 t := before_3_of V (dat1 V c) (A_eq1 V c 3) (after_3 V c) t d

end Cert.KernelIdeal.R1

end
-- ==== Proof.R1Body.lean ====
/-
  The second Pallas call: the body obligation. At each point the input windows hold their blocks; the point's place in
  its sweep selects the case; the invariant hands the body the two scratch buffers at what the point before left (at
  anything where the point resets them) and takes them back at this point's contents.
-/
import proofs.«110218_j20177756357157_2_alg».proof.Proof.R1Data

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem live0 : ∀ t : Fin cfg1.N, cfg1.idle 0 (grid1.coords t) = false := fun _ => rfl
theorem live1 : ∀ t : Fin cfg1.N, cfg1.idle 1 (grid1.coords t) = false := fun _ => rfl
theorem live2 : ∀ t : Fin cfg1.N, cfg1.idle 2 (grid1.coords t) = false := fun _ => rfl
theorem live3 : ∀ t : Fin cfg1.N, cfg1.idle 3 (grid1.coords t) = false := fun _ => rfl

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (ms0 t) fullShare ((dat1 V c).before 0 t d))
    ∗ (∃ d, owns (c : Thread nD τ) (ms1 t) fullShare ((dat1 V c).before 1 t d))
    ∗ (∃ d, owns (c : Thread nD τ) (ms2 t) fullShare ((dat1 V c).before 2 t d))
    ∗ (∃ d, owns (c : Thread nD τ) (ms3 t) fullShare ((dat1 V c).before 3 t d))
    ∗ (∃ d, owns (c : Thread nD τ) (ms4 t) fullShare ((dat1 V c).before 4 t d)))

/-- and what it returns. -/
def bodyPost (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t
    ∗ (dat1 V c).leavesExact 4 t)

set_option maxHeartbeats 8000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms0 t) fullShare ((dat1 V c).after 0 t) from by
        unfold Dat.leavesExact; rw [live0 t], after_0,
      show (dat1 V c).leavesExact 1 t = owns (c : Thread nD τ) (ms1 t) fullShare ((dat1 V c).after 1 t) from by
        unfold Dat.leavesExact; rw [live1 t], after_1,
      show (dat1 V c).leavesExact 2 t = owns (c : Thread nD τ) (ms2 t) fullShare ((dat1 V c).after 2 t) from by
        unfold Dat.leavesExact; rw [live2 t], after_2,
      show (dat1 V c).leavesExact 3 t = owns (c : Thread nD τ) (ms3 t) fullShare ((dat1 V c).after 3 t) from by
        unfold Dat.leavesExact; rw [live3 t], after_3]
  have hN : t.val < 48 := lt_of_lt_of_eq t.isLt (show cfg1.N = 48 from N_1)
  by_cases h24 : t.val % 24 = 0
  · -- b = 0, k = 0: both scratch buffers are reset
    rw [Dat.leavesExact_idle (dat1 V c) 4 t (idle_out t (condsA t h24).2.2.2) (noflush_out t (condsA t h24).2.2.2)]
    by_cases hz : t.val = 0
    · rw [outsAt_zero V c t hz, stepAt_A V c t _ _ h24]
      unfold accA resA; dsimp only
      rw [PhiS_castSucc V c t, PhiS_zero V c _ _ hz, PhiA_eq]
      iintro ⟨⟨⟨⟨HSA, HSR⟩, HRB⟩, Hg⟩, Ho, ⟨%d0, H0⟩, ⟨%d1, H1⟩, ⟨%d2, H2⟩, ⟨%d3, H3⟩, ⟨%d4, H4⟩⟩
      iapply ((rA V c t h24).2.2 _ Set.univ _)
      isplitl [H0]; · iexact H0
      isplitl [H1]; · iexact H1
      isplitl [H2]; · iexact H2
      isplitl [H3]; · iexact H3
      isplitl [H4]; · iexact H4
      isplitl [HSA]; · iexact HSA
      isplitl [HSR]; · iexact HSR
      iintro ⟨H0, H1, H2, H3, H4, ⟨%ea, HSA⟩, ⟨%er, HSR⟩⟩
      isplitl [HSA HSR HRB Hg]
      · isplitl [HSA HSR HRB]
        · isplitl [HSA HSR]
          · isplitl [HSA]
            · unfold owns; iexists _; isplitr
              swap; · iexact HSA
              ipureintro; exact View.read_writes_of_cover _ _ _ _ _ (cov_accA V c t h24)
            unfold owns; iexists _; isplitr
            swap; · iexact HSR
            ipureintro; exact View.read_writes_of_cover _ _ _ _ _ (cov_resA V c t h24)
          iexact HRB
        iexact Hg
      isplitl [Ho]; · iexact Ho
      isplitl [H0]; · iexact H0
      isplitl [H1]; · iexact H1
      isplitl [H2]; · iexact H2
      isplitl [H3]; · iexact H3
      iexists _; iexact H4
    · rw [outsAt_pos V c t hz, stepAt_A V c t _ _ h24]
      unfold accA resA; dsimp only
      rw [PhiS_castSucc V c t, PhiS_pos V c _ _ hz]
      iintro ⟨⟨⟨⟨HSA, HSR⟩, HRB⟩, Hg⟩, Ho, ⟨%d0, H0⟩, ⟨%d1, H1⟩, ⟨%d2, H2⟩, ⟨%d3, H3⟩, ⟨%d4, H4⟩⟩
      iapply ((rA V c t h24).2.2 _ Set.univ _)
      isplitl [H0]; · iexact H0
      isplitl [H1]; · iexact H1
      isplitl [H2]; · iexact H2
      isplitl [H3]; · iexact H3
      isplitl [H4]; · iexact H4
      isplitl [HSA]; · iexists _; iexact HSA
      isplitl [HSR]; · iexists _; iexact HSR
      iintro ⟨H0, H1, H2, H3, H4, ⟨%ea, HSA⟩, ⟨%er, HSR⟩⟩
      isplitl [HSA HSR HRB Hg]
      · isplitl [HSA HSR HRB]
        · isplitl [HSA HSR]
          · isplitl [HSA]
            · unfold owns; iexists _; isplitr
              swap; · iexact HSA
              ipureintro; exact View.read_writes_of_cover _ _ _ _ _ (cov_accA V c t h24)
            unfold owns; iexists _; isplitr
            swap; · iexact HSR
            ipureintro; exact View.read_writes_of_cover _ _ _ _ _ (cov_resA V c t h24)
          iexact HRB
        iexact Hg
      isplitl [Ho]; · iexact Ho
      isplitl [H0]; · iexact H0
      isplitl [H1]; · iexact H1
      isplitl [H2]; · iexact H2
      isplitl [H3]; · iexact H3
      iexists _; iexact H4
  · by_cases h8 : t.val % 8 = 0
    · -- k = 0, b ≠ 0: the accumulator is reset, the result buffer carried
      have hz : t.val ≠ 0 := by omega
      rw [Dat.leavesExact_idle (dat1 V c) 4 t (idle_out t (condsB t h8 h24).2.2.2) (noflush_out t (condsB t h8 h24).2.2.2)]
      rw [outsAt_pos V c t hz, stepAt_B V c t _ _ h8 h24]
      unfold accB; dsimp only
      rw [PhiS_castSucc V c t, PhiS_pos V c _ _ hz]
      iintro ⟨⟨⟨⟨HSA, HSR⟩, HRB⟩, Hg⟩, Ho, ⟨%d0, H0⟩, ⟨%d1, H1⟩, ⟨%d2, H2⟩, ⟨%d3, H3⟩, ⟨%d4, H4⟩⟩
      iapply ((rB V c t h8 h24).2 _ _ Set.univ _)
      isplitl [H0]; · iexact H0
      isplitl [H1]; · iexact H1
      isplitl [H2]; · iexact H2
      isplitl [H3]; · iexact H3
      isplitl [H4]; · iexact H4
      isplitl [HSA]; · iexists _; iexact HSA
      isplitl [HSR]; · iexact HSR
      iintro ⟨H0, H1, H2, H3, H4, ⟨%ea, HSA⟩, HSR⟩
      isplitl [HSA HSR HRB Hg]
      · isplitl [HSA HSR HRB]
        · isplitl [HSA HSR]
          · isplitl [HSA]
            · unfold owns; iexists _; isplitr
              swap; · iexact HSA
              ipureintro; exact View.read_writes_of_cover _ _ _ _ _ (cov_accB V c t h8 h24)
            iexact HSR
          iexact HRB
        iexact Hg
      isplitl [Ho]; · iexact Ho
      isplitl [H0]; · iexact H0
      isplitl [H1]; · iexact H1
      isplitl [H2]; · iexact H2
      isplitl [H3]; · iexact H3
      iexists _; iexact H4
    · by_cases h23 : t.val % 24 = 23
      · -- b = 2, k = 7: the last partial product, the clamp into row 2, the copy out
        have hz : t.val ≠ 0 := by omega
        rw [show (dat1 V c).leavesExact 4 t = owns (c : Thread nD τ) (ms4 t) fullShare ((dat1 V c).after 4 t) from by
              unfold Dat.leavesExact; rw [live_out t (condsE t h23).2.2.2], after_4]
        rw [outsAt_pos V c t hz, stepAt_E V c t _ _ h23]
        unfold outE accE resE; dsimp only
        rw [PhiS_castSucc V c t, PhiS_pos V c _ _ hz]
        iintro ⟨⟨⟨⟨HSA, HSR⟩, HRB⟩, Hg⟩, Ho, ⟨%d0, H0⟩, ⟨%d1, H1⟩, ⟨%d2, H2⟩, ⟨%d3, H3⟩, ⟨%d4, H4⟩⟩
        iapply ((rE V c t h23 (outsAt V c (t.val - 1) (Nat.lt_of_le_of_lt (Nat.sub_le _ _) t.isLt)).2.1 (outsAt V c (t.val - 1) (Nat.lt_of_le_of_lt (Nat.sub_le _ _) t.isLt)).2.2).2.2.2 Set.univ _)
        isplitl [H0]; · iexact H0
        isplitl [H1]; · iexact H1
        isplitl [H2]; · iexact H2
        isplitl [H3]; · iexact H3
        isplitl [H4]; · iexists _; iexact H4
        isplitl [HSA]; · iexact HSA
        isplitl [HSR]; · iexact HSR
        iintro ⟨H0, H1, H2, H3, ⟨%eo, H4⟩, ⟨%ea, HSA⟩, ⟨%er, HSR⟩⟩
        isplitl [HSA HSR HRB Hg]
        · isplitl [HSA HSR HRB]
          · isplitl [HSA HSR]
            · isplitl [HSA]
              · unfold owns; iexists _; isplitr
                swap; · iexact HSA
                ipureintro; exact View.read_writes_of_cover _ _ _ _ _ (cov_accE V c t h23 _ _)
              unfold owns; iexists _; isplitr
              swap; · iexact HSR
              ipureintro; exact View.read_writes_of_cover _ _ _ _ _ (cov_resE V c t h23 _ _)
            iexact HRB
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cov_outE V c t h23 _ _)
      · by_cases h7 : t.val % 8 = 7
        · -- k = 7, b ≠ 2: the last partial product and the clamp into row b
          have hz : t.val ≠ 0 := by omega
          rw [Dat.leavesExact_idle (dat1 V c) 4 t (idle_out t (condsD t h7 h23).2.2.2) (noflush_out t (condsD t h7 h23).2.2.2)]
          rw [outsAt_pos V c t hz, stepAt_D V c t _ _ h7 h23]
          unfold accD resD; dsimp only
          rw [PhiS_castSucc V c t, PhiS_pos V c _ _ hz]
          iintro ⟨⟨⟨⟨HSA, HSR⟩, HRB⟩, Hg⟩, Ho, ⟨%d0, H0⟩, ⟨%d1, H1⟩, ⟨%d2, H2⟩, ⟨%d3, H3⟩, ⟨%d4, H4⟩⟩
          iapply ((rD V c t h7 h23 (outsAt V c (t.val - 1) (Nat.lt_of_le_of_lt (Nat.sub_le _ _) t.isLt)).2.1 (outsAt V c (t.val - 1) (Nat.lt_of_le_of_lt (Nat.sub_le _ _) t.isLt)).2.2).2.2 _ Set.univ _)
          isplitl [H0]; · iexact H0
          isplitl [H1]; · iexact H1
          isplitl [H2]; · iexact H2
          isplitl [H3]; · iexact H3
          isplitl [H4]; · iexact H4
          isplitl [HSA]; · iexact HSA
          isplitl [HSR]; · iexact HSR
          iintro ⟨H0, H1, H2, H3, H4, ⟨%ea, HSA⟩, ⟨%er, HSR⟩⟩
          isplitl [HSA HSR HRB Hg]
          · isplitl [HSA HSR HRB]
            · isplitl [HSA HSR]
              · isplitl [HSA]
                · unfold owns; iexists _; isplitr
                  swap; · iexact HSA
                  ipureintro; exact View.read_writes_of_cover _ _ _ _ _ (cov_accD V c t h7 h23 _ _)
                unfold owns; iexists _; isplitr
                swap; · iexact HSR
                ipureintro; exact View.read_writes_of_cover _ _ _ _ _ (cov_resD V c t h7 h23 _ _)
              iexact HRB
            iexact Hg
          isplitl [Ho]; · iexact Ho
          isplitl [H0]; · iexact H0
          isplitl [H1]; · iexact H1
          isplitl [H2]; · iexact H2
          isplitl [H3]; · iexact H3
          iexists _; iexact H4
        · -- 0 < k < 7: one more partial product into the accumulator
          have hz : t.val ≠ 0 := by omega
          rw [Dat.leavesExact_idle (dat1 V c) 4 t (idle_out t (condsC t h8 h7).2.2.2) (noflush_out t (condsC t h8 h7).2.2.2)]
          rw [outsAt_pos V c t hz, stepAt_C V c t _ _ h8 h7]
          unfold accC; dsimp only
          rw [PhiS_castSucc V c t, PhiS_pos V c _ _ hz]
          iintro ⟨⟨⟨⟨HSA, HSR⟩, HRB⟩, Hg⟩, Ho, ⟨%d0, H0⟩, ⟨%d1, H1⟩, ⟨%d2, H2⟩, ⟨%d3, H3⟩, ⟨%d4, H4⟩⟩
          iapply ((rC V c t h8 h7 (outsAt V c (t.val - 1) (Nat.lt_of_le_of_lt (Nat.sub_le _ _) t.isLt)).2.1).2 _ _ Set.univ _)
          isplitl [H0]; · iexact H0
          isplitl [H1]; · iexact H1
          isplitl [H2]; · iexact H2
          isplitl [H3]; · iexact H3
          isplitl [H4]; · iexact H4
          isplitl [HSA]; · iexact HSA
          isplitl [HSR]; · iexact HSR
          iintro ⟨H0, H1, H2, H3, H4, ⟨%ea, HSA⟩, HSR⟩
          isplitl [HSA HSR HRB Hg]
          · isplitl [HSA HSR HRB]
            · isplitl [HSA HSR]
              · isplitl [HSA]
                · unfold owns; iexists _; isplitr
                  swap; · iexact HSA
                  ipureintro; exact View.read_writes_of_cover _ _ _ _ _ (cov_accC V c t h8 h7 _)
                iexact HSR
              iexact HRB
            iexact Hg
          isplitl [Ho]; · iexact Ho
          isplitl [H0]; · iexact H0
          isplitl [H1]; · iexact H1
          isplitl [H2]; · iexact H2
          isplitl [H3]; · iexact H3
          iexists _; iexact H4

/-- The body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point, -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- and after the last point the invariant gives it back, the scratch buffers' contents forgotten. -/
theorem hout1 (c : Dev nD) : (dat1 V c).Φ (Fin.last cfg1.N) ⊢ Pipeline.ΦA spec1 c := by
  have hne : (Fin.last cfg1.N).val ≠ 0 := by rw [Fin.val_last]; have : cfg1.N = 48 := N_1; omega
  rw [show (dat1 V c).Φ (Fin.last cfg1.N) = PhiS V c (Fin.last cfg1.N).val (Nat.le_of_lt_succ (Fin.last cfg1.N).isLt) from rfl,
    PhiS_pos V c _ _ hne, PhiA_eq]
  iintro ⟨⟨⟨HSA, HSR⟩, HRB⟩, Hg⟩
  isplitl [HSA HSR HRB]
  · isplitl [HSA HSR]
    · isplitl [HSA]
      · iexists _; iexact HSA
      iexists _; iexact HSR
    iexact HRB
  iexact Hg

end Cert.KernelIdeal.R1

end
-- ==== Proof.R2Base.lean ====
/-
  The third Pallas call (the second matvec layer of the three branches), as the pipeline runs it: what is shared by the
  runs of its body in the five cases of its conditionals. A grid point is (n, b, k) with n < 2 the column tile, b < 3 the
  branch and k < 8 the row tile; in the linear order t = 24 n + 8 b + k. The body zeroes the row accumulator when k = 0,
  zeroes the three-row result buffer when b = k = 0, adds the selected branch's 512-row partial product into the
  accumulator, at k = 7 writes max(acc, 0) into row b of the result buffer, and at b = 2, k = 7 copies the result buffer
  into the output block.
-/
import proofs.«110218_j20177756357157_2_alg».proof.Proof.Gen.KernelIdeal.Launch
import proofs.«110218_j20177756357157_2_alg».proof.Proof.Gen.KernelIdeal.Skeleton
import proofs.«110218_j20177756357157_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions, in closed form over the linear order of the grid -/

/-- k = 0: the accumulator is reset. -/
abbrev cA (i : grid2.Coords) : Prop := (Scalar.cmpi .ne (Scalar.extui (Scalar.cmpi .eq (BitVec.ofNat 32 (i 2).val) 0#32)) 0#32) = 1#1
/-- b = 0 and k = 0: the result buffer is reset. -/
abbrev cB (i : grid2.Coords) : Prop := (Scalar.cmpi .ne (Scalar.extui (Scalar.andi (Scalar.cmpi .eq (BitVec.ofNat 32 (i 1).val) 0#32) (Scalar.cmpi .eq (BitVec.ofNat 32 (i 2).val) 0#32))) 0#32) = 1#1
/-- k = 7: the accumulator is finished and clamped into row b. -/
abbrev cC (i : grid2.Coords) : Prop := (Scalar.cmpi .ne (Scalar.extui (Scalar.cmpi .eq (BitVec.ofNat 32 (i 2).val) 7#32)) 0#32) = 1#1
/-- b = 2 and k = 7: the result buffer is copied out. -/
abbrev cD (i : grid2.Coords) : Prop := k2_cond4 i = 1#1

theorem hcA : ∀ t : Fin cfg2.N, cA (grid2.coords t) ↔ t.val % 8 = 0 :=
  (by decide +kernel : ∀ t : Fin grid2.N, cA (grid2.coords t) ↔ t.val % 8 = 0)
theorem hcB : ∀ t : Fin cfg2.N, cB (grid2.coords t) ↔ t.val % 24 = 0 :=
  (by decide +kernel : ∀ t : Fin grid2.N, cB (grid2.coords t) ↔ t.val % 24 = 0)
theorem hcC : ∀ t : Fin cfg2.N, cC (grid2.coords t) ↔ t.val % 8 = 7 :=
  (by decide +kernel : ∀ t : Fin grid2.N, cC (grid2.coords t) ↔ t.val % 8 = 7)
theorem hcD : ∀ t : Fin cfg2.N, cD (grid2.coords t) ↔ t.val % 24 = 23 :=
  (by decide +kernel : ∀ t : Fin grid2.N, cD (grid2.coords t) ↔ t.val % 24 = 23)

/-! ## Where the output window is idle -/

theorem live_in (w : Fin cfg2.W) (hw : w.val < 4) : ∀ i, cfg2.idle w i = false := by
  intro i; match w, hw with
  | ⟨0, _⟩, _ => rfl | ⟨1, _⟩, _ => rfl | ⟨2, _⟩, _ => rfl | ⟨3, _⟩, _ => rfl
theorem idle_out : ∀ t : Fin cfg2.N, ¬cD (grid2.coords t) → cfg2.idle 4 (grid2.coords t) = true := by decide +kernel
theorem noflush_out : ∀ t : Fin cfg2.N, ¬cD (grid2.coords t) → (cfg2.win 4).flush t = false := by decide +kernel
theorem live_out : ∀ t : Fin cfg2.N, cD (grid2.coords t) → cfg2.idle 4 (grid2.coords t) = false := by decide +kernel

/-! ## The memrefs the body is called with -/

abbrev ms0 (t : Fin cfg2.N) : Memref sig .tc .vmem S3x512 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S512x2048 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S512x2048 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S512x2048 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S3x2048 .f32 := win2_4.stage (cfg2.slots t 4)
abbrev hs4 (t : Fin cfg2.N) : (ms4 t).IsWhole := hstage2_4 ((cfg2.slots t 4).cast nbuf2_4)
/-- The row accumulator and the three-row result buffer: scratch the kernel carries from point to point. -/
abbrev scA : Memref sig .tc .vmem S1x2048 .f32 := Memref.whole cc2_scratch0
abbrev scR : Memref sig .tc .vmem S3x2048 .f32 := Memref.whole cc2_scratch1
abbrev VA : View sig .tc .vmem S1x2048 .f32 := (scA).view
abbrev VR : View sig .tc .vmem S3x2048 .f32 := (scR).view
abbrev VO : View sig .tc .vmem S3x2048 .f32 := (Memref.whole cc2_stg4_0 : Memref sig .tc .vmem S3x2048 .f32).view

end Cert.KernelIdeal.R2

end
-- ==== Proof.R2RunA.lean ====
/-
  The body at a point with b = 0 and k = 0: both resets are taken. The accumulator and the result buffer, found at any
  contents, are zeroed; the selected branch's partial product is added into the accumulator; the output block is not touched.
-/
import proofs.«110218_j20177756357157_2_alg».proof.Proof.R2Base

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each buffer the body stores into ends with (last store first), with the body's run to its return from the
    four input blocks at their contents, a buffer the case does not store into handed back as found. -/
noncomputable def runA (c : Dev nD) (i : grid2.Coords) (arg3 : Memref sig .tc .vmem S3x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (arg7 : Memref sig .tc .vmem S3x2048 .f32) (harg7 : arg7.IsWhole) (arg8 : Memref sig .tc .vmem S1x2048 .f32) (harg8 : arg8.IsWhole) (arg9 : Memref sig .tc .vmem S3x2048 .f32) (harg9 : arg9.IsWhole) (hA : cA i) (hB : cB i) (hC : ¬cC i) (hD : ¬cD i)
    (x0 : Vec F S3x512 .f32) (x1 : Vec F S512x2048 .f32) (x2 : Vec F S512x2048 .f32) (x3 : Vec F S512x2048 .f32) :
    Σ' (LR : List (View.Piece (Elt F) S3x2048 .f32)), { LA : List (View.Piece (Elt F) S1x2048 .f32) //
      ∀ (xo : Vec F S3x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LR)) -∗ K ⟨⟩))
          ⊢ wp frame (wpE (defs₀ (F := F)) Variants.none c none) E (cc2__fused_mlp_kernel i arg3 harg3 arg4 harg4 arg5 harg5 arg6 harg6 arg7 harg7 arg8 harg8 arg9 harg9) K } := by
  refine ⟨?_, ?_, fun xo E K => ?run⟩
  case run =>
    simp only [cc2__fused_mlp_kernel_eq_skeleton]; unfold cc2__fused_mlp_kernel_skel
    unfold owns
    iintro ⟨⟨%f0, %hf0, H0⟩, ⟨%f1, %hf1, H1⟩, ⟨%f2, %hf2, H2⟩, ⟨%f3, %hf3, H3⟩, ⟨%fo, %hfo, HO⟩, ⟨%dA, %fa, -, HA⟩, ⟨%dR, %fr, -, HR⟩, Hk⟩
    obtain rfl := harg3.eq_unread hf0; obtain rfl := harg4.eq_unread hf1; obtain rfl := harg5.eq_unread hf2; obtain rfl := harg6.eq_unread hf3
    obtain rfl := harg7.eq_unread hfo
    sl_exec (disch := first | exact hA | exact hB | exact hC | exact hD)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    isplitl [HA]
    · iexists _; iexact HA
    iexists _; iexact HR

end Cert.KernelIdeal.R2

end
-- ==== Proof.R2RunB.lean ====
/-
  The body at a point with k = 0 and b ≠ 0: the accumulator, found at any contents, is zeroed and added the selected branch's
  partial product; the result buffer, found at what the point before left, and the output block are not touched.
-/
import proofs.«110218_j20177756357157_2_alg».proof.Proof.R2Base

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each buffer the body stores into ends with (last store first), with the body's run to its return from the
    four input blocks at their contents, a buffer the case does not store into handed back as found. -/
noncomputable def runB (c : Dev nD) (i : grid2.Coords) (arg3 : Memref sig .tc .vmem S3x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (arg7 : Memref sig .tc .vmem S3x2048 .f32) (harg7 : arg7.IsWhole) (arg8 : Memref sig .tc .vmem S1x2048 .f32) (harg8 : arg8.IsWhole) (arg9 : Memref sig .tc .vmem S3x2048 .f32) (harg9 : arg9.IsWhole) (hA : cA i) (hB : ¬cB i) (hC : ¬cC i) (hD : ¬cD i)
    (x0 : Vec F S3x512 .f32) (x1 : Vec F S512x2048 .f32) (x2 : Vec F S512x2048 .f32) (x3 : Vec F S512x2048 .f32) :
    { LA : List (View.Piece (Elt F) S1x2048 .f32) //
      ∀ (xo : Vec F S3x2048 .f32) (xs1 : Vec F S3x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ (∃ d, owns (c : Thread nD τ) arg8 fullShare d) ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ (∃ f, arg8.view.loc (c : Thread nD τ) ↦[arg8.view.set]{fullShare} arg8.view.writes (Elt F) f LA) ∗ owns (c : Thread nD τ) arg9 fullShare xs1) -∗ K ⟨⟩))
          ⊢ wp frame (wpE (defs₀ (F := F)) Variants.none c none) E (cc2__fused_mlp_kernel i arg3 harg3 arg4 harg4 arg5 harg5 arg6 harg6 arg7 harg7 arg8 harg8 arg9 harg9) K } := by
  refine ⟨?_, fun xo xs1 E K => ?run⟩
  case run =>
    simp only [cc2__fused_mlp_kernel_eq_skeleton]; unfold cc2__fused_mlp_kernel_skel
    unfold owns
    iintro ⟨⟨%f0, %hf0, H0⟩, ⟨%f1, %hf1, H1⟩, ⟨%f2, %hf2, H2⟩, ⟨%f3, %hf3, H3⟩, ⟨%fo, %hfo, HO⟩, ⟨%dA, %fa, -, HA⟩, ⟨%fr, %hfr, HR⟩, Hk⟩
    obtain rfl := harg3.eq_unread hf0; obtain rfl := harg4.eq_unread hf1; obtain rfl := harg5.eq_unread hf2; obtain rfl := harg6.eq_unread hf3
    obtain rfl := harg7.eq_unread hfo; obtain rfl := harg9.eq_unread hfr
    sl_exec (disch := first | exact hA | exact hB | exact hC | exact hD)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    isplitl [HA]
    · iexists _; iexact HA
    iexists _; isplitr; · ipureintro; exact harg9.read_unread _
    iexact HR

end Cert.KernelIdeal.R2

end
-- ==== Proof.R2RunC.lean ====
/-
  The body at a point with 0 < k < 7: no branch is taken. The accumulator, found at what the point before left, is added
  the selected branch's partial product and stored back; the result buffer and the output block are not touched.
-/
import proofs.«110218_j20177756357157_2_alg».proof.Proof.R2Base

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the accumulator ends with (its one whole store), with the body's run: from the four input blocks at their
    contents, the output block and the result buffer at any contents (handed back as found) and the accumulator at
    `xs0`, the body runs to its return. -/
noncomputable def runC (c : Dev nD) (i : grid2.Coords) (arg3 : Memref sig .tc .vmem S3x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (arg7 : Memref sig .tc .vmem S3x2048 .f32) (harg7 : arg7.IsWhole) (arg8 : Memref sig .tc .vmem S1x2048 .f32) (harg8 : arg8.IsWhole) (arg9 : Memref sig .tc .vmem S3x2048 .f32) (harg9 : arg9.IsWhole) (hA : ¬cA i) (hB : ¬cB i) (hC : ¬cC i) (hD : ¬cD i)
    (x0 : Vec F S3x512 .f32) (x1 : Vec F S512x2048 .f32) (x2 : Vec F S512x2048 .f32) (x3 : Vec F S512x2048 .f32) (xs0 : Vec F S1x2048 .f32) :
    { LA : List (View.Piece (Elt F) S1x2048 .f32) //
      ∀ (xo : Vec F S3x2048 .f32) (xs1 : Vec F S3x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ (∃ f, arg8.view.loc (c : Thread nD τ) ↦[arg8.view.set]{fullShare} arg8.view.writes (Elt F) f LA) ∗ owns (c : Thread nD τ) arg9 fullShare xs1) -∗ K ⟨⟩))
          ⊢ wp frame (wpE (defs₀ (F := F)) Variants.none c none) E (cc2__fused_mlp_kernel i arg3 harg3 arg4 harg4 arg5 harg5 arg6 harg6 arg7 harg7 arg8 harg8 arg9 harg9) K } := by
  refine ⟨?_, fun xo xs1 E K => ?run⟩
  case run =>
    simp only [cc2__fused_mlp_kernel_eq_skeleton]; unfold cc2__fused_mlp_kernel_skel
    unfold owns
    iintro ⟨⟨%f0, %hf0, H0⟩, ⟨%f1, %hf1, H1⟩, ⟨%f2, %hf2, H2⟩, ⟨%f3, %hf3, H3⟩, ⟨%fo, %hfo, HO⟩, ⟨%fa, %hfa, HA⟩, ⟨%fr, %hfr, HR⟩, Hk⟩
    obtain rfl := harg3.eq_unread hf0; obtain rfl := harg4.eq_unread hf1; obtain rfl := harg5.eq_unread hf2; obtain rfl := harg6.eq_unread hf3
    obtain rfl := harg7.eq_unread hfo; obtain rfl := harg8.eq_unread hfa; obtain rfl := harg9.eq_unread hfr
    sl_exec (disch := first | exact hA | exact hB | exact hC | exact hD)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    isplitl [HA]
    · iexists _; iexact HA
    iexists _; isplitr; · ipureintro; exact harg9.read_unread _
    iexact HR

end Cert.KernelIdeal.R2

end
-- ==== Proof.R2RunD.lean ====
/-
  The body at a point with k = 7 and b ≠ 2: the accumulator, found at what the point before left, is added the last partial
  product, and its clamp at zero is written into row b of the result buffer; the output block is not touched.
-/
import proofs.«110218_j20177756357157_2_alg».proof.Proof.R2Base

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each buffer the body stores into ends with (last store first), with the body's run to its return from the
    four input blocks at their contents, a buffer the case does not store into handed back as found. -/
noncomputable def runD (c : Dev nD) (i : grid2.Coords) (arg3 : Memref sig .tc .vmem S3x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (arg7 : Memref sig .tc .vmem S3x2048 .f32) (harg7 : arg7.IsWhole) (arg8 : Memref sig .tc .vmem S1x2048 .f32) (harg8 : arg8.IsWhole) (arg9 : Memref sig .tc .vmem S3x2048 .f32) (harg9 : arg9.IsWhole) (hA : ¬cA i) (hB : ¬cB i) (hC : cC i) (hD : ¬cD i)
    (x0 : Vec F S3x512 .f32) (x1 : Vec F S512x2048 .f32) (x2 : Vec F S512x2048 .f32) (x3 : Vec F S512x2048 .f32) (xs0 : Vec F S1x2048 .f32) (xs1 : Vec F S3x2048 .f32) :
    Σ' (LR : List (View.Piece (Elt F) S3x2048 .f32)), { LA : List (View.Piece (Elt F) S1x2048 .f32) //
      ∀ (xo : Vec F S3x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xo ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LR)) -∗ K ⟨⟩))
          ⊢ wp frame (wpE (defs₀ (F := F)) Variants.none c none) E (cc2__fused_mlp_kernel i arg3 harg3 arg4 harg4 arg5 harg5 arg6 harg6 arg7 harg7 arg8 harg8 arg9 harg9) K } := by
  refine ⟨?_, ?_, fun xo E K => ?run⟩
  case run =>
    simp only [cc2__fused_mlp_kernel_eq_skeleton]; unfold cc2__fused_mlp_kernel_skel
    unfold owns
    iintro ⟨⟨%f0, %hf0, H0⟩, ⟨%f1, %hf1, H1⟩, ⟨%f2, %hf2, H2⟩, ⟨%f3, %hf3, H3⟩, ⟨%fo, %hfo, HO⟩, ⟨%fa, %hfa, HA⟩, ⟨%fr, %hfr, HR⟩, Hk⟩
    obtain rfl := harg3.eq_unread hf0; obtain rfl := harg4.eq_unread hf1; obtain rfl := harg5.eq_unread hf2; obtain rfl := harg6.eq_unread hf3
    obtain rfl := harg7.eq_unread hfo; obtain rfl := harg8.eq_unread hfa; obtain rfl := harg9.eq_unread hfr
    sl_exec (disch := first | exact hA | exact hB | exact hC | exact hD)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; isplitr; · ipureintro; exact harg7.read_unread _
      iexact HO
    isplitl [HA]
    · iexists _; iexact HA
    iexists _; iexact HR

end Cert.KernelIdeal.R2

end
-- ==== Proof.R2RunE.lean ====
/-
  The body at a point with k = 7 and b = 2: as at the other points with k = 7, and then the result buffer is copied whole into
  the output block.
-/
import proofs.«110218_j20177756357157_2_alg».proof.Proof.R2Base

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each buffer the body stores into ends with (last store first), with the body's run to its return from the
    four input blocks at their contents, a buffer the case does not store into handed back as found. -/
noncomputable def runE (c : Dev nD) (i : grid2.Coords) (arg3 : Memref sig .tc .vmem S3x512 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S512x2048 .f32) (harg6 : arg6.IsWhole) (arg7 : Memref sig .tc .vmem S3x2048 .f32) (harg7 : arg7.IsWhole) (arg8 : Memref sig .tc .vmem S1x2048 .f32) (harg8 : arg8.IsWhole) (arg9 : Memref sig .tc .vmem S3x2048 .f32) (harg9 : arg9.IsWhole) (hA : ¬cA i) (hB : ¬cB i) (hC : cC i) (hD : cD i)
    (x0 : Vec F S3x512 .f32) (x1 : Vec F S512x2048 .f32) (x2 : Vec F S512x2048 .f32) (x3 : Vec F S512x2048 .f32) (xs0 : Vec F S1x2048 .f32) (xs1 : Vec F S3x2048 .f32) :
    Σ' (LO : List (View.Piece (Elt F) S3x2048 .f32)), Σ' (LR : List (View.Piece (Elt F) S3x2048 .f32)), { LA : List (View.Piece (Elt F) S1x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0 ∗ owns (c : Thread nD τ) arg9 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LA) ∗ (∃ f, arg9.view.loc (c : Thread nD τ) ↦[arg9.view.set]{fullShare} arg9.view.writes (Elt F) f LR)) -∗ K ⟨⟩))
          ⊢ wp frame (wpE (defs₀ (F := F)) Variants.none c none) E (cc2__fused_mlp_kernel i arg3 harg3 arg4 harg4 arg5 harg5 arg6 harg6 arg7 harg7 arg8 harg8 arg9 harg9) K } := by
  refine ⟨?_, ?_, ?_, fun E K => ?run⟩
  case run =>
    simp only [cc2__fused_mlp_kernel_eq_skeleton]; unfold cc2__fused_mlp_kernel_skel
    unfold owns
    iintro ⟨⟨%f0, %hf0, H0⟩, ⟨%f1, %hf1, H1⟩, ⟨%f2, %hf2, H2⟩, ⟨%f3, %hf3, H3⟩, ⟨%dO, %fo, -, HO⟩, ⟨%fa, %hfa, HA⟩, ⟨%fr, %hfr, HR⟩, Hk⟩
    obtain rfl := harg3.eq_unread hf0; obtain rfl := harg4.eq_unread hf1; obtain rfl := harg5.eq_unread hf2; obtain rfl := harg6.eq_unread hf3
    obtain rfl := harg8.eq_unread hfa; obtain rfl := harg9.eq_unread hfr
    sl_exec (disch := first | exact hA | exact hB | exact hC | exact hD)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HO]
    · iexists _; iexact HO
    isplitl [HA]
    · iexists _; iexact HA
    iexists _; iexact HR

end Cert.KernelIdeal.R2

end
-- ==== Proof.R2Cases.lean ====
/-
  The third Pallas call as a region of the program: what its buffers hold after each grid point, by recursion on the
  point; the invariant carrying the two scratch buffers from point to point; the proof data; and the body obligation,
  by cases on the point's position in its (b, k) sweep.
-/
import proofs.«110218_j20177756357157_2_alg».proof.Proof.R2RunA
import proofs.«110218_j20177756357157_2_alg».proof.Proof.R2RunB
import proofs.«110218_j20177756357157_2_alg».proof.Proof.R2RunC
import proofs.«110218_j20177756357157_2_alg».proof.Proof.R2RunD
import proofs.«110218_j20177756357157_2_alg».proof.Proof.R2RunE

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's unscoped buffers when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not (when it is not fetched its
    block index has not moved), for any proof data over these arrays whose body leaves the block in place. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The position of a point in its sweep decides the conditions -/

theorem condsA (t : Fin cfg2.N) (h : t.val % 24 = 0) : cA (grid2.coords t) ∧ cB (grid2.coords t) ∧ ¬cC (grid2.coords t) ∧ ¬cD (grid2.coords t) :=
  ⟨(hcA t).mpr (by omega), (hcB t).mpr h, fun h' => by have := (hcC t).mp h'; omega, fun h' => by have := (hcD t).mp h'; omega⟩
theorem condsB (t : Fin cfg2.N) (h8 : t.val % 8 = 0) (h24 : ¬t.val % 24 = 0) : cA (grid2.coords t) ∧ ¬cB (grid2.coords t) ∧ ¬cC (grid2.coords t) ∧ ¬cD (grid2.coords t) :=
  ⟨(hcA t).mpr h8, fun h' => h24 ((hcB t).mp h'), fun h' => by have := (hcC t).mp h'; omega, fun h' => by have := (hcD t).mp h'; omega⟩
theorem condsC (t : Fin cfg2.N) (h8 : ¬t.val % 8 = 0) (h7 : ¬t.val % 8 = 7) : ¬cA (grid2.coords t) ∧ ¬cB (grid2.coords t) ∧ ¬cC (grid2.coords t) ∧ ¬cD (grid2.coords t) :=
  ⟨fun h' => h8 ((hcA t).mp h'), fun h' => by have := (hcB t).mp h'; omega, fun h' => h7 ((hcC t).mp h'), fun h' => by have := (hcD t).mp h'; omega⟩
theorem condsD (t : Fin cfg2.N) (h7 : t.val % 8 = 7) (h23 : ¬t.val % 24 = 23) : ¬cA (grid2.coords t) ∧ ¬cB (grid2.coords t) ∧ cC (grid2.coords t) ∧ ¬cD (grid2.coords t) :=
  ⟨fun h' => by have := (hcA t).mp h'; omega, fun h' => by have := (hcB t).mp h'; omega, (hcC t).mpr h7, fun h' => h23 ((hcD t).mp h')⟩
theorem condsE (t : Fin cfg2.N) (h23 : t.val % 24 = 23) : ¬cA (grid2.coords t) ∧ ¬cB (grid2.coords t) ∧ cC (grid2.coords t) ∧ cD (grid2.coords t) :=
  ⟨fun h' => by have := (hcA t).mp h'; omega, fun h' => by have := (hcB t).mp h'; omega, (hcC t).mpr (by omega), (hcD t).mpr h23⟩

/-! ## The body's run at a point, case by case, on the point's memrefs and blocks -/

abbrev rA (c : Dev nD) (t : Fin cfg2.N) (h : t.val % 24 = 0) :=
  runA (F := F) c (grid2.coords t) (ms0 t) (hs0 t) (ms1 t) (hs1 t) (ms2 t) (hs2 t) (ms3 t) (hs3 t) (ms4 t) (hs4 t) scA (Memref.isWhole_whole _) scR (Memref.isWhole_whole _) (condsA t h).1 (condsA t h).2.1 (condsA t h).2.2.1 (condsA t h).2.2.2 (iblk V c 0 t) (iblk V c 1 t) (iblk V c 2 t) (iblk V c 3 t)
abbrev rB (c : Dev nD) (t : Fin cfg2.N) (h8 : t.val % 8 = 0) (h24 : ¬t.val % 24 = 0) :=
  runB (F := F) c (grid2.coords t) (ms0 t) (hs0 t) (ms1 t) (hs1 t) (ms2 t) (hs2 t) (ms3 t) (hs3 t) (ms4 t) (hs4 t) scA (Memref.isWhole_whole _) scR (Memref.isWhole_whole _) (condsB t h8 h24).1 (condsB t h8 h24).2.1 (condsB t h8 h24).2.2.1 (condsB t h8 h24).2.2.2 (iblk V c 0 t) (iblk V c 1 t) (iblk V c 2 t) (iblk V c 3 t)
abbrev rC (c : Dev nD) (t : Fin cfg2.N) (h8 : ¬t.val % 8 = 0) (h7 : ¬t.val % 8 = 7) (pa : Vec F S1x2048 .f32) :=
  runC (F := F) c (grid2.coords t) (ms0 t) (hs0 t) (ms1 t) (hs1 t) (ms2 t) (hs2 t) (ms3 t) (hs3 t) (ms4 t) (hs4 t) scA (Memref.isWhole_whole _) scR (Memref.isWhole_whole _) (condsC t h8 h7).1 (condsC t h8 h7).2.1 (condsC t h8 h7).2.2.1 (condsC t h8 h7).2.2.2 (iblk V c 0 t) (iblk V c 1 t) (iblk V c 2 t) (iblk V c 3 t) pa
abbrev rD (c : Dev nD) (t : Fin cfg2.N) (h7 : t.val % 8 = 7) (h23 : ¬t.val % 24 = 23) (pa : Vec F S1x2048 .f32) (pr : Vec F S3x2048 .f32) :=
  runD (F := F) c (grid2.coords t) (ms0 t) (hs0 t) (ms1 t) (hs1 t) (ms2 t) (hs2 t) (ms3 t) (hs3 t) (ms4 t) (hs4 t) scA (Memref.isWhole_whole _) scR (Memref.isWhole_whole _) (condsD t h7 h23).1 (condsD t h7 h23).2.1 (condsD t h7 h23).2.2.1 (condsD t h7 h23).2.2.2 (iblk V c 0 t) (iblk V c 1 t) (iblk V c 2 t) (iblk V c 3 t) pa pr
abbrev rE (c : Dev nD) (t : Fin cfg2.N) (h23 : t.val % 24 = 23) (pa : Vec F S1x2048 .f32) (pr : Vec F S3x2048 .f32) :=
  runE (F := F) c (grid2.coords t) (ms0 t) (hs0 t) (ms1 t) (hs1 t) (ms2 t) (hs2 t) (ms3 t) (hs3 t) (ms4 t) (hs4 t) scA (Memref.isWhole_whole _) scR (Memref.isWhole_whole _) (condsE t h23).1 (condsE t h23).2.1 (condsE t h23).2.2.1 (condsE t h23).2.2.2 (iblk V c 0 t) (iblk V c 1 t) (iblk V c 2 t) (iblk V c 3 t) pa pr

/-! ## What each case leaves: its stored pieces read back (they cover the buffer, so the read does not depend on what was there) -/

def accA (c : Dev nD) (t : Fin cfg2.N) (h : t.val % 24 = 0) : Vec F S1x2048 .f32 := VA.read (Elt F) (VA.writes (Elt F) VA.junk (rA V c t h).2.1)
def resA (c : Dev nD) (t : Fin cfg2.N) (h : t.val % 24 = 0) : Vec F S3x2048 .f32 := VR.read (Elt F) (VR.writes (Elt F) VR.junk (rA V c t h).1)
theorem cov_accA (c : Dev nD) (t : Fin cfg2.N) (h : t.val % 24 = 0) (y : S1x2048.Idx) : ∃ pc ∈ (rA V c t h).2.1, y ∈ pc.1.set :=
  View.cover_of_tiledL (rA V c t h).2.1 S1x2048.size (by sl_kernel_rfl) y
theorem cov_resA (c : Dev nD) (t : Fin cfg2.N) (h : t.val % 24 = 0) (y : S3x2048.Idx) : ∃ pc ∈ (rA V c t h).1, y ∈ pc.1.set :=
  View.cover_of_tiledL (rA V c t h).1 S3x2048.size (by sl_kernel_rfl) y

def accB (c : Dev nD) (t : Fin cfg2.N) (h8 : t.val % 8 = 0) (h24 : ¬t.val % 24 = 0) : Vec F S1x2048 .f32 := VA.read (Elt F) (VA.writes (Elt F) VA.junk (rB V c t h8 h24).1)
theorem cov_accB (c : Dev nD) (t : Fin cfg2.N) (h8 : t.val % 8 = 0) (h24 : ¬t.val % 24 = 0) (y : S1x2048.Idx) : ∃ pc ∈ (rB V c t h8 h24).1, y ∈ pc.1.set :=
  View.cover_of_tiledL (rB V c t h8 h24).1 S1x2048.size (by sl_kernel_rfl) y

def accC (c : Dev nD) (t : Fin cfg2.N) (h8 : ¬t.val % 8 = 0) (h7 : ¬t.val % 8 = 7) (pa : Vec F S1x2048 .f32) : Vec F S1x2048 .f32 := VA.read (Elt F) (VA.writes (Elt F) VA.junk (rC V c t h8 h7 pa).1)
theorem cov_accC (c : Dev nD) (t : Fin cfg2.N) (h8 : ¬t.val % 8 = 0) (h7 : ¬t.val % 8 = 7) (pa : Vec F S1x2048 .f32) (y : S1x2048.Idx) : ∃ pc ∈ (rC V c t h8 h7 pa).1, y ∈ pc.1.set :=
  View.cover_of_tiledL (rC V c t h8 h7 pa).1 S1x2048.size (by sl_kernel_rfl) y

def accD (c : Dev nD) (t : Fin cfg2.N) (h7 : t.val % 8 = 7) (h23 : ¬t.val % 24 = 23) (pa : Vec F S1x2048 .f32) (pr : Vec F S3x2048 .f32) : Vec F S1x2048 .f32 := VA.read (Elt F) (VA.writes (Elt F) VA.junk (rD V c t h7 h23 pa pr).2.1)
def resD (c : Dev nD) (t : Fin cfg2.N) (h7 : t.val % 8 = 7) (h23 : ¬t.val % 24 = 23) (pa : Vec F S1x2048 .f32) (pr : Vec F S3x2048 .f32) : Vec F S3x2048 .f32 := VR.read (Elt F) (VR.writes (Elt F) VR.junk (rD V c t h7 h23 pa pr).1)
theorem cov_accD (c : Dev nD) (t : Fin cfg2.N) (h7 : t.val % 8 = 7) (h23 : ¬t.val % 24 = 23) (pa : Vec F S1x2048 .f32) (pr : Vec F S3x2048 .f32) (y : S1x2048.Idx) : ∃ pc ∈ (rD V c t h7 h23 pa pr).2.1, y ∈ pc.1.set :=
  View.cover_of_tiledL (rD V c t h7 h23 pa pr).2.1 S1x2048.size (by sl_kernel_rfl) y
theorem cov_resD (c : Dev nD) (t : Fin cfg2.N) (h7 : t.val % 8 = 7) (h23 : ¬t.val % 24 = 23) (pa : Vec F S1x2048 .f32) (pr : Vec F S3x2048 .f32) (y : S3x2048.Idx) : ∃ pc ∈ (rD V c t h7 h23 pa pr).1, y ∈ pc.1.set :=
  View.cover_of_tiledL (rD V c t h7 h23 pa pr).1 S3x2048.size (by sl_kernel_rfl) y

def outE (c : Dev nD) (t : Fin cfg2.N) (h23 : t.val % 24 = 23) (pa : Vec F S1x2048 .f32) (pr : Vec F S3x2048 .f32) : Vec F S3x2048 .f32 := VO.read (Elt F) (VO.writes (Elt F) VO.junk (rE V c t h23 pa pr).1)
def resE (c : Dev nD) (t : Fin cfg2.N) (h23 : t.val % 24 = 23) (pa : Vec F S1x2048 .f32) (pr : Vec F S3x2048 .f32) : Vec F S3x2048 .f32 := VR.read (Elt F) (VR.writes (Elt F) VR.junk (rE V c t h23 pa pr).2.1)
def accE (c : Dev nD) (t : Fin cfg2.N) (h23 : t.val % 24 = 23) (pa : Vec F S1x2048 .f32) (pr : Vec F S3x2048 .f32) : Vec F S1x2048 .f32 := VA.read (Elt F) (VA.writes (Elt F) VA.junk (rE V c t h23 pa pr).2.2.1)
theorem cov_outE (c : Dev nD) (t : Fin cfg2.N) (h23 : t.val % 24 = 23) (pa : Vec F S1x2048 .f32) (pr : Vec F S3x2048 .f32) (y : S3x2048.Idx) : ∃ pc ∈ (rE V c t h23 pa pr).1, y ∈ pc.1.set :=
  View.cover_of_tiledL (rE V c t h23 pa pr).1 S3x2048.size (by sl_kernel_rfl) y
theorem cov_resE (c : Dev nD) (t : Fin cfg2.N) (h23 : t.val % 24 = 23) (pa : Vec F S1x2048 .f32) (pr : Vec F S3x2048 .f32) (y : S3x2048.Idx) : ∃ pc ∈ (rE V c t h23 pa pr).2.1, y ∈ pc.1.set :=
  View.cover_of_tiledL (rE V c t h23 pa pr).2.1 S3x2048.size (by sl_kernel_rfl) y
theorem cov_accE (c : Dev nD) (t : Fin cfg2.N) (h23 : t.val % 24 = 23) (pa : Vec F S1x2048 .f32) (pr : Vec F S3x2048 .f32) (y : S1x2048.Idx) : ∃ pc ∈ (rE V c t h23 pa pr).2.2.1, y ∈ pc.1.set :=
  View.cover_of_tiledL (rE V c t h23 pa pr).2.2.1 S1x2048.size (by sl_kernel_rfl) y

end Cert.KernelIdeal.R2

end
-- ==== Proof.R2Data.lean ====
/-
  The third Pallas call as a region: what the output block, the row accumulator and the result buffer hold after each
  grid point (by recursion on the point, each case's stored pieces read back), the invariant that carries the two
  scratch buffers between points, the proof data, and the body obligation by cases on the point's place in its sweep.
-/
import proofs.«110218_j20177756357157_2_alg».proof.Proof.R2Cases

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulation -/

/-- One point: from what the accumulator and the result buffer held before it (ignored where the point resets them) to
    what the output block (a placeholder where the point does not store into it), the accumulator and the result buffer
    hold after it. -/
def stepAt (c : Dev nD) (t : Fin cfg2.N) (pa : Vec F S1x2048 .f32) (pr : Vec F S3x2048 .f32) :
    Vec F S3x2048 .f32 × Vec F S1x2048 .f32 × Vec F S3x2048 .f32 :=
  if h24 : t.val % 24 = 0 then ((VO.read (Elt F) VO.junk), accA V c t h24, resA V c t h24)
  else if h8 : t.val % 8 = 0 then ((VO.read (Elt F) VO.junk), accB V c t h8 h24, pr)
  else if h23 : t.val % 24 = 23 then (outE V c t h23 pa pr, accE V c t h23 pa pr, resE V c t h23 pa pr)
  else if h7 : t.val % 8 = 7 then ((VO.read (Elt F) VO.junk), accD V c t h7 h23 pa pr, resD V c t h7 h23 pa pr)
  else ((VO.read (Elt F) VO.junk), accC V c t h8 h7 pa, pr)

theorem stepAt_A (c : Dev nD) (t : Fin cfg2.N) (pa pr) (h24 : t.val % 24 = 0) :
    stepAt V c t pa pr = ((VO.read (Elt F) VO.junk), accA V c t h24, resA V c t h24) := dif_pos h24
theorem stepAt_B (c : Dev nD) (t : Fin cfg2.N) (pa pr) (h8 : t.val % 8 = 0) (h24 : ¬t.val % 24 = 0) :
    stepAt V c t pa pr = ((VO.read (Elt F) VO.junk), accB V c t h8 h24, pr) := (dif_neg h24).trans (dif_pos h8)
theorem stepAt_E (c : Dev nD) (t : Fin cfg2.N) (pa pr) (h23 : t.val % 24 = 23) :
    stepAt V c t pa pr = (outE V c t h23 pa pr, accE V c t h23 pa pr, resE V c t h23 pa pr) :=
  (dif_neg (by omega)).trans ((dif_neg (by omega)).trans (dif_pos h23))
theorem stepAt_D (c : Dev nD) (t : Fin cfg2.N) (pa pr) (h7 : t.val % 8 = 7) (h23 : ¬t.val % 24 = 23) :
    stepAt V c t pa pr = ((VO.read (Elt F) VO.junk), accD V c t h7 h23 pa pr, resD V c t h7 h23 pa pr) :=
  (dif_neg (by omega)).trans ((dif_neg (by omega)).trans ((dif_neg h23).trans (dif_pos h7)))
theorem stepAt_C (c : Dev nD) (t : Fin cfg2.N) (pa pr) (h8 : ¬t.val % 8 = 0) (h7 : ¬t.val % 8 = 7) :
    stepAt V c t pa pr = ((VO.read (Elt F) VO.junk), accC V c t h8 h7 pa, pr) :=
  (dif_neg (by omega)).trans ((dif_neg h8).trans ((dif_neg (by omega)).trans (dif_neg h7)))

/-- What the three buffers hold after the point at position `n`. -/
def outsAt (c : Dev nD) : (n : ℕ) → n < cfg2.N → Vec F S3x2048 .f32 × Vec F S1x2048 .f32 × Vec F S3x2048 .f32
  | 0, hn => stepAt V c ⟨0, hn⟩ (VA.read (Elt F) VA.junk) (VR.read (Elt F) VR.junk)
  | n + 1, hn => stepAt V c ⟨n + 1, hn⟩ (outsAt c n (Nat.lt_of_succ_lt hn)).2.1 (outsAt c n (Nat.lt_of_succ_lt hn)).2.2

theorem outsAt_zero (c : Dev nD) (t : Fin cfg2.N) (h : t.val = 0) :
    outsAt V c t.val t.isLt = stepAt V c t (VA.read (Elt F) VA.junk) (VR.read (Elt F) VR.junk) := by
  obtain ⟨n, hn⟩ := t; cases n with
  | zero => rfl
  | succ n => exact absurd h (Nat.succ_ne_zero n)
theorem outsAt_pos (c : Dev nD) (t : Fin cfg2.N) (h : t.val ≠ 0) :
    outsAt V c t.val t.isLt = stepAt V c t (outsAt V c (t.val - 1) (Nat.lt_of_le_of_lt (Nat.sub_le _ _) t.isLt)).2.1 (outsAt V c (t.val - 1) (Nat.lt_of_le_of_lt (Nat.sub_le _ _) t.isLt)).2.2 := by
  obtain ⟨n, hn⟩ := t; cases n with
  | zero => exact absurd rfl h
  | succ n => rfl

/-! ## The invariant -/

/-- Every scoped buffer that is neither a staging buffer of this call nor one of its two scratch buffers, unopened. -/
abbrev RB (c : Dev nD) : sProp 𝕄 :=
  Pipeline.scopedRestBut (Ix := Unit) (Name := ℕ) (U := UR sig nD τ) (Lvl := ℕ) (Val := Elt F) spec2 c [cc2_scratch0, cc2_scratch1]

theorem scopedRest_split (c : Dev nD) :
    (Pipeline.scopedRest (Ix := Unit) (Name := ℕ) (U := UR sig nD τ) (Lvl := ℕ) (Val := Elt F) spec2 c : sProp 𝕄)
      = iprop(iprop((∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f))
          ∗ RB (F := F) c) :=
  Pipeline.scopedRest_split_of_list spec2 c [cc2_scratch0, cc2_scratch1] (by decide) (by decide)

/-- The class invariant with the two scratch buffers as memrefs owned at some contents. -/
theorem PhiA_eq (c : Dev nD) :
    (Pipeline.ΦA spec2 c : sProp 𝕄)
      = iprop(iprop(iprop((∃ d, owns (c : Thread nD τ) scA fullShare d) ∗ (∃ d, owns (c : Thread nD τ) scR fullShare d)) ∗ RB (F := F) c) ∗ (∃ r, prngReg c r)) := by
  unfold Pipeline.ΦA; rw [scopedRest_split]; simp only [scA, scR, owns_whole]; rfl

/-- Before the first point the class invariant (the scratch buffers at anything); before a later point the scratch
    buffers at what the point before left in them, the other scoped buffers unopened, the generator register at some state. -/
def PhiS (c : Dev nD) : (n : ℕ) → n ≤ cfg2.N → sProp 𝕄
  | 0, _ => Pipeline.ΦA spec2 c
  | n + 1, hn => iprop(iprop(iprop(owns (c : Thread nD τ) scA fullShare (outsAt V c n hn).2.1 ∗ owns (c : Thread nD τ) scR fullShare (outsAt V c n hn).2.2) ∗ RB (F := F) c) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(iprop(owns (c : Thread nD τ) scA fullShare (outsAt V c n hn).2.1 ∗ owns (c : Thread nD τ) scR fullShare (outsAt V c n hn).2.2) ∗ RB (F := F) c) ∗ (∃ r, prngReg c r)) := rfl
theorem PhiS_pos (c : Dev nD) (n : ℕ) (h : n ≤ cfg2.N) (hz : n ≠ 0) :
    PhiS V c n h = iprop(iprop(iprop(owns (c : Thread nD τ) scA fullShare (outsAt V c (n - 1) (by omega)).2.1 ∗ owns (c : Thread nD τ) scR fullShare (outsAt V c (n - 1) (by omega)).2.2) ∗ RB (F := F) c) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
  Φ t := PhiS V c t.val (Nat.le_of_lt_succ t.isLt)
  q _ := fullShare
  owed _ := 0

theorem A_eq1 (c : Dev nD) (w : Fin cfg2.W) : (dat2 V c).A w = V c (Pipeline.arrRef spec2 w) := by
  dsimp only [dat2]
theorem PhiS_castSucc (c : Dev nD) (t : Fin cfg2.N) :
    (dat2 V c).Φ t.castSucc = PhiS V c t.val (Nat.le_of_lt t.isLt) := by
  dsimp only [dat2]; simp only [Fin.coe_castSucc]
theorem after_0 (c : Dev nD) (t : Fin cfg2.N) : (dat2 V c).after 0 t = iblk V c 0 t := by dsimp only [dat2]
theorem after_1 (c : Dev nD) (t : Fin cfg2.N) : (dat2 V c).after 1 t = iblk V c 1 t := by dsimp only [dat2]
theorem after_2 (c : Dev nD) (t : Fin cfg2.N) : (dat2 V c).after 2 t = iblk V c 2 t := by dsimp only [dat2]
theorem after_3 (c : Dev nD) (t : Fin cfg2.N) : (dat2 V c).after 3 t = iblk V c 3 t := by dsimp only [dat2]
theorem after_4 (c : Dev nD) (t : Fin cfg2.N) : (dat2 V c).after 4 t = (outsAt V c t.val t.isLt).1 := by dsimp only [dat2]
theorem before_0 (c : Dev nD) (t : Fin cfg2.N) (d) : (dat2 V c).before 0 t d = iblk V c 0 t := before_0_of V (dat2 V c) (A_eq1 V c 0) (after_0 V c) t d
theorem before_1 (c : Dev nD) (t : Fin cfg2.N) (d) : (dat2 V c).before 1 t d = iblk V c 1 t := before_1_of V (dat2 V c) (A_eq1 V c 1) (after_1 V c) t d
theorem before_2 (c : Dev nD) (t : Fin cfg2.N) (d) : (dat2 V c).before 2 t d = iblk V c 2 t := before_2_of V (dat2 V c) (A_eq1 V c 2) (after_2 V c) t d
theorem before_3 (c : Dev nD) (t : Fin cfg2.N) (d) : (dat2 V c).before 3 t d = iblk V c 3 t := before_3_of V (dat2 V c) (A_eq1 V c 3) (after_3 V c) t d

end Cert.KernelIdeal.R2

end
-- ==== Proof.R2Body.lean ====
/-
  The third Pallas call: the body obligation. At each point the input windows hold their blocks; the point's place in
  its sweep selects the case; the invariant hands the body the two scratch buffers at what the point before left (at
  anything where the point resets them) and takes them back at this point's contents.
-/
import proofs.«110218_j20177756357157_2_alg».proof.Proof.R2Data

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem live0 : ∀ t : Fin cfg2.N, cfg2.idle 0 (grid2.coords t) = false := fun _ => rfl
theorem live1 : ∀ t : Fin cfg2.N, cfg2.idle 1 (grid2.coords t) = false := fun _ => rfl
theorem live2 : ∀ t : Fin cfg2.N, cfg2.idle 2 (grid2.coords t) = false := fun _ => rfl
theorem live3 : ∀ t : Fin cfg2.N, cfg2.idle 3 (grid2.coords t) = false := fun _ => rfl

/-- What the body is called with at point `t`, the windows one by one, -/
def bodyPre (c : Dev nD) (t : Fin cfg2.N) : sProp 𝕄 :=
  iprop((dat2 V c).Φ t.castSucc ∗ (dat2 V c).owesAt () t.castSucc
    ∗ (∃ d, owns (c : Thread nD τ) (ms0 t) fullShare ((dat2 V c).before 0 t d))
    ∗ (∃ d, owns (c : Thread nD τ) (ms1 t) fullShare ((dat2 V c).before 1 t d))
    ∗ (∃ d, owns (c : Thread nD τ) (ms2 t) fullShare ((dat2 V c).before 2 t d))
    ∗ (∃ d, owns (c : Thread nD τ) (ms3 t) fullShare ((dat2 V c).before 3 t d))
    ∗ (∃ d, owns (c : Thread nD τ) (ms4 t) fullShare ((dat2 V c).before 4 t d)))

/-- and what it returns. -/
def bodyPost (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t ∗ (dat2 V c).leavesExact 3 t
    ∗ (dat2 V c).leavesExact 4 t)

set_option maxHeartbeats 8000000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3]
  rw [show (dat2 V c).owesAt () t.succ = (dat2 V c).owesAt () t.castSucc from rfl]
  rw [show (dat2 V c).Φ t.succ = PhiS V c (t.val + 1) t.isLt from rfl, PhiS_succ]
  rw [show (dat2 V c).leavesExact 0 t = owns (c : Thread nD τ) (ms0 t) fullShare ((dat2 V c).after 0 t) from by
        unfold Dat.leavesExact; rw [live0 t], after_0,
      show (dat2 V c).leavesExact 1 t = owns (c : Thread nD τ) (ms1 t) fullShare ((dat2 V c).after 1 t) from by
        unfold Dat.leavesExact; rw [live1 t], after_1,
      show (dat2 V c).leavesExact 2 t = owns (c : Thread nD τ) (ms2 t) fullShare ((dat2 V c).after 2 t) from by
        unfold Dat.leavesExact; rw [live2 t], after_2,
      show (dat2 V c).leavesExact 3 t = owns (c : Thread nD τ) (ms3 t) fullShare ((dat2 V c).after 3 t) from by
        unfold Dat.leavesExact; rw [live3 t], after_3]
  have hN : t.val < 48 := lt_of_lt_of_eq t.isLt (show cfg2.N = 48 from N_2)
  by_cases h24 : t.val % 24 = 0
  · -- b = 0, k = 0: both scratch buffers are reset
    rw [Dat.leavesExact_idle (dat2 V c) 4 t (idle_out t (condsA t h24).2.2.2) (noflush_out t (condsA t h24).2.2.2)]
    by_cases hz : t.val = 0
    · rw [outsAt_zero V c t hz, stepAt_A V c t _ _ h24]
      unfold accA resA; dsimp only
      rw [PhiS_castSucc V c t, PhiS_zero V c _ _ hz, PhiA_eq]
      iintro ⟨⟨⟨⟨HSA, HSR⟩, HRB⟩, Hg⟩, Ho, ⟨%d0, H0⟩, ⟨%d1, H1⟩, ⟨%d2, H2⟩, ⟨%d3, H3⟩, ⟨%d4, H4⟩⟩
      iapply ((rA V c t h24).2.2 _ Set.univ _)
      isplitl [H0]; · iexact H0
      isplitl [H1]; · iexact H1
      isplitl [H2]; · iexact H2
      isplitl [H3]; · iexact H3
      isplitl [H4]; · iexact H4
      isplitl [HSA]; · iexact HSA
      isplitl [HSR]; · iexact HSR
      iintro ⟨H0, H1, H2, H3, H4, ⟨%ea, HSA⟩, ⟨%er, HSR⟩⟩
      isplitl [HSA HSR HRB Hg]
      · isplitl [HSA HSR HRB]
        · isplitl [HSA HSR]
          · isplitl [HSA]
            · unfold owns; iexists _; isplitr
              swap; · iexact HSA
              ipureintro; exact View.read_writes_of_cover _ _ _ _ _ (cov_accA V c t h24)
            unfold owns; iexists _; isplitr
            swap; · iexact HSR
            ipureintro; exact View.read_writes_of_cover _ _ _ _ _ (cov_resA V c t h24)
          iexact HRB
        iexact Hg
      isplitl [Ho]; · iexact Ho
      isplitl [H0]; · iexact H0
      isplitl [H1]; · iexact H1
      isplitl [H2]; · iexact H2
      isplitl [H3]; · iexact H3
      iexists _; iexact H4
    · rw [outsAt_pos V c t hz, stepAt_A V c t _ _ h24]
      unfold accA resA; dsimp only
      rw [PhiS_castSucc V c t, PhiS_pos V c _ _ hz]
      iintro ⟨⟨⟨⟨HSA, HSR⟩, HRB⟩, Hg⟩, Ho, ⟨%d0, H0⟩, ⟨%d1, H1⟩, ⟨%d2, H2⟩, ⟨%d3, H3⟩, ⟨%d4, H4⟩⟩
      iapply ((rA V c t h24).2.2 _ Set.univ _)
      isplitl [H0]; · iexact H0
      isplitl [H1]; · iexact H1
      isplitl [H2]; · iexact H2
      isplitl [H3]; · iexact H3
      isplitl [H4]; · iexact H4
      isplitl [HSA]; · iexists _; iexact HSA
      isplitl [HSR]; · iexists _; iexact HSR
      iintro ⟨H0, H1, H2, H3, H4, ⟨%ea, HSA⟩, ⟨%er, HSR⟩⟩
      isplitl [HSA HSR HRB Hg]
      · isplitl [HSA HSR HRB]
        · isplitl [HSA HSR]
          · isplitl [HSA]
            · unfold owns; iexists _; isplitr
              swap; · iexact HSA
              ipureintro; exact View.read_writes_of_cover _ _ _ _ _ (cov_accA V c t h24)
            unfold owns; iexists _; isplitr
            swap; · iexact HSR
            ipureintro; exact View.read_writes_of_cover _ _ _ _ _ (cov_resA V c t h24)
          iexact HRB
        iexact Hg
      isplitl [Ho]; · iexact Ho
      isplitl [H0]; · iexact H0
      isplitl [H1]; · iexact H1
      isplitl [H2]; · iexact H2
      isplitl [H3]; · iexact H3
      iexists _; iexact H4
  · by_cases h8 : t.val % 8 = 0
    · -- k = 0, b ≠ 0: the accumulator is reset, the result buffer carried
      have hz : t.val ≠ 0 := by omega
      rw [Dat.leavesExact_idle (dat2 V c) 4 t (idle_out t (condsB t h8 h24).2.2.2) (noflush_out t (condsB t h8 h24).2.2.2)]
      rw [outsAt_pos V c t hz, stepAt_B V c t _ _ h8 h24]
      unfold accB; dsimp only
      rw [PhiS_castSucc V c t, PhiS_pos V c _ _ hz]
      iintro ⟨⟨⟨⟨HSA, HSR⟩, HRB⟩, Hg⟩, Ho, ⟨%d0, H0⟩, ⟨%d1, H1⟩, ⟨%d2, H2⟩, ⟨%d3, H3⟩, ⟨%d4, H4⟩⟩
      iapply ((rB V c t h8 h24).2 _ _ Set.univ _)
      isplitl [H0]; · iexact H0
      isplitl [H1]; · iexact H1
      isplitl [H2]; · iexact H2
      isplitl [H3]; · iexact H3
      isplitl [H4]; · iexact H4
      isplitl [HSA]; · iexists _; iexact HSA
      isplitl [HSR]; · iexact HSR
      iintro ⟨H0, H1, H2, H3, H4, ⟨%ea, HSA⟩, HSR⟩
      isplitl [HSA HSR HRB Hg]
      · isplitl [HSA HSR HRB]
        · isplitl [HSA HSR]
          · isplitl [HSA]
            · unfold owns; iexists _; isplitr
              swap; · iexact HSA
              ipureintro; exact View.read_writes_of_cover _ _ _ _ _ (cov_accB V c t h8 h24)
            iexact HSR
          iexact HRB
        iexact Hg
      isplitl [Ho]; · iexact Ho
      isplitl [H0]; · iexact H0
      isplitl [H1]; · iexact H1
      isplitl [H2]; · iexact H2
      isplitl [H3]; · iexact H3
      iexists _; iexact H4
    · by_cases h23 : t.val % 24 = 23
      · -- b = 2, k = 7: the last partial product, the clamp into row 2, the copy out
        have hz : t.val ≠ 0 := by omega
        rw [show (dat2 V c).leavesExact 4 t = owns (c : Thread nD τ) (ms4 t) fullShare ((dat2 V c).after 4 t) from by
              unfold Dat.leavesExact; rw [live_out t (condsE t h23).2.2.2], after_4]
        rw [outsAt_pos V c t hz, stepAt_E V c t _ _ h23]
        unfold outE accE resE; dsimp only
        rw [PhiS_castSucc V c t, PhiS_pos V c _ _ hz]
        iintro ⟨⟨⟨⟨HSA, HSR⟩, HRB⟩, Hg⟩, Ho, ⟨%d0, H0⟩, ⟨%d1, H1⟩, ⟨%d2, H2⟩, ⟨%d3, H3⟩, ⟨%d4, H4⟩⟩
        iapply ((rE V c t h23 (outsAt V c (t.val - 1) (Nat.lt_of_le_of_lt (Nat.sub_le _ _) t.isLt)).2.1 (outsAt V c (t.val - 1) (Nat.lt_of_le_of_lt (Nat.sub_le _ _) t.isLt)).2.2).2.2.2 Set.univ _)
        isplitl [H0]; · iexact H0
        isplitl [H1]; · iexact H1
        isplitl [H2]; · iexact H2
        isplitl [H3]; · iexact H3
        isplitl [H4]; · iexists _; iexact H4
        isplitl [HSA]; · iexact HSA
        isplitl [HSR]; · iexact HSR
        iintro ⟨H0, H1, H2, H3, ⟨%eo, H4⟩, ⟨%ea, HSA⟩, ⟨%er, HSR⟩⟩
        isplitl [HSA HSR HRB Hg]
        · isplitl [HSA HSR HRB]
          · isplitl [HSA HSR]
            · isplitl [HSA]
              · unfold owns; iexists _; isplitr
                swap; · iexact HSA
                ipureintro; exact View.read_writes_of_cover _ _ _ _ _ (cov_accE V c t h23 _ _)
              unfold owns; iexists _; isplitr
              swap; · iexact HSR
              ipureintro; exact View.read_writes_of_cover _ _ _ _ _ (cov_resE V c t h23 _ _)
            iexact HRB
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cov_outE V c t h23 _ _)
      · by_cases h7 : t.val % 8 = 7
        · -- k = 7, b ≠ 2: the last partial product and the clamp into row b
          have hz : t.val ≠ 0 := by omega
          rw [Dat.leavesExact_idle (dat2 V c) 4 t (idle_out t (condsD t h7 h23).2.2.2) (noflush_out t (condsD t h7 h23).2.2.2)]
          rw [outsAt_pos V c t hz, stepAt_D V c t _ _ h7 h23]
          unfold accD resD; dsimp only
          rw [PhiS_castSucc V c t, PhiS_pos V c _ _ hz]
          iintro ⟨⟨⟨⟨HSA, HSR⟩, HRB⟩, Hg⟩, Ho, ⟨%d0, H0⟩, ⟨%d1, H1⟩, ⟨%d2, H2⟩, ⟨%d3, H3⟩, ⟨%d4, H4⟩⟩
          iapply ((rD V c t h7 h23 (outsAt V c (t.val - 1) (Nat.lt_of_le_of_lt (Nat.sub_le _ _) t.isLt)).2.1 (outsAt V c (t.val - 1) (Nat.lt_of_le_of_lt (Nat.sub_le _ _) t.isLt)).2.2).2.2 _ Set.univ _)
          isplitl [H0]; · iexact H0
          isplitl [H1]; · iexact H1
          isplitl [H2]; · iexact H2
          isplitl [H3]; · iexact H3
          isplitl [H4]; · iexact H4
          isplitl [HSA]; · iexact HSA
          isplitl [HSR]; · iexact HSR
          iintro ⟨H0, H1, H2, H3, H4, ⟨%ea, HSA⟩, ⟨%er, HSR⟩⟩
          isplitl [HSA HSR HRB Hg]
          · isplitl [HSA HSR HRB]
            · isplitl [HSA HSR]
              · isplitl [HSA]
                · unfold owns; iexists _; isplitr
                  swap; · iexact HSA
                  ipureintro; exact View.read_writes_of_cover _ _ _ _ _ (cov_accD V c t h7 h23 _ _)
                unfold owns; iexists _; isplitr
                swap; · iexact HSR
                ipureintro; exact View.read_writes_of_cover _ _ _ _ _ (cov_resD V c t h7 h23 _ _)
              iexact HRB
            iexact Hg
          isplitl [Ho]; · iexact Ho
          isplitl [H0]; · iexact H0
          isplitl [H1]; · iexact H1
          isplitl [H2]; · iexact H2
          isplitl [H3]; · iexact H3
          iexists _; iexact H4
        · -- 0 < k < 7: one more partial product into the accumulator
          have hz : t.val ≠ 0 := by omega
          rw [Dat.leavesExact_idle (dat2 V c) 4 t (idle_out t (condsC t h8 h7).2.2.2) (noflush_out t (condsC t h8 h7).2.2.2)]
          rw [outsAt_pos V c t hz, stepAt_C V c t _ _ h8 h7]
          unfold accC; dsimp only
          rw [PhiS_castSucc V c t, PhiS_pos V c _ _ hz]
          iintro ⟨⟨⟨⟨HSA, HSR⟩, HRB⟩, Hg⟩, Ho, ⟨%d0, H0⟩, ⟨%d1, H1⟩, ⟨%d2, H2⟩, ⟨%d3, H3⟩, ⟨%d4, H4⟩⟩
          iapply ((rC V c t h8 h7 (outsAt V c (t.val - 1) (Nat.lt_of_le_of_lt (Nat.sub_le _ _) t.isLt)).2.1).2 _ _ Set.univ _)
          isplitl [H0]; · iexact H0
          isplitl [H1]; · iexact H1
          isplitl [H2]; · iexact H2
          isplitl [H3]; · iexact H3
          isplitl [H4]; · iexact H4
          isplitl [HSA]; · iexact HSA
          isplitl [HSR]; · iexact HSR
          iintro ⟨H0, H1, H2, H3, H4, ⟨%ea, HSA⟩, HSR⟩
          isplitl [HSA HSR HRB Hg]
          · isplitl [HSA HSR HRB]
            · isplitl [HSA HSR]
              · isplitl [HSA]
                · unfold owns; iexists _; isplitr
                  swap; · iexact HSA
                  ipureintro; exact View.read_writes_of_cover _ _ _ _ _ (cov_accC V c t h8 h7 _)
                iexact HSR
              iexact HRB
            iexact Hg
          isplitl [Ho]; · iexact Ho
          isplitl [H0]; · iexact H0
          isplitl [H1]; · iexact H1
          isplitl [H2]; · iexact H2
          isplitl [H3]; · iexact H3
          iexists _; iexact H4

/-- The body obligation, at every point. -/
theorem body_obligation2 (c : Dev nD) : BodyObligation (dat2 (F := F) V c) (defs₀ (F := F)) Variants.none () Set.univ := fun t => by
  rw [bigSep_W2, bigSep_W2]
  exact sound_body V c t

/-- What the launch hands the region is the invariant before the first point, -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- and after the last point the invariant gives it back, the scratch buffers' contents forgotten. -/
theorem hout2 (c : Dev nD) : (dat2 V c).Φ (Fin.last cfg2.N) ⊢ Pipeline.ΦA spec2 c := by
  have hne : (Fin.last cfg2.N).val ≠ 0 := by rw [Fin.val_last]; have : cfg2.N = 48 := N_2; omega
  rw [show (dat2 V c).Φ (Fin.last cfg2.N) = PhiS V c (Fin.last cfg2.N).val (Nat.le_of_lt_succ (Fin.last cfg2.N).isLt) from rfl,
    PhiS_pos V c _ _ hne, PhiA_eq]
  iintro ⟨⟨⟨HSA, HSR⟩, HRB⟩, Hg⟩
  isplitl [HSA HSR HRB]
  · isplitl [HSA HSR]
    · isplitl [HSA]
      · iexists _; iexact HSA
      iexists _; iexact HSR
    iexact HRB
  iexact Hg

end Cert.KernelIdeal.R2

end
-- ==== Proof.Run.lean ====
/-
  The whole program as a run of its segments: the contents of the core's unscoped buffers at every boundary between two
  segments (a fold from the launch memory through the host stretches and the three Pallas calls), the three calls'
  proof data each at its entry contents, each call as a region over the thread state "every unscoped buffer at the
  boundary's contents, the generator register at some state, nothing owed", and the run: every weakly fair execution
  terminates with every unscoped buffer at the last boundary's contents.
-/
import proofs.«110218_j20177756357157_2_alg».proof.Proof.Region0
import proofs.«110218_j20177756357157_2_alg».proof.Proof.R1Body
import proofs.«110218_j20177756357157_2_alg».proof.Proof.R2Body
import proofs.«110218_j20177756357157_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the four squeezes (the first call's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- After region 0: its arrays at what the pipeline leaves (the inputs as entered, each output's write-backs folded),
    every other buffer as entered. -/
def W2 (c : Dev nD) : Valuation τ sig (Elt F) :=
  Pipeline.withArrays spec0 c (W1 m c) fun w => (R0.dat0 (V1 m) c).arrAt w cfg0.N
theorem W2_arr (c : Dev nD) (w : Fin cfg0.W) :
    W2 m c (Proc.devRef .tc (Pipeline.arrRef spec0 w)) = (R0.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (R0.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the flattening and stacking of the three distance matrices (the second call's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- After region 1: its arrays at what the pipeline leaves (the inputs as entered, each output's write-backs folded),
    every other buffer as entered. -/
def W4 (c : Dev nD) : Valuation τ sig (Elt F) :=
  Pipeline.withArrays spec1 c (W3 m c) fun w => (R1.dat1 (V3 m) c).arrAt w cfg1.N
theorem W4_arr (c : Dev nD) (w : Fin cfg1.W) :
    W4 m c (Proc.devRef .tc (Pipeline.arrRef spec1 w)) = (R1.dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (R1.dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After region 2: its arrays at what the pipeline leaves (the inputs as entered, each output's write-backs folded),
    every other buffer as entered. -/
def W5 (c : Dev nD) : Valuation τ sig (Elt F) :=
  Pipeline.withArrays spec2 c (W4 m c) fun w => (R2.dat2 (V4 m) c).arrAt w cfg2.N
theorem W5_arr (c : Dev nD) (w : Fin cfg2.W) :
    W5 m c (Proc.devRef .tc (Pipeline.arrRef spec2 w)) = (R2.dat2 (V4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb
abbrev V5 : (c : Dev nD) → (b : Ref sig .tc) → Buf (Elt F) ((c : Thread nD τ).loc b) := fun c b => W5 m c b
theorem hF2 (c : Dev nD) (w : Fin cfg2.W) : (R2.dat2 (V4 m) c).arrAt w cfg2.N = V5 m c (Pipeline.arrRef spec2 w) :=
  (W5_arr m c w).symm
theorem hrest2 (c : Dev nD) : ∀ b, b ∉ Finset.univ.image (Pipeline.arrRef spec2) → V5 m c b = V4 m c b :=
  fun b hb => W5_of_ne m c b fun w e => hb (Finset.mem_image.mpr ⟨w, Finset.mem_univ _, e⟩)

/-- After the three rows are sliced out and reshaped (the program's results). -/
abbrev W6 : Dev nD → Valuation τ sig (Elt F) := fun c => StableHlo.after hostOps3 (W5 m c)

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => R0.dat0 (V1 m) c
  | ⟨1, _⟩ => fun c => R1.dat1 (V3 m) c
  | ⟨2, _⟩ => fun c => R2.dat2 (V4 m) c
abbrev 𝒱₀ : Variants := Variants.none
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered from every unscoped buffer at the contents before it, left at the
    contents after it; its arrays split out of the unscoped buffers and put back; the generator register into the
    invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it; its arrays split out of the unscoped buffers and put back; the generator register into the
    invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    have h := R1.hout1 (V3 m) c
    unfold Pipeline.ΦA at h
    show (R1.dat1 (V3 m) c).Φ (Fin.last cfg1.N) ⊢ iprop((∃ r, prngReg c r) ∗ BI.emp ∗ Pipeline.scopedRest spec1 c)
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the
    contents after it; its arrays split out of the unscoped buffers and put back; the generator register into the
    invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (R2.body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    have h := R2.hout2 (V4 m) c
    unfold Pipeline.ΦA at h
    show (R2.dat2 (V4 m) c).Φ (Fin.last cfg2.N) ⊢ iprop((∃ r, prngReg c r) ∗ BI.emp ∗ Pipeline.scopedRest spec2 c)
    iintro HΦ
    ihave H := h $$ HΦ
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V4 m c) (V5 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)) ]
theorem main_run (c : Dev nD) : main (F := F) c = Pipeline.Seg.run (segs m) := (main_chain c).trans (by chain_rfl)

set_option backward.isDefEq.respectTransparency.types false in
/-- From any memory with zero counters every weakly fair execution of the program terminates, nothing faulting, and
    every final state holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.KernelIdeal.Run

end
-- ==== Proof.Frame.lean ====
/-
  The frame: every argument array ends holding what it was launched with, read off the last boundary's contents.
-/
import proofs.«110218_j20177756357157_2_alg».proof.Proof.Run

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- `main_arg0` reaches the end as launched: no host stretch writes it, and each call either reads it through an input window or leaves it alone. -/
theorem W6_main_arg0 (c : Dev nD) : W6 m c (Proc.devRef .tc main_arg0) = m ((c : Thread nD τ).loc main_arg0) :=
  calc W6 m c (Proc.devRef .tc main_arg0)
    _ = W5 m c (Proc.devRef .tc main_arg0) := StableHlo.after_of_writes_sub hostOps3 _ hostOps3_writes (by decide)
    _ = W4 m c (Proc.devRef .tc main_arg0) := W5_of_ne m c main_arg0 (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl

/-- `main_arg1` reaches the end as launched: no host stretch writes it, and each call either reads it through an input window or leaves it alone. -/
theorem W6_main_arg1 (c : Dev nD) : W6 m c (Proc.devRef .tc main_arg1) = m ((c : Thread nD τ).loc main_arg1) :=
  calc W6 m c (Proc.devRef .tc main_arg1)
    _ = W5 m c (Proc.devRef .tc main_arg1) := StableHlo.after_of_writes_sub hostOps3 _ hostOps3_writes (by decide)
    _ = W4 m c (Proc.devRef .tc main_arg1) := W5_of_ne m c main_arg1 (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-- `main_arg2` reaches the end as launched: no host stretch writes it, and each call either reads it through an input window or leaves it alone. -/
theorem W6_main_arg2 (c : Dev nD) : W6 m c (Proc.devRef .tc main_arg2) = m ((c : Thread nD τ).loc main_arg2) :=
  calc W6 m c (Proc.devRef .tc main_arg2)
    _ = W5 m c (Proc.devRef .tc main_arg2) := StableHlo.after_of_writes_sub hostOps3 _ hostOps3_writes (by decide)
    _ = W4 m c (Proc.devRef .tc main_arg2) := W5_of_ne m c main_arg2 (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-- `main_arg3` reaches the end as launched: no host stretch writes it, and each call either reads it through an input window or leaves it alone. -/
theorem W6_main_arg3 (c : Dev nD) : W6 m c (Proc.devRef .tc main_arg3) = m ((c : Thread nD τ).loc main_arg3) :=
  calc W6 m c (Proc.devRef .tc main_arg3)
    _ = W5 m c (Proc.devRef .tc main_arg3) := StableHlo.after_of_writes_sub hostOps3 _ hostOps3_writes (by decide)
    _ = W4 m c (Proc.devRef .tc main_arg3) := W5_of_ne m c main_arg3 (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-- `main_arg4` reaches the end as launched: no host stretch writes it, and each call either reads it through an input window or leaves it alone. -/
theorem W6_main_arg4 (c : Dev nD) : W6 m c (Proc.devRef .tc main_arg4) = m ((c : Thread nD τ).loc main_arg4) :=
  calc W6 m c (Proc.devRef .tc main_arg4)
    _ = W5 m c (Proc.devRef .tc main_arg4) := StableHlo.after_of_writes_sub hostOps3 _ hostOps3_writes (by decide)
    _ = W4 m c (Proc.devRef .tc main_arg4) := W5_of_ne m c main_arg4 (by decide)
    _ = W3 m c (Proc.devRef .tc main_arg4) := (W4_arr m c 1).trans (((R1.dat1 (V3 m) c).arrAt_in 1 rfl _).trans (R1.A_eq1 (V3 m) c 1))
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-- `main_arg5` reaches the end as launched: no host stretch writes it, and each call either reads it through an input window or leaves it alone. -/
theorem W6_main_arg5 (c : Dev nD) : W6 m c (Proc.devRef .tc main_arg5) = m ((c : Thread nD τ).loc main_arg5) :=
  calc W6 m c (Proc.devRef .tc main_arg5)
    _ = W5 m c (Proc.devRef .tc main_arg5) := StableHlo.after_of_writes_sub hostOps3 _ hostOps3_writes (by decide)
    _ = W4 m c (Proc.devRef .tc main_arg5) := (W5_arr m c 1).trans (((R2.dat2 (V4 m) c).arrAt_in 1 rfl _).trans (R2.A_eq1 (V4 m) c 1))
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

/-- `main_arg6` reaches the end as launched: no host stretch writes it, and each call either reads it through an input window or leaves it alone. -/
theorem W6_main_arg6 (c : Dev nD) : W6 m c (Proc.devRef .tc main_arg6) = m ((c : Thread nD τ).loc main_arg6) :=
  calc W6 m c (Proc.devRef .tc main_arg6)
    _ = W5 m c (Proc.devRef .tc main_arg6) := StableHlo.after_of_writes_sub hostOps3 _ hostOps3_writes (by decide)
    _ = W4 m c (Proc.devRef .tc main_arg6) := W5_of_ne m c main_arg6 (by decide)
    _ = W3 m c (Proc.devRef .tc main_arg6) := (W4_arr m c 2).trans (((R1.dat1 (V3 m) c).arrAt_in 2 rfl _).trans (R1.A_eq1 (V3 m) c 2))
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

/-- `main_arg7` reaches the end as launched: no host stretch writes it, and each call either reads it through an input window or leaves it alone. -/
theorem W6_main_arg7 (c : Dev nD) : W6 m c (Proc.devRef .tc main_arg7) = m ((c : Thread nD τ).loc main_arg7) :=
  calc W6 m c (Proc.devRef .tc main_arg7)
    _ = W5 m c (Proc.devRef .tc main_arg7) := StableHlo.after_of_writes_sub hostOps3 _ hostOps3_writes (by decide)
    _ = W4 m c (Proc.devRef .tc main_arg7) := (W5_arr m c 2).trans (((R2.dat2 (V4 m) c).arrAt_in 2 rfl _).trans (R2.A_eq1 (V4 m) c 2))
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

/-- `main_arg8` reaches the end as launched: no host stretch writes it, and each call either reads it through an input window or leaves it alone. -/
theorem W6_main_arg8 (c : Dev nD) : W6 m c (Proc.devRef .tc main_arg8) = m ((c : Thread nD τ).loc main_arg8) :=
  calc W6 m c (Proc.devRef .tc main_arg8)
    _ = W5 m c (Proc.devRef .tc main_arg8) := StableHlo.after_of_writes_sub hostOps3 _ hostOps3_writes (by decide)
    _ = W4 m c (Proc.devRef .tc main_arg8) := W5_of_ne m c main_arg8 (by decide)
    _ = W3 m c (Proc.devRef .tc main_arg8) := (W4_arr m c 3).trans (((R1.dat1 (V3 m) c).arrAt_in 3 rfl _).trans (R1.A_eq1 (V3 m) c 3))
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl

/-- `main_arg9` reaches the end as launched: no host stretch writes it, and each call either reads it through an input window or leaves it alone. -/
theorem W6_main_arg9 (c : Dev nD) : W6 m c (Proc.devRef .tc main_arg9) = m ((c : Thread nD τ).loc main_arg9) :=
  calc W6 m c (Proc.devRef .tc main_arg9)
    _ = W5 m c (Proc.devRef .tc main_arg9) := StableHlo.after_of_writes_sub hostOps3 _ hostOps3_writes (by decide)
    _ = W4 m c (Proc.devRef .tc main_arg9) := (W5_arr m c 3).trans (((R2.dat2 (V4 m) c).arrAt_in 3 rfl _).trans (R2.A_eq1 (V4 m) c 3))
    _ = W3 m c (Proc.devRef .tc main_arg9) := W4_of_ne m c main_arg9 (by decide)
    _ = W2 m c (Proc.devRef .tc main_arg9) := StableHlo.after_of_writes_sub hostOps1 _ hostOps1_writes (by decide)
    _ = W1 m c (Proc.devRef .tc main_arg9) := W2_of_ne m c main_arg9 (by decide)
    _ = W0 m c (Proc.devRef .tc main_arg9) := StableHlo.after_of_writes_sub hostOps0 _ hostOps0_writes (by decide)
    _ = m ((c : Thread nD τ).loc main_arg9) := rfl

/-- From any memory with zero counters every weakly fair execution terminates, nothing faulting, and every final state
    has the ten argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c),
     (h c _ (mem_uc main_arg7 (by decide))).trans (W6_main_arg7 m c),
     (h c _ (mem_uc main_arg8 (by decide))).trans (W6_main_arg8 m c),
     (h c _ (mem_uc main_arg9 (by decide))).trans (W6_main_arg9 m c)⟩)
    (run_all m ρ)

end Cert.KernelIdeal.Run

end
-- ==== Proof.Weights.lean ====
/-
  The weights as each matvec call finds them are the launched ones: no host stretch writes an argument, the first call does
  not window the weights, and the second call does not window the third call's.
-/
import proofs.«110218_j20177756357157_2_alg».proof.Proof.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window BodyObligation cellOf)

variable {F : FTy → Type} [FloatOps F]

variable (m : (ℓ : Loc nD τ sig) → Buf (Elt F) ℓ)

theorem W3_main_arg4 (c : Dev nD) : W3 m c (Proc.devRef .tc main_arg4) = m ((c : Thread nD τ).loc main_arg4) :=
  calc W3 m c (Proc.devRef .tc main_arg4)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl
theorem W3_main_arg5 (c : Dev nD) : W3 m c (Proc.devRef .tc main_arg5) = m ((c : Thread nD τ).loc main_arg5) :=
  calc W3 m c (Proc.devRef .tc main_arg5)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl
theorem W3_main_arg6 (c : Dev nD) : W3 m c (Proc.devRef .tc main_arg6) = m ((c : Thread nD τ).loc main_arg6) :=
  calc W3 m c (Proc.devRef .tc main_arg6)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl
theorem W3_main_arg7 (c : Dev nD) : W3 m c (Proc.devRef .tc main_arg7) = m ((c : Thread nD τ).loc main_arg7) :=
  calc W3 m c (Proc.devRef .tc main_arg7)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl
theorem W3_main_arg8 (c : Dev nD) : W3 m c (Proc.devRef .tc main_arg8) = m ((c : Thread nD τ).loc main_arg8) :=
  calc W3 m c (Proc.devRef .tc main_arg8)
    _ = W2 m c (Proc.devRef .tc main_arg8) := StableHlo.after_of_writes_sub hostOps1 _ hostOps1_writes (by decide)
    _ = W1 m c (Proc.devRef .tc main_arg8) := W2_of_ne m c main_arg8 (by decide)
    _ = W0 m c (Proc.devRef .tc main_arg8) := StableHlo.after_of_writes_sub hostOps0 _ hostOps0_writes (by decide)
    _ = m ((c : Thread nD τ).loc main_arg8) := rfl
theorem W3_main_arg9 (c : Dev nD) : W3 m c (Proc.devRef .tc main_arg9) = m ((c : Thread nD τ).loc main_arg9) :=
  calc W3 m c (Proc.devRef .tc main_arg9)
    _ = W2 m c (Proc.devRef .tc main_arg9) := StableHlo.after_of_writes_sub hostOps1 _ hostOps1_writes (by decide)
    _ = W1 m c (Proc.devRef .tc main_arg9) := W2_of_ne m c main_arg9 (by decide)
    _ = W0 m c (Proc.devRef .tc main_arg9) := StableHlo.after_of_writes_sub hostOps0 _ hostOps0_writes (by decide)
    _ = m ((c : Thread nD τ).loc main_arg9) := rfl
theorem W4_main_arg5 (c : Dev nD) : W4 m c (Proc.devRef .tc main_arg5) = m ((c : Thread nD τ).loc main_arg5) :=
  (W4_of_ne m c main_arg5 (by decide)).trans (W3_main_arg5 m c)
theorem W4_main_arg7 (c : Dev nD) : W4 m c (Proc.devRef .tc main_arg7) = m ((c : Thread nD τ).loc main_arg7) :=
  (W4_of_ne m c main_arg7 (by decide)).trans (W3_main_arg7 m c)
theorem W4_main_arg9 (c : Dev nD) : W4 m c (Proc.devRef .tc main_arg9) = m ((c : Thread nD τ).loc main_arg9) :=
  (W4_of_ne m c main_arg9 (by decide)).trans (W3_main_arg9 m c)
theorem W1_main_arg (K : Ref sig .tc) (h : K ∉ hostOps0_W) (c : Dev nD) : W1 m c (Proc.devRef .tc K) = W0 m c (Proc.devRef .tc K) :=
  StableHlo.after_of_writes_sub hostOps0 _ hostOps0_writes h

end Cert.KernelIdeal.Run

end
-- ==== Proof.Spec.lean ====
import Idealize.ShloMosaic.PureOps.Ideal

/-!
The mathematical content of one branch of the computation, over plain functions into the
extended reals: pairwise Euclidean distances of the rows of a 64×256 matrix, masked by an
adjacency matrix, flattened row-major to a vector of length 4096, and passed through two
layers "vector times matrix, clamped below at zero".
-/

noncomputable section

namespace Cert.Spec

open Idealize.ShloMosaic

/-- The float word 1.0 as an extended real (kept unevaluated). -/
def one : EReal := Ideal.ofBits .f32 0x3F800000#32

/-- The float word 0.0 as an extended real (kept unevaluated). -/
def zero : EReal := Ideal.ofBits .f32 0x00000000#32

/-- Squared Euclidean distance between rows i and j of nv. -/
def dist2 (nv : Fin 64 → Fin 256 → EReal) (i j : Fin 64) : EReal :=
  ∑ f : Fin 256, (nv i f - nv j f) * (nv i f - nv j f)

/-- The distance where the adjacency entry is the float 1.0, else 0.0. -/
def masked (a : Fin 64 → Fin 64 → EReal) (nv : Fin 64 → Fin 256 → EReal) (i j : Fin 64) : EReal :=
  if Ideal.cmp .oeq (a i j) one = 1#1 then Ideal.sqrt (dist2 nv i j) else zero

/-- Row-major flattening of a 64×64 matrix. -/
def flat (M : Fin 64 → Fin 64 → EReal) (p : Fin 4096) : EReal :=
  M ⟨p.val / 64, by omega⟩ ⟨p.val % 64, by omega⟩

/-- One layer: a row vector times a matrix, clamped below at 0.0. -/
def layer (v : Fin 4096 → EReal) (W : Fin 4096 → Fin 4096 → EReal) (q : Fin 4096) : EReal :=
  max (∑ p : Fin 4096, v p * W p q) zero

/-- One branch's result at (i, j). -/
def out (a : Fin 64 → Fin 64 → EReal) (nv : Fin 64 → Fin 256 → EReal)
    (W1 W2 : Fin 4096 → Fin 4096 → EReal) (i j : Fin 64) : EReal :=
  layer (layer (flat (masked a nv)) W1) W2 ⟨i.val * 64 + j.val, by omega⟩

end Cert.Spec

end
-- ==== Proof.Gram.lean ====
import Mathlib
import proofs.«110218_j20177756357157_2_alg».proof.Proof.Spec

/-!
The Gram identity over the extended reals, for finite entries: the sum of the two squared row
norms minus twice the inner product, clamped below at zero, is the sum of squared differences.
-/

noncomputable section

namespace Cert.Gram

open Idealize.ShloMosaic

/-- The float word 2.0 as an extended real. -/
def two : EReal := Ideal.ofBits .f32 0x40000000#32

/-- The word 2.0 denotes the real 2. -/
theorem two_eq : two = ((2 : ℝ) : EReal) := by
  unfold two
  simp [Ideal.ofBits, Ideal.ieee, -EReal.coe_mul]; norm_num

/-- The word 0.0 denotes 0. -/
theorem zero_eq : Cert.Spec.zero = 0 := by
  unfold Cert.Spec.zero
  simp [Ideal.ofBits, Ideal.ieee]

/-- A finite sum of reals, each read as an extended real, is the real sum read as one. -/
theorem coe_sum {ι : Type*} (s : Finset ι) (g : ι → ℝ) :
    (∑ a ∈ s, ((g a : ℝ) : EReal)) = ((∑ a ∈ s, g a : ℝ) : EReal) := by
  classical
  induction s using Finset.induction_on with
  | empty => simp
  | insert a s ha ih => rw [Finset.sum_insert ha, Finset.sum_insert ha, ih, EReal.coe_add]

/-- Over the reals: the expansion of the squared distance, and its nonnegativity. -/
theorem gram_real (u v : Fin 256 → ℝ) :
    max ((∑ f, u f * u f) + (∑ f, v f * v f) - 2 * (∑ f, u f * v f)) 0 = ∑ f, (u f - v f) * (u f - v f) := by
  have h : (∑ f, u f * u f) + (∑ f, v f * v f) - 2 * (∑ f, u f * v f) = ∑ f, (u f - v f) * (u f - v f) := by
    rw [Finset.mul_sum, ← Finset.sum_add_distrib, ← Finset.sum_sub_distrib]
    exact Finset.sum_congr rfl fun f _ => by ring
  rw [h]
  exact max_eq_left (Finset.sum_nonneg fun f _ => mul_self_nonneg _)

theorem gram (x : Fin 64 → Fin 256 → ℝ) (i j : Fin 64) :
    max ((∑ f : Fin 256, ((x i f : ℝ) : EReal) * (x i f : EReal)) + (∑ f : Fin 256, ((x j f : ℝ) : EReal) * (x j f : EReal))
        - two * (∑ f : Fin 256, ((x i f : ℝ) : EReal) * (x j f : EReal))) Cert.Spec.zero
      = ∑ f : Fin 256, (((x i f : ℝ) : EReal) - (x j f : EReal)) * (((x i f : ℝ) : EReal) - (x j f : EReal)) := by
  rw [two_eq, zero_eq]
  simp only [← EReal.coe_mul, ← EReal.coe_sub, coe_sum, ← EReal.coe_add]
  rw [← EReal.coe_zero, ← EReal.coe_strictMono.monotone.map_max, gram_real]

end Cert.Gram

end
-- ==== Proof.Region0Value.lean ====
import proofs.«110218_j20177756357157_2_alg».proof.Proof.Region0
import proofs.«110218_j20177756357157_2_alg».proof.Proof.Gram
import proofs.«110218_j20177756357157_2_alg».proof.Proof.Spec
import Idealize.ShloMosaic.Lib.ValueIdx
import Idealize.ShloMosaic.Lib.ValueLayout
import Idealize.ShloMosaic.PureOps.Ideal.Laws

/-!
# The distance kernel's outputs, read at an index

At the extended reals the kernel computes, for rows i and j of the node matrix, the two row sums
of squares plus each other minus twice the inner product, clamps at zero and takes the square
root. For finite entries the Gram identity turns the clamped expression into the sum of squared
differences, so each output array after the run is the specification's masked distance matrix.
-/

set_option maxRecDepth 16384

noncomputable section

namespace Cert.KernelIdeal.R0

open Cert.KernelIdeal Cert.KernelIdeal.Gen
open Idealize.ShloMosaic Idealize.ShloMosaic.TcCoe Idealize.SL.Sem
open Idealize.ShloMosaic.ValueIdx

section Layout
variable {α : Type}

/-- A vector cast to a one-column matrix reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast along its columns reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- The lane sum of the squared rows, at row i. -/
theorem rowsum_apply (v : FVec Ideal S64x256 .f32) (h : S64x256.Reduces [1] S64) (hφ : FKind.Formats .f32)
    (hacc : (0x00000000#32 : BitVec 32) = 0x00000000#32) (i : Fin 64) :
    multiReduction (F := Ideal) .add [1] S64 (mulf v v) 0x00000000#32 h hφ hacc (ix1 i)
      = ∑ f : Fin 256, v (ix2 i f) * v (ix2 i f) := by
  refine (Ideal.multiReduction_add_single (mulf v v) 0x00000000#32 h hφ hacc (ix1 i)).trans ?_
  show ∑ f : Fin 256, mulf v v (h.lift (ix1 i) f) = _
  refine Finset.sum_congr rfl fun f _ => ?_
  have e : h.lift (ix1 i) f = ix2 i f := funext fun a => Fin.ext (by
    match a with
    | ⟨0, _⟩ => rfl
    | ⟨1, _⟩ => rfl)
  rw [e]; rfl

theorem lhsIdx_0 (i : S64x64.Idx) (q : dot_S64x256_S256x64_S64x64_1_0_0_1_n_n.contr.Idx) :
    (dot_S64x256_S256x64_S64x64_1_0_0_1_n_n.lhsIdx i q 0).val = (i 0).val := by
  unfold DotDims.lhsIdx
  rw [dif_neg (show ¬(0 : Fin S64x256.rank) ∈ dot_S64x256_S256x64_S64x64_1_0_0_1_n_n.lhsBatch by decide), dif_pos (show (0 : Fin S64x256.rank) ∈ dot_S64x256_S256x64_S64x64_1_0_0_1_n_n.lhsNonContracting by decide)]
  rfl
theorem lhsIdx_1 (i : S64x64.Idx) (q : dot_S64x256_S256x64_S64x64_1_0_0_1_n_n.contr.Idx) :
    (dot_S64x256_S256x64_S64x64_1_0_0_1_n_n.lhsIdx i q 1).val = (q ⟨0, by decide⟩).val :=
  dot_S64x256_S256x64_S64x64_1_0_0_1_n_n.lhsIdx_val_of_single rfl i q
theorem rhsIdx_0 (i : S64x64.Idx) (q : dot_S64x256_S256x64_S64x64_1_0_0_1_n_n.contr.Idx) :
    (dot_S64x256_S256x64_S64x64_1_0_0_1_n_n.rhsIdx i q 0).val = (q ⟨0, by decide⟩).val :=
  dot_S64x256_S256x64_S64x64_1_0_0_1_n_n.rhsIdx_val_of_single rfl i q
theorem rhsIdx_1 (i : S64x64.Idx) (q : dot_S64x256_S256x64_S64x64_1_0_0_1_n_n.contr.Idx) :
    (dot_S64x256_S256x64_S64x64_1_0_0_1_n_n.rhsIdx i q 1).val = (i 1).val := by
  unfold DotDims.rhsIdx
  rw [dif_neg (show ¬(1 : Fin S256x64.rank) ∈ dot_S64x256_S256x64_S64x64_1_0_0_1_n_n.rhsBatch by decide), dif_pos (show (1 : Fin S256x64.rank) ∈ dot_S64x256_S256x64_S64x64_1_0_0_1_n_n.rhsNonContracting by decide)]
  rfl

/-- The product of the matrix with its transpose, at (i, j): the inner product of rows i and j. -/
theorem inner_apply (v : FVec Ideal S64x256 .f32) (h : S64x256.Transposes [1, 0] S256x64) (i j : Fin 64) :
    matmul dot_S64x256_S256x64_S64x64_1_0_0_1_n_n (some .fp32) v (transpose S256x64 [1, 0] v h) (constant (F := Ideal) S64x64 .f32 0x00000000#32) (ix2 i j)
      = ∑ f : Fin 256, v (ix2 i f) * v (ix2 j f) := by
  refine (Ideal.matmul_constant_zero_apply dot_S64x256_S256x64_S64x64_1_0_0_1_n_n (some .fp32) v (transpose S256x64 [1, 0] v h) (ix2 i j)).trans ?_
  rw [← Equiv.sum_comp (contrEquiv1 dot_S64x256_S256x64_S64x64_1_0_0_1_n_n 256 rfl rfl).symm]
  refine Finset.sum_congr rfl fun k _ => ?_
  have hk := contrEquiv1_symm_val dot_S64x256_S256x64_S64x64_1_0_0_1_n_n 256 rfl rfl k
  have el : dot_S64x256_S256x64_S64x64_1_0_0_1_n_n.lhsIdx (ix2 i j) ((contrEquiv1 dot_S64x256_S256x64_S64x64_1_0_0_1_n_n 256 rfl rfl).symm k) = ix2 i k := funext fun a => Fin.ext (by
    match a with
    | ⟨0, _⟩ => exact lhsIdx_0 _ _
    | ⟨1, _⟩ => exact (lhsIdx_1 _ _).trans hk)
  have er : dot_S64x256_S256x64_S64x64_1_0_0_1_n_n.rhsIdx (ix2 i j) ((contrEquiv1 dot_S64x256_S256x64_S64x64_1_0_0_1_n_n 256 rfl rfl).symm k) = ix2 k j := funext fun a => Fin.ext (by
    match a with
    | ⟨0, _⟩ => exact (rhsIdx_0 _ _).trans hk
    | ⟨1, _⟩ => exact rhsIdx_1 _ _)
  rw [el, er, transpose_ix2_apply]

theorem pay2_apply (v0 : FVec Ideal S64x256 .f32) (i j : Fin 64) :
    k0_pay2 (F := Ideal) v0 (ix2 i j)
      = Ideal.sqrt (max ((∑ f : Fin 256, v0 (ix2 i f) * v0 (ix2 i f)) + (∑ f : Fin 256, v0 (ix2 j f) * v0 (ix2 j f))
          - Cert.Gram.two * (∑ f : Fin 256, v0 (ix2 i f) * v0 (ix2 j f))) Cert.Spec.zero) := by
  unfold k0_pay2
  simp only [shapeCast_self]
  refine congrArg Ideal.sqrt ?_
  refine congrArg₂ max ?_ rfl
  refine congrArg₂ (· - ·) (congrArg₂ (· + ·) ?_ ?_) (congrArg (Cert.Gram.two * ·) ?_)
  · exact (broadcastTo_a1_ab_apply _ _ i j).trans ((shapeCast_a_a1_apply _ _ i 0).trans (rowsum_apply v0 _ _ _ i))
  · exact (broadcastTo_1b_ab_apply _ _ i j).trans ((transpose_ix2_apply _ _ (0 : Fin 1) j).trans
      ((shapeCast_a_a1_apply _ _ j 0).trans (rowsum_apply v0 _ _ _ j)))
  · exact inner_apply v0 _ i j

/-- For finite entries the clamped Gram expression is the squared distance: the distance payload
    is the square root of the specification's squared distance. -/
theorem pay2_spec (v0 : FVec Ideal S64x256 .f32) (hreal : ∀ idx, ∃ r : ℝ, v0 idx = (r : EReal)) (i j : Fin 64) :
    k0_pay2 (F := Ideal) v0 (ix2 i j) = Ideal.sqrt (Cert.Spec.dist2 (fun i f => v0 (ix2 i f)) i j) := by
  rw [pay2_apply]
  choose x hx using hreal
  have g := Cert.Gram.gram (fun i f => x (ix2 i f)) i j
  unfold Cert.Spec.dist2
  simp only [hx]
  rw [g]

/-- The masked payloads at an index. -/
theorem pay3_apply (v0 : FVec Ideal S64x256 .f32) (a : FVec Ideal S64x64 .f32) (i j : Fin 64) :
    k0_pay3 (F := Ideal) v0 a (ix2 i j)
      = if Ideal.cmp .oeq (a (ix2 i j)) Cert.Spec.one = 1#1 then k0_pay2 (F := Ideal) v0 (ix2 i j) else Cert.Spec.zero := by
  unfold k0_pay3
  simp only [shapeCast_self]
  rfl
theorem pay4_apply (v0 : FVec Ideal S64x256 .f32) (a : FVec Ideal S64x64 .f32) (i j : Fin 64) :
    k0_pay4 (F := Ideal) v0 a (ix2 i j)
      = if Ideal.cmp .oeq (a (ix2 i j)) Cert.Spec.one = 1#1 then k0_pay2 (F := Ideal) v0 (ix2 i j) else Cert.Spec.zero := by
  unfold k0_pay4
  simp only [shapeCast_self]
  rfl
theorem pay1_apply (v0 : FVec Ideal S64x256 .f32) (a : FVec Ideal S64x64 .f32) (i j : Fin 64) :
    k0_pay1 (F := Ideal) (k0_pay2 v0) (k0_pay5 (F := Ideal) a) (Scalar.ofBits .f32 0x00000000#32) (ix2 i j)
      = if Ideal.cmp .oeq (a (ix2 i j)) Cert.Spec.one = 1#1 then k0_pay2 (F := Ideal) v0 (ix2 i j) else Cert.Spec.zero := by
  unfold k0_pay1 k0_pay5
  simp only [shapeCast_self]
  rfl

section Spec
variable (V : (c : Dev nD) → (b : Ref sig .tc) → Buf (Elt Ideal) ((c : Thread nD τ).loc b))

/-- The first output array after the run is the masked distance matrix of the specification. -/
theorem out0_4_spec (c : Dev nD)
    (hreal : ∀ idx, ∃ r : ℝ, (V c main_v3 : S64x256.Idx → EReal) idx = (r : EReal)) (i j : Fin 64) :
    ((dat0 (F := Ideal) V c).arrAt 4 cfg0.N : S64x64.Idx → EReal) (ix2 i j)
      = Cert.Spec.masked (fun i j => (V c main_v0 : S64x64.Idx → EReal) (ix2 i j)) (fun i f => (V c main_v3 : S64x256.Idx → EReal) (ix2 i f)) i j := by
  refine (congrFun (arr_out0_4 V c) (ix2 i j)).trans ?_
  refine (pay3_apply _ _ i j).trans ?_
  unfold Cert.Spec.masked
  rw [pay2_spec _ hreal]
theorem out0_5_spec (c : Dev nD)
    (hreal : ∀ idx, ∃ r : ℝ, (V c main_v3 : S64x256.Idx → EReal) idx = (r : EReal)) (i j : Fin 64) :
    ((dat0 (F := Ideal) V c).arrAt 5 cfg0.N : S64x64.Idx → EReal) (ix2 i j)
      = Cert.Spec.masked (fun i j => (V c main_v1 : S64x64.Idx → EReal) (ix2 i j)) (fun i f => (V c main_v3 : S64x256.Idx → EReal) (ix2 i f)) i j := by
  refine (congrFun (arr_out0_5 V c) (ix2 i j)).trans ?_
  refine (pay4_apply _ _ i j).trans ?_
  unfold Cert.Spec.masked
  rw [pay2_spec _ hreal]
theorem out0_6_spec (c : Dev nD)
    (hreal : ∀ idx, ∃ r : ℝ, (V c main_v3 : S64x256.Idx → EReal) idx = (r : EReal)) (i j : Fin 64) :
    ((dat0 (F := Ideal) V c).arrAt 6 cfg0.N : S64x64.Idx → EReal) (ix2 i j)
      = Cert.Spec.masked (fun i j => (V c main_v2 : S64x64.Idx → EReal) (ix2 i j)) (fun i f => (V c main_v3 : S64x256.Idx → EReal) (ix2 i f)) i j := by
  refine (congrFun (arr_out0_6 V c) (ix2 i j)).trans ?_
  refine (pay1_apply _ _ i j).trans ?_
  unfold Cert.Spec.masked
  rw [pay2_spec _ hreal]

end Spec

end Cert.KernelIdeal.R0
end
-- ==== Proof.R1Pieces.lean ====
import proofs.«110218_j20177756357157_2_alg».proof.Proof.R1Data
import Idealize.ShloMosaic.Lib.Pipeline.Value

/-!
What each case of the body leaves in the row accumulator, in the three-row result buffer and in the output block,
as the body's pure payloads of the blocks it loads: the accumulator is zeroed at the first row tile and added one
tile's contribution at every tile; at the last row tile its clamp at zero is written into the branch's row of the
result buffer; at the last point of a sweep the result buffer is copied into the output block.
-/

set_option maxRecDepth 16384

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

theorem hz : (![0, 0] : Fin 2 → Nat) = fun _ => 0 := funext fun a => by fin_cases a <;> rfl

/-- Row 0 of the three-row input block, as the body loads it. -/
abbrev row0 (x : Vec F S3x512 .f32) : Vec F S1x512 .f32 :=
  View.ld x (Rect.unit (s := S3x512) ![0, 0] S1x512.size inb_S3x512_S1x512_0_0)
/-- Row 1 of the three-row input block, as the body loads it. -/
abbrev row1 (x : Vec F S3x512 .f32) : Vec F S1x512 .f32 :=
  View.ld x (Rect.unit (s := S3x512) ![1, 0] S1x512.size inb_S3x512_S1x512_1_0)
/-- Row 2 of the three-row input block, as the body loads it. -/
abbrev row2 (x : Vec F S3x512 .f32) : Vec F S1x512 .f32 :=
  View.ld x (Rect.unit (s := S3x512) ![2, 0] S1x512.size inb_S3x512_S1x512_2_0)

/-- The contribution of point t's tile: the selected branch's row of 512 entries times its 512×2048 block. -/
def part (c : Dev nD) (t : Fin cfg1.N) : FVec F S1x2048 .f32 :=
  k1_pay5 (grid1.coords t) (row0 (iblk V c 0 t)) (row1 (iblk V c 0 t)) (row2 (iblk V c 0 t))
    (iblk V c 1 t) (iblk V c 2 t) (iblk V c 3 t)

/-- A point with 0 < k < 7 adds its tile's contribution to the accumulator. -/
theorem accC_eq (c : Dev nD) (t : Fin cfg1.N) (h8 : ¬t.val % 8 = 0) (h7 : ¬t.val % 8 = 7) (pa : Vec F S1x2048 .f32) :
    accC V c t h8 h7 pa = k1_pay1 (part V c t) pa := by
  unfold accC
  rw [View.read_writes_eq_canon _ _ _ (cov_accC V c t h8 h7 pa)]
  unfold rC runC
  dsimp only
  sl_unfold_words
  rw [View.canon_unit_zero hz]
  unfold part
  simp only [View.readAt_eq_ld, (hs0 t).read_unread, (hs1 t).read_unread, (hs2 t).read_unread, (hs3 t).read_unread,
    (hs4 t).read_unread, (Memref.isWhole_whole _).read_unread, View.ld_unit_zero (S := S512x2048) hz,
    View.ld_unit_zero (S := S1x2048) hz, View.ld_unit_zero (S := S3x2048) hz]

/-- The first point of a sweep leaves the zeroed accumulator plus its tile's contribution. -/
theorem accA_eq (c : Dev nD) (t : Fin cfg1.N) (h : t.val % 24 = 0) :
    accA V c t h = k1_pay1 (part V c t) k1_pay3 := by
  unfold accA
  rw [View.read_writes_eq_canon _ _ _ (cov_accA V c t h)]
  unfold rA runA
  dsimp only
  sl_unfold_words
  rw [View.canon_cons_unit_zero (S := S1x2048) hz, View.readCov_unit_zero (S := S1x2048) _ hz]
  unfold part
  simp only [View.readAt_eq_ld, (hs0 t).read_unread, (hs1 t).read_unread, (hs2 t).read_unread, (hs3 t).read_unread,
    (hs4 t).read_unread, (Memref.isWhole_whole _).read_unread, View.ld_unit_zero (S := S512x2048) hz,
    View.ld_unit_zero (S := S1x2048) hz, View.ld_unit_zero (S := S3x2048) hz]

/-- The first point of a sweep zeroes the result buffer. -/
theorem resA_eq (c : Dev nD) (t : Fin cfg1.N) (h : t.val % 24 = 0) :
    resA V c t h = k1_pay4 := by
  unfold resA
  rw [View.read_writes_eq_canon _ _ _ (cov_resA V c t h)]
  unfold rA runA
  dsimp only
  sl_unfold_words
  rw [View.canon_unit_zero hz]

/-- The first point of a branch leaves the zeroed accumulator plus its tile's contribution. -/
theorem accB_eq (c : Dev nD) (t : Fin cfg1.N) (h8 : t.val % 8 = 0) (h24 : ¬t.val % 24 = 0) :
    accB V c t h8 h24 = k1_pay1 (part V c t) k1_pay3 := by
  unfold accB
  rw [View.read_writes_eq_canon _ _ _ (cov_accB V c t h8 h24)]
  unfold rB runB
  dsimp only
  sl_unfold_words
  rw [View.canon_cons_unit_zero (S := S1x2048) hz, View.readCov_unit_zero (S := S1x2048) _ hz]
  unfold part
  simp only [View.readAt_eq_ld, (hs0 t).read_unread, (hs1 t).read_unread, (hs2 t).read_unread, (hs3 t).read_unread,
    (hs4 t).read_unread, (Memref.isWhole_whole _).read_unread, View.ld_unit_zero (S := S512x2048) hz,
    View.ld_unit_zero (S := S1x2048) hz, View.ld_unit_zero (S := S3x2048) hz]

/-- The last point of a branch other than the last adds its tile's contribution to the accumulator … -/
theorem accD_eq (c : Dev nD) (t : Fin cfg1.N) (h7 : t.val % 8 = 7) (h23 : ¬t.val % 24 = 23) (pa : Vec F S1x2048 .f32)
    (pr : Vec F S3x2048 .f32) :
    accD V c t h7 h23 pa pr = k1_pay1 (part V c t) pa := by
  unfold accD
  rw [View.read_writes_eq_canon _ _ _ (cov_accD V c t h7 h23 pa pr)]
  unfold rD runD
  dsimp only
  sl_unfold_words
  rw [View.canon_unit_zero hz]
  unfold part
  simp only [View.readAt_eq_ld, (hs0 t).read_unread, (hs1 t).read_unread, (hs2 t).read_unread, (hs3 t).read_unread,
    (hs4 t).read_unread, (Memref.isWhole_whole _).read_unread, View.ld_unit_zero (S := S512x2048) hz,
    View.ld_unit_zero (S := S1x2048) hz, View.ld_unit_zero (S := S3x2048) hz]

/-- … and writes the finished accumulator, clamped, into its row of the result buffer. -/
theorem resD_eq (c : Dev nD) (t : Fin cfg1.N) (h7 : t.val % 8 = 7) (h23 : ¬t.val % 24 = 23) (pa : Vec F S1x2048 .f32)
    (pr : Vec F S3x2048 .f32) :
    resD V c t h7 h23 pa pr
      = k1_pay2 (BitVec.ofNat 32 ((grid1.coords t) 1).val) (k1_pay1 (part V c t) pa) pr := by
  unfold resD
  rw [View.read_writes_eq_canon _ _ _ (cov_resD V c t h7 h23 pa pr)]
  unfold rD runD
  dsimp only
  sl_unfold_words
  rw [View.canon_unit_zero hz, View.readCov_unit_zero (S := S1x2048) _ hz]
  unfold part
  simp only [View.readAt_eq_ld, (hs0 t).read_unread, (hs1 t).read_unread, (hs2 t).read_unread, (hs3 t).read_unread,
    (hs4 t).read_unread, (Memref.isWhole_whole _).read_unread, View.ld_unit_zero (S := S512x2048) hz,
    View.ld_unit_zero (S := S1x2048) hz, View.ld_unit_zero (S := S3x2048) hz]

/-- The last point of a sweep does the same to the accumulator … -/
theorem accE_eq (c : Dev nD) (t : Fin cfg1.N) (h23 : t.val % 24 = 23) (pa : Vec F S1x2048 .f32)
    (pr : Vec F S3x2048 .f32) :
    accE V c t h23 pa pr = k1_pay1 (part V c t) pa := by
  unfold accE
  rw [View.read_writes_eq_canon _ _ _ (cov_accE V c t h23 pa pr)]
  unfold rE runE
  dsimp only
  sl_unfold_words
  rw [View.canon_unit_zero hz]
  unfold part
  simp only [View.readAt_eq_ld, (hs0 t).read_unread, (hs1 t).read_unread, (hs2 t).read_unread, (hs3 t).read_unread,
    (hs4 t).read_unread, (Memref.isWhole_whole _).read_unread, View.ld_unit_zero (S := S512x2048) hz,
    View.ld_unit_zero (S := S1x2048) hz, View.ld_unit_zero (S := S3x2048) hz]

/-- … and to the result buffer … -/
theorem resE_eq (c : Dev nD) (t : Fin cfg1.N) (h23 : t.val % 24 = 23) (pa : Vec F S1x2048 .f32)
    (pr : Vec F S3x2048 .f32) :
    resE V c t h23 pa pr
      = k1_pay2 (BitVec.ofNat 32 ((grid1.coords t) 1).val) (k1_pay1 (part V c t) pa) pr := by
  unfold resE
  rw [View.read_writes_eq_canon _ _ _ (cov_resE V c t h23 pa pr)]
  unfold rE runE
  dsimp only
  sl_unfold_words
  rw [View.canon_unit_zero hz, View.readCov_unit_zero (S := S1x2048) _ hz]
  unfold part
  simp only [View.readAt_eq_ld, (hs0 t).read_unread, (hs1 t).read_unread, (hs2 t).read_unread, (hs3 t).read_unread,
    (hs4 t).read_unread, (Memref.isWhole_whole _).read_unread, View.ld_unit_zero (S := S512x2048) hz,
    View.ld_unit_zero (S := S1x2048) hz, View.ld_unit_zero (S := S3x2048) hz]

/-- … and copies the result buffer into the output block. -/
theorem outE_eq (c : Dev nD) (t : Fin cfg1.N) (h23 : t.val % 24 = 23) (pa : Vec F S1x2048 .f32)
    (pr : Vec F S3x2048 .f32) :
    outE V c t h23 pa pr
      = k1_pay2 (BitVec.ofNat 32 ((grid1.coords t) 1).val) (k1_pay1 (part V c t) pa) pr := by
  unfold outE
  rw [View.read_writes_eq_canon _ _ _ (cov_outE V c t h23 pa pr)]
  unfold rE runE
  dsimp only
  sl_unfold_words
  rw [View.canon_unit_zero hz, View.readCov_unit_zero (S := S3x2048) _ hz, View.readCov_unit_zero (S := S1x2048) _ hz]
  unfold part
  simp only [View.readAt_eq_ld, (hs0 t).read_unread, (hs1 t).read_unread, (hs2 t).read_unread, (hs3 t).read_unread,
    (hs4 t).read_unread, (Memref.isWhole_whole _).read_unread, View.ld_unit_zero (S := S512x2048) hz,
    View.ld_unit_zero (S := S1x2048) hz, View.ld_unit_zero (S := S3x2048) hz]

end Cert.KernelIdeal.R1

end
-- ==== Proof.MlpPayload.lean ====
import proofs.«110218_j20177756357157_2_alg».proof.Proof.Gen.KernelIdeal.Skeleton
import proofs.«110218_j20177756357157_2_alg».proof.Proof.Spec
import Idealize.ShloMosaic.Lib.Pipeline.Value
import Idealize.ShloMosaic.Lib.ValueIdx
import Idealize.ShloMosaic.Lib.ValueLayout
import Idealize.ShloMosaic.PureOps.Ideal.Laws

/-!
The pure values the fused matrix-vector kernel stores, read at an index over the extended reals:
the zeroed accumulator, the accumulator plus a tile's contribution, the tile's contribution itself
(a row of 512 entries times a 512×2048 block, for the branch the grid's middle coordinate selects;
the narrowing of the operands to a shorter float format is the identity here), and the output block
with one row replaced by the accumulator clamped below at 0.0.
-/

noncomputable section

namespace Cert.KernelIdeal.Pay

open Idealize.ShloMosaic Idealize.ShloMosaic.ValueIdx Cert.KernelIdeal Cert.KernelIdeal.Gen

/-- A choice between three values by the two tests "the coordinate is 0", "the coordinate is 1", for a coordinate
    below 3. -/
theorem sel3 {α : Type} (b : ℕ) (hb : b < 3) (A B C : α) :
    Scalar.select (Scalar.cmpi .eq (BitVec.ofNat 32 b) 0#32) A
        (Scalar.select (Scalar.cmpi .eq (BitVec.ofNat 32 b) 1#32) B C)
      = if b = 0 then A else if b = 1 then B else C := by
  interval_cases b <;> rfl

/-- A three-way choice between functions, applied. -/
theorem ite3_apply {ι α : Type} (b : ℕ) (A B C : ι → α) (x : ι) :
    (if b = 0 then A else if b = 1 then B else C) x = if b = 0 then A x else if b = 1 then B x else C x := by
  split
  · rfl
  · split <;> rfl

/-- The test "row r is row b" on the rows' 32-bit words, for rows below 3. -/
theorem row_word_eq (r b : Fin 3) :
    IntOp.cmpi .eq (BitVec.ofNat 32 r.val) (BitVec.ofNat 32 b.val) = if r = b then 1#1 else 0#1 := by
  revert r b; decide

theorem lhs_0 (i : S1x2048.Idx) (k : dot_S1x512_S512x2048_S1x2048_1_0_0_1_n_n.contr.Idx) :
    (dot_S1x512_S512x2048_S1x2048_1_0_0_1_n_n.lhsIdx i k 0).val = (i 0).val := by
  unfold DotDims.lhsIdx
  rw [dif_neg (show ¬(0 : Fin S1x512.rank) ∈ dot_S1x512_S512x2048_S1x2048_1_0_0_1_n_n.lhsBatch by decide),
    dif_pos (show (0 : Fin S1x512.rank) ∈ dot_S1x512_S512x2048_S1x2048_1_0_0_1_n_n.lhsNonContracting by decide)]
  rfl

theorem lhs_1 (i : S1x2048.Idx) (k : dot_S1x512_S512x2048_S1x2048_1_0_0_1_n_n.contr.Idx) :
    (dot_S1x512_S512x2048_S1x2048_1_0_0_1_n_n.lhsIdx i k 1).val = (k ⟨0, by decide⟩).val :=
  dot_S1x512_S512x2048_S1x2048_1_0_0_1_n_n.lhsIdx_val_of_single rfl i k

theorem rhs_0 (i : S1x2048.Idx) (k : dot_S1x512_S512x2048_S1x2048_1_0_0_1_n_n.contr.Idx) :
    (dot_S1x512_S512x2048_S1x2048_1_0_0_1_n_n.rhsIdx i k 0).val = (k ⟨0, by decide⟩).val :=
  dot_S1x512_S512x2048_S1x2048_1_0_0_1_n_n.rhsIdx_val_of_single rfl i k

theorem rhs_1 (i : S1x2048.Idx) (k : dot_S1x512_S512x2048_S1x2048_1_0_0_1_n_n.contr.Idx) :
    (dot_S1x512_S512x2048_S1x2048_1_0_0_1_n_n.rhsIdx i k 1).val = (i 1).val := by
  unfold DotDims.rhsIdx
  rw [dif_neg (show ¬(1 : Fin S512x2048.rank) ∈ dot_S1x512_S512x2048_S1x2048_1_0_0_1_n_n.rhsBatch by decide),
    dif_pos (show (1 : Fin S512x2048.rank) ∈ dot_S1x512_S512x2048_S1x2048_1_0_0_1_n_n.rhsNonContracting by decide)]
  rfl

/-- A row of 512 entries times a 512×2048 block, accumulated onto zero, at column q: the sum of the products. The
    operands' narrowing to a shorter float format is the identity over the extended reals. -/
theorem mm_apply (x : FVec Ideal S1x512 .f32) (w : FVec Ideal S512x2048 .f32) (q : Fin 2048) :
    matmul (F := Ideal) dot_S1x512_S512x2048_S1x2048_1_0_0_1_n_n none (truncf .bf16 x bitsLt_bf16_f32)
        (truncf .bf16 w bitsLt_bf16_f32) (constant S1x2048 .f32 0x00000000#32) (ix2 0 q)
      = ∑ r : Fin 512, x (ix2 0 r) * w (ix2 r q) := by
  simp only [matmul]
  rw [Ideal.matmul_constant_zero_apply,
    ← Equiv.sum_comp (contrEquiv1 dot_S1x512_S512x2048_S1x2048_1_0_0_1_n_n 512 rfl rfl).symm]
  refine Finset.sum_congr rfl fun k _ => ?_
  have hk := contrEquiv1_symm_val dot_S1x512_S512x2048_S1x2048_1_0_0_1_n_n 512 rfl rfl k
  have el : dot_S1x512_S512x2048_S1x2048_1_0_0_1_n_n.lhsIdx (ix2 0 q)
      ((contrEquiv1 dot_S1x512_S512x2048_S1x2048_1_0_0_1_n_n 512 rfl rfl).symm k) = ix2 0 k :=
    funext fun a => Fin.ext (by
      match a with
      | ⟨0, _⟩ => exact lhs_0 _ _
      | ⟨1, _⟩ => exact (lhs_1 _ _).trans hk)
  have er : dot_S1x512_S512x2048_S1x2048_1_0_0_1_n_n.rhsIdx (ix2 0 q)
      ((contrEquiv1 dot_S1x512_S512x2048_S1x2048_1_0_0_1_n_n 512 rfl rfl).symm k) = ix2 k q :=
    funext fun a => Fin.ext (by
      match a with
      | ⟨0, _⟩ => exact (rhs_0 _ _).trans hk
      | ⟨1, _⟩ => exact rhs_1 _ _)
  rw [el, er]
  rfl

/-! ### The payloads of the second call -/

section K1

/-- The zeroed accumulator row. -/
theorem k1_pay3_apply (q : Fin 2048) : (k1_pay3 (F := Ideal)) (ix2 0 q) = Cert.Spec.zero := by
  unfold k1_pay3
  simp only [shapeCast_self]
  rfl

/-- The zeroed three-row output block. -/
theorem k1_pay4_apply (r : Fin 3) (q : Fin 2048) : (k1_pay4 (F := Ideal)) (ix2 r q) = Cert.Spec.zero := by
  unfold k1_pay4
  simp only [shapeCast_self]
  rfl

/-- The accumulator row plus the tile's contribution. -/
theorem k1_pay1_apply (v29 : FVec Ideal S1x2048 .f32) (v30 : Vec Ideal S1x2048 .f32) (q : Fin 2048) :
    k1_pay1 v29 v30 (ix2 0 q) = v30 (ix2 0 q) + v29 (ix2 0 q) := by
  unfold k1_pay1
  simp only [shapeCast_self]
  rfl

/-- The tile's contribution: the product sum of the branch the grid's middle coordinate selects. -/
theorem k1_pay5_apply (i : grid1.Coords) (v8 v11 v14 : Vec Ideal S1x512 .f32) (v17 v19 v21 : Vec Ideal S512x2048 .f32)
    (q : Fin 2048) :
    k1_pay5 i v8 v11 v14 v17 v19 v21 (ix2 0 q)
      = if (i 1).val = 0 then ∑ r : Fin 512, v8 (ix2 0 r) * v17 (ix2 r q)
        else if (i 1).val = 1 then ∑ r : Fin 512, v11 (ix2 0 r) * v19 (ix2 r q)
        else ∑ r : Fin 512, v14 (ix2 0 r) * v21 (ix2 r q) := by
  have hb : (i 1).val < 3 := (i 1).isLt
  unfold k1_pay5
  simp only [shapeCast_self]
  rw [sel3 _ hb, ite3_apply, mm_apply, mm_apply, mm_apply]

/-- The output block with row b replaced by the accumulator row clamped below at 0.0. -/
theorem k1_pay2_apply (b : Fin 3) (v43 : Vec Ideal S1x2048 .f32) (v51 : Vec Ideal S3x2048 .f32) (r : Fin 3) (q : Fin 2048) :
    k1_pay2 (BitVec.ofNat 32 b.val) v43 v51 (ix2 r q)
      = if r = b then max (v43 (ix2 0 q)) Cert.Spec.zero else v51 (ix2 r q) := by
  unfold k1_pay2
  simp only [shapeCast_self]
  rw [select_apply, broadcastTo_1b_ab_apply]
  show Scalar.select (IntOp.cmpi .eq (iota .tc S3x2048 32 [0] iota_S3x2048_d0_w32 (ix2 r q)) (BitVec.ofNat 32 b.val)) _ _ = _
  rw [iota_single_apply]
  show Scalar.select (IntOp.cmpi .eq (BitVec.ofNat 32 r.val) (BitVec.ofNat 32 b.val)) _ _ = _
  rw [row_word_eq]
  by_cases h : r = b
  · rw [if_pos h, if_pos h, select_one]; rfl
  · rw [if_neg h, if_neg h, select_zero]

end K1

/-! ### The payloads of the third call -/

section K2

/-- The zeroed accumulator row. -/
theorem k2_pay3_apply (q : Fin 2048) : (k2_pay3 (F := Ideal)) (ix2 0 q) = Cert.Spec.zero := by
  unfold k2_pay3
  simp only [shapeCast_self]
  rfl

/-- The zeroed three-row output block. -/
theorem k2_pay4_apply (r : Fin 3) (q : Fin 2048) : (k2_pay4 (F := Ideal)) (ix2 r q) = Cert.Spec.zero := by
  unfold k2_pay4
  simp only [shapeCast_self]
  rfl

/-- The accumulator row plus the tile's contribution. -/
theorem k2_pay1_apply (v29 : FVec Ideal S1x2048 .f32) (v30 : Vec Ideal S1x2048 .f32) (q : Fin 2048) :
    k2_pay1 v29 v30 (ix2 0 q) = v30 (ix2 0 q) + v29 (ix2 0 q) := by
  unfold k2_pay1
  simp only [shapeCast_self]
  rfl

/-- The tile's contribution: the product sum of the branch the grid's middle coordinate selects. -/
theorem k2_pay5_apply (i : grid2.Coords) (v8 v11 v14 : Vec Ideal S1x512 .f32) (v17 v19 v21 : Vec Ideal S512x2048 .f32)
    (q : Fin 2048) :
    k2_pay5 i v8 v11 v14 v17 v19 v21 (ix2 0 q)
      = if (i 1).val = 0 then ∑ r : Fin 512, v8 (ix2 0 r) * v17 (ix2 r q)
        else if (i 1).val = 1 then ∑ r : Fin 512, v11 (ix2 0 r) * v19 (ix2 r q)
        else ∑ r : Fin 512, v14 (ix2 0 r) * v21 (ix2 r q) := by
  have hb : (i 1).val < 3 := (i 1).isLt
  unfold k2_pay5
  simp only [shapeCast_self]
  rw [sel3 _ hb, ite3_apply, mm_apply, mm_apply, mm_apply]

/-- The output block with row b replaced by the accumulator row clamped below at 0.0. -/
theorem k2_pay2_apply (b : Fin 3) (v43 : Vec Ideal S1x2048 .f32) (v51 : Vec Ideal S3x2048 .f32) (r : Fin 3) (q : Fin 2048) :
    k2_pay2 (BitVec.ofNat 32 b.val) v43 v51 (ix2 r q)
      = if r = b then max (v43 (ix2 0 q)) Cert.Spec.zero else v51 (ix2 r q) := by
  unfold k2_pay2
  simp only [shapeCast_self]
  rw [select_apply, broadcastTo_1b_ab_apply]
  show Scalar.select (IntOp.cmpi .eq (iota .tc S3x2048 32 [0] iota_S3x2048_d0_w32 (ix2 r q)) (BitVec.ofNat 32 b.val)) _ _ = _
  rw [iota_single_apply]
  show Scalar.select (IntOp.cmpi .eq (BitVec.ofNat 32 r.val) (BitVec.ofNat 32 b.val)) _ _ = _
  rw [row_word_eq]
  by_cases h : r = b
  · rw [if_pos h, if_pos h, select_one]; rfl
  · rw [if_neg h, if_neg h, select_zero]

end K2

end Cert.KernelIdeal.Pay

end
-- ==== Proof.LibBlockSum.lean ====
/-
  A finite sum regrouped into equal blocks.

  Over any commutative additive monoid, the sum of `g` over the `n = a · b` indices `0, …, n - 1` is the sum, over
  the `a` blocks `p`, of the sums over the `b` positions `r` inside a block of `g` at index `b · p + r`. Addition
  being commutative and associative, no finiteness of the summands is involved.
-/
import Mathlib.Algebra.BigOperators.Fin
import Mathlib.Data.Fintype.BigOperators
import Mathlib.Logic.Equiv.Fin.Basic

namespace Cert.Lib.BlockSum

/-- Position `r` of block `p` (blocks of `b` positions, `a` of them) is an index below `n = a · b`. -/
theorem block_index_lt {a b n : ℕ} (hn : a * b = n) (p : Fin a) (r : Fin b) : b * p.val + r.val < n := by
  have h1 : b * p.val + r.val < b * (p.val + 1) := by rw [Nat.mul_succ]; exact Nat.add_lt_add_left r.isLt _
  have h2 : b * (p.val + 1) ≤ b * a := Nat.mul_le_mul_left _ p.isLt
  calc b * p.val + r.val < b * (p.val + 1) := h1
    _ ≤ b * a := h2
    _ = n := by rw [Nat.mul_comm]; exact hn

/-- The sum over `n = a · b` indices is the sum over the `a` blocks of the sums over the `b` positions of a block. -/
theorem sum_eq_sum_blocks {M : Type*} [AddCommMonoid M] {n : ℕ} (a b : ℕ) (hn : a * b = n) (g : Fin n → M) :
    ∑ i : Fin n, g i = ∑ p : Fin a, ∑ r : Fin b, g ⟨b * p.val + r.val, block_index_lt hn p r⟩ := by
  subst hn
  rw [← finProdFinEquiv.sum_comp, Fintype.sum_prod_type]
  refine Finset.sum_congr rfl fun p _ => Finset.sum_congr rfl fun r _ => congrArg g (Fin.ext ?_)
  show (finProdFinEquiv (p, r)).val = b * p.val + r.val
  rw [finProdFinEquiv_apply_val]
  exact Nat.add_comm _ _

/-! ## Running sums

A sequence that starts at `f 0` and adds `f (n + 1)` at step `n + 1` is the sequence of the partial sums of `f`; sums
over the first `N` natural numbers and over the `N` indices below `N` are the same sums. -/

variable {M : Type*} [AddCommMonoid M]

/-- A sequence that starts at `f 0` and adds `f (n + 1)` at step `n + 1` is, at step `n`, the sum of `f` over
    `0, …, n`. -/
theorem acc_eq_sum_range (f acc : ℕ → M) (h0 : acc 0 = f 0) (hs : ∀ n, acc (n + 1) = acc n + f (n + 1)) (n : ℕ) :
    acc n = ∑ p ∈ Finset.range (n + 1), f p := by
  induction n with
  | zero => rw [h0, Finset.sum_range_one]
  | succ n ih => rw [hs, ih, Finset.sum_range_succ _ (n + 1)]

/-- The same when the steps are known only below a bound `N`: at every step `n` below `N` the sequence is the sum of
    `f` over `0, …, n`. -/
theorem acc_eq_sum_range_of_lt (N : ℕ) (f acc : ℕ → M) (h0 : acc 0 = f 0)
    (hs : ∀ n, n + 1 < N → acc (n + 1) = acc n + f (n + 1)) (n : ℕ) (hn : n < N) :
    acc n = ∑ p ∈ Finset.range (n + 1), f p := by
  induction n with
  | zero => rw [h0, Finset.sum_range_one]
  | succ n ih => rw [hs n hn, ih (Nat.lt_of_succ_lt hn), Finset.sum_range_succ _ (n + 1)]

/-- A sum over the first `N` natural numbers is the sum over the `N` indices below `N`. -/
theorem sum_range_eq_sum_fin (N : ℕ) (f : ℕ → M) : ∑ p ∈ Finset.range N, f p = ∑ t : Fin N, f t.val :=
  Finset.sum_range f

/-- A family on the `N` indices below `N`, continued by `0` to every natural number, has over the first `N` natural
    numbers the family's own sum. -/
theorem sum_range_dite (N : ℕ) (g : Fin N → M) :
    ∑ p ∈ Finset.range N, (if h : p < N then g ⟨p, h⟩ else 0) = ∑ t : Fin N, g t := by
  rw [Finset.sum_range]
  refine Finset.sum_congr rfl fun t _ => ?_
  show (if h : t.val < N then g ⟨t.val, h⟩ else 0) = g t
  rw [dif_pos t.isLt]

/-- For sequences indexed by the `n + 1` indices `0, …, n`: one that starts at `g 0` and adds `g (k + 1)` at step
    `k + 1` is, at step `k`, the sum of `g` over the indices `0, …, k`. -/
theorem acc_fin_eq_sum {n : ℕ} (g acc : Fin (n + 1) → M) (h0 : acc 0 = g 0)
    (hs : ∀ k : Fin n, acc k.succ = acc k.castSucc + g k.succ) (k : Fin (n + 1)) :
    acc k = ∑ t : Fin (k.val + 1), g ⟨t.val, Nat.lt_of_lt_of_le t.isLt k.isLt⟩ := by
  let G : ℕ → M := fun i => if h : i < n + 1 then g ⟨i, h⟩ else 0
  let A : ℕ → M := fun i => if h : i < n + 1 then acc ⟨i, h⟩ else 0
  have hA0 : A 0 = G 0 := by
    show (if h : 0 < n + 1 then acc ⟨0, h⟩ else 0) = if h : 0 < n + 1 then g ⟨0, h⟩ else 0
    rw [dif_pos (Nat.succ_pos n), dif_pos (Nat.succ_pos n)]
    exact h0
  have hAs : ∀ i, i + 1 < n + 1 → A (i + 1) = A i + G (i + 1) := by
    intro i hi
    have hi' : i < n := Nat.lt_of_succ_lt_succ hi
    show (if h : i + 1 < n + 1 then acc ⟨i + 1, h⟩ else 0)
      = (if h : i < n + 1 then acc ⟨i, h⟩ else 0) + if h : i + 1 < n + 1 then g ⟨i + 1, h⟩ else 0
    rw [dif_pos hi, dif_pos hi, dif_pos (Nat.lt_succ_of_lt hi')]
    exact hs ⟨i, hi'⟩
  have hk := acc_eq_sum_range_of_lt (n + 1) G A hA0 hAs k.val k.isLt
  have hAk : A k.val = acc k := by
    show (if h : k.val < n + 1 then acc ⟨k.val, h⟩ else 0) = acc k
    rw [dif_pos k.isLt]
  rw [← hAk, hk, sum_range_eq_sum_fin]
  refine Finset.sum_congr rfl fun t _ => ?_
  show (if h : t.val < n + 1 then g ⟨t.val, h⟩ else 0) = _
  rw [dif_pos (Nat.lt_of_lt_of_le t.isLt k.isLt)]

/-- At the last step such a sequence is the sum of `g` over all its indices. -/
theorem acc_fin_last {n : ℕ} (g acc : Fin (n + 1) → M) (h0 : acc 0 = g 0)
    (hs : ∀ k : Fin n, acc k.succ = acc k.castSucc + g k.succ) :
    acc (Fin.last n) = ∑ t : Fin (n + 1), g t :=
  acc_fin_eq_sum g acc h0 hs (Fin.last n)

end Cert.Lib.BlockSum
-- ==== Proof.MlpSum.lean ====
import Mathlib
import Idealize.ShloMosaic.PureOps.Ideal.Laws
import proofs.«110218_j20177756357157_2_alg».proof.Proof.LibBlockSum
import proofs.«110218_j20177756357157_2_alg».proof.Proof.Spec

/-!
The sum over the 4096 positions of a row vector times a matrix column, regrouped as the sum over
8 tiles of the sums over the 512 positions of a tile; and an accumulator that starts at 0.0 and adds
one term per tile is the sum of the terms. Both hold in any additive commutative monoid: no
finiteness of the summands is involved.
-/

noncomputable section

namespace Cert.MlpSum

open Idealize.ShloMosaic

/-- The float word 0.0 is the extended real 0. -/
theorem spec_zero : Cert.Spec.zero = 0 := Ideal.ofBits_zero_f32

/-- The product sum over 4096 positions is the sum over 8 tiles of the product sums over the 512 positions of a tile. -/
theorem tiles_sum (v : Fin 4096 → EReal) (W : Fin 4096 → Fin 4096 → EReal) (q : Fin 4096) :
    (∑ k : Fin 8, ∑ r : Fin 512, v ⟨512 * k.val + r.val, by omega⟩ * W ⟨512 * k.val + r.val, by omega⟩ q)
      = ∑ p : Fin 4096, v p * W p q :=
  (Cert.Lib.BlockSum.sum_eq_sum_blocks 8 512 rfl (fun p => v p * W p q)).symm

/-- Adding the terms of a list one after the other onto a start value gives the start value plus the list's sum. -/
theorem foldl_add_eq {M : Type*} [AddCommMonoid M] {ι : Type*} (f : ι → M) (l : List ι) (z : M) :
    l.foldl (fun a k => a + f k) z = z + (l.map f).sum := by
  induction l generalizing z with
  | nil => simp
  | cons x xs ih => rw [List.foldl_cons, ih, List.map_cons, List.sum_cons, add_assoc]

/-- Adding the n terms of a family one after the other onto a start value gives the start value plus the family's sum. -/
theorem foldl_finRange_add {M : Type*} [AddCommMonoid M] (n : ℕ) (f : Fin n → M) (z : M) :
    (List.finRange n).foldl (fun a k => a + f k) z = z + ∑ k : Fin n, f k := by
  rw [foldl_add_eq, Fin.sum_univ_def]

/-- An accumulator that starts at 0.0 and adds one term per tile ends at the sum of the 8 terms. -/
theorem running_sum (f : Fin 8 → EReal) :
    (List.finRange 8).foldl (fun a k => a + f k) Cert.Spec.zero = ∑ k : Fin 8, f k := by
  rw [foldl_finRange_add, spec_zero, zero_add]

end Cert.MlpSum

end
-- ==== Proof.R1Blocks.lean ====
import proofs.«110218_j20177756357157_2_alg».proof.Proof.R1Pieces
import proofs.«110218_j20177756357157_2_alg».proof.Proof.MlpPayload
import proofs.«110218_j20177756357157_2_alg».proof.Proof.MlpSum
import Idealize.ShloMosaic.Lib.Pipeline.Value
import Idealize.ShloMosaic.Lib.ValueIdx

/-!
The blocks the second call's windows hand the body, read at coordinates of the arrays: at the grid point
t = 24 n + 8 b + k the three-row input block holds columns 512 k … 512 k + 511 of the three input rows, and the
block of branch b's weight matrix holds its rows 512 k … and columns 2048 n …; hence the tile's contribution is
the product sum over the tile's 512 positions.
-/

set_option maxRecDepth 16384

noncomputable section

namespace Cert.KernelIdeal.R1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The grid point's coordinates and the windows' block indices, in closed form over the linear order -/

theorem coord0 : ∀ t : Fin cfg1.N, ((grid1.coords t) 0).val = t.val / 24 :=
  (by decide +kernel : ∀ t : Fin grid1.N, ((grid1.coords t) 0).val = t.val / 24)
theorem coord1 : ∀ t : Fin cfg1.N, ((grid1.coords t) 1).val = t.val / 8 % 3 :=
  (by decide +kernel : ∀ t : Fin grid1.N, ((grid1.coords t) 1).val = t.val / 8 % 3)
theorem coord2 : ∀ t : Fin cfg1.N, ((grid1.coords t) 2).val = t.val % 8 :=
  (by decide +kernel : ∀ t : Fin grid1.N, ((grid1.coords t) 2).val = t.val % 8)

theorem index0 : ∀ t : Fin cfg1.N, win1_0.index t (0 : Fin 2) = 0 ∧ win1_0.index t (1 : Fin 2) = t.val % 8 :=
  (by decide +kernel : ∀ t : Fin grid1.N, win1_0.index t (0 : Fin 2) = 0 ∧ win1_0.index t (1 : Fin 2) = t.val % 8)
theorem index1 : ∀ t : Fin cfg1.N, t.val / 8 % 3 = 0 →
    win1_1.index t (0 : Fin 2) = t.val % 8 ∧ win1_1.index t (1 : Fin 2) = t.val / 24 :=
  (by decide +kernel : ∀ t : Fin grid1.N, t.val / 8 % 3 = 0 →
    win1_1.index t (0 : Fin 2) = t.val % 8 ∧ win1_1.index t (1 : Fin 2) = t.val / 24)
theorem index2 : ∀ t : Fin cfg1.N, t.val / 8 % 3 = 1 →
    win1_2.index t (0 : Fin 2) = t.val % 8 ∧ win1_2.index t (1 : Fin 2) = t.val / 24 :=
  (by decide +kernel : ∀ t : Fin grid1.N, t.val / 8 % 3 = 1 →
    win1_2.index t (0 : Fin 2) = t.val % 8 ∧ win1_2.index t (1 : Fin 2) = t.val / 24)
theorem index3 : ∀ t : Fin cfg1.N, t.val / 8 % 3 = 2 →
    win1_3.index t (0 : Fin 2) = t.val % 8 ∧ win1_3.index t (1 : Fin 2) = t.val / 24 :=
  (by decide +kernel : ∀ t : Fin grid1.N, t.val / 8 % 3 = 2 →
    win1_3.index t (0 : Fin 2) = t.val % 8 ∧ win1_3.index t (1 : Fin 2) = t.val / 24)
theorem index4 : ∀ t : Fin cfg1.N, win1_4.index t (0 : Fin 2) = 0 ∧ win1_4.index t (1 : Fin 2) = t.val / 24 :=
  (by decide +kernel : ∀ t : Fin grid1.N, win1_4.index t (0 : Fin 2) = 0 ∧ win1_4.index t (1 : Fin 2) = t.val / 24)

theorem N48 : cfg1.N = 48 := N_1

/-! ## The arrays the call reads, over plain coordinates -/

/-- The three input rows. -/
def X (c : Dev nD) (r : Fin 3) (p : Fin 4096) : EReal := (V c main_v11 : S3x4096.Idx → EReal) (ix2 r p)
/-- The three weight matrices. -/
def Wt (c : Dev nD) (r : Fin 3) (p q : Fin 4096) : EReal :=
  match r with
  | 0 => (V c main_arg4 : S4096x4096.Idx → EReal) (ix2 p q)
  | 1 => (V c main_arg6 : S4096x4096.Idx → EReal) (ix2 p q)
  | 2 => (V c main_arg8 : S4096x4096.Idx → EReal) (ix2 p q)

/-! ## The blocks read at coordinates -/

theorem iblk0_apply (c : Dev nD) (t : Fin cfg1.N) (r : Fin 3) (j : Fin 512) :
    (iblk V c 0 t : Vec Ideal S3x512 .f32) (ix2 r j)
      = X V c r ⟨512 * (t.val % 8) + j.val, by omega⟩ := by
  unfold iblk X
  rw [View.read_apply]
  show V c main_v11 _ = V c main_v11 _
  congr 1
  funext a
  apply Fin.ext
  match a with
  | ⟨0, _⟩ => show win1_0.index t 0 * 3 + 1 * r.val = r.val; rw [(index0 t).1]; omega
  | ⟨1, _⟩ => show win1_0.index t 1 * 512 + 1 * j.val = 512 * (t.val % 8) + j.val; rw [(index0 t).2]; omega

theorem lt48 (t : Fin cfg1.N) : t.val < 48 := N48 ▸ t.isLt

theorem iblk1_apply (c : Dev nD) (t : Fin cfg1.N) (hb : t.val / 8 % 3 = 0) (j : Fin 512) (q : Fin 2048) :
    (iblk V c 1 t : Vec Ideal S512x2048 .f32) (ix2 j q)
      = Wt V c 0 ⟨512 * (t.val % 8) + j.val, by omega⟩ ⟨2048 * (t.val / 24) + q.val, by have := lt48 t; omega⟩ := by
  unfold iblk Wt
  rw [View.read_apply]
  show V c main_arg4 _ = V c main_arg4 _
  congr 1
  funext a
  apply Fin.ext
  match a with
  | ⟨0, _⟩ => show win1_1.index t 0 * 512 + 1 * j.val = 512 * (t.val % 8) + j.val; rw [(index1 t hb).1]; omega
  | ⟨1, _⟩ => show win1_1.index t 1 * 2048 + 1 * q.val = 2048 * (t.val / 24) + q.val; rw [(index1 t hb).2]; omega

theorem iblk2_apply (c : Dev nD) (t : Fin cfg1.N) (hb : t.val / 8 % 3 = 1) (j : Fin 512) (q : Fin 2048) :
    (iblk V c 2 t : Vec Ideal S512x2048 .f32) (ix2 j q)
      = Wt V c 1 ⟨512 * (t.val % 8) + j.val, by omega⟩ ⟨2048 * (t.val / 24) + q.val, by have := lt48 t; omega⟩ := by
  unfold iblk Wt
  rw [View.read_apply]
  show V c main_arg6 _ = V c main_arg6 _
  congr 1
  funext a
  apply Fin.ext
  match a with
  | ⟨0, _⟩ => show win1_2.index t 0 * 512 + 1 * j.val = 512 * (t.val % 8) + j.val; rw [(index2 t hb).1]; omega
  | ⟨1, _⟩ => show win1_2.index t 1 * 2048 + 1 * q.val = 2048 * (t.val / 24) + q.val; rw [(index2 t hb).2]; omega

theorem iblk3_apply (c : Dev nD) (t : Fin cfg1.N) (hb : t.val / 8 % 3 = 2) (j : Fin 512) (q : Fin 2048) :
    (iblk V c 3 t : Vec Ideal S512x2048 .f32) (ix2 j q)
      = Wt V c 2 ⟨512 * (t.val % 8) + j.val, by omega⟩ ⟨2048 * (t.val / 24) + q.val, by have := lt48 t; omega⟩ := by
  unfold iblk Wt
  rw [View.read_apply]
  show V c main_arg8 _ = V c main_arg8 _
  congr 1
  funext a
  apply Fin.ext
  match a with
  | ⟨0, _⟩ => show win1_3.index t 0 * 512 + 1 * j.val = 512 * (t.val % 8) + j.val; rw [(index3 t hb).1]; omega
  | ⟨1, _⟩ => show win1_3.index t 1 * 2048 + 1 * q.val = 2048 * (t.val / 24) + q.val; rw [(index3 t hb).2]; omega

theorem row0_apply (x : Vec Ideal S3x512 .f32) (j : Fin 512) : row0 x (ix2 0 j) = x (ix2 0 j) := by
  show x _ = x _
  congr 1; funext a; apply Fin.ext
  match a with
  | ⟨0, _⟩ => rfl
  | ⟨1, _⟩ => show 0 + 1 * j.val = j.val; omega
theorem row1_apply (x : Vec Ideal S3x512 .f32) (j : Fin 512) : row1 x (ix2 0 j) = x (ix2 1 j) := by
  show x _ = x _
  congr 1; funext a; apply Fin.ext
  match a with
  | ⟨0, _⟩ => rfl
  | ⟨1, _⟩ => show 0 + 1 * j.val = j.val; omega
theorem row2_apply (x : Vec Ideal S3x512 .f32) (j : Fin 512) : row2 x (ix2 0 j) = x (ix2 2 j) := by
  show x _ = x _
  congr 1; funext a; apply Fin.ext
  match a with
  | ⟨0, _⟩ => rfl
  | ⟨1, _⟩ => show 0 + 1 * j.val = j.val; omega

/-- The tile's contribution at column q of the block: the product sum over the tile's 512 positions, of the point's
    branch b, row tile k = t % 8 and column tile n = t / 24. -/
theorem part_apply (c : Dev nD) (t : Fin cfg1.N) (b : Fin 3) (hb : t.val / 8 % 3 = b.val) (q : Fin 2048) :
    part V c t (ix2 0 q)
      = ∑ j : Fin 512, X V c b ⟨512 * (t.val % 8) + j.val, by omega⟩
          * Wt V c b ⟨512 * (t.val % 8) + j.val, by omega⟩ ⟨2048 * (t.val / 24) + q.val, by have := lt48 t; omega⟩ := by
  unfold part
  rw [Cert.KernelIdeal.Pay.k1_pay5_apply, coord1 t]
  match b, hb with
  | ⟨0, _⟩, hb =>
    rw [if_pos hb]
    refine Finset.sum_congr rfl fun j _ => ?_
    rw [row0_apply, iblk0_apply, iblk1_apply V c t hb]; rfl
  | ⟨1, _⟩, hb =>
    have hb' : t.val / 8 % 3 = 1 := hb
    rw [if_neg (by omega), if_pos hb']
    refine Finset.sum_congr rfl fun j _ => ?_
    rw [row1_apply, iblk0_apply, iblk2_apply V c t hb]; rfl
  | ⟨2, _⟩, hb =>
    have hb' : t.val / 8 % 3 = 2 := hb
    rw [if_neg (by omega), if_neg (by omega)]
    refine Finset.sum_congr rfl fun j _ => ?_
    rw [row2_apply, iblk0_apply, iblk3_apply V c t hb]; rfl

/-- The same, with the point's three coordinates named. -/
theorem part_apply' (c : Dev nD) (t : Fin cfg1.N) (b : Fin 3) (k : Fin 8) (n : Fin 2) (hb : t.val / 8 % 3 = b.val)
    (hk : t.val % 8 = k.val) (hn : t.val / 24 = n.val) (q : Fin 2048) :
    part V c t (ix2 0 q)
      = ∑ j : Fin 512, X V c b ⟨512 * k.val + j.val, by omega⟩
          * Wt V c b ⟨512 * k.val + j.val, by omega⟩ ⟨2048 * n.val + q.val, by omega⟩ := by
  have e1 : k = ⟨t.val % 8, Nat.mod_lt _ (by decide)⟩ := Fin.ext hk.symm
  have e2 : n = ⟨t.val / 24, Nat.div_lt_of_lt_mul (lt48 t)⟩ := Fin.ext hn.symm
  subst e1 e2
  exact part_apply V c t b hb q

end Cert.KernelIdeal.R1

end
-- ==== Proof.R1Inv.lean ====
import proofs.«110218_j20177756357157_2_alg».proof.Proof.R1Blocks
import Idealize.ShloMosaic.Lib.Pipeline.Value
import Idealize.ShloMosaic.Lib.ValueIdx

/-!
The accumulation across the grid of the second call, at coordinates over the extended reals: after a last row
tile the accumulator holds the full product sum of its branch's input row with a column of the branch's weight
matrix, and every row of the result buffer whose branch is finished in the current sweep holds that sum clamped
below at 0.0.
-/

set_option maxRecDepth 16384

noncomputable section

namespace Cert.KernelIdeal.R1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

open Cert.KernelIdeal.Pay

/-! ## One point's step, at coordinates -/

theorem zero_eq : Cert.Spec.zero = 0 := Cert.MlpSum.spec_zero

/-- At the first row tile the accumulator is left at the tile's contribution. -/
theorem stepAcc_first (c : Dev nD) (t : Fin cfg1.N) (h8 : t.val % 8 = 0) (pa : Vec Ideal S1x2048 .f32)
    (pr : Vec Ideal S3x2048 .f32) (q : Fin 2048) :
    (stepAt V c t pa pr).2.1 (ix2 0 q) = part V c t (ix2 0 q) := by
  by_cases h24 : t.val % 24 = 0
  · rw [stepAt_A V c t pa pr h24]
    dsimp only
    rw [accA_eq, k1_pay1_apply, k1_pay3_apply, zero_eq, zero_add]
  · rw [stepAt_B V c t pa pr h8 h24]
    dsimp only
    rw [accB_eq, k1_pay1_apply, k1_pay3_apply, zero_eq, zero_add]

/-- At a later row tile the tile's contribution is added to it. -/
theorem stepAcc_next (c : Dev nD) (t : Fin cfg1.N) (h8 : ¬t.val % 8 = 0) (pa : Vec Ideal S1x2048 .f32)
    (pr : Vec Ideal S3x2048 .f32) (q : Fin 2048) :
    (stepAt V c t pa pr).2.1 (ix2 0 q) = pa (ix2 0 q) + part V c t (ix2 0 q) := by
  by_cases h23 : t.val % 24 = 23
  · rw [stepAt_E V c t pa pr h23]
    dsimp only
    rw [accE_eq, k1_pay1_apply]
  · by_cases h7 : t.val % 8 = 7
    · rw [stepAt_D V c t pa pr h7 h23]
      dsimp only
      rw [accD_eq, k1_pay1_apply]
    · rw [stepAt_C V c t pa pr h8 h7]
      dsimp only
      rw [accC_eq, k1_pay1_apply]

/-- Away from the first point of a sweep and from the last row tiles the result buffer is kept. -/
theorem stepRes_keep (c : Dev nD) (t : Fin cfg1.N) (h24 : ¬t.val % 24 = 0) (h7 : ¬t.val % 8 = 7)
    (pa : Vec Ideal S1x2048 .f32) (pr : Vec Ideal S3x2048 .f32) :
    (stepAt V c t pa pr).2.2 = pr := by
  by_cases h8 : t.val % 8 = 0
  · rw [stepAt_B V c t pa pr h8 h24]
  · rw [stepAt_C V c t pa pr h8 h7]

/-- The clamped row written at a last row tile. -/
theorem clamp_apply (t : Fin cfg1.N) (acc : Vec Ideal S1x2048 .f32) (pr : Vec Ideal S3x2048 .f32) (r : Fin 3)
    (q : Fin 2048) :
    k1_pay2 (BitVec.ofNat 32 ((grid1.coords t) 1).val) acc pr (ix2 r q)
      = if r.val = t.val / 8 % 3 then max (acc (ix2 0 q)) Cert.Spec.zero else pr (ix2 r q) := by
  rw [coord1 t]
  refine (k1_pay2_apply ⟨t.val / 8 % 3, Nat.mod_lt _ (by decide)⟩ acc pr r q).trans ?_
  by_cases h : r.val = t.val / 8 % 3
  · rw [if_pos h, if_pos (Fin.ext h)]
  · rw [if_neg h, if_neg (fun e => h (congrArg Fin.val e))]

/-- At a last row tile the finished accumulator, clamped, replaces the branch's row of the result buffer. -/
theorem stepRes_last (c : Dev nD) (t : Fin cfg1.N) (h7 : t.val % 8 = 7) (pa : Vec Ideal S1x2048 .f32)
    (pr : Vec Ideal S3x2048 .f32) (r : Fin 3) (q : Fin 2048) :
    (stepAt V c t pa pr).2.2 (ix2 r q)
      = if r.val = t.val / 8 % 3 then max (pa (ix2 0 q) + part V c t (ix2 0 q)) Cert.Spec.zero else pr (ix2 r q) := by
  by_cases h23 : t.val % 24 = 23
  · rw [stepAt_E V c t pa pr h23]
    dsimp only
    rw [resE_eq, clamp_apply, k1_pay1_apply]
  · rw [stepAt_D V c t pa pr h7 h23]
    dsimp only
    rw [resD_eq, clamp_apply, k1_pay1_apply]

/-- At the last point of a sweep the output block is left at the result buffer. -/
theorem stepOut_last (c : Dev nD) (t : Fin cfg1.N) (h23 : t.val % 24 = 23) (pa : Vec Ideal S1x2048 .f32)
    (pr : Vec Ideal S3x2048 .f32) :
    (stepAt V c t pa pr).1 = (stepAt V c t pa pr).2.2 := by
  rw [stepAt_E V c t pa pr h23]
  dsimp only
  rw [outE_eq, resE_eq]

/-! ## The three buffers after the point at position n, at coordinates -/

/-- The accumulator after point n, at column q of the block. -/
def accAt (c : Dev nD) (n : ℕ) (q : Fin 2048) : EReal :=
  if h : n < cfg1.N then (outsAt V c n h).2.1 (ix2 0 q) else 0
/-- The result buffer after point n, at row r and column q of the block. -/
def resAt (c : Dev nD) (n : ℕ) (r : Fin 3) (q : Fin 2048) : EReal :=
  if h : n < cfg1.N then (outsAt V c n h).2.2 (ix2 r q) else 0
/-- Point n's tile contribution, at column q of the block. -/
def partAt (c : Dev nD) (n : ℕ) (q : Fin 2048) : EReal :=
  if h : n < cfg1.N then part V c ⟨n, h⟩ (ix2 0 q) else 0

theorem outs_succ (c : Dev nD) (n : ℕ) (hn : n + 1 < cfg1.N) :
    outsAt V c (n + 1) hn
      = stepAt V c ⟨n + 1, hn⟩ (outsAt V c n (Nat.lt_of_succ_lt hn)).2.1 (outsAt V c n (Nat.lt_of_succ_lt hn)).2.2 := rfl
theorem outs_zero (c : Dev nD) (h0 : 0 < cfg1.N) :
    outsAt V c 0 h0 = stepAt V c ⟨0, h0⟩ (VA.read (Elt Ideal) VA.junk) (VR.read (Elt Ideal) VR.junk) := rfl

theorem acc_first (c : Dev nD) (n : ℕ) (hn : n < cfg1.N) (h8 : n % 8 = 0) (q : Fin 2048) :
    accAt V c n q = partAt V c n q := by
  unfold accAt partAt
  rw [dif_pos hn, dif_pos hn]
  cases n with
  | zero => rw [outs_zero]; exact stepAcc_first V c ⟨0, hn⟩ h8 _ _ q
  | succ m => rw [outs_succ]; exact stepAcc_first V c ⟨m + 1, hn⟩ h8 _ _ q

theorem acc_next (c : Dev nD) (n : ℕ) (hn : n + 1 < cfg1.N) (h8 : ¬(n + 1) % 8 = 0) (q : Fin 2048) :
    accAt V c (n + 1) q = accAt V c n q + partAt V c (n + 1) q := by
  unfold accAt partAt
  rw [dif_pos hn, dif_pos hn, dif_pos (Nat.lt_of_succ_lt hn), outs_succ]
  exact stepAcc_next V c ⟨n + 1, hn⟩ h8 _ _ q

theorem res_keep (c : Dev nD) (n : ℕ) (hn : n + 1 < cfg1.N) (h24 : ¬(n + 1) % 24 = 0) (h7 : ¬(n + 1) % 8 = 7)
    (r : Fin 3) (q : Fin 2048) :
    resAt V c (n + 1) r q = resAt V c n r q := by
  unfold resAt
  rw [dif_pos hn, dif_pos (Nat.lt_of_succ_lt hn), outs_succ, stepRes_keep V c ⟨n + 1, hn⟩ h24 h7]

theorem res_last (c : Dev nD) (n : ℕ) (hn : n + 1 < cfg1.N) (h7 : (n + 1) % 8 = 7) (r : Fin 3) (q : Fin 2048) :
    resAt V c (n + 1) r q
      = if r.val = (n + 1) / 8 % 3 then max (accAt V c (n + 1) q) Cert.Spec.zero else resAt V c n r q := by
  rw [acc_next V c n hn (by omega)]
  unfold resAt accAt partAt
  simp only [dif_pos hn, dif_pos (Nat.lt_of_succ_lt hn)]
  rw [outs_succ]
  exact stepRes_last V c ⟨n + 1, hn⟩ h7 _ _ r q

/-! ## The finished accumulator is the full product sum -/

/-- The product sum of input row r with column col of its weight matrix. -/
def full (c : Dev nD) (r : Fin 3) (col : Fin 4096) : EReal := ∑ p : Fin 4096, X V c r p * Wt V c r p col

theorem partAt_tile (c : Dev nD) (n : ℕ) (hn : n < cfg1.N) (b : Fin 3) (k : Fin 8) (m : Fin 2)
    (hb : n / 8 % 3 = b.val) (hk : n % 8 = k.val) (hm : n / 24 = m.val) (q : Fin 2048) :
    partAt V c n q
      = ∑ j : Fin 512, X V c b ⟨512 * k.val + j.val, by omega⟩
          * Wt V c b ⟨512 * k.val + j.val, by omega⟩ ⟨2048 * m.val + q.val, by omega⟩ := by
  unfold partAt
  rw [dif_pos hn]
  exact part_apply' V c ⟨n, hn⟩ b k m hb hk hm q

/-- After a last row tile the accumulator holds the full product sum of the point's branch and column. -/
theorem acc_full (c : Dev nD) (n : ℕ) (hn : n < cfg1.N) (h7 : n % 8 = 7) (b : Fin 3) (m : Fin 2)
    (hb : n / 8 % 3 = b.val) (hm : n / 24 = m.val) (q : Fin 2048) :
    accAt V c n q = full V c b ⟨2048 * m.val + q.val, by omega⟩ := by
  have hN : cfg1.N = 48 := N48
  have h0 : accAt V c (n - 7 + (0 : Fin 8).val) q = partAt V c (n - 7 + (0 : Fin 8).val) q :=
    acc_first V c _ (by show n - 7 + 0 < cfg1.N; omega) (by show (n - 7 + 0) % 8 = 0; omega) q
  have hs : ∀ k : Fin 7, accAt V c (n - 7 + k.succ.val) q
      = accAt V c (n - 7 + k.castSucc.val) q + partAt V c (n - 7 + k.succ.val) q := by
    intro k
    rw [Fin.val_succ, Fin.coe_castSucc]
    have hk : k.val < 7 := k.isLt
    exact acc_next V c (n - 7 + k.val) (by omega) (by omega) q
  have hl := Cert.Lib.BlockSum.acc_fin_last (n := 7) (fun k : Fin 8 => partAt V c (n - 7 + k.val) q)
    (fun k : Fin 8 => accAt V c (n - 7 + k.val) q) h0 hs
  have e7 : n - 7 + (Fin.last 7).val = n := by rw [Fin.val_last]; omega
  rw [e7] at hl
  rw [hl]
  unfold full
  rw [← Cert.MlpSum.tiles_sum (X V c b) (Wt V c b) ⟨2048 * m.val + q.val, by omega⟩]
  refine Finset.sum_congr rfl fun k _ => ?_
  have hk : k.val < 8 := k.isLt
  exact partAt_tile V c (n - 7 + k.val) (by omega) b k m (by omega) (by omega) (by omega) q

/-! ## The rows of the result buffer that are finished -/

/-- After point n every row of the result buffer whose branch is finished in n's sweep holds the clamped full
    product sum. -/
theorem res_done (c : Dev nD) : ∀ (n : ℕ) (hn : n < cfg1.N) (r : Fin 3) (m : Fin 2) (hm : n / 24 = m.val)
    (hr : r.val < n / 8 % 3 ∨ (r.val = n / 8 % 3 ∧ n % 8 = 7)) (q : Fin 2048),
    resAt V c n r q = max (full V c r ⟨2048 * m.val + q.val, by omega⟩) Cert.Spec.zero := by
  have hN : cfg1.N = 48 := N48
  intro n
  induction n with
  | zero => intro hn r m hm hr q; omega
  | succ n ih =>
    intro hn r m hm hr q
    by_cases h7 : (n + 1) % 8 = 7
    · rw [res_last V c n hn h7]
      by_cases hrb : r.val = (n + 1) / 8 % 3
      · rw [if_pos hrb, acc_full V c (n + 1) hn h7 r m hrb.symm hm q]
      · rw [if_neg hrb]
        exact ih (by omega) r m (by omega) (by omega) q
    · by_cases h24 : (n + 1) % 24 = 0
      · omega
      · rw [res_keep V c n hn h24 h7]
        exact ih (by omega) r m (by omega) (by omega) q

end Cert.KernelIdeal.R1

end
-- ==== Proof.R1Value.lean ====
import proofs.«110218_j20177756357157_2_alg».proof.Proof.R1Inv
import Idealize.ShloMosaic.Lib.Pipeline.Value
import Idealize.ShloMosaic.Lib.ValueIdx

/-!
The value of the second call: its output array ends holding, at row r and column q, input row r times branch r's
weight matrix at column q, clamped below at 0.0. The flushing point of a column tile writes back the finished result
buffer, and the two flushing points' blocks cover the array.
-/

set_option maxRecDepth 16384

noncomputable section

namespace Cert.KernelIdeal.R1

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

open Cert.KernelIdeal.Pay

/-! ## What a flushing point writes back -/

/-- What the output array ends holding: at row r and column q, the clamped product sum of input row r with column q of
    branch r's weight matrix. -/
def G (c : Dev nD) : S3x4096.Idx → EReal :=
  fun i => max (full V c ⟨(i 0).val, (i 0).isLt⟩ ⟨(i 1).val, (i 1).isLt⟩) Cert.Spec.zero

/-- After the last point of a sweep the output block holds, in every row, the clamped full product sum. -/
theorem out_last (c : Dev nD) (t : Fin cfg1.N) (h23 : t.val % 24 = 23) (r : Fin 3) (q : Fin 2048) :
    (outsAt V c t.val t.isLt).1 (ix2 r q)
      = max (full V c r ⟨2048 * (t.val / 24) + q.val, by have := lt48 t; omega⟩) Cert.Spec.zero := by
  have hN : cfg1.N = 48 := N48
  obtain ⟨n, hn⟩ := t
  have h23' : n % 24 = 23 := h23
  cases n with
  | zero => omega
  | succ n =>
    have e : (outsAt V c (n + 1) hn).1 = (outsAt V c (n + 1) hn).2.2 := stepOut_last V c ⟨n + 1, hn⟩ h23 _ _
    show (outsAt V c (n + 1) hn).1 (ix2 r q) = _
    rw [e]
    have hd := res_done V c (n + 1) hn r ⟨(n + 1) / 24, by omega⟩ rfl (by omega) q
    unfold resAt at hd
    rw [dif_pos hn] at hd
    exact hd

/-- What a flushing point writes back is its block of G. -/
theorem flushed_eq (c : Dev nD) (t : Fin cfg1.N) (hf : (cfg1.win 4).flush t = true) :
    (dat1 V c).flushed 4 t = ((cfg1.win 4).blk t).view.read (Elt Ideal) (G V c) := by
  have h23 : t.val % 24 = 23 := (flush1_4 t).mp hf
  have ht := lt48 t
  show (cfg1.win 4).cut (grid1.coords t) ((dat1 V c).after 4 t) = _
  rw [after_4]
  funext j
  obtain ⟨r, q, rfl⟩ : ∃ (r : Fin 3) (q : Fin 2048), j = ix2 r q := ⟨j 0, j 1, eq_ix2 j⟩
  rw [View.read_apply]
  refine (out_last V c t h23 r q).trans ?_
  unfold G
  congr 2
  · apply Fin.ext
    show r.val = win1_4.index t 0 * 3 + 1 * r.val
    rw [(index4 t).1]; omega
  · apply Fin.ext
    show 2048 * (t.val / 24) + q.val = win1_4.index t 1 * 2048 + 1 * q.val
    rw [(index4 t).2]; omega

/-- Every index of the output array is in the block of the flushing point of its column tile. -/
theorem cover (i : S3x4096.Idx) : ∃ t : Fin cfg1.N, (cfg1.win 4).flush t = true ∧ i ∈ ((cfg1.win 4).blk t).view.set := by
  have h0 : (i 0).val < 3 := (i 0).isLt
  have h1 : (i 1).val < 4096 := (i 1).isLt
  have hN : cfg1.N = 48 := N48
  obtain ⟨t, ht⟩ : ∃ t : Fin cfg1.N, t.val = 24 * ((i 1).val / 2048) + 23 := ⟨⟨_, by omega⟩, rfl⟩
  refine ⟨t, (flush1_4 t).mpr (by omega), ?_⟩
  show i ∈ ((View.whole main_v12).slice (win1_4.rect t)).set
  rw [View.set_slice_whole, Rect.mem_set_unit]
  intro a
  match a with
  | ⟨0, _⟩ =>
    show win1_4.index t 0 * 3 ≤ (i 0).val ∧ (i 0).val < win1_4.index t 0 * 3 + 3
    rw [(index4 t).1]; omega
  | ⟨1, _⟩ =>
    show win1_4.index t 1 * 2048 ≤ (i 1).val ∧ (i 1).val < win1_4.index t 1 * 2048 + 2048
    rw [(index4 t).2]; omega

/-! ## The output array after the call -/

/-- The output array ends holding, at row r and column q, one layer's value: input row r times branch r's weight matrix,
    clamped below at 0.0. -/
theorem arr1_spec (c : Dev nD) (r : Fin 3) (q : Fin 4096) :
    ((dat1 V c).arrAt 4 cfg1.N : S3x4096.Idx → EReal) (ix2 r q)
      = Cert.Spec.layer (X V c r) (fun p q => Wt V c r p q) q := by
  rw [(dat1 V c).arrAt_eq_of_cover 4 (G V c) (flushed_eq V c) cover]
  rfl

end Cert.KernelIdeal.R1

end
-- ==== Proof.R2Pieces.lean ====
import proofs.«110218_j20177756357157_2_alg».proof.Proof.R2Data
import Idealize.ShloMosaic.Lib.Pipeline.Value

/-!
What each case of the body leaves in the row accumulator, in the three-row result buffer and in the output block,
as the body's pure payloads of the blocks it loads: the accumulator is zeroed at the first row tile and added one
tile's contribution at every tile; at the last row tile its clamp at zero is written into the branch's row of the
result buffer; at the last point of a sweep the result buffer is copied into the output block.
-/

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

theorem hz : (![0, 0] : Fin 2 → Nat) = fun _ => 0 := funext fun a => by fin_cases a <;> rfl

/-- Row 0 of the three-row input block, as the body loads it. -/
abbrev row0 (x : Vec F S3x512 .f32) : Vec F S1x512 .f32 :=
  View.ld x (Rect.unit (s := S3x512) ![0, 0] S1x512.size inb_S3x512_S1x512_0_0)
/-- Row 1 of the three-row input block, as the body loads it. -/
abbrev row1 (x : Vec F S3x512 .f32) : Vec F S1x512 .f32 :=
  View.ld x (Rect.unit (s := S3x512) ![1, 0] S1x512.size inb_S3x512_S1x512_1_0)
/-- Row 2 of the three-row input block, as the body loads it. -/
abbrev row2 (x : Vec F S3x512 .f32) : Vec F S1x512 .f32 :=
  View.ld x (Rect.unit (s := S3x512) ![2, 0] S1x512.size inb_S3x512_S1x512_2_0)

/-- The contribution of point t's tile: the selected branch's row of 512 entries times its 512×2048 block. -/
def part (c : Dev nD) (t : Fin cfg2.N) : FVec F S1x2048 .f32 :=
  k2_pay5 (grid2.coords t) (row0 (iblk V c 0 t)) (row1 (iblk V c 0 t)) (row2 (iblk V c 0 t))
    (iblk V c 1 t) (iblk V c 2 t) (iblk V c 3 t)

/-- A point with 0 < k < 7 adds its tile's contribution to the accumulator. -/
theorem accC_eq (c : Dev nD) (t : Fin cfg2.N) (h8 : ¬t.val % 8 = 0) (h7 : ¬t.val % 8 = 7) (pa : Vec F S1x2048 .f32) :
    accC V c t h8 h7 pa = k2_pay1 (part V c t) pa := by
  unfold accC
  rw [View.read_writes_eq_canon _ _ _ (cov_accC V c t h8 h7 pa)]
  unfold rC runC
  dsimp only
  sl_unfold_words
  rw [View.canon_unit_zero hz]
  unfold part
  simp only [View.readAt_eq_ld, (hs0 t).read_unread, (hs1 t).read_unread, (hs2 t).read_unread, (hs3 t).read_unread,
    (hs4 t).read_unread, (Memref.isWhole_whole _).read_unread, View.ld_unit_zero (S := S512x2048) hz,
    View.ld_unit_zero (S := S1x2048) hz, View.ld_unit_zero (S := S3x2048) hz]

/-- The first point of a sweep leaves the zeroed accumulator plus its tile's contribution. -/
theorem accA_eq (c : Dev nD) (t : Fin cfg2.N) (h : t.val % 24 = 0) :
    accA V c t h = k2_pay1 (part V c t) k2_pay3 := by
  unfold accA
  rw [View.read_writes_eq_canon _ _ _ (cov_accA V c t h)]
  unfold rA runA
  dsimp only
  sl_unfold_words
  rw [View.canon_cons_unit_zero (S := S1x2048) hz, View.readCov_unit_zero (S := S1x2048) _ hz]
  unfold part
  simp only [View.readAt_eq_ld, (hs0 t).read_unread, (hs1 t).read_unread, (hs2 t).read_unread, (hs3 t).read_unread,
    (hs4 t).read_unread, (Memref.isWhole_whole _).read_unread, View.ld_unit_zero (S := S512x2048) hz,
    View.ld_unit_zero (S := S1x2048) hz, View.ld_unit_zero (S := S3x2048) hz]

/-- The first point of a sweep zeroes the result buffer. -/
theorem resA_eq (c : Dev nD) (t : Fin cfg2.N) (h : t.val % 24 = 0) :
    resA V c t h = k2_pay4 := by
  unfold resA
  rw [View.read_writes_eq_canon _ _ _ (cov_resA V c t h)]
  unfold rA runA
  dsimp only
  sl_unfold_words
  rw [View.canon_unit_zero hz]

/-- The first point of a branch leaves the zeroed accumulator plus its tile's contribution. -/
theorem accB_eq (c : Dev nD) (t : Fin cfg2.N) (h8 : t.val % 8 = 0) (h24 : ¬t.val % 24 = 0) :
    accB V c t h8 h24 = k2_pay1 (part V c t) k2_pay3 := by
  unfold accB
  rw [View.read_writes_eq_canon _ _ _ (cov_accB V c t h8 h24)]
  unfold rB runB
  dsimp only
  sl_unfold_words
  rw [View.canon_cons_unit_zero (S := S1x2048) hz, View.readCov_unit_zero (S := S1x2048) _ hz]
  unfold part
  simp only [View.readAt_eq_ld, (hs0 t).read_unread, (hs1 t).read_unread, (hs2 t).read_unread, (hs3 t).read_unread,
    (hs4 t).read_unread, (Memref.isWhole_whole _).read_unread, View.ld_unit_zero (S := S512x2048) hz,
    View.ld_unit_zero (S := S1x2048) hz, View.ld_unit_zero (S := S3x2048) hz]

/-- The last point of a branch other than the last adds its tile's contribution to the accumulator … -/
theorem accD_eq (c : Dev nD) (t : Fin cfg2.N) (h7 : t.val % 8 = 7) (h23 : ¬t.val % 24 = 23) (pa : Vec F S1x2048 .f32)
    (pr : Vec F S3x2048 .f32) :
    accD V c t h7 h23 pa pr = k2_pay1 (part V c t) pa := by
  unfold accD
  rw [View.read_writes_eq_canon _ _ _ (cov_accD V c t h7 h23 pa pr)]
  unfold rD runD
  dsimp only
  sl_unfold_words
  rw [View.canon_unit_zero hz]
  unfold part
  simp only [View.readAt_eq_ld, (hs0 t).read_unread, (hs1 t).read_unread, (hs2 t).read_unread, (hs3 t).read_unread,
    (hs4 t).read_unread, (Memref.isWhole_whole _).read_unread, View.ld_unit_zero (S := S512x2048) hz,
    View.ld_unit_zero (S := S1x2048) hz, View.ld_unit_zero (S := S3x2048) hz]

/-- … and writes the finished accumulator, clamped, into its row of the result buffer. -/
theorem resD_eq (c : Dev nD) (t : Fin cfg2.N) (h7 : t.val % 8 = 7) (h23 : ¬t.val % 24 = 23) (pa : Vec F S1x2048 .f32)
    (pr : Vec F S3x2048 .f32) :
    resD V c t h7 h23 pa pr
      = k2_pay2 (BitVec.ofNat 32 ((grid2.coords t) 1).val) (k2_pay1 (part V c t) pa) pr := by
  unfold resD
  rw [View.read_writes_eq_canon _ _ _ (cov_resD V c t h7 h23 pa pr)]
  unfold rD runD
  dsimp only
  sl_unfold_words
  rw [View.canon_unit_zero hz, View.readCov_unit_zero (S := S1x2048) _ hz]
  unfold part
  simp only [View.readAt_eq_ld, (hs0 t).read_unread, (hs1 t).read_unread, (hs2 t).read_unread, (hs3 t).read_unread,
    (hs4 t).read_unread, (Memref.isWhole_whole _).read_unread, View.ld_unit_zero (S := S512x2048) hz,
    View.ld_unit_zero (S := S1x2048) hz, View.ld_unit_zero (S := S3x2048) hz]

/-- The last point of a sweep does the same to the accumulator … -/
theorem accE_eq (c : Dev nD) (t : Fin cfg2.N) (h23 : t.val % 24 = 23) (pa : Vec F S1x2048 .f32)
    (pr : Vec F S3x2048 .f32) :
    accE V c t h23 pa pr = k2_pay1 (part V c t) pa := by
  unfold accE
  rw [View.read_writes_eq_canon _ _ _ (cov_accE V c t h23 pa pr)]
  unfold rE runE
  dsimp only
  sl_unfold_words
  rw [View.canon_unit_zero hz]
  unfold part
  simp only [View.readAt_eq_ld, (hs0 t).read_unread, (hs1 t).read_unread, (hs2 t).read_unread, (hs3 t).read_unread,
    (hs4 t).read_unread, (Memref.isWhole_whole _).read_unread, View.ld_unit_zero (S := S512x2048) hz,
    View.ld_unit_zero (S := S1x2048) hz, View.ld_unit_zero (S := S3x2048) hz]

/-- … and to the result buffer … -/
theorem resE_eq (c : Dev nD) (t : Fin cfg2.N) (h23 : t.val % 24 = 23) (pa : Vec F S1x2048 .f32)
    (pr : Vec F S3x2048 .f32) :
    resE V c t h23 pa pr
      = k2_pay2 (BitVec.ofNat 32 ((grid2.coords t) 1).val) (k2_pay1 (part V c t) pa) pr := by
  unfold resE
  rw [View.read_writes_eq_canon _ _ _ (cov_resE V c t h23 pa pr)]
  unfold rE runE
  dsimp only
  sl_unfold_words
  rw [View.canon_unit_zero hz, View.readCov_unit_zero (S := S1x2048) _ hz]
  unfold part
  simp only [View.readAt_eq_ld, (hs0 t).read_unread, (hs1 t).read_unread, (hs2 t).read_unread, (hs3 t).read_unread,
    (hs4 t).read_unread, (Memref.isWhole_whole _).read_unread, View.ld_unit_zero (S := S512x2048) hz,
    View.ld_unit_zero (S := S1x2048) hz, View.ld_unit_zero (S := S3x2048) hz]

/-- … and copies the result buffer into the output block. -/
theorem outE_eq (c : Dev nD) (t : Fin cfg2.N) (h23 : t.val % 24 = 23) (pa : Vec F S1x2048 .f32)
    (pr : Vec F S3x2048 .f32) :
    outE V c t h23 pa pr
      = k2_pay2 (BitVec.ofNat 32 ((grid2.coords t) 1).val) (k2_pay1 (part V c t) pa) pr := by
  unfold outE
  rw [View.read_writes_eq_canon _ _ _ (cov_outE V c t h23 pa pr)]
  unfold rE runE
  dsimp only
  sl_unfold_words
  rw [View.canon_unit_zero hz, View.readCov_unit_zero (S := S3x2048) _ hz, View.readCov_unit_zero (S := S1x2048) _ hz]
  unfold part
  simp only [View.readAt_eq_ld, (hs0 t).read_unread, (hs1 t).read_unread, (hs2 t).read_unread, (hs3 t).read_unread,
    (hs4 t).read_unread, (Memref.isWhole_whole _).read_unread, View.ld_unit_zero (S := S512x2048) hz,
    View.ld_unit_zero (S := S1x2048) hz, View.ld_unit_zero (S := S3x2048) hz]

end Cert.KernelIdeal.R2

end
-- ==== Proof.R2Blocks.lean ====
import proofs.«110218_j20177756357157_2_alg».proof.Proof.R2Pieces
import proofs.«110218_j20177756357157_2_alg».proof.Proof.MlpPayload
import proofs.«110218_j20177756357157_2_alg».proof.Proof.MlpSum
import Idealize.ShloMosaic.Lib.Pipeline.Value
import Idealize.ShloMosaic.Lib.ValueIdx

/-!
The blocks the third call's windows hand the body, read at coordinates of the arrays: at the grid point
t = 24 n + 8 b + k the three-row input block holds columns 512 k … 512 k + 511 of the three input rows, and the
block of branch b's weight matrix holds its rows 512 k … and columns 2048 n …; hence the tile's contribution is
the product sum over the tile's 512 positions.
-/

set_option maxRecDepth 16384

noncomputable section

namespace Cert.KernelIdeal.R2

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-! ## The grid point's coordinates and the windows' block indices, in closed form over the linear order -/

theorem coord0 : ∀ t : Fin cfg2.N, ((grid2.coords t) 0).val = t.val / 24 :=
  (by decide +kernel : ∀ t : Fin grid2.N, ((grid2.coords t) 0).val = t.val / 24)
theorem coord1 : ∀ t : Fin cfg2.N, ((grid2.coords t) 1).val = t.val / 8 % 3 :=
  (by decide +kernel : ∀ t : Fin grid2.N, ((grid2.coords t) 1).val = t.val / 8 % 3)
theorem coord2 : ∀ t : Fin cfg2.N, ((grid2.coords t) 2).val = t.val % 8 :=
  (by decide +kernel : ∀ t : Fin grid2.N, ((grid2.coords t) 2).val = t.val % 8)

theorem index0 : ∀ t : Fin cfg2.N, win2_0.index t (0 : Fin 2) = 0 ∧ win2_0.index t (1 : Fin 2) = t.val % 8 :=
  (by decide +kernel : ∀ t : Fin grid2.N, win2_0.index t (0 : Fin 2) = 0 ∧ win2_0.index t (1 : Fin 2) = t.val % 8)
theorem index1 : ∀ t : Fin cfg2.N, t.val / 8 % 3 = 0 →
    win2_1.index t (0 : Fin 2) = t.val % 8 ∧ win2_1.index t (1 : Fin 2) = t.val / 24 :=
  (by decide +kernel : ∀ t : Fin grid2.N, t.val / 8 % 3 = 0 →
    win2_1.index t (0 : Fin 2) = t.val % 8 ∧ win2_1.index t (1 : Fin 2) = t.val / 24)
theorem index2 : ∀ t : Fin cfg2.N, t.val / 8 % 3 = 1 →
    win2_2.index t (0 : Fin 2) = t.val % 8 ∧ win2_2.index t (1 : Fin 2) = t.val / 24 :=
  (by decide +kernel : ∀ t : Fin grid2.N, t.val / 8 % 3 = 1 →
    win2_2.index t (0 : Fin 2) = t.val % 8 ∧ win2_2.index t (1 : Fin 2) = t.val / 24)
theorem index3 : ∀ t : Fin cfg2.N, t.val / 8 % 3 = 2 →
    win2_3.index t (0 : Fin 2) = t.val % 8 ∧ win2_3.index t (1 : Fin 2) = t.val / 24 :=
  (by decide +kernel : ∀ t : Fin grid2.N, t.val / 8 % 3 = 2 →
    win2_3.index t (0 : Fin 2) = t.val % 8 ∧ win2_3.index t (1 : Fin 2) = t.val / 24)
theorem index4 : ∀ t : Fin cfg2.N, win2_4.index t (0 : Fin 2) = 0 ∧ win2_4.index t (1 : Fin 2) = t.val / 24 :=
  (by decide +kernel : ∀ t : Fin grid2.N, win2_4.index t (0 : Fin 2) = 0 ∧ win2_4.index t (1 : Fin 2) = t.val / 24)

theorem N48 : cfg2.N = 48 := N_2

/-! ## The arrays the call reads, over plain coordinates -/

/-- The three input rows. -/
def X (c : Dev nD) (r : Fin 3) (p : Fin 4096) : EReal := (V c main_v12 : S3x4096.Idx → EReal) (ix2 r p)
/-- The three weight matrices. -/
def Wt (c : Dev nD) (r : Fin 3) (p q : Fin 4096) : EReal :=
  match r with
  | 0 => (V c main_arg5 : S4096x4096.Idx → EReal) (ix2 p q)
  | 1 => (V c main_arg7 : S4096x4096.Idx → EReal) (ix2 p q)
  | 2 => (V c main_arg9 : S4096x4096.Idx → EReal) (ix2 p q)

/-! ## The blocks read at coordinates -/

theorem iblk0_apply (c : Dev nD) (t : Fin cfg2.N) (r : Fin 3) (j : Fin 512) :
    (iblk V c 0 t : Vec Ideal S3x512 .f32) (ix2 r j)
      = X V c r ⟨512 * (t.val % 8) + j.val, by omega⟩ := by
  unfold iblk X
  rw [View.read_apply]
  show V c main_v12 _ = V c main_v12 _
  congr 1
  funext a
  apply Fin.ext
  match a with
  | ⟨0, _⟩ => show win2_0.index t 0 * 3 + 1 * r.val = r.val; rw [(index0 t).1]; omega
  | ⟨1, _⟩ => show win2_0.index t 1 * 512 + 1 * j.val = 512 * (t.val % 8) + j.val; rw [(index0 t).2]; omega

theorem lt48 (t : Fin cfg2.N) : t.val < 48 := N48 ▸ t.isLt

theorem iblk1_apply (c : Dev nD) (t : Fin cfg2.N) (hb : t.val / 8 % 3 = 0) (j : Fin 512) (q : Fin 2048) :
    (iblk V c 1 t : Vec Ideal S512x2048 .f32) (ix2 j q)
      = Wt V c 0 ⟨512 * (t.val % 8) + j.val, by omega⟩ ⟨2048 * (t.val / 24) + q.val, by have := lt48 t; omega⟩ := by
  unfold iblk Wt
  rw [View.read_apply]
  show V c main_arg5 _ = V c main_arg5 _
  congr 1
  funext a
  apply Fin.ext
  match a with
  | ⟨0, _⟩ => show win2_1.index t 0 * 512 + 1 * j.val = 512 * (t.val % 8) + j.val; rw [(index1 t hb).1]; omega
  | ⟨1, _⟩ => show win2_1.index t 1 * 2048 + 1 * q.val = 2048 * (t.val / 24) + q.val; rw [(index1 t hb).2]; omega

theorem iblk2_apply (c : Dev nD) (t : Fin cfg2.N) (hb : t.val / 8 % 3 = 1) (j : Fin 512) (q : Fin 2048) :
    (iblk V c 2 t : Vec Ideal S512x2048 .f32) (ix2 j q)
      = Wt V c 1 ⟨512 * (t.val % 8) + j.val, by omega⟩ ⟨2048 * (t.val / 24) + q.val, by have := lt48 t; omega⟩ := by
  unfold iblk Wt
  rw [View.read_apply]
  show V c main_arg7 _ = V c main_arg7 _
  congr 1
  funext a
  apply Fin.ext
  match a with
  | ⟨0, _⟩ => show win2_2.index t 0 * 512 + 1 * j.val = 512 * (t.val % 8) + j.val; rw [(index2 t hb).1]; omega
  | ⟨1, _⟩ => show win2_2.index t 1 * 2048 + 1 * q.val = 2048 * (t.val / 24) + q.val; rw [(index2 t hb).2]; omega

theorem iblk3_apply (c : Dev nD) (t : Fin cfg2.N) (hb : t.val / 8 % 3 = 2) (j : Fin 512) (q : Fin 2048) :
    (iblk V c 3 t : Vec Ideal S512x2048 .f32) (ix2 j q)
      = Wt V c 2 ⟨512 * (t.val % 8) + j.val, by omega⟩ ⟨2048 * (t.val / 24) + q.val, by have := lt48 t; omega⟩ := by
  unfold iblk Wt
  rw [View.read_apply]
  show V c main_arg9 _ = V c main_arg9 _
  congr 1
  funext a
  apply Fin.ext
  match a with
  | ⟨0, _⟩ => show win2_3.index t 0 * 512 + 1 * j.val = 512 * (t.val % 8) + j.val; rw [(index3 t hb).1]; omega
  | ⟨1, _⟩ => show win2_3.index t 1 * 2048 + 1 * q.val = 2048 * (t.val / 24) + q.val; rw [(index3 t hb).2]; omega

theorem row0_apply (x : Vec Ideal S3x512 .f32) (j : Fin 512) : row0 x (ix2 0 j) = x (ix2 0 j) := by
  show x _ = x _
  congr 1; funext a; apply Fin.ext
  match a with
  | ⟨0, _⟩ => rfl
  | ⟨1, _⟩ => show 0 + 1 * j.val = j.val; omega
theorem row1_apply (x : Vec Ideal S3x512 .f32) (j : Fin 512) : row1 x (ix2 0 j) = x (ix2 1 j) := by
  show x _ = x _
  congr 1; funext a; apply Fin.ext
  match a with
  | ⟨0, _⟩ => rfl
  | ⟨1, _⟩ => show 0 + 1 * j.val = j.val; omega
theorem row2_apply (x : Vec Ideal S3x512 .f32) (j : Fin 512) : row2 x (ix2 0 j) = x (ix2 2 j) := by
  show x _ = x _
  congr 1; funext a; apply Fin.ext
  match a with
  | ⟨0, _⟩ => rfl
  | ⟨1, _⟩ => show 0 + 1 * j.val = j.val; omega

/-- The tile's contribution at column q of the block: the product sum over the tile's 512 positions, of the point's
    branch b, row tile k = t % 8 and column tile n = t / 24. -/
theorem part_apply (c : Dev nD) (t : Fin cfg2.N) (b : Fin 3) (hb : t.val / 8 % 3 = b.val) (q : Fin 2048) :
    part V c t (ix2 0 q)
      = ∑ j : Fin 512, X V c b ⟨512 * (t.val % 8) + j.val, by omega⟩
          * Wt V c b ⟨512 * (t.val % 8) + j.val, by omega⟩ ⟨2048 * (t.val / 24) + q.val, by have := lt48 t; omega⟩ := by
  unfold part
  rw [Cert.KernelIdeal.Pay.k2_pay5_apply, coord1 t]
  match b, hb with
  | ⟨0, _⟩, hb =>
    rw [if_pos hb]
    refine Finset.sum_congr rfl fun j _ => ?_
    rw [row0_apply, iblk0_apply, iblk1_apply V c t hb]; rfl
  | ⟨1, _⟩, hb =>
    have hb' : t.val / 8 % 3 = 1 := hb
    rw [if_neg (by omega), if_pos hb']
    refine Finset.sum_congr rfl fun j _ => ?_
    rw [row1_apply, iblk0_apply, iblk2_apply V c t hb]; rfl
  | ⟨2, _⟩, hb =>
    have hb' : t.val / 8 % 3 = 2 := hb
    rw [if_neg (by omega), if_neg (by omega)]
    refine Finset.sum_congr rfl fun j _ => ?_
    rw [row2_apply, iblk0_apply, iblk3_apply V c t hb]; rfl

/-- The same, with the point's three coordinates named. -/
theorem part_apply' (c : Dev nD) (t : Fin cfg2.N) (b : Fin 3) (k : Fin 8) (n : Fin 2) (hb : t.val / 8 % 3 = b.val)
    (hk : t.val % 8 = k.val) (hn : t.val / 24 = n.val) (q : Fin 2048) :
    part V c t (ix2 0 q)
      = ∑ j : Fin 512, X V c b ⟨512 * k.val + j.val, by omega⟩
          * Wt V c b ⟨512 * k.val + j.val, by omega⟩ ⟨2048 * n.val + q.val, by omega⟩ := by
  have e1 : k = ⟨t.val % 8, Nat.mod_lt _ (by decide)⟩ := Fin.ext hk.symm
  have e2 : n = ⟨t.val / 24, Nat.div_lt_of_lt_mul (lt48 t)⟩ := Fin.ext hn.symm
  subst e1 e2
  exact part_apply V c t b hb q

end Cert.KernelIdeal.R2

end
-- ==== Proof.R2Inv.lean ====
import proofs.«110218_j20177756357157_2_alg».proof.Proof.R2Blocks
import Idealize.ShloMosaic.Lib.Pipeline.Value
import Idealize.ShloMosaic.Lib.ValueIdx

/-!
The accumulation across the grid of the third call, at coordinates over the extended reals: after a last row
tile the accumulator holds the full product sum of its branch's input row with a column of the branch's weight
matrix, and every row of the result buffer whose branch is finished in the current sweep holds that sum clamped
below at 0.0.
-/

set_option maxRecDepth 16384

noncomputable section

namespace Cert.KernelIdeal.R2

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

open Cert.KernelIdeal.Pay

/-! ## One point's step, at coordinates -/

theorem zero_eq : Cert.Spec.zero = 0 := Cert.MlpSum.spec_zero

/-- At the first row tile the accumulator is left at the tile's contribution. -/
theorem stepAcc_first (c : Dev nD) (t : Fin cfg2.N) (h8 : t.val % 8 = 0) (pa : Vec Ideal S1x2048 .f32)
    (pr : Vec Ideal S3x2048 .f32) (q : Fin 2048) :
    (stepAt V c t pa pr).2.1 (ix2 0 q) = part V c t (ix2 0 q) := by
  by_cases h24 : t.val % 24 = 0
  · rw [stepAt_A V c t pa pr h24]
    dsimp only
    rw [accA_eq, k2_pay1_apply, k2_pay3_apply, zero_eq, zero_add]
  · rw [stepAt_B V c t pa pr h8 h24]
    dsimp only
    rw [accB_eq, k2_pay1_apply, k2_pay3_apply, zero_eq, zero_add]

/-- At a later row tile the tile's contribution is added to it. -/
theorem stepAcc_next (c : Dev nD) (t : Fin cfg2.N) (h8 : ¬t.val % 8 = 0) (pa : Vec Ideal S1x2048 .f32)
    (pr : Vec Ideal S3x2048 .f32) (q : Fin 2048) :
    (stepAt V c t pa pr).2.1 (ix2 0 q) = pa (ix2 0 q) + part V c t (ix2 0 q) := by
  by_cases h23 : t.val % 24 = 23
  · rw [stepAt_E V c t pa pr h23]
    dsimp only
    rw [accE_eq, k2_pay1_apply]
  · by_cases h7 : t.val % 8 = 7
    · rw [stepAt_D V c t pa pr h7 h23]
      dsimp only
      rw [accD_eq, k2_pay1_apply]
    · rw [stepAt_C V c t pa pr h8 h7]
      dsimp only
      rw [accC_eq, k2_pay1_apply]

/-- Away from the first point of a sweep and from the last row tiles the result buffer is kept. -/
theorem stepRes_keep (c : Dev nD) (t : Fin cfg2.N) (h24 : ¬t.val % 24 = 0) (h7 : ¬t.val % 8 = 7)
    (pa : Vec Ideal S1x2048 .f32) (pr : Vec Ideal S3x2048 .f32) :
    (stepAt V c t pa pr).2.2 = pr := by
  by_cases h8 : t.val % 8 = 0
  · rw [stepAt_B V c t pa pr h8 h24]
  · rw [stepAt_C V c t pa pr h8 h7]

/-- The clamped row written at a last row tile. -/
theorem clamp_apply (t : Fin cfg2.N) (acc : Vec Ideal S1x2048 .f32) (pr : Vec Ideal S3x2048 .f32) (r : Fin 3)
    (q : Fin 2048) :
    k2_pay2 (BitVec.ofNat 32 ((grid2.coords t) 1).val) acc pr (ix2 r q)
      = if r.val = t.val / 8 % 3 then max (acc (ix2 0 q)) Cert.Spec.zero else pr (ix2 r q) := by
  rw [coord1 t]
  refine (k2_pay2_apply ⟨t.val / 8 % 3, Nat.mod_lt _ (by decide)⟩ acc pr r q).trans ?_
  by_cases h : r.val = t.val / 8 % 3
  · rw [if_pos h, if_pos (Fin.ext h)]
  · rw [if_neg h, if_neg (fun e => h (congrArg Fin.val e))]

/-- At a last row tile the finished accumulator, clamped, replaces the branch's row of the result buffer. -/
theorem stepRes_last (c : Dev nD) (t : Fin cfg2.N) (h7 : t.val % 8 = 7) (pa : Vec Ideal S1x2048 .f32)
    (pr : Vec Ideal S3x2048 .f32) (r : Fin 3) (q : Fin 2048) :
    (stepAt V c t pa pr).2.2 (ix2 r q)
      = if r.val = t.val / 8 % 3 then max (pa (ix2 0 q) + part V c t (ix2 0 q)) Cert.Spec.zero else pr (ix2 r q) := by
  by_cases h23 : t.val % 24 = 23
  · rw [stepAt_E V c t pa pr h23]
    dsimp only
    rw [resE_eq, clamp_apply, k2_pay1_apply]
  · rw [stepAt_D V c t pa pr h7 h23]
    dsimp only
    rw [resD_eq, clamp_apply, k2_pay1_apply]

/-- At the last point of a sweep the output block is left at the result buffer. -/
theorem stepOut_last (c : Dev nD) (t : Fin cfg2.N) (h23 : t.val % 24 = 23) (pa : Vec Ideal S1x2048 .f32)
    (pr : Vec Ideal S3x2048 .f32) :
    (stepAt V c t pa pr).1 = (stepAt V c t pa pr).2.2 := by
  rw [stepAt_E V c t pa pr h23]
  dsimp only
  rw [outE_eq, resE_eq]

/-! ## The three buffers after the point at position n, at coordinates -/

/-- The accumulator after point n, at column q of the block. -/
def accAt (c : Dev nD) (n : ℕ) (q : Fin 2048) : EReal :=
  if h : n < cfg2.N then (outsAt V c n h).2.1 (ix2 0 q) else 0
/-- The result buffer after point n, at row r and column q of the block. -/
def resAt (c : Dev nD) (n : ℕ) (r : Fin 3) (q : Fin 2048) : EReal :=
  if h : n < cfg2.N then (outsAt V c n h).2.2 (ix2 r q) else 0
/-- Point n's tile contribution, at column q of the block. -/
def partAt (c : Dev nD) (n : ℕ) (q : Fin 2048) : EReal :=
  if h : n < cfg2.N then part V c ⟨n, h⟩ (ix2 0 q) else 0

theorem outs_succ (c : Dev nD) (n : ℕ) (hn : n + 1 < cfg2.N) :
    outsAt V c (n + 1) hn
      = stepAt V c ⟨n + 1, hn⟩ (outsAt V c n (Nat.lt_of_succ_lt hn)).2.1 (outsAt V c n (Nat.lt_of_succ_lt hn)).2.2 := rfl
theorem outs_zero (c : Dev nD) (h0 : 0 < cfg2.N) :
    outsAt V c 0 h0 = stepAt V c ⟨0, h0⟩ (VA.read (Elt Ideal) VA.junk) (VR.read (Elt Ideal) VR.junk) := rfl

theorem acc_first (c : Dev nD) (n : ℕ) (hn : n < cfg2.N) (h8 : n % 8 = 0) (q : Fin 2048) :
    accAt V c n q = partAt V c n q := by
  unfold accAt partAt
  rw [dif_pos hn, dif_pos hn]
  cases n with
  | zero => rw [outs_zero]; exact stepAcc_first V c ⟨0, hn⟩ h8 _ _ q
  | succ m => rw [outs_succ]; exact stepAcc_first V c ⟨m + 1, hn⟩ h8 _ _ q

theorem acc_next (c : Dev nD) (n : ℕ) (hn : n + 1 < cfg2.N) (h8 : ¬(n + 1) % 8 = 0) (q : Fin 2048) :
    accAt V c (n + 1) q = accAt V c n q + partAt V c (n + 1) q := by
  unfold accAt partAt
  rw [dif_pos hn, dif_pos hn, dif_pos (Nat.lt_of_succ_lt hn), outs_succ]
  exact stepAcc_next V c ⟨n + 1, hn⟩ h8 _ _ q

theorem res_keep (c : Dev nD) (n : ℕ) (hn : n + 1 < cfg2.N) (h24 : ¬(n + 1) % 24 = 0) (h7 : ¬(n + 1) % 8 = 7)
    (r : Fin 3) (q : Fin 2048) :
    resAt V c (n + 1) r q = resAt V c n r q := by
  unfold resAt
  rw [dif_pos hn, dif_pos (Nat.lt_of_succ_lt hn), outs_succ, stepRes_keep V c ⟨n + 1, hn⟩ h24 h7]

theorem res_last (c : Dev nD) (n : ℕ) (hn : n + 1 < cfg2.N) (h7 : (n + 1) % 8 = 7) (r : Fin 3) (q : Fin 2048) :
    resAt V c (n + 1) r q
      = if r.val = (n + 1) / 8 % 3 then max (accAt V c (n + 1) q) Cert.Spec.zero else resAt V c n r q := by
  rw [acc_next V c n hn (by omega)]
  unfold resAt accAt partAt
  simp only [dif_pos hn, dif_pos (Nat.lt_of_succ_lt hn)]
  rw [outs_succ]
  exact stepRes_last V c ⟨n + 1, hn⟩ h7 _ _ r q

/-! ## The finished accumulator is the full product sum -/

/-- The product sum of input row r with column col of its weight matrix. -/
def full (c : Dev nD) (r : Fin 3) (col : Fin 4096) : EReal := ∑ p : Fin 4096, X V c r p * Wt V c r p col

theorem partAt_tile (c : Dev nD) (n : ℕ) (hn : n < cfg2.N) (b : Fin 3) (k : Fin 8) (m : Fin 2)
    (hb : n / 8 % 3 = b.val) (hk : n % 8 = k.val) (hm : n / 24 = m.val) (q : Fin 2048) :
    partAt V c n q
      = ∑ j : Fin 512, X V c b ⟨512 * k.val + j.val, by omega⟩
          * Wt V c b ⟨512 * k.val + j.val, by omega⟩ ⟨2048 * m.val + q.val, by omega⟩ := by
  unfold partAt
  rw [dif_pos hn]
  exact part_apply' V c ⟨n, hn⟩ b k m hb hk hm q

/-- After a last row tile the accumulator holds the full product sum of the point's branch and column. -/
theorem acc_full (c : Dev nD) (n : ℕ) (hn : n < cfg2.N) (h7 : n % 8 = 7) (b : Fin 3) (m : Fin 2)
    (hb : n / 8 % 3 = b.val) (hm : n / 24 = m.val) (q : Fin 2048) :
    accAt V c n q = full V c b ⟨2048 * m.val + q.val, by omega⟩ := by
  have hN : cfg2.N = 48 := N48
  have h0 : accAt V c (n - 7 + (0 : Fin 8).val) q = partAt V c (n - 7 + (0 : Fin 8).val) q :=
    acc_first V c _ (by show n - 7 + 0 < cfg2.N; omega) (by show (n - 7 + 0) % 8 = 0; omega) q
  have hs : ∀ k : Fin 7, accAt V c (n - 7 + k.succ.val) q
      = accAt V c (n - 7 + k.castSucc.val) q + partAt V c (n - 7 + k.succ.val) q := by
    intro k
    rw [Fin.val_succ, Fin.coe_castSucc]
    have hk : k.val < 7 := k.isLt
    exact acc_next V c (n - 7 + k.val) (by omega) (by omega) q
  have hl := Cert.Lib.BlockSum.acc_fin_last (n := 7) (fun k : Fin 8 => partAt V c (n - 7 + k.val) q)
    (fun k : Fin 8 => accAt V c (n - 7 + k.val) q) h0 hs
  have e7 : n - 7 + (Fin.last 7).val = n := by rw [Fin.val_last]; omega
  rw [e7] at hl
  rw [hl]
  unfold full
  rw [← Cert.MlpSum.tiles_sum (X V c b) (Wt V c b) ⟨2048 * m.val + q.val, by omega⟩]
  refine Finset.sum_congr rfl fun k _ => ?_
  have hk : k.val < 8 := k.isLt
  exact partAt_tile V c (n - 7 + k.val) (by omega) b k m (by omega) (by omega) (by omega) q

/-! ## The rows of the result buffer that are finished -/

/-- After point n every row of the result buffer whose branch is finished in n's sweep holds the clamped full
    product sum. -/
theorem res_done (c : Dev nD) : ∀ (n : ℕ) (hn : n < cfg2.N) (r : Fin 3) (m : Fin 2) (hm : n / 24 = m.val)
    (hr : r.val < n / 8 % 3 ∨ (r.val = n / 8 % 3 ∧ n % 8 = 7)) (q : Fin 2048),
    resAt V c n r q = max (full V c r ⟨2048 * m.val + q.val, by omega⟩) Cert.Spec.zero := by
  have hN : cfg2.N = 48 := N48
  intro n
  induction n with
  | zero => intro hn r m hm hr q; omega
  | succ n ih =>
    intro hn r m hm hr q
    by_cases h7 : (n + 1) % 8 = 7
    · rw [res_last V c n hn h7]
      by_cases hrb : r.val = (n + 1) / 8 % 3
      · rw [if_pos hrb, acc_full V c (n + 1) hn h7 r m hrb.symm hm q]
      · rw [if_neg hrb]
        exact ih (by omega) r m (by omega) (by omega) q
    · by_cases h24 : (n + 1) % 24 = 0
      · omega
      · rw [res_keep V c n hn h24 h7]
        exact ih (by omega) r m (by omega) (by omega) q

end Cert.KernelIdeal.R2

end
-- ==== Proof.R2Value.lean ====
import proofs.«110218_j20177756357157_2_alg».proof.Proof.R2Inv
import Idealize.ShloMosaic.Lib.Pipeline.Value
import Idealize.ShloMosaic.Lib.ValueIdx

/-!
The value of the third call: its output array ends holding, at row r and column q, input row r times branch r's
weight matrix at column q, clamped below at 0.0. The flushing point of a column tile writes back the finished result
buffer, and the two flushing points' blocks cover the array.
-/

set_option maxRecDepth 16384

noncomputable section

namespace Cert.KernelIdeal.R2

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

open Cert.KernelIdeal.Pay

/-! ## What a flushing point writes back -/

/-- What the output array ends holding: at row r and column q, the clamped product sum of input row r with column q of
    branch r's weight matrix. -/
def G (c : Dev nD) : S3x4096.Idx → EReal :=
  fun i => max (full V c ⟨(i 0).val, (i 0).isLt⟩ ⟨(i 1).val, (i 1).isLt⟩) Cert.Spec.zero

/-- After the last point of a sweep the output block holds, in every row, the clamped full product sum. -/
theorem out_last (c : Dev nD) (t : Fin cfg2.N) (h23 : t.val % 24 = 23) (r : Fin 3) (q : Fin 2048) :
    (outsAt V c t.val t.isLt).1 (ix2 r q)
      = max (full V c r ⟨2048 * (t.val / 24) + q.val, by have := lt48 t; omega⟩) Cert.Spec.zero := by
  have hN : cfg2.N = 48 := N48
  obtain ⟨n, hn⟩ := t
  have h23' : n % 24 = 23 := h23
  cases n with
  | zero => omega
  | succ n =>
    have e : (outsAt V c (n + 1) hn).1 = (outsAt V c (n + 1) hn).2.2 := stepOut_last V c ⟨n + 1, hn⟩ h23 _ _
    show (outsAt V c (n + 1) hn).1 (ix2 r q) = _
    rw [e]
    have hd := res_done V c (n + 1) hn r ⟨(n + 1) / 24, by omega⟩ rfl (by omega) q
    unfold resAt at hd
    rw [dif_pos hn] at hd
    exact hd

/-- What a flushing point writes back is its block of G. -/
theorem flushed_eq (c : Dev nD) (t : Fin cfg2.N) (hf : (cfg2.win 4).flush t = true) :
    (dat2 V c).flushed 4 t = ((cfg2.win 4).blk t).view.read (Elt Ideal) (G V c) := by
  have h23 : t.val % 24 = 23 := (flush2_4 t).mp hf
  have ht := lt48 t
  show (cfg2.win 4).cut (grid2.coords t) ((dat2 V c).after 4 t) = _
  rw [after_4]
  funext j
  obtain ⟨r, q, rfl⟩ : ∃ (r : Fin 3) (q : Fin 2048), j = ix2 r q := ⟨j 0, j 1, eq_ix2 j⟩
  rw [View.read_apply]
  refine (out_last V c t h23 r q).trans ?_
  unfold G
  congr 2
  · apply Fin.ext
    show r.val = win2_4.index t 0 * 3 + 1 * r.val
    rw [(index4 t).1]; omega
  · apply Fin.ext
    show 2048 * (t.val / 24) + q.val = win2_4.index t 1 * 2048 + 1 * q.val
    rw [(index4 t).2]; omega

/-- Every index of the output array is in the block of the flushing point of its column tile. -/
theorem cover (i : S3x4096.Idx) : ∃ t : Fin cfg2.N, (cfg2.win 4).flush t = true ∧ i ∈ ((cfg2.win 4).blk t).view.set := by
  have h0 : (i 0).val < 3 := (i 0).isLt
  have h1 : (i 1).val < 4096 := (i 1).isLt
  have hN : cfg2.N = 48 := N48
  obtain ⟨t, ht⟩ : ∃ t : Fin cfg2.N, t.val = 24 * ((i 1).val / 2048) + 23 := ⟨⟨_, by omega⟩, rfl⟩
  refine ⟨t, (flush2_4 t).mpr (by omega), ?_⟩
  show i ∈ ((View.whole main_v13).slice (win2_4.rect t)).set
  rw [View.set_slice_whole, Rect.mem_set_unit]
  intro a
  match a with
  | ⟨0, _⟩ =>
    show win2_4.index t 0 * 3 ≤ (i 0).val ∧ (i 0).val < win2_4.index t 0 * 3 + 3
    rw [(index4 t).1]; omega
  | ⟨1, _⟩ =>
    show win2_4.index t 1 * 2048 ≤ (i 1).val ∧ (i 1).val < win2_4.index t 1 * 2048 + 2048
    rw [(index4 t).2]; omega

/-! ## The output array after the call -/

/-- The output array ends holding, at row r and column q, one layer's value: input row r times branch r's weight matrix,
    clamped below at 0.0. -/
theorem arr2_spec (c : Dev nD) (r : Fin 3) (q : Fin 4096) :
    ((dat2 V c).arrAt 4 cfg2.N : S3x4096.Idx → EReal) (ix2 r q)
      = Cert.Spec.layer (X V c r) (fun p q => Wt V c r p q) q := by
  rw [(dat2 V c).arrAt_eq_of_cover 4 (G V c) (flushed_eq V c) cover]
  rfl

end Cert.KernelIdeal.R2

end
-- ==== Proof.LibFoldRead.lean ====
/-
  Reading a fold of host operations at a buffer, with two-operand results kept as an application.

  `StableHlo.after ops V` is the buffer contents after a line of host operations from contents `V`. The library reads such
  a fold at a buffer by one simplifier pass over the operations' result lemmas; a two-operand operation's result is its
  function applied to the two operands' contents, and when that function is a literal `fun a b => …` whose body puts the
  operands inside a dependent pair (a concatenation's list of shaped pieces) the pass substitutes them there and can no
  longer rewrite them. Here the same result is stated through `held2 f x y := f x y`, which the simplifier does not open:
  the operands stay ordinary arguments, and `held2` unfolds by definition when two readings are compared.
  Also: the fold over a concatenation of two lines is the fold of the second over the fold of the first.
-/
import Idealize.ShloMosaic.Lib.StableHlo.Run

namespace Idealize.ShloMosaic.StableHlo

variable {τ : Topo} {sig : RefSig} {Val : EltTy → Type}

/-- A two-argument function applied, as a constant the simplifier leaves closed. -/
def held2 {α β γ : Type} (f : α → β → γ) (x : α) (y : β) : γ := f x y

theorem held2_def {α β γ : Type} (f : α → β → γ) (x : α) (y : β) : held2 f x y = f x y := rfl

/-- A two-operand operation's result at its own result buffer: its function, kept closed, of the operands' contents. -/
theorem binary_result_held {a b y : Ref sig .tc} (f : a.ty.Contents Val → b.ty.Contents Val → y.ty.Contents Val) (ha hb hy)
    (F : Valuation τ sig Val) :
    (binary (τ := τ) a b y f ha hb hy).result F (no_index (Proc.devRef .tc y))
      = held2 f (F (Proc.devRef .tc a)) (F (Proc.devRef .tc b)) :=
  binary_result a b y f ha hb hy F

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Reads `after ops V (Proc.devRef .tc r)` for a literal line `ops` in one simplifier pass, as the library's
    `after_results_simp` does, with every two-operand result kept as `held2 f _ _`. -/
macro "fold_results" : tactic =>
  `(tactic| (simp (disch := decide) only [after_cons, after_nil,
      nullary_result', unary_result', binary_result_held, ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
-- ==== Proof.HostRead.lean ====
import proofs.«110218_j20177756357157_2_alg».proof.Proof.Gen.KernelIdeal.Launch
import proofs.«110218_j20177756357157_2_alg».proof.Proof.Gen.KernelIdeal.Regions
import proofs.«110218_j20177756357157_2_alg».proof.Proof.LibFoldRead
import proofs.«110218_j20177756357157_2_alg».proof.Proof.Spec
import Idealize.ShloMosaic.Lib.StableHlo.Run
import Idealize.ShloMosaic.Lib.Pipeline.Value
import Idealize.ShloMosaic.Lib.ValueIdx
import Idealize.ShloMosaic.Lib.ValueLayout

/-!
# The three stretches of host operations, read at an index

Between the kernels the program only rearranges arrays: it drops the leading unit axis of each
argument, flattens each 64×64 distance matrix row-major into a row of a 3×4096 array, and at the
end slices each row of the 3×4096 result and reshapes it row-major to 64×64. Each is read here at
an index over an arbitrary valuation of the buffers, together with the fact that a stretch leaves
every buffer it does not write as it was.
-/

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo
open Idealize.ShloMosaic.ValueIdx

section Generic
variable {F : FTy → Type} [FloatOps F]

theorem after0_of (W : Valuation τ sig (Elt F)) (r : Ref sig .tc) (h : r ∉ hostOps0_W) : StableHlo.after hostOps0 W r = W r :=
  StableHlo.after_of_writes_sub hostOps0 _ hostOps0_writes h
theorem after1_of (W : Valuation τ sig (Elt F)) (r : Ref sig .tc) (h : r ∉ hostOps1_W) : StableHlo.after hostOps1 W r = W r :=
  StableHlo.after_of_writes_sub hostOps1 _ hostOps1_writes h
theorem after3_of (W : Valuation τ sig (Elt F)) (r : Ref sig .tc) (h : r ∉ hostOps3_W) : StableHlo.after hostOps3 W r = W r :=
  StableHlo.after_of_writes_sub hostOps3 _ hostOps3_writes h

/-! ## The first stretch: each argument loses its leading unit axis -/

theorem after0_v0 (W : Valuation τ sig (Elt F)) :
    (StableHlo.after hostOps0 W main_v0 : S64x64.Idx → Elt F .f32)
      = shapeCast S64x64 (W main_arg0 : S1x64x64.Idx → Elt F .f32) shapeCasts_S1x64x64_S64x64 := by
  fold_results; rfl
theorem after0_v1 (W : Valuation τ sig (Elt F)) :
    (StableHlo.after hostOps0 W main_v1 : S64x64.Idx → Elt F .f32)
      = shapeCast S64x64 (W main_arg1 : S1x64x64.Idx → Elt F .f32) shapeCasts_S1x64x64_S64x64 := by
  fold_results; rfl
theorem after0_v2 (W : Valuation τ sig (Elt F)) :
    (StableHlo.after hostOps0 W main_v2 : S64x64.Idx → Elt F .f32)
      = shapeCast S64x64 (W main_arg2 : S1x64x64.Idx → Elt F .f32) shapeCasts_S1x64x64_S64x64 := by
  fold_results; rfl
theorem after0_v3 (W : Valuation τ sig (Elt F)) :
    (StableHlo.after hostOps0 W main_v3 : S64x256.Idx → Elt F .f32)
      = shapeCast S64x256 (W main_arg3 : S1x64x256.Idx → Elt F .f32) shapeCasts_S1x64x256_S64x256 := by
  fold_results; rfl

theorem read0_v0 (W : Valuation τ sig (Elt F)) (i j : Fin 64) :
    (StableHlo.after hostOps0 W main_v0 : S64x64.Idx → Elt F .f32) (ix2 i j) = (W main_arg0 : S1x64x64.Idx → Elt F .f32) (ix3 0 i j) := by
  rw [after0_v0, shapeCast_1ab_ab_apply]
theorem read0_v1 (W : Valuation τ sig (Elt F)) (i j : Fin 64) :
    (StableHlo.after hostOps0 W main_v1 : S64x64.Idx → Elt F .f32) (ix2 i j) = (W main_arg1 : S1x64x64.Idx → Elt F .f32) (ix3 0 i j) := by
  rw [after0_v1, shapeCast_1ab_ab_apply]
theorem read0_v2 (W : Valuation τ sig (Elt F)) (i j : Fin 64) :
    (StableHlo.after hostOps0 W main_v2 : S64x64.Idx → Elt F .f32) (ix2 i j) = (W main_arg2 : S1x64x64.Idx → Elt F .f32) (ix3 0 i j) := by
  rw [after0_v2, shapeCast_1ab_ab_apply]
theorem read0_v3 (W : Valuation τ sig (Elt F)) (i : Fin 64) (f : Fin 256) :
    (StableHlo.after hostOps0 W main_v3 : S64x256.Idx → Elt F .f32) (ix2 i f) = (W main_arg3 : S1x64x256.Idx → Elt F .f32) (ix3 0 i f) := by
  rw [after0_v3, shapeCast_1ab_ab_apply]

/-! ## The second stretch: each distance matrix flattened row-major, the three rows stacked -/

/-- A 64×64 matrix flattened, given a leading unit axis, read at (0, p): the matrix at (p / 64, p % 64). -/
theorem flat_row_apply {α : Type} (M : S64x64.Idx → α) (p : Fin 4096) :
    broadcastInDim S1x4096 ![1] bcast_S4096_S1x4096_1 (shapeCast S4096 M shapeCasts_S64x64_S4096) (ix2 (0 : Fin 1) p)
      = M (ix2 (⟨p.val / 64, by omega⟩ : Fin 64) (⟨p.val % 64, by omega⟩ : Fin 64)) := by
  refine (broadcastInDim_apply _ _ _ (ix2 (0 : Fin 1) p) (ix1 p) fun a => ?_).trans ?_
  · match a with
    | ⟨0, _⟩ => rfl
  · refine shapeCast_apply M _ (ix1 p) _ ?_
    rw [Shape.rowMajor_val_two, Shape.rowMajor_val_one]
    show p.val / 64 * 64 + p.val % 64 = p.val
    omega

theorem read1_row0 (W : Valuation τ sig (Elt F)) (p : Fin 4096) :
    (StableHlo.after hostOps1 W main_v11 : S3x4096.Idx → Elt F .f32) (ix2 (0 : Fin 3) p)
      = (W main_v4_0 : S64x64.Idx → Elt F .f32) (ix2 (⟨p.val / 64, by omega⟩ : Fin 64) (⟨p.val % 64, by omega⟩ : Fin 64)) := by
  refine Eq.trans ?_ (flat_row_apply (W main_v4_0 : S64x64.Idx → Elt F .f32) p)
  fold_results
  simp only [Matrix.cons_val]
  refine Eq.trans (concatenate_apply_piece (0 : Fin 2) _ _ (ix2 (0 : Fin 3) p) 0 (by show (0 : ℕ) < 3; decide) S1x4096 _ rfl rfl 0 rfl (ix2 (0 : Fin 1) p) ?_ ?_) ?_
  · intro b hb
    match b with
    | ⟨0, _⟩ => exact absurd rfl hb
    | ⟨1, _⟩ => rfl
  · rfl
  · fold_results
    rfl

theorem read1_row1 (W : Valuation τ sig (Elt F)) (p : Fin 4096) :
    (StableHlo.after hostOps1 W main_v11 : S3x4096.Idx → Elt F .f32) (ix2 (1 : Fin 3) p)
      = (W main_v4_1 : S64x64.Idx → Elt F .f32) (ix2 (⟨p.val / 64, by omega⟩ : Fin 64) (⟨p.val % 64, by omega⟩ : Fin 64)) := by
  refine Eq.trans ?_ (flat_row_apply (W main_v4_1 : S64x64.Idx → Elt F .f32) p)
  fold_results
  simp only [Matrix.cons_val]
  refine Eq.trans (concatenate_apply_piece (0 : Fin 2) _ _ (ix2 (1 : Fin 3) p) 1 (by show (1 : ℕ) < 3; decide) S1x4096 _ rfl rfl 1 rfl (ix2 (0 : Fin 1) p) ?_ ?_) ?_
  · intro b hb
    match b with
    | ⟨0, _⟩ => exact absurd rfl hb
    | ⟨1, _⟩ => rfl
  · rfl
  · fold_results
    rfl

theorem read1_row2 (W : Valuation τ sig (Elt F)) (p : Fin 4096) :
    (StableHlo.after hostOps1 W main_v11 : S3x4096.Idx → Elt F .f32) (ix2 (2 : Fin 3) p)
      = (W main_v4_2 : S64x64.Idx → Elt F .f32) (ix2 (⟨p.val / 64, by omega⟩ : Fin 64) (⟨p.val % 64, by omega⟩ : Fin 64)) := by
  refine Eq.trans ?_ (flat_row_apply (W main_v4_2 : S64x64.Idx → Elt F .f32) p)
  fold_results
  simp only [Matrix.cons_val]
  refine Eq.trans (concatenate_apply_piece (0 : Fin 2) _ _ (ix2 (2 : Fin 3) p) 2 (by show (2 : ℕ) < 3; decide) S1x4096 _ rfl rfl 2 rfl (ix2 (0 : Fin 1) p) ?_ ?_) ?_
  · intro b hb
    match b with
    | ⟨0, _⟩ => exact absurd rfl hb
    | ⟨1, _⟩ => rfl
  · rfl
  · fold_results
    rfl

/-! ## The last stretch: each row of the result sliced out and reshaped to 64×64 -/

/-- Row r of a 3×4096 array, its unit axis dropped, reshaped row-major to 64×64, read at (i, j): the array at
    (r, 64 i + j). -/
theorem unflat_row_apply {α : Type} (r : Fin 3) (X : S3x4096.Idx → α) (h : S3x4096.Slices ![r.val, 0] S1x4096) (i j : Fin 64) :
    shapeCast S64x64 (shapeCast S4096 (extractStridedSlice S1x4096 ![r.val, 0] X h) shapeCasts_S1x4096_S4096) shapeCasts_S4096_S64x64 (ix2 i j)
      = X (ix2 r (⟨i.val * 64 + j.val, by omega⟩ : Fin 4096)) := by
  refine (shapeCast_apply _ _ (ix2 i j) (ix1 (⟨i.val * 64 + j.val, by omega⟩ : Fin 4096)) ?_).trans ?_
  · rw [Shape.rowMajor_val_two, Shape.rowMajor_val_one]
    show i.val * 64 + j.val = i.val * 64 + j.val
    rfl
  · refine (shapeCast_1a_a_apply _ _ _).trans ?_
    refine extractStridedSlice_apply _ X h _ _ fun a => ?_
    match a with
    | ⟨0, _⟩ => rfl
    | ⟨1, _⟩ => show i.val * 64 + j.val = 0 + (i.val * 64 + j.val); omega

theorem read3_v16 (W : Valuation τ sig (Elt F)) (i j : Fin 64) :
    (StableHlo.after hostOps3 W main_v16 : S64x64.Idx → Elt F .f32) (ix2 i j)
      = (W main_v13 : S3x4096.Idx → Elt F .f32) (ix2 (0 : Fin 3) (⟨i.val * 64 + j.val, by omega⟩ : Fin 4096)) := by
  refine Eq.trans ?_ (unflat_row_apply (0 : Fin 3) (W main_v13 : S3x4096.Idx → Elt F .f32) slices_S3x4096_S1x4096_0_0 i j)
  fold_results
  rfl
theorem read3_v19 (W : Valuation τ sig (Elt F)) (i j : Fin 64) :
    (StableHlo.after hostOps3 W main_v19 : S64x64.Idx → Elt F .f32) (ix2 i j)
      = (W main_v13 : S3x4096.Idx → Elt F .f32) (ix2 (1 : Fin 3) (⟨i.val * 64 + j.val, by omega⟩ : Fin 4096)) := by
  refine Eq.trans ?_ (unflat_row_apply (1 : Fin 3) (W main_v13 : S3x4096.Idx → Elt F .f32) slices_S3x4096_S1x4096_1_0 i j)
  fold_results
  rfl
theorem read3_v22 (W : Valuation τ sig (Elt F)) (i j : Fin 64) :
    (StableHlo.after hostOps3 W main_v22 : S64x64.Idx → Elt F .f32) (ix2 i j)
      = (W main_v13 : S3x4096.Idx → Elt F .f32) (ix2 (2 : Fin 3) (⟨i.val * 64 + j.val, by omega⟩ : Fin 4096)) := by
  refine Eq.trans ?_ (unflat_row_apply (2 : Fin 3) (W main_v13 : S3x4096.Idx → Elt F .f32) slices_S3x4096_S1x4096_2_0 i j)
  fold_results
  rfl

end Generic

/-! ## The stacked rows as the specification's flattening -/

theorem read1_row0_flat (W : Valuation τ sig (Elt Ideal)) (p : Fin 4096) :
    (StableHlo.after hostOps1 W main_v11 : S3x4096.Idx → EReal) (ix2 (0 : Fin 3) p)
      = Cert.Spec.flat (fun i j => (W main_v4_0 : S64x64.Idx → EReal) (ix2 i j)) p := read1_row0 W p
theorem read1_row1_flat (W : Valuation τ sig (Elt Ideal)) (p : Fin 4096) :
    (StableHlo.after hostOps1 W main_v11 : S3x4096.Idx → EReal) (ix2 (1 : Fin 3) p)
      = Cert.Spec.flat (fun i j => (W main_v4_1 : S64x64.Idx → EReal) (ix2 i j)) p := read1_row1 W p
theorem read1_row2_flat (W : Valuation τ sig (Elt Ideal)) (p : Fin 4096) :
    (StableHlo.after hostOps1 W main_v11 : S3x4096.Idx → EReal) (ix2 (2 : Fin 3) p)
      = Cert.Spec.flat (fun i j => (W main_v4_2 : S64x64.Idx → EReal) (ix2 i j)) p := read1_row2 W p

end Cert.KernelIdeal.Host
end
-- ==== Proof.LibFinite.lean ====
/-
  Real-valuedness inside the extended reals, and the operations that keep it.

  An extended real is REAL when it is the image of a real number, i.e. it is neither of the two infinities.  The
  distributive law `x * (a + b) = x * a + x * b` holds on the extended reals only off the infinities, so a proof that
  regroups sums of products first has to know that everything in sight is real.  This file collects the closure facts:
  sums, products, maxima, negations, finite sums and quotients by a real that is at least one stay real; an accumulating
  scatter of real updates into a real operand is real at every index, and so is any gather of a real operand (a gathered
  element is an element of the operand); the mean of a segment — an accumulated sum divided by a count clamped from
  below by one — is real; and a product of a real row with a sum of two or three real rows distributes.
-/
import Idealize.ShloMosaic.Lib.ValueIdx
import Idealize.ShloMosaic.Lib.IdealHost
import Idealize.ShloMosaic.Lib.KernelVsHost

noncomputable section

open scoped BigOperators

namespace Cert.Finite

open Idealize.ShloMosaic

/-! ## Real extended reals -/

/-- An extended real is real when it is the image of a real number. -/
def IsReal (x : EReal) : Prop := ∃ r : ℝ, x = (r : EReal)

theorem isReal_coe (r : ℝ) : IsReal (r : EReal) := ⟨r, rfl⟩

/-- Real means: neither infinity. -/
theorem isReal_iff (x : EReal) : IsReal x ↔ x ≠ ⊥ ∧ x ≠ ⊤ := by
  constructor
  · rintro ⟨r, rfl⟩
    exact ⟨EReal.coe_ne_bot r, EReal.coe_ne_top r⟩
  · rintro ⟨hb, ht⟩
    induction x using EReal.rec with
    | bot => exact absurd rfl hb
    | coe r => exact ⟨r, rfl⟩
    | top => exact absurd rfl ht

theorem IsReal.ne_top {x : EReal} (h : IsReal x) : x ≠ ⊤ := ((isReal_iff x).mp h).2

theorem IsReal.ne_bot {x : EReal} (h : IsReal x) : x ≠ ⊥ := ((isReal_iff x).mp h).1

/-- Strictly between the infinities means real. -/
theorem isReal_of_lt {x : EReal} (hb : ⊥ < x) (ht : x < ⊤) : IsReal x :=
  (isReal_iff x).mpr ⟨ne_of_gt hb, ne_of_lt ht⟩

theorem isReal_zero : IsReal 0 := ⟨0, EReal.coe_zero.symm⟩

theorem isReal_one : IsReal 1 := ⟨1, EReal.coe_one.symm⟩

/-- The single-precision pattern of all zeros is the real zero. -/
theorem isReal_ofBits_zero_f32 : IsReal (Ideal.ofBits .f32 0x00000000#32) := by
  rw [Ideal.ofBits_zero_f32]; exact isReal_zero

/-- The single-precision pattern `0x3F800000` is the real one. -/
theorem isReal_ofBits_one_f32 : IsReal (Ideal.ofBits .f32 0x3F800000#32) := by
  rw [Ideal.ofBits_one_f32]; exact isReal_one

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.neg {a : EReal} (ha : IsReal a) : IsReal (-a) := by
  obtain ⟨r, rfl⟩ := ha
  exact ⟨-r, (EReal.coe_neg r).symm⟩

theorem IsReal.sub {a b : EReal} (ha : IsReal a) (hb : IsReal b) : IsReal (a - b) := by
  obtain ⟨r, rfl⟩ := ha
  obtain ⟨s, rfl⟩ := hb
  exact ⟨r - s, (EReal.coe_sub r s).symm⟩

/-- The larger of two reals is one of them. -/
theorem IsReal.max {a b : EReal} (ha : IsReal a) (hb : IsReal b) : IsReal (max a b) := by
  rcases le_total a b with h | h
  · rw [max_eq_right h]; exact hb
  · rw [max_eq_left h]; exact ha

/-- The smaller of two reals is one of them. -/
theorem IsReal.min {a b : EReal} (ha : IsReal a) (hb : IsReal b) : IsReal (min a b) := by
  rcases le_total a b with h | h
  · rw [min_eq_left h]; exact ha
  · rw [min_eq_right h]; exact hb

/-- A finite sum of reals is real. -/
theorem IsReal.sum {ι : Type*} (S : Finset ι) (f : ι → EReal) (h : ∀ k ∈ S, IsReal (f k)) :
    IsReal (∑ k ∈ S, f k) := by
  classical
  induction S using Finset.induction_on with
  | empty => rw [Finset.sum_empty]; exact isReal_zero
  | insert a S ha ih =>
    rw [Finset.sum_insert ha]
    exact (h a (Finset.mem_insert_self a S)).add (ih fun k hk => h k (Finset.mem_insert_of_mem hk))

/-- A sum of reals over a whole finite type is real. -/
theorem IsReal.sum_univ {ι : Type*} [Fintype ι] (f : ι → EReal) (h : ∀ k, IsReal (f k)) : IsReal (∑ k, f k) :=
  IsReal.sum Finset.univ f fun k _ => h k

/-- A sum of reals over `Fin n` is real. -/
theorem IsReal.sum_fin {n : Nat} (f : Fin n → EReal) (h : ∀ k, IsReal (f k)) : IsReal (∑ k : Fin n, f k) :=
  IsReal.sum_univ f h

/-- A real divided by a real that is at least one is real: the divisor is a nonzero real, and division by a nonzero
    real is the product with its reciprocal. -/
theorem IsReal.div {a b : EReal} (ha : IsReal a) (hb : IsReal b) (h1 : 1 ≤ b) : IsReal (Ideal.div a b) := by
  obtain ⟨r, rfl⟩ := ha
  obtain ⟨s, rfl⟩ := hb
  have hs1 : (1 : ℝ) ≤ s := by exact_mod_cast h1
  have hs : s ≠ 0 := by linarith
  rw [Ideal.div_coe hs]
  exact ⟨r * (1 / s), (EReal.coe_mul r (1 / s)).symm⟩

/-- A real divided by a real count clamped from below by one is real. -/
theorem isReal_div_max_one {a d : EReal} (ha : IsReal a) (hd : IsReal d) : IsReal (Ideal.div a (max d 1)) :=
  ha.div (hd.max isReal_one) (le_max_right d 1)

/-- The same with the one spelled as its single-precision pattern: THE SEGMENT MEAN IS REAL. -/
theorem isReal_div_max_ofBits_one {a d : EReal} (ha : IsReal a) (hd : IsReal d) :
    IsReal (Ideal.div a (max d (Ideal.ofBits .f32 0x3F800000#32))) := by
  rw [Ideal.ofBits_one_f32]; exact isReal_div_max_one ha hd

/-! ## The accumulating scatter and the gather keep realness -/

/-- An accumulating scatter read at an index: the operand's element plus the sum of the updates that land there. -/
theorem scatterAdd_apply {s si u : Shape} {φ : FTy} {w : Nat} (d : ScatterDims s si u) (x : FVec Ideal s φ)
    (idx : IVec si w) (upd : FVec Ideal u φ) (i : s.Idx) :
    Host.scatterAdd d x idx upd i
      = x i + ∑ j ∈ Finset.univ.filter (fun j => d.resultIdx? j idx = some i), upd j := by
  simp only [Host.scatterAdd, Ideal.hostScatterAdd_def, Ideal.hostScatterAdd]

/-- An accumulating scatter of real updates into a real operand is real at every index, whatever the dimension
    numbers and the indices: each element is the operand's plus a finite sum of updates. -/
theorem scatterAdd_isReal {s si u : Shape} {φ : FTy} {w : Nat} (d : ScatterDims s si u) (x : FVec Ideal s φ)
    (idx : IVec si w) (upd : FVec Ideal u φ) (hx : ∀ i, IsReal (x i)) (hu : ∀ j, IsReal (upd j)) (i : s.Idx) :
    IsReal (Host.scatterAdd d x idx upd i) := by
  rw [scatterAdd_apply]
  exact (hx i).add (IsReal.sum _ _ fun j _ => hu j)

/-- Scattering ones into zeros counts: every element is a nonnegative real (the number of updates landing there). -/
theorem scatterAdd_count_nonneg {s si u : Shape} {φ : FTy} {w : Nat} (d : ScatterDims s si u) (x : FVec Ideal s φ)
    (idx : IVec si w) (upd : FVec Ideal u φ) (hx : ∀ i, x i = 0) (hu : ∀ j, upd j = 1) (i : s.Idx) :
    0 ≤ Host.scatterAdd d x idx upd i := by
  rw [scatterAdd_apply, hx i, zero_add]
  exact Finset.sum_nonneg fun j _ => by rw [hu j]; exact zero_le_one

/-- The count is real … -/
theorem scatterAdd_count_isReal {s si u : Shape} {φ : FTy} {w : Nat} (d : ScatterDims s si u) (x : FVec Ideal s φ)
    (idx : IVec si w) (upd : FVec Ideal u φ) (hx : ∀ i, x i = 0) (hu : ∀ j, upd j = 1) (i : s.Idx) :
    IsReal (Host.scatterAdd d x idx upd i) :=
  scatterAdd_isReal d x idx upd (fun i => by rw [hx i]; exact isReal_zero) (fun j => by rw [hu j]; exact isReal_one) i

/-- … and clamped from below by one it is a real that is at least one: a divisor that keeps quotients real. -/
theorem scatterAdd_count_max_one {s si u : Shape} {φ : FTy} {w : Nat} (d : ScatterDims s si u) (x : FVec Ideal s φ)
    (idx : IVec si w) (upd : FVec Ideal u φ) (hx : ∀ i, IsReal (x i)) (hu : ∀ j, IsReal (upd j)) (i : s.Idx) :
    IsReal (max (Host.scatterAdd d x idx upd i) 1) ∧ 1 ≤ max (Host.scatterAdd d x idx upd i) 1 :=
  ⟨(scatterAdd_isReal d x idx upd hx hu i).max isReal_one, le_max_right _ _⟩

/-- A gather of a real operand is real at every index, whatever the dimension numbers and the start indices: a
    gathered element is an element of the operand. -/
theorem gather_isReal {s si t : Shape} {w : Nat} (d : GatherDims s si t) (x : s.Idx → EReal) (idx : IVec si w)
    (hx : ∀ i, IsReal (x i)) (j : t.Idx) : IsReal (Host.gather d x idx j) := by
  unfold Host.gather
  exact hx _

/-- THE SEGMENT MEAN IS REAL, assembled: gather rows of a real matrix, accumulate them into a real accumulator, and
    divide by a real count clamped from below by one (spelled with the pattern of one). -/
theorem segment_mean_isReal {s si t s' si' u' : Shape} {φ : FTy} {w w' : Nat}
    (g : GatherDims s si t) (X : s.Idx → EReal) (idx1 : IVec si w)
    {si2 : Shape} {w2 : Nat} {sa : Shape} (d2 : ScatterDims sa si2 t) (Z : FVec Ideal sa φ) (idx2 : IVec si2 w2)
    (d1 : ScatterDims s' si' u') (Z1 : FVec Ideal s' φ) (idx1' : IVec si' w') (Ones : FVec Ideal u' φ)
    (hX : ∀ i, IsReal (X i)) (hZ : ∀ i, IsReal (Z i)) (hZ1 : ∀ i, IsReal (Z1 i)) (hOnes : ∀ j, IsReal (Ones j))
    (i : sa.Idx) (n : s'.Idx) :
    IsReal (Ideal.div (Host.scatterAdd d2 Z idx2 (Host.gather g X idx1 : FVec Ideal t φ) i)
      (max (Host.scatterAdd d1 Z1 idx1' Ones n) (Ideal.ofBits .f32 0x3F800000#32))) :=
  isReal_div_max_ofBits_one
    (scatterAdd_isReal d2 Z idx2 _ hZ (gather_isReal g X idx1 hX) i)
    (scatterAdd_isReal d1 Z1 idx1' Ones hZ1 hOnes n)

/-! ## Distributivity over real summands -/

/-- A real times a sum of two reals distributes. -/
theorem mul_add_of_isReal {x a b : EReal} (hx : IsReal x) (ha : IsReal a) (hb : IsReal b) :
    x * (a + b) = x * a + x * b := by
  obtain ⟨x, rfl⟩ := hx
  obtain ⟨a, rfl⟩ := ha
  obtain ⟨b, rfl⟩ := hb
  rw [← EReal.coe_add, ← EReal.coe_mul, ← EReal.coe_mul, ← EReal.coe_mul, ← EReal.coe_add, mul_add]

/-- A real times a sum of three reals distributes. -/
theorem mul_add_add_of_isReal {x a b c : EReal} (hx : IsReal x) (ha : IsReal a) (hb : IsReal b) (hc : IsReal c) :
    x * ((a + b) + c) = x * a + x * b + x * c := by
  rw [mul_add_of_isReal hx (ha.add hb) hc, mul_add_of_isReal hx ha hb]

/-- A row product with a sum of two real weight rows is the sum of the two row products. -/
theorem sum_mul_add {ι : Type*} (S : Finset ι) (x a b : ι → EReal)
    (hx : ∀ k, IsReal (x k)) (ha : ∀ k, IsReal (a k)) (hb : ∀ k, IsReal (b k)) :
    ∑ k ∈ S, x k * (a k + b k) = (∑ k ∈ S, x k * a k) + (∑ k ∈ S, x k * b k) := by
  rw [← Finset.sum_add_distrib]
  exact Finset.sum_congr rfl fun k _ => mul_add_of_isReal (hx k) (ha k) (hb k)

/-- A ROW PRODUCT WITH A SUM OF THREE REAL WEIGHT ROWS is the sum of the three row products. -/
theorem sum_mul_add_add {ι : Type*} (S : Finset ι) (x a b c : ι → EReal)
    (hx : ∀ k, IsReal (x k)) (ha : ∀ k, IsReal (a k)) (hb : ∀ k, IsReal (b k)) (hc : ∀ k, IsReal (c k)) :
    ∑ k ∈ S, x k * ((a k + b k) + c k)
      = (∑ k ∈ S, x k * a k) + (∑ k ∈ S, x k * b k) + (∑ k ∈ S, x k * c k) := by
  rw [← Finset.sum_add_distrib, ← Finset.sum_add_distrib]
  exact Finset.sum_congr rfl fun k _ => mul_add_add_of_isReal (hx k) (ha k) (hb k) (hc k)

/-- The same over `Fin K`. -/
theorem sum_fin_mul_add_add {K : Nat} (x a b c : Fin K → EReal)
    (hx : ∀ k, IsReal (x k)) (ha : ∀ k, IsReal (a k)) (hb : ∀ k, IsReal (b k)) (hc : ∀ k, IsReal (c k)) :
    ∑ k, x k * ((a k + b k) + c k) = (∑ k, x k * a k) + (∑ k, x k * b k) + (∑ k, x k * c k) :=
  sum_mul_add_add Finset.univ x a b c hx ha hb hc

/-- The same over `Fin K`, for two rows. -/
theorem sum_fin_mul_add {K : Nat} (x a b : Fin K → EReal)
    (hx : ∀ k, IsReal (x k)) (ha : ∀ k, IsReal (a k)) (hb : ∀ k, IsReal (b k)) :
    ∑ k, x k * (a k + b k) = (∑ k, x k * a k) + (∑ k, x k * b k) :=
  sum_mul_add Finset.univ x a b hx ha hb

end Cert.Finite

end
-- ==== Proof.LibFiniteInputs.lean ====
/-
  What a finite-inputs precondition gives.

  A test "every entry x of the array has |x| < +∞" is computed as a reduction by "and", over all the array's axes,
  of the entrywise comparison of |x| = max x (-x) with the pattern of +∞. Over the extended reals |x| is +∞ at both
  infinities and nowhere else, so the comparison holds at an entry exactly when the entry is a real number; and a
  reduction by "and" into a single value that comes out true had a true at every entry. Hence: every entry of an
  array whose all-entries test |x| < +∞ holds is a real number. A conjunction of several such tests, computed as a
  pointwise "and" of one-entry arrays, holds only when each of them does.
-/
import Mathlib
import Idealize.ShloMosaic.Lib.ReduceAll
import Idealize.ShloMosaic.Lib.ValueIdx
import Idealize.ShloMosaic.PureOps.Ideal
import proofs.«110218_j20177756357157_2_alg».proof.Proof.LibFinite

noncomputable section

namespace Cert.Lib.FiniteInputs

open Idealize.ShloMosaic Idealize.ShloMosaic.ValueIdx
open Cert.Finite

/-- The shape with no axes has one index. -/
instance subsingleton_scalar_idx : Subsingleton (⟨0, ![]⟩ : Shape).Idx := ⟨fun a b => funext fun d => d.elim0⟩

/-- The single-precision pattern 0x7F800000 (sign zero, exponent field all ones, fraction zero) denotes +∞. -/
theorem ofBits_inf : Ideal.ofBits .f32 0x7F800000#32 = (⊤ : EReal) := by
  simp [Ideal.ofBits, Ideal.ieee]

/-- An extended real whose absolute value max x (-x) is strictly below +∞ is a real number: at either infinity the
    absolute value is +∞ itself. -/
theorem isReal_of_abs_lt_inf (x : EReal)
    (h : Ideal.cmp .olt (max x (-x)) (Ideal.ofBits .f32 0x7F800000#32) = 1#1) : IsReal x := by
  rw [ofBits_inf] at h
  induction x using EReal.rec with
  | bot => simp [Ideal.cmp] at h
  | coe r => exact isReal_coe r
  | top => simp [Ideal.cmp] at h

/-- One all-entries test, over an array of any shape: if the reduction by "and", over all the axes, of the entrywise
    comparison |x| < +∞ is true, every entry of the array is a real number. -/
theorem all_real {s : Shape} {axes : List (Fin s.rank)} (x : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel)
    (e : Host.reduce IntOp.andi
          (cmpf .olt (Host.absf x)
            (broadcastInDim s ![] hb (constant (F := Ideal) (⟨0, ![]⟩ : Shape) .f32 0x7F800000#32)))
          (constantI (⟨0, ![]⟩ : Shape) 1 1#1) hr hu ix0 = 1#1)
    (i : s.Idx) : IsReal (x i) :=
  isReal_of_abs_lt_inf (x i) (Host.reduce_andi_all _ _ hr hu ix0 e i)

/-- A pointwise "and" of two one-entry arrays is true only when both are. -/
theorem and_scalar (A B : IVec (⟨0, ![]⟩ : Shape) 1) (h : andi A B ix0 = 1#1) : A ix0 = 1#1 ∧ B ix0 = 1#1 :=
  IntOp.andi_eq_one.1 h

end Cert.Lib.FiniteInputs

end
-- ==== Proof.Finite.lean ====
import proofs.«110218_j20177756357157_2_alg».proof.Defs
import proofs.«110218_j20177756357157_2_alg».proof.Proof.LibFiniteInputs

/-!
From the precondition "every entry of every input array is finite" to: every entry of the node
matrix is a real number. The precondition is a conjunction, by pointwise "and" of one-entry
arrays, of ten all-entries tests |x| < +∞; the fourth test is the node matrix's.
-/

noncomputable section

namespace Cert.Inputs

open Idealize.ShloMosaic Idealize.ShloMosaic.ValueIdx Idealize.SL.Sem Cert.Finite Cert.Lib.FiniteInputs

/-- Over variable arrays: if the conjunction of the ten finiteness tests is true, every entry of the fourth array
    is a real number. -/
theorem arg3_real [Cert.Pre_finite_inputs.Facts]
    (x0 x1 x2 : FVec Ideal Cert.Pre_finite_inputs.S1x64x64 .f32) (x3 : FVec Ideal Cert.Pre_finite_inputs.S1x64x256 .f32)
    (x4 x5 x6 x7 x8 x9 : FVec Ideal Cert.Pre_finite_inputs.S4096x4096 .f32)
    (h : Cert.Pre_finite_inputs.fn (F := Ideal) x0 x1 x2 x3 x4 x5 x6 x7 x8 x9 = fun _ => 1#1)
    (idx : Cert.Pre_finite_inputs.S1x64x256.Idx) : IsReal (x3 idx) := by
  have h48 : Cert.Pre_finite_inputs.fn (F := Ideal) x0 x1 x2 x3 x4 x5 x6 x7 x8 x9 ix0 = 1#1 := congrFun h ix0
  dsimp only [Cert.Pre_finite_inputs.fn, Cert.Pre_finite_inputs.fn_part1, Cert.Pre_finite_inputs.fn_part2] at h48
  have h43 := (and_scalar _ _ h48).1
  have h38 := (and_scalar _ _ h43).1
  have h33 := (and_scalar _ _ h38).1
  have h28 := (and_scalar _ _ h33).1
  have h23 := (and_scalar _ _ h28).1
  have h18 := (and_scalar _ _ h23).1
  have h17 := (and_scalar _ _ h18).2
  exact all_real x3 _ _ _ h17 idx

/-- Under the kernel's precondition every entry of the node matrix is a real number. -/
theorem nv_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∀ idx, ∃ r : ℝ, m ((c.tc : Thread Cert.KernelIdeal.nD Cert.KernelIdeal.τ).loc Cert.KernelIdeal.main_arg3) idx = (r : EReal) :=
  fun idx => arg3_real _ _ _ _ _ _ _ _ _ _ (h c) idx

end Cert.Inputs

end
-- ==== Proof.Value.lean ====
/-
  The value of the kernel's three results at the extended reals: the host stretches only re-lay arrays, the first call
  leaves the masked distances (the squared distance through the Gram identity, on real rows), each matvec call leaves
  max(row · W, 0) row by row, and the weights each call finds are the launched ones; chained, result k is
  relu(relu(flat(masked_k) · W₁) · W₂) at row-major position 64 i + j.
-/
import proofs.«110218_j20177756357157_2_alg».proof.Proof.Frame
import proofs.«110218_j20177756357157_2_alg».proof.Proof.Weights
import proofs.«110218_j20177756357157_2_alg».proof.Proof.Region0Value
import proofs.«110218_j20177756357157_2_alg».proof.Proof.R1Value
import proofs.«110218_j20177756357157_2_alg».proof.Proof.R2Value
import proofs.«110218_j20177756357157_2_alg».proof.Proof.HostRead
import proofs.«110218_j20177756357157_2_alg».proof.Proof.Finite
import proofs.«110218_j20177756357157_2_alg».proof.Proof.Spec

set_option maxRecDepth 16384

noncomputable section

namespace Cert.KernelIdeal.Run

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)

variable {hF : Cert.Pre_finite_inputs.Facts} (m : (ℓ : Loc nD τ sig) → Buf (Elt Ideal) ℓ)

/-- Under the precondition the node features the first call finds are real numbers. -/
theorem nv_entry (hpre : @Cert.Pre_KernelIdeal hF m) (c : Dev nD) :
    ∀ idx, ∃ r : ℝ, (V1 m c main_v3 : S64x256.Idx → EReal) idx = (r : EReal) := by
  intro idx
  obtain ⟨i, f, rfl⟩ : ∃ (i : Fin 64) (f : Fin 256), idx = ix2 i f := ⟨idx 0, idx 1, eq_ix2 idx⟩
  rw [show (V1 m c main_v3 : S64x256.Idx → EReal) (ix2 i f) = (W0 m c main_arg3 : S1x64x256.Idx → EReal) (ix3 0 i f) from
    Host.read0_v3 (F := Ideal) (W0 m c) i f]
  exact @Cert.Inputs.nv_real hF m hpre c _

/-! ## Branch 0 -/

/-- The first call leaves in its output 0 the distances masked by adjacency 0. -/
theorem dist0 (hpre : @Cert.Pre_KernelIdeal hF m) (c : Dev nD) (i j : Fin 64) :
    (W2 m c (Proc.devRef .tc main_v4_0) : S64x64.Idx → EReal) (ix2 i j) = Cert.Spec.masked (fun i j => (m ((c.tc : Thread nD τ).loc main_arg0) : S1x64x64.Idx → EReal) (ix3 0 i j)) (fun i f => (m ((c.tc : Thread nD τ).loc main_arg3) : S1x64x256.Idx → EReal) (ix3 0 i f)) i j := by
  have ha : (fun i j => (V1 m c main_v0 : S64x64.Idx → EReal) (ix2 i j)) = (fun i j => (m ((c.tc : Thread nD τ).loc main_arg0) : S1x64x64.Idx → EReal) (ix3 0 i j)) :=
    funext fun i => funext fun j => Host.read0_v0 (F := Ideal) (W0 m c) i j
  have hn : (fun i f => (V1 m c main_v3 : S64x256.Idx → EReal) (ix2 i f)) = (fun i f => (m ((c.tc : Thread nD τ).loc main_arg3) : S1x64x256.Idx → EReal) (ix3 0 i f)) :=
    funext fun i => funext fun f => Host.read0_v3 (F := Ideal) (W0 m c) i f
  refine (congrFun (W2_arr m c 4) (ix2 i j)).trans ?_
  refine (R0.out0_4_spec (V1 m) c (nv_entry m hpre c) i j).trans ?_
  rw [ha, hn]

/-- Row 0 of the stacked operand is that matrix flattened. -/
theorem row0 (hpre : @Cert.Pre_KernelIdeal hF m) (c : Dev nD) :
    R1.X (V3 m) c 0 = Cert.Spec.flat (Cert.Spec.masked (fun i j => (m ((c.tc : Thread nD τ).loc main_arg0) : S1x64x64.Idx → EReal) (ix3 0 i j)) (fun i f => (m ((c.tc : Thread nD τ).loc main_arg3) : S1x64x256.Idx → EReal) (ix3 0 i f))) := by
  funext p
  refine (Host.read1_row0_flat (W2 m c) p).trans ?_
  exact congrFun (congrArg Cert.Spec.flat (funext fun i => funext fun j => dist0 m hpre c i j)) p

theorem wA0 (c : Dev nD) : (fun p q => R1.Wt (V3 m) c 0 p q) = (fun p q => (m ((c.tc : Thread nD τ).loc main_arg4) : S4096x4096.Idx → EReal) (ix2 p q)) :=
  funext fun p => funext fun q => congrFun (W3_main_arg4 m c) (ix2 p q)
theorem wB0 (c : Dev nD) : (fun p q => R2.Wt (V4 m) c 0 p q) = (fun p q => (m ((c.tc : Thread nD τ).loc main_arg5) : S4096x4096.Idx → EReal) (ix2 p q)) :=
  funext fun p => funext fun q => congrFun (W4_main_arg5 m c) (ix2 p q)

/-- The second call leaves in row 0 the first layer. -/
theorem hid0 (hpre : @Cert.Pre_KernelIdeal hF m) (c : Dev nD) :
    R2.X (V4 m) c 0 = Cert.Spec.layer (Cert.Spec.flat (Cert.Spec.masked (fun i j => (m ((c.tc : Thread nD τ).loc main_arg0) : S1x64x64.Idx → EReal) (ix3 0 i j)) (fun i f => (m ((c.tc : Thread nD τ).loc main_arg3) : S1x64x256.Idx → EReal) (ix3 0 i f)))) (fun p q => (m ((c.tc : Thread nD τ).loc main_arg4) : S4096x4096.Idx → EReal) (ix2 p q)) := by
  funext p
  refine (congrFun (W4_arr m c 4) (ix2 0 p)).trans ?_
  refine (R1.arr1_spec (V3 m) c 0 p).trans ?_
  rw [row0 m hpre c, wA0 m c]

/-- Result 0 is the specification's. -/
theorem res0 (hpre : @Cert.Pre_KernelIdeal hF m) (c : Dev nD) (i j : Fin 64) :
    (W6 m c (Proc.devRef .tc main_v16) : S64x64.Idx → EReal) (ix2 i j) = Cert.Spec.out (fun i j => (m ((c.tc : Thread nD τ).loc main_arg0) : S1x64x64.Idx → EReal) (ix3 0 i j)) (fun i f => (m ((c.tc : Thread nD τ).loc main_arg3) : S1x64x256.Idx → EReal) (ix3 0 i f)) (fun p q => (m ((c.tc : Thread nD τ).loc main_arg4) : S4096x4096.Idx → EReal) (ix2 p q)) (fun p q => (m ((c.tc : Thread nD τ).loc main_arg5) : S4096x4096.Idx → EReal) (ix2 p q)) i j := by
  refine (Host.read3_v16 (F := Ideal) (W5 m c) i j).trans ?_
  refine (congrFun (W5_arr m c 4) (ix2 0 ⟨i.val * 64 + j.val, by omega⟩)).trans ?_
  refine (R2.arr2_spec (V4 m) c 0 ⟨i.val * 64 + j.val, by omega⟩).trans ?_
  rw [hid0 m hpre c, wB0 m c]
  rfl

/-! ## Branch 1 -/

/-- The first call leaves in its output 1 the distances masked by adjacency 1. -/
theorem dist1 (hpre : @Cert.Pre_KernelIdeal hF m) (c : Dev nD) (i j : Fin 64) :
    (W2 m c (Proc.devRef .tc main_v4_1) : S64x64.Idx → EReal) (ix2 i j) = Cert.Spec.masked (fun i j => (m ((c.tc : Thread nD τ).loc main_arg1) : S1x64x64.Idx → EReal) (ix3 0 i j)) (fun i f => (m ((c.tc : Thread nD τ).loc main_arg3) : S1x64x256.Idx → EReal) (ix3 0 i f)) i j := by
  have ha : (fun i j => (V1 m c main_v1 : S64x64.Idx → EReal) (ix2 i j)) = (fun i j => (m ((c.tc : Thread nD τ).loc main_arg1) : S1x64x64.Idx → EReal) (ix3 0 i j)) :=
    funext fun i => funext fun j => Host.read0_v1 (F := Ideal) (W0 m c) i j
  have hn : (fun i f => (V1 m c main_v3 : S64x256.Idx → EReal) (ix2 i f)) = (fun i f => (m ((c.tc : Thread nD τ).loc main_arg3) : S1x64x256.Idx → EReal) (ix3 0 i f)) :=
    funext fun i => funext fun f => Host.read0_v3 (F := Ideal) (W0 m c) i f
  refine (congrFun (W2_arr m c 5) (ix2 i j)).trans ?_
  refine (R0.out0_5_spec (V1 m) c (nv_entry m hpre c) i j).trans ?_
  rw [ha, hn]

/-- Row 1 of the stacked operand is that matrix flattened. -/
theorem row1 (hpre : @Cert.Pre_KernelIdeal hF m) (c : Dev nD) :
    R1.X (V3 m) c 1 = Cert.Spec.flat (Cert.Spec.masked (fun i j => (m ((c.tc : Thread nD τ).loc main_arg1) : S1x64x64.Idx → EReal) (ix3 0 i j)) (fun i f => (m ((c.tc : Thread nD τ).loc main_arg3) : S1x64x256.Idx → EReal) (ix3 0 i f))) := by
  funext p
  refine (Host.read1_row1_flat (W2 m c) p).trans ?_
  exact congrFun (congrArg Cert.Spec.flat (funext fun i => funext fun j => dist1 m hpre c i j)) p

theorem wA1 (c : Dev nD) : (fun p q => R1.Wt (V3 m) c 1 p q) = (fun p q => (m ((c.tc : Thread nD τ).loc main_arg6) : S4096x4096.Idx → EReal) (ix2 p q)) :=
  funext fun p => funext fun q => congrFun (W3_main_arg6 m c) (ix2 p q)
theorem wB1 (c : Dev nD) : (fun p q => R2.Wt (V4 m) c 1 p q) = (fun p q => (m ((c.tc : Thread nD τ).loc main_arg7) : S4096x4096.Idx → EReal) (ix2 p q)) :=
  funext fun p => funext fun q => congrFun (W4_main_arg7 m c) (ix2 p q)

/-- The second call leaves in row 1 the first layer. -/
theorem hid1 (hpre : @Cert.Pre_KernelIdeal hF m) (c : Dev nD) :
    R2.X (V4 m) c 1 = Cert.Spec.layer (Cert.Spec.flat (Cert.Spec.masked (fun i j => (m ((c.tc : Thread nD τ).loc main_arg1) : S1x64x64.Idx → EReal) (ix3 0 i j)) (fun i f => (m ((c.tc : Thread nD τ).loc main_arg3) : S1x64x256.Idx → EReal) (ix3 0 i f)))) (fun p q => (m ((c.tc : Thread nD τ).loc main_arg6) : S4096x4096.Idx → EReal) (ix2 p q)) := by
  funext p
  refine (congrFun (W4_arr m c 4) (ix2 1 p)).trans ?_
  refine (R1.arr1_spec (V3 m) c 1 p).trans ?_
  rw [row1 m hpre c, wA1 m c]

/-- Result 1 is the specification's. -/
theorem res1 (hpre : @Cert.Pre_KernelIdeal hF m) (c : Dev nD) (i j : Fin 64) :
    (W6 m c (Proc.devRef .tc main_v19) : S64x64.Idx → EReal) (ix2 i j) = Cert.Spec.out (fun i j => (m ((c.tc : Thread nD τ).loc main_arg1) : S1x64x64.Idx → EReal) (ix3 0 i j)) (fun i f => (m ((c.tc : Thread nD τ).loc main_arg3) : S1x64x256.Idx → EReal) (ix3 0 i f)) (fun p q => (m ((c.tc : Thread nD τ).loc main_arg6) : S4096x4096.Idx → EReal) (ix2 p q)) (fun p q => (m ((c.tc : Thread nD τ).loc main_arg7) : S4096x4096.Idx → EReal) (ix2 p q)) i j := by
  refine (Host.read3_v19 (F := Ideal) (W5 m c) i j).trans ?_
  refine (congrFun (W5_arr m c 4) (ix2 1 ⟨i.val * 64 + j.val, by omega⟩)).trans ?_
  refine (R2.arr2_spec (V4 m) c 1 ⟨i.val * 64 + j.val, by omega⟩).trans ?_
  rw [hid1 m hpre c, wB1 m c]
  rfl

/-! ## Branch 2 -/

/-- The first call leaves in its output 2 the distances masked by adjacency 2. -/
theorem dist2 (hpre : @Cert.Pre_KernelIdeal hF m) (c : Dev nD) (i j : Fin 64) :
    (W2 m c (Proc.devRef .tc main_v4_2) : S64x64.Idx → EReal) (ix2 i j) = Cert.Spec.masked (fun i j => (m ((c.tc : Thread nD τ).loc main_arg2) : S1x64x64.Idx → EReal) (ix3 0 i j)) (fun i f => (m ((c.tc : Thread nD τ).loc main_arg3) : S1x64x256.Idx → EReal) (ix3 0 i f)) i j := by
  have ha : (fun i j => (V1 m c main_v2 : S64x64.Idx → EReal) (ix2 i j)) = (fun i j => (m ((c.tc : Thread nD τ).loc main_arg2) : S1x64x64.Idx → EReal) (ix3 0 i j)) :=
    funext fun i => funext fun j => Host.read0_v2 (F := Ideal) (W0 m c) i j
  have hn : (fun i f => (V1 m c main_v3 : S64x256.Idx → EReal) (ix2 i f)) = (fun i f => (m ((c.tc : Thread nD τ).loc main_arg3) : S1x64x256.Idx → EReal) (ix3 0 i f)) :=
    funext fun i => funext fun f => Host.read0_v3 (F := Ideal) (W0 m c) i f
  refine (congrFun (W2_arr m c 6) (ix2 i j)).trans ?_
  refine (R0.out0_6_spec (V1 m) c (nv_entry m hpre c) i j).trans ?_
  rw [ha, hn]

/-- Row 2 of the stacked operand is that matrix flattened. -/
theorem row2 (hpre : @Cert.Pre_KernelIdeal hF m) (c : Dev nD) :
    R1.X (V3 m) c 2 = Cert.Spec.flat (Cert.Spec.masked (fun i j => (m ((c.tc : Thread nD τ).loc main_arg2) : S1x64x64.Idx → EReal) (ix3 0 i j)) (fun i f => (m ((c.tc : Thread nD τ).loc main_arg3) : S1x64x256.Idx → EReal) (ix3 0 i f))) := by
  funext p
  refine (Host.read1_row2_flat (W2 m c) p).trans ?_
  exact congrFun (congrArg Cert.Spec.flat (funext fun i => funext fun j => dist2 m hpre c i j)) p

theorem wA2 (c : Dev nD) : (fun p q => R1.Wt (V3 m) c 2 p q) = (fun p q => (m ((c.tc : Thread nD τ).loc main_arg8) : S4096x4096.Idx → EReal) (ix2 p q)) :=
  funext fun p => funext fun q => congrFun (W3_main_arg8 m c) (ix2 p q)
theorem wB2 (c : Dev nD) : (fun p q => R2.Wt (V4 m) c 2 p q) = (fun p q => (m ((c.tc : Thread nD τ).loc main_arg9) : S4096x4096.Idx → EReal) (ix2 p q)) :=
  funext fun p => funext fun q => congrFun (W4_main_arg9 m c) (ix2 p q)

/-- The second call leaves in row 2 the first layer. -/
theorem hid2 (hpre : @Cert.Pre_KernelIdeal hF m) (c : Dev nD) :
    R2.X (V4 m) c 2 = Cert.Spec.layer (Cert.Spec.flat (Cert.Spec.masked (fun i j => (m ((c.tc : Thread nD τ).loc main_arg2) : S1x64x64.Idx → EReal) (ix3 0 i j)) (fun i f => (m ((c.tc : Thread nD τ).loc main_arg3) : S1x64x256.Idx → EReal) (ix3 0 i f)))) (fun p q => (m ((c.tc : Thread nD τ).loc main_arg8) : S4096x4096.Idx → EReal) (ix2 p q)) := by
  funext p
  refine (congrFun (W4_arr m c 4) (ix2 2 p)).trans ?_
  refine (R1.arr1_spec (V3 m) c 2 p).trans ?_
  rw [row2 m hpre c, wA2 m c]

/-- Result 2 is the specification's. -/
theorem res2 (hpre : @Cert.Pre_KernelIdeal hF m) (c : Dev nD) (i j : Fin 64) :
    (W6 m c (Proc.devRef .tc main_v22) : S64x64.Idx → EReal) (ix2 i j) = Cert.Spec.out (fun i j => (m ((c.tc : Thread nD τ).loc main_arg2) : S1x64x64.Idx → EReal) (ix3 0 i j)) (fun i f => (m ((c.tc : Thread nD τ).loc main_arg3) : S1x64x256.Idx → EReal) (ix3 0 i f)) (fun p q => (m ((c.tc : Thread nD τ).loc main_arg8) : S4096x4096.Idx → EReal) (ix2 p q)) (fun p q => (m ((c.tc : Thread nD τ).loc main_arg9) : S4096x4096.Idx → EReal) (ix2 p q)) i j := by
  refine (Host.read3_v22 (F := Ideal) (W5 m c) i j).trans ?_
  refine (congrFun (W5_arr m c 4) (ix2 2 ⟨i.val * 64 + j.val, by omega⟩)).trans ?_
  refine (R2.arr2_spec (V4 m) c 2 ⟨i.val * 64 + j.val, by omega⟩).trans ?_
  rw [hid2 m hpre c, wB2 m c]
  rfl

end Cert.KernelIdeal.Run

end
-- ==== Proof.RefValue.lean ====
import proofs.«110218_j20177756357157_2_alg».proof.Proof.Gen.ReferenceIdeal.Read
import proofs.«110218_j20177756357157_2_alg».proof.Proof.Spec

/-!
The reference program's three results, read index by index, are the specification's function
`Cert.Spec.out` of the argument arrays: each stage of the reference (rows of the node matrix,
their differences, the sum of squares, the square root, the comparison with 1.0 and the selection,
the row-major flattening, and the two layers) is read at coordinates and identified with the
corresponding piece of the specification.
-/

noncomputable section

namespace Cert.RefValue

open Idealize.ShloMosaic Idealize.ShloMosaic.ValueIdx Cert.ReferenceIdeal Cert.ReferenceIdeal.Gen Cert.ReferenceIdeal.Read

/-- The node matrix with its leading unit axis dropped, at (i, f). -/
theorem row_at (nv : FVec Ideal S1x64x256 .f32) (i : Fin 64) (f : Fin 256) :
    val_main_v3 (F := Ideal) nv (ix2 i f) = nv (ix3 0 i f) := by
  rw [val_main_v3_apply]
  exact congrArg nv (funext fun c => Fin.ext (by
    match c with
    | ⟨0, _⟩ => rfl
    | ⟨1, _⟩ => show (i.val * 256 + f.val) / 256 % 64 = i.val; omega
    | ⟨2, _⟩ => show (i.val * 256 + f.val) % 256 = f.val; omega))

/-! ### Branch 0: the stages of v20 read at coordinates -/

section Branch0

variable (a : FVec Ideal S1x64x64 .f32) (nv : FVec Ideal S1x64x256 .f32) (w1 w2 : FVec Ideal S4096x4096 .f32)

/-- The difference of rows i and j of nv at feature f. -/
theorem diff0 (i j : Fin 64) (f : Fin 256) :
    val_main_v8 (F := Ideal) nv (ix3 i j f) = nv (ix3 0 i f) - nv (ix3 0 j f) := by
  rw [val_main_v8_apply, val_main_v6_apply, val_main_v7_apply, val_main_v4_apply, val_main_v5_apply,
    show idx_main_v4 (idx_main_v6 (ix3 i j f)) = ix2 i f from
      funext fun c => Fin.ext (by match c with | ⟨0, _⟩ => rfl | ⟨1, _⟩ => rfl),
    show idx_main_v5 (idx_main_v7 (ix3 i j f)) = ix2 j f from
      funext fun c => Fin.ext (by match c with | ⟨0, _⟩ => rfl | ⟨1, _⟩ => rfl),
    row_at, row_at]
  rfl

/-- The sum over the features is the squared distance. -/
theorem sq0 (i j : Fin 64) :
    val_main_v10 (F := Ideal) nv (ix2 i j) = Spec.dist2 (fun i f => nv (ix3 0 i f)) i j := by
  rw [val_main_v10_apply, val_main_cst_apply]
  refine (congrArg (· + _) Ideal.ofBits_zero_f32).trans ((zero_add _).trans ?_)
  refine Finset.sum_congr rfl fun f _ => ?_
  rw [val_main_v9_apply,
    show idx_main_v10 (ix2 i j) f = ix3 i j f from
      funext fun c => Fin.ext (by match c with | ⟨0, _⟩ => rfl | ⟨1, _⟩ => rfl | ⟨2, _⟩ => rfl),
    diff0]
  rfl

/-- The masked distance. -/
theorem masked0 (i j : Fin 64) :
    val_main_v14 (F := Ideal) a nv (ix2 i j)
      = Spec.masked (fun i j => a (ix3 0 i j)) (fun i f => nv (ix3 0 i f)) i j := by
  rw [val_main_v14_apply, val_main_v13_apply, val_main_v11_apply, val_main_v0_apply, val_main_v12_apply,
    val_main_cst_0_apply, val_main_call0_v1_apply, val_main_call0_v0_apply, val_main_cst_1_apply, sq0,
    show idx_main_v0 (ix2 i j) = ix3 0 i j from
      funext fun c => Fin.ext (by
        match c with
        | ⟨0, _⟩ => rfl
        | ⟨1, _⟩ => show (i.val * 64 + j.val) / 64 % 64 = i.val; omega
        | ⟨2, _⟩ => show (i.val * 64 + j.val) % 64 = j.val; omega)]
  rfl

/-- The flattened masked distances. -/
theorem flat0 (p : Fin 4096) :
    val_main_v15 (F := Ideal) a nv (ix2 0 p)
      = Spec.flat (Spec.masked (fun i j => a (ix3 0 i j)) (fun i f => nv (ix3 0 i f))) p := by
  rw [val_main_v15_apply,
    show idx_main_v15 (ix2 0 p) = ix2 (⟨p.val / 64, by omega⟩ : Fin 64) (⟨p.val % 64, by omega⟩ : Fin 64) from
      funext fun c => Fin.ext (by
        match c with
        | ⟨0, _⟩ => show (0 * 4096 + p.val) / 64 = p.val / 64; omega
        | ⟨1, _⟩ => show (0 * 4096 + p.val) % 64 = p.val % 64; omega),
    masked0]
  rfl

/-- The first layer. -/
theorem layerA0 (q : Fin 4096) :
    val_main_v17 (F := Ideal) a nv w1 (ix2 0 q)
      = Spec.layer (Spec.flat (Spec.masked (fun i j => a (ix3 0 i j)) (fun i f => nv (ix3 0 i f))))
          (fun p q => w1 (ix2 p q)) q := by
  rw [val_main_v17_apply, val_main_v16_apply, val_main_call1_v0_apply, val_main_call1_cst_apply]
  refine congrArg (max · _) (Finset.sum_congr rfl fun p _ => ?_)
  rw [show lidx_main_v16 (ix2 0 q) p = ix2 0 p from
      funext fun c => Fin.ext (by match c with | ⟨0, _⟩ => rfl | ⟨1, _⟩ => rfl),
    show ridx_main_v16 (ix2 0 q) p = ix2 p q from
      funext fun c => Fin.ext (by match c with | ⟨0, _⟩ => rfl | ⟨1, _⟩ => rfl),
    flat0]

/-- The second layer. -/
theorem layerB0 (q : Fin 4096) :
    val_main_v19 (F := Ideal) a nv w1 w2 (ix2 0 q)
      = Spec.layer (Spec.layer (Spec.flat (Spec.masked (fun i j => a (ix3 0 i j)) (fun i f => nv (ix3 0 i f))))
          (fun p q => w1 (ix2 p q))) (fun p q => w2 (ix2 p q)) q := by
  rw [val_main_v19_apply, val_main_v18_apply, val_main_call2_v0_apply, val_main_call2_cst_apply]
  refine congrArg (max · _) (Finset.sum_congr rfl fun p _ => ?_)
  rw [show lidx_main_v18 (ix2 0 q) p = ix2 0 p from
      funext fun c => Fin.ext (by match c with | ⟨0, _⟩ => rfl | ⟨1, _⟩ => rfl),
    show ridx_main_v18 (ix2 0 q) p = ix2 p q from
      funext fun c => Fin.ext (by match c with | ⟨0, _⟩ => rfl | ⟨1, _⟩ => rfl),
    layerA0]

/-- Result 0 of the reference at (i, j) is the specification's value. -/
theorem ref_out0 (i j : Fin 64) :
    val_main_v20 (F := Ideal) a nv w1 w2 (ix2 i j)
      = Spec.out (fun i j => a (ix3 0 i j)) (fun i f => nv (ix3 0 i f))
          (fun p q => w1 (ix2 p q)) (fun p q => w2 (ix2 p q)) i j := by
  rw [val_main_v20_apply,
    show idx_main_v20 (ix2 i j) = ix2 0 (⟨i.val * 64 + j.val, by omega⟩ : Fin 4096) from
      funext fun c => Fin.ext (by
        match c with
        | ⟨0, _⟩ => rfl
        | ⟨1, _⟩ => show (i.val * 64 + j.val) % 4096 = i.val * 64 + j.val; omega),
    layerB0]
  rfl

end Branch0

/-! ### Branch 1: the stages of v37 read at coordinates -/

section Branch1

variable (a : FVec Ideal S1x64x64 .f32) (nv : FVec Ideal S1x64x256 .f32) (w1 w2 : FVec Ideal S4096x4096 .f32)

/-- The difference of rows i and j of nv at feature f. -/
theorem diff1 (i j : Fin 64) (f : Fin 256) :
    val_main_v25 (F := Ideal) nv (ix3 i j f) = nv (ix3 0 i f) - nv (ix3 0 j f) := by
  rw [val_main_v25_apply, val_main_v23_apply, val_main_v24_apply, val_main_v21_apply, val_main_v22_apply,
    show idx_main_v21 (idx_main_v23 (ix3 i j f)) = ix2 i f from
      funext fun c => Fin.ext (by match c with | ⟨0, _⟩ => rfl | ⟨1, _⟩ => rfl),
    show idx_main_v22 (idx_main_v24 (ix3 i j f)) = ix2 j f from
      funext fun c => Fin.ext (by match c with | ⟨0, _⟩ => rfl | ⟨1, _⟩ => rfl),
    row_at, row_at]
  rfl

/-- The sum over the features is the squared distance. -/
theorem sq1 (i j : Fin 64) :
    val_main_v27 (F := Ideal) nv (ix2 i j) = Spec.dist2 (fun i f => nv (ix3 0 i f)) i j := by
  rw [val_main_v27_apply, val_main_cst_2_apply]
  refine (congrArg (· + _) Ideal.ofBits_zero_f32).trans ((zero_add _).trans ?_)
  refine Finset.sum_congr rfl fun f _ => ?_
  rw [val_main_v26_apply,
    show idx_main_v27 (ix2 i j) f = ix3 i j f from
      funext fun c => Fin.ext (by match c with | ⟨0, _⟩ => rfl | ⟨1, _⟩ => rfl | ⟨2, _⟩ => rfl),
    diff1]
  rfl

/-- The masked distance. -/
theorem masked1 (i j : Fin 64) :
    val_main_v31 (F := Ideal) a nv (ix2 i j)
      = Spec.masked (fun i j => a (ix3 0 i j)) (fun i f => nv (ix3 0 i f)) i j := by
  rw [val_main_v31_apply, val_main_v30_apply, val_main_v28_apply, val_main_v1_apply, val_main_v29_apply,
    val_main_cst_3_apply, val_main_call3_v1_apply, val_main_call3_v0_apply, val_main_cst_4_apply, sq1,
    show idx_main_v1 (ix2 i j) = ix3 0 i j from
      funext fun c => Fin.ext (by
        match c with
        | ⟨0, _⟩ => rfl
        | ⟨1, _⟩ => show (i.val * 64 + j.val) / 64 % 64 = i.val; omega
        | ⟨2, _⟩ => show (i.val * 64 + j.val) % 64 = j.val; omega)]
  rfl

/-- The flattened masked distances. -/
theorem flat1 (p : Fin 4096) :
    val_main_v32 (F := Ideal) a nv (ix2 0 p)
      = Spec.flat (Spec.masked (fun i j => a (ix3 0 i j)) (fun i f => nv (ix3 0 i f))) p := by
  rw [val_main_v32_apply,
    show idx_main_v32 (ix2 0 p) = ix2 (⟨p.val / 64, by omega⟩ : Fin 64) (⟨p.val % 64, by omega⟩ : Fin 64) from
      funext fun c => Fin.ext (by
        match c with
        | ⟨0, _⟩ => show (0 * 4096 + p.val) / 64 = p.val / 64; omega
        | ⟨1, _⟩ => show (0 * 4096 + p.val) % 64 = p.val % 64; omega),
    masked1]
  rfl

/-- The first layer. -/
theorem layerA1 (q : Fin 4096) :
    val_main_v34 (F := Ideal) a nv w1 (ix2 0 q)
      = Spec.layer (Spec.flat (Spec.masked (fun i j => a (ix3 0 i j)) (fun i f => nv (ix3 0 i f))))
          (fun p q => w1 (ix2 p q)) q := by
  rw [val_main_v34_apply, val_main_v33_apply, val_main_call4_v0_apply, val_main_call4_cst_apply]
  refine congrArg (max · _) (Finset.sum_congr rfl fun p _ => ?_)
  rw [show lidx_main_v33 (ix2 0 q) p = ix2 0 p from
      funext fun c => Fin.ext (by match c with | ⟨0, _⟩ => rfl | ⟨1, _⟩ => rfl),
    show ridx_main_v33 (ix2 0 q) p = ix2 p q from
      funext fun c => Fin.ext (by match c with | ⟨0, _⟩ => rfl | ⟨1, _⟩ => rfl),
    flat1]

/-- The second layer. -/
theorem layerB1 (q : Fin 4096) :
    val_main_v36 (F := Ideal) a nv w1 w2 (ix2 0 q)
      = Spec.layer (Spec.layer (Spec.flat (Spec.masked (fun i j => a (ix3 0 i j)) (fun i f => nv (ix3 0 i f))))
          (fun p q => w1 (ix2 p q))) (fun p q => w2 (ix2 p q)) q := by
  rw [val_main_v36_apply, val_main_v35_apply, val_main_call5_v0_apply, val_main_call5_cst_apply]
  refine congrArg (max · _) (Finset.sum_congr rfl fun p _ => ?_)
  rw [show lidx_main_v35 (ix2 0 q) p = ix2 0 p from
      funext fun c => Fin.ext (by match c with | ⟨0, _⟩ => rfl | ⟨1, _⟩ => rfl),
    show ridx_main_v35 (ix2 0 q) p = ix2 p q from
      funext fun c => Fin.ext (by match c with | ⟨0, _⟩ => rfl | ⟨1, _⟩ => rfl),
    layerA1]

/-- Result 1 of the reference at (i, j) is the specification's value. -/
theorem ref_out1 (i j : Fin 64) :
    val_main_v37 (F := Ideal) a nv w1 w2 (ix2 i j)
      = Spec.out (fun i j => a (ix3 0 i j)) (fun i f => nv (ix3 0 i f))
          (fun p q => w1 (ix2 p q)) (fun p q => w2 (ix2 p q)) i j := by
  rw [val_main_v37_apply,
    show idx_main_v37 (ix2 i j) = ix2 0 (⟨i.val * 64 + j.val, by omega⟩ : Fin 4096) from
      funext fun c => Fin.ext (by
        match c with
        | ⟨0, _⟩ => rfl
        | ⟨1, _⟩ => show (i.val * 64 + j.val) % 4096 = i.val * 64 + j.val; omega),
    layerB1]
  rfl

end Branch1

/-! ### Branch 2: the stages of v54 read at coordinates -/

section Branch2

variable (a : FVec Ideal S1x64x64 .f32) (nv : FVec Ideal S1x64x256 .f32) (w1 w2 : FVec Ideal S4096x4096 .f32)

/-- The difference of rows i and j of nv at feature f. -/
theorem diff2 (i j : Fin 64) (f : Fin 256) :
    val_main_v42 (F := Ideal) nv (ix3 i j f) = nv (ix3 0 i f) - nv (ix3 0 j f) := by
  rw [val_main_v42_apply, val_main_v40_apply, val_main_v41_apply, val_main_v38_apply, val_main_v39_apply,
    show idx_main_v38 (idx_main_v40 (ix3 i j f)) = ix2 i f from
      funext fun c => Fin.ext (by match c with | ⟨0, _⟩ => rfl | ⟨1, _⟩ => rfl),
    show idx_main_v39 (idx_main_v41 (ix3 i j f)) = ix2 j f from
      funext fun c => Fin.ext (by match c with | ⟨0, _⟩ => rfl | ⟨1, _⟩ => rfl),
    row_at, row_at]
  rfl

/-- The sum over the features is the squared distance. -/
theorem sq2 (i j : Fin 64) :
    val_main_v44 (F := Ideal) nv (ix2 i j) = Spec.dist2 (fun i f => nv (ix3 0 i f)) i j := by
  rw [val_main_v44_apply, val_main_cst_5_apply]
  refine (congrArg (· + _) Ideal.ofBits_zero_f32).trans ((zero_add _).trans ?_)
  refine Finset.sum_congr rfl fun f _ => ?_
  rw [val_main_v43_apply,
    show idx_main_v44 (ix2 i j) f = ix3 i j f from
      funext fun c => Fin.ext (by match c with | ⟨0, _⟩ => rfl | ⟨1, _⟩ => rfl | ⟨2, _⟩ => rfl),
    diff2]
  rfl

/-- The masked distance. -/
theorem masked2 (i j : Fin 64) :
    val_main_v48 (F := Ideal) a nv (ix2 i j)
      = Spec.masked (fun i j => a (ix3 0 i j)) (fun i f => nv (ix3 0 i f)) i j := by
  rw [val_main_v48_apply, val_main_v47_apply, val_main_v45_apply, val_main_v2_apply, val_main_v46_apply,
    val_main_cst_6_apply, val_main_call6_v1_apply, val_main_call6_v0_apply, val_main_cst_7_apply, sq2,
    show idx_main_v2 (ix2 i j) = ix3 0 i j from
      funext fun c => Fin.ext (by
        match c with
        | ⟨0, _⟩ => rfl
        | ⟨1, _⟩ => show (i.val * 64 + j.val) / 64 % 64 = i.val; omega
        | ⟨2, _⟩ => show (i.val * 64 + j.val) % 64 = j.val; omega)]
  rfl

/-- The flattened masked distances. -/
theorem flat2 (p : Fin 4096) :
    val_main_v49 (F := Ideal) a nv (ix2 0 p)
      = Spec.flat (Spec.masked (fun i j => a (ix3 0 i j)) (fun i f => nv (ix3 0 i f))) p := by
  rw [val_main_v49_apply,
    show idx_main_v49 (ix2 0 p) = ix2 (⟨p.val / 64, by omega⟩ : Fin 64) (⟨p.val % 64, by omega⟩ : Fin 64) from
      funext fun c => Fin.ext (by
        match c with
        | ⟨0, _⟩ => show (0 * 4096 + p.val) / 64 = p.val / 64; omega
        | ⟨1, _⟩ => show (0 * 4096 + p.val) % 64 = p.val % 64; omega),
    masked2]
  rfl

/-- The first layer. -/
theorem layerA2 (q : Fin 4096) :
    val_main_v51 (F := Ideal) a nv w1 (ix2 0 q)
      = Spec.layer (Spec.flat (Spec.masked (fun i j => a (ix3 0 i j)) (fun i f => nv (ix3 0 i f))))
          (fun p q => w1 (ix2 p q)) q := by
  rw [val_main_v51_apply, val_main_v50_apply, val_main_call7_v0_apply, val_main_call7_cst_apply]
  refine congrArg (max · _) (Finset.sum_congr rfl fun p _ => ?_)
  rw [show lidx_main_v50 (ix2 0 q) p = ix2 0 p from
      funext fun c => Fin.ext (by match c with | ⟨0, _⟩ => rfl | ⟨1, _⟩ => rfl),
    show ridx_main_v50 (ix2 0 q) p = ix2 p q from
      funext fun c => Fin.ext (by match c with | ⟨0, _⟩ => rfl | ⟨1, _⟩ => rfl),
    flat2]

/-- The second layer. -/
theorem layerB2 (q : Fin 4096) :
    val_main_v53 (F := Ideal) a nv w1 w2 (ix2 0 q)
      = Spec.layer (Spec.layer (Spec.flat (Spec.masked (fun i j => a (ix3 0 i j)) (fun i f => nv (ix3 0 i f))))
          (fun p q => w1 (ix2 p q))) (fun p q => w2 (ix2 p q)) q := by
  rw [val_main_v53_apply, val_main_v52_apply, val_main_call8_v0_apply, val_main_call8_cst_apply]
  refine congrArg (max · _) (Finset.sum_congr rfl fun p _ => ?_)
  rw [show lidx_main_v52 (ix2 0 q) p = ix2 0 p from
      funext fun c => Fin.ext (by match c with | ⟨0, _⟩ => rfl | ⟨1, _⟩ => rfl),
    show ridx_main_v52 (ix2 0 q) p = ix2 p q from
      funext fun c => Fin.ext (by match c with | ⟨0, _⟩ => rfl | ⟨1, _⟩ => rfl),
    layerA2]

/-- Result 2 of the reference at (i, j) is the specification's value. -/
theorem ref_out2 (i j : Fin 64) :
    val_main_v54 (F := Ideal) a nv w1 w2 (ix2 i j)
      = Spec.out (fun i j => a (ix3 0 i j)) (fun i f => nv (ix3 0 i f))
          (fun p q => w1 (ix2 p q)) (fun p q => w2 (ix2 p q)) i j := by
  rw [val_main_v54_apply,
    show idx_main_v54 (ix2 i j) = ix2 0 (⟨i.val * 64 + j.val, by omega⟩ : Fin 4096) from
      funext fun c => Fin.ext (by
        match c with
        | ⟨0, _⟩ => rfl
        | ⟨1, _⟩ => show (i.val * 64 + j.val) % 4096 = i.val * 64 + j.val; omega),
    layerB2]
  rfl

end Branch2

end Cert.RefValue

end
-- ==== Proof.Algebraic.lean ====
/-
  The two idealized programs, run from memories that agree on the arguments, end with equal results: the witness is
  what the kernel's run leaves in its three result buffers; index by index both sides are the specification's
  relu(relu(flat(masked) · W₁) · W₂).
-/
import proofs.«110218_j20177756357157_2_alg».proof.Proof.Value
import proofs.«110218_j20177756357157_2_alg».proof.Proof.RefValue
import proofs.«110218_j20177756357157_2_alg».proof.Proof.Gen.ReferenceIdeal.Run
import proofs.«110218_j20177756357157_2_alg».proof.Proof.Gen.Pre_finite_inputs
import proofs.«110218_j20177756357157_2_alg».proof.Proof.Gen.KernelIdeal
import proofs.«110218_j20177756357157_2_alg».proof.Proof.Gen.ReferenceIdeal
import proofs.«110218_j20177756357157_2_alg».proof.Defs

set_option maxRecDepth 16384

noncomputable section

namespace Cert.Proof

open Idealize.ShloMosaic Idealize.ShloMosaic.TcCoe Idealize.SL.Sem

theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Run.W6 m c (Proc.devRef .tc Cert.KernelIdeal.main_v16),
    fun c => Cert.KernelIdeal.Run.W6 m c (Proc.devRef .tc Cert.KernelIdeal.main_v19),
    fun c => Cert.KernelIdeal.Run.W6 m c (Proc.devRef .tc Cert.KernelIdeal.main_v22), ?_, ?_⟩
  · refine (θ_run Cert.KernelIdeal.defs _ _).mono (fun r h c => ?_) (Cert.KernelIdeal.Run.run_all m ρ)
    exact ⟨h c _ (Cert.KernelIdeal.Run.mem_uc Cert.KernelIdeal.main_v16 (by decide)),
      h c _ (Cert.KernelIdeal.Run.mem_uc Cert.KernelIdeal.main_v19 (by decide)),
      h c _ (Cert.KernelIdeal.Run.mem_uc Cert.KernelIdeal.main_v22 (by decide)),
      (h c _ (Cert.KernelIdeal.Run.mem_uc Cert.KernelIdeal.main_arg0 (by decide))).trans (Cert.KernelIdeal.Run.W6_main_arg0 m c),
      (h c _ (Cert.KernelIdeal.Run.mem_uc Cert.KernelIdeal.main_arg1 (by decide))).trans (Cert.KernelIdeal.Run.W6_main_arg1 m c),
      (h c _ (Cert.KernelIdeal.Run.mem_uc Cert.KernelIdeal.main_arg2 (by decide))).trans (Cert.KernelIdeal.Run.W6_main_arg2 m c),
      (h c _ (Cert.KernelIdeal.Run.mem_uc Cert.KernelIdeal.main_arg3 (by decide))).trans (Cert.KernelIdeal.Run.W6_main_arg3 m c),
      (h c _ (Cert.KernelIdeal.Run.mem_uc Cert.KernelIdeal.main_arg4 (by decide))).trans (Cert.KernelIdeal.Run.W6_main_arg4 m c),
      (h c _ (Cert.KernelIdeal.Run.mem_uc Cert.KernelIdeal.main_arg5 (by decide))).trans (Cert.KernelIdeal.Run.W6_main_arg5 m c),
      (h c _ (Cert.KernelIdeal.Run.mem_uc Cert.KernelIdeal.main_arg6 (by decide))).trans (Cert.KernelIdeal.Run.W6_main_arg6 m c),
      (h c _ (Cert.KernelIdeal.Run.mem_uc Cert.KernelIdeal.main_arg7 (by decide))).trans (Cert.KernelIdeal.Run.W6_main_arg7 m c),
      (h c _ (Cert.KernelIdeal.Run.mem_uc Cert.KernelIdeal.main_arg8 (by decide))).trans (Cert.KernelIdeal.Run.W6_main_arg8 m c),
      (h c _ (Cert.KernelIdeal.Run.mem_uc Cert.KernelIdeal.main_arg9 (by decide))).trans (Cert.KernelIdeal.Run.W6_main_arg9 m c)⟩
  · refine (θ_run Cert.ReferenceIdeal.defs _ _).mono (fun r h c => ?_) (Cert.ReferenceIdeal.Value.run (F := Ideal) m' ρ')
    obtain ⟨e0, e1, e2, e3, e4, e5, e6, e7, e8, e9⟩ := hagree c
    refine ⟨?_, ?_, ?_, (h c).2.2.2⟩
    · refine (h c).1.trans ((Cert.ReferenceIdeal.Read.val_main_v20_eq _ _ _ _).trans ?_)
      funext idx
      obtain ⟨i, j, rfl⟩ : ∃ (i : Fin 64) (j : Fin 64), idx = ValueIdx.ix2 i j := ⟨idx 0, idx 1, ValueIdx.eq_ix2 idx⟩
      refine (Cert.RefValue.ref_out0 _ _ _ _ i j).trans ?_
      rw [e0, e3, e4, e5]
      exact (Cert.KernelIdeal.Run.res0 m hpre c i j).symm
    · refine (h c).2.1.trans ((Cert.ReferenceIdeal.Read.val_main_v37_eq _ _ _ _).trans ?_)
      funext idx
      obtain ⟨i, j, rfl⟩ : ∃ (i : Fin 64) (j : Fin 64), idx = ValueIdx.ix2 i j := ⟨idx 0, idx 1, ValueIdx.eq_ix2 idx⟩
      refine (Cert.RefValue.ref_out1 _ _ _ _ i j).trans ?_
      rw [e1, e3, e6, e7]
      exact (Cert.KernelIdeal.Run.res1 m hpre c i j).symm
    · refine (h c).2.2.1.trans ((Cert.ReferenceIdeal.Read.val_main_v54_eq _ _ _ _).trans ?_)
      funext idx
      obtain ⟨i, j, rfl⟩ : ∃ (i : Fin 64) (j : Fin 64), idx = ValueIdx.ix2 i j := ⟨idx 0, idx 1, ValueIdx.eq_ix2 idx⟩
      refine (Cert.RefValue.ref_out2 _ _ _ _ i j).trans ?_
      rw [e2, e3, e8, e9]
      exact (Cert.KernelIdeal.Run.res2 m hpre c i j).symm

end Cert.Proof

end
-- ==== Proof.lean ====
/-
  The certificate. The three regions of the kernel's program (the masked pairwise distances; the two matvec-and-clamp
  layers of the three branches) are run point by point; from that run come both frames and, at the extended reals, the
  value of the three results: each is relu(relu(flat(A) · W₁) · W₂) reshaped, with A the distances masked by the
  branch's adjacency. The kernel obtains the squared distance as ‖a‖² + ‖b‖² − 2 a·b clamped at zero, which on real
  rows is Σ (a − b)², the reference's; a sum taken tile by tile is the whole sum; a change of float format is the identity.
-/
import proofs.«110218_j20177756357157_2_alg».proof.Defs
import proofs.«110218_j20177756357157_2_alg».proof.Proof.Gen.Kernel
import proofs.«110218_j20177756357157_2_alg».proof.Proof.Gen.KernelIdeal
import proofs.«110218_j20177756357157_2_alg».proof.Proof.Gen.ReferenceIdeal
import proofs.«110218_j20177756357157_2_alg».proof.Proof.Gen.Pre_finite_inputs
import proofs.«110218_j20177756357157_2_alg».proof.Proof.Gen.ReferenceIdeal.Run
import proofs.«110218_j20177756357157_2_alg».proof.Proof.KFrame
import proofs.«110218_j20177756357157_2_alg».proof.Proof.Frame
import proofs.«110218_j20177756357157_2_alg».proof.Proof.Algebraic
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Run.frame m ρ
theorem frame_ki : @Cert.frame_KernelIdeal Cert.KernelIdeal.Gen.facts Cert.Pre_finite_inputs.Gen.facts :=
  fun m ρ _ => Cert.KernelIdeal.Run.frame m ρ
theorem frame_ri : @Cert.frame_ReferenceIdeal Cert.ReferenceIdeal.Gen.facts Cert.Pre_finite_inputs.Gen.facts :=
  fun m ρ _ => (θ_run Cert.ReferenceIdeal.defs _ _).mono (fun _ h c => (h c).2.2.2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
